-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1 : Shape := ⟨2, ![32768, 1]⟩
abbrev S32768x64 : Shape := ⟨2, ![32768, 64]⟩
abbrev S262144 : Shape := ⟨1, ![262144]⟩
abbrev S100000x256 : Shape := ⟨2, ![100000, 256]⟩
abbrev S500x256 : Shape := ⟨2, ![500, 256]⟩
abbrev S262144x3 : Shape := ⟨2, ![262144, 3]⟩
abbrev S131072x3 : Shape := ⟨2, ![131072, 3]⟩
abbrev S_ : Shape := ⟨0, ![]⟩

class Facts : Prop where
  bcast_S_S32768x1 : S_.BroadcastsInDim S32768x1 (![] : Fin 0 → Fin S32768x1.rank)
  reducesTo_S32768x1_S_d0_1 : S32768x1.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S262144 : S_.BroadcastsInDim S262144 (![] : Fin 0 → Fin S262144.rank)
  reducesTo_S262144_S_d0 : S262144.ReducesTo [0] S_
  bcast_S_S100000x256 : S_.BroadcastsInDim S100000x256 (![] : Fin 0 → Fin S100000x256.rank)
  reducesTo_S100000x256_S_d0_1 : S100000x256.ReducesTo [0, 1] S_
  bcast_S_S500x256 : S_.BroadcastsInDim S500x256 (![] : Fin 0 → Fin S500x256.rank)
  reducesTo_S500x256_S_d0_1 : S500x256.ReducesTo [0, 1] S_

variable [Facts]

def fn_part1 {F : FTy → Type} [FloatOps F] (main_arg4 : FVec F S500x256 .f32) (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  let main_v19 : FVec F S500x256 .f32 := Host.absf main_arg4
  let main_cst_6 : FVec F S_ .f32 := constant S_ .f32 0x7F800000#32
  let main_v20 : FVec F S500x256 .f32 := broadcastInDim S500x256 ![] bcast_S_S500x256 main_cst_6
  let main_v21 : IVec S500x256 1 := cmpf .olt main_v19 main_v20
  let main_c_7 : IVec S_ 1 := constantI S_ 1 1#1
  let main_v22 : IVec S_ 1 := (fun x v => Host.reduce IntOp.andi x v reducesTo_S500x256_S_d0_1 h_S_) main_v21 main_c_7
  let main_v23 : IVec S_ 1 := andi main_v18 main_v22
  main_v23

def fn {F : FTy → Type} [FloatOps F] (main_arg0 : FVec F S32768x1 .f32) (main_arg1 : FVec F S32768x64 .f32) (main_arg2 : FVec F S262144 .f32) (main_arg3 : FVec F S100000x256 .f32) (main_arg4 : FVec F S500x256 .f32) (main_arg5 : IVec S262144x3 32) (main_arg6 : IVec S262144x3 32) (main_arg7 : IVec S262144 32) (main_arg8 : IVec S262144 32) (main_arg9 : IVec S131072x3 32) : IVec S_ 1 :=
  let main_v0 : FVec F S32768x1 .f32 := Host.absf main_arg0
  let main_cst : FVec F S_ .f32 := constant S_ .f32 0x7F800000#32
  let main_v1 : FVec F S32768x1 .f32 := broadcastInDim S32768x1 ![] bcast_S_S32768x1 main_cst
  let main_v2 : IVec S32768x1 1 := cmpf .olt main_v0 main_v1
  let main_c : IVec S_ 1 := constantI S_ 1 1#1
  let main_v3 : IVec S_ 1 := (fun x v => Host.reduce IntOp.andi x v reducesTo_S32768x1_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_arg4 main_v13 main_v16
-- ==== Kernel.lean ====
abbrev S32768x1 : Shape := ⟨2, ![32768, 1]⟩
abbrev S32768x64 : Shape := ⟨2, ![32768, 64]⟩
abbrev S262144 : Shape := ⟨1, ![262144]⟩
abbrev S100000x256 : Shape := ⟨2, ![100000, 256]⟩
abbrev S500x256 : Shape := ⟨2, ![500, 256]⟩
abbrev S262144x3 : Shape := ⟨2, ![262144, 3]⟩
abbrev S131072x3 : Shape := ⟨2, ![131072, 3]⟩
abbrev S16x128 : Shape := ⟨2, ![16, 128]⟩
abbrev S2000x256 : Shape := ⟨2, ![2000, 256]⟩
abbrev S8x128 : Shape := ⟨2, ![8, 128]⟩
abbrev S1x1 : Shape := ⟨2, ![1, 1]⟩
abbrev S2000 : Shape := ⟨1, ![2000]⟩
abbrev S2000x1 : Shape := ⟨2, ![2000, 1]⟩
abbrev S1 : Shape := ⟨1, ![1]⟩
abbrev S_ : Shape := ⟨0, ![]⟩
abbrev S500 : Shape := ⟨1, ![500]⟩
abbrev S500x1 : Shape := ⟨2, ![500, 1]⟩
abbrev S256x128 : Shape := ⟨2, ![256, 128]⟩
abbrev S256 : Shape := ⟨1, ![256]⟩
abbrev S256x1 : Shape := ⟨2, ![256, 1]⟩
abbrev S4096x64 : Shape := ⟨2, ![4096, 64]⟩
abbrev S4096 : Shape := ⟨1, ![4096]⟩
abbrev S4096x1 : Shape := ⟨2, ![4096, 1]⟩
abbrev S262144x1 : Shape := ⟨2, ![262144, 1]⟩
abbrev S262144x256 : Shape := ⟨2, ![262144, 256]⟩
abbrev S2048x128 : Shape := ⟨2, ![2048, 128]⟩
abbrev S131072 : Shape := ⟨1, ![131072]⟩
abbrev S131072x1 : Shape := ⟨2, ![131072, 1]⟩
abbrev S131072x256 : Shape := ⟨2, ![131072, 256]⟩
abbrev S1024x128 : Shape := ⟨2, ![1024, 128]⟩

abbrev nBuf : Space → Nat
  | .hbm => 164
  | .vmem => 29
  | .smem => 0
  | _ => 0

abbrev hbmTy0_0 (i : Nat) : BufTy := match i % 128 with
  | 0 => ⟨S32768x1, .f32⟩
  | 1 => ⟨S32768x64, .f32⟩
  | 2 => ⟨S262144, .f32⟩
  | 3 => ⟨S100000x256, .f32⟩
  | 4 => ⟨S500x256, .f32⟩
  | 5 => ⟨S262144x3, .i32⟩
  | 6 => ⟨S262144x3, .i32⟩
  | 7 => ⟨S262144, .i32⟩
  | 8 => ⟨S262144, .i32⟩
  | 9 => ⟨S131072x3, .i32⟩
  | 10 => ⟨S16x128, .f32⟩
  | 11 => ⟨S1x1, .f32⟩
  | 12 => ⟨S_, .f32⟩
  | 13 => ⟨S1x1, .f32⟩
  | 14 => ⟨S_, .f32⟩
  | 15 => ⟨S_, .f32⟩
  | 16 => ⟨S8x128, .f32⟩
  | 17 => ⟨S1x1, .f32⟩
  | 18 => ⟨S_, .f32⟩
  | 19 => ⟨S_, .f32⟩
  | 20 => ⟨S_, .f32⟩
  | 21 => ⟨S_, .f32⟩
  | 22 => ⟨S256x128, .f32⟩
  | 23 => ⟨S8x128, .f32⟩
  | 24 => ⟨S1x1, .f32⟩
  | 25 => ⟨S_, .f32⟩
  | 26 => ⟨S8x128, .f32⟩
  | 27 => ⟨S1x1, .f32⟩
  | 28 => ⟨S_, .f32⟩
  | 29 => ⟨S_, .f32⟩
  | 30 => ⟨S_, .f32⟩
  | 31 => ⟨S_, .f32⟩
  | 32 => ⟨S_, .f32⟩
  | 33 => ⟨S262144x1, .i32⟩
  | 34 => ⟨S262144, .i32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S262144x256, .f32⟩
  | 44 => ⟨S262144x1, .i32⟩
  | 45 => ⟨S262144, .i32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x256, .f32⟩
  | 55 => ⟨S262144x1, .i32⟩
  | 56 => ⟨S262144, .i32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x256, .f32⟩
  | 66 => ⟨S262144x256, .f32⟩
  | 67 => ⟨S262144x256, .f32⟩
  | 68 => ⟨S_, .f32⟩
  | 69 => ⟨S262144, .f32⟩
  | 70 => ⟨S262144x1, .i32⟩
  | 71 => ⟨S262144, .i32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S262144x1, .i32⟩
  | 80 => ⟨S262144x256, .f32⟩
  | 81 => ⟨S262144x1, .i32⟩
  | 82 => ⟨S262144, .i32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S262144x256, .f32⟩
  | 92 => ⟨S262144x1, .i32⟩
  | 93 => ⟨S262144, .i32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S262144x256, .f32⟩
  | 103 => ⟨S262144x256, .f32⟩
  | 104 => ⟨S262144x256, .f32⟩
  | 105 => ⟨S_, .f32⟩
  | 106 => ⟨S262144, .f32⟩
  | 107 => ⟨S2048x128, .f32⟩
  | 108 => ⟨S2048x128, .f32⟩
  | 109 => ⟨S2048x128, .f32⟩
  | 110 => ⟨S2048x128, .i32⟩
  | 111 => ⟨S2048x128, .f32⟩
  | 112 => ⟨S262144, .f32⟩
  | 113 => ⟨S_, .f32⟩
  | 114 => ⟨S131072, .f32⟩
  | 115 => ⟨S262144x1, .i32⟩
  | 116 => ⟨S131072, .f32⟩
  | 117 => ⟨S131072x1, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072x256, .f32⟩
  | _ => ⟨S32768x1, .f32⟩

abbrev hbmTy0_1 (i : Nat) : BufTy := match i % 128 with
  | 0 => ⟨S131072x1, .i32⟩
  | 1 => ⟨S131072, .i32⟩
  | 2 => ⟨S_, .i32⟩
  | 3 => ⟨S131072, .i32⟩
  | 4 => ⟨S131072, .i1⟩
  | 5 => ⟨S_, .i32⟩
  | 6 => ⟨S131072, .i32⟩
  | 7 => ⟨S131072, .i32⟩
  | 8 => ⟨S131072, .i32⟩
  | 9 => ⟨S131072x1, .i32⟩
  | 10 => ⟨S131072x256, .f32⟩
  | 11 => ⟨S131072x1, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S131072x1, .i32⟩
  | 21 => ⟨S131072x256, .f32⟩
  | 22 => ⟨S131072x256, .f32⟩
  | 23 => ⟨S131072x256, .f32⟩
  | 24 => ⟨S_, .f32⟩
  | 25 => ⟨S131072, .f32⟩
  | 26 => ⟨S1024x128, .f32⟩
  | 27 => ⟨S1024x128, .f32⟩
  | 28 => ⟨S8x128, .f32⟩
  | 29 => ⟨S1x1, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S32768x1, .f32⟩

abbrev hbmTy (i : Nat) : BufTy := match i / 128 with
  | 0 => hbmTy0_0 i
  | 1 => hbmTy0_1 i
  | _ => ⟨S32768x1, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S8x128, .f32⟩
  | .local _ .vmem, ⟨3, _⟩ => ⟨S8x128, .f32⟩
  | .local _ .vmem, ⟨4, _⟩ => ⟨S1x1, .f32⟩
  | .local _ .vmem, ⟨5, _⟩ => ⟨S500x256, .f32⟩
  | .local _ .vmem, ⟨6, _⟩ => ⟨S8x128, .f32⟩
  | .local _ .vmem, ⟨7, _⟩ => ⟨S256x128, .f32⟩
  | .local _ .vmem, ⟨8, _⟩ => ⟨S8x128, .f32⟩
  | .local _ .vmem, ⟨9, _⟩ => ⟨S4096x64, .f32⟩
  | .local _ .vmem, ⟨10, _⟩ => ⟨S4096x64, .f32⟩
  | .local _ .vmem, ⟨11, _⟩ => ⟨S8x128, .f32⟩
  | .local _ .vmem, ⟨12, _⟩ => ⟨S1x1, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .i32⟩
  | .local _ .vmem, ⟨20, _⟩ => ⟨S256x128, .i32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S8x128, .f32⟩
  | .local _ .vmem, ⟨28, _⟩ => ⟨S1x1, .f32⟩
  | _, _ => ⟨S32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_16 : Ref sig .tc := ⟨.hbm, 119, rfl⟩
abbrev main_v91 : Ref sig .tc := ⟨.hbm, 120, rfl⟩
abbrev main_v92 : Ref sig .tc := ⟨.hbm, 121, rfl⟩
abbrev main_c_17 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_18 : Ref sig .tc := ⟨.hbm, 130, rfl⟩
abbrev main_v100 : Ref sig .tc := ⟨.hbm, 131, rfl⟩
abbrev main_v101 : Ref sig .tc := ⟨.hbm, 132, rfl⟩
abbrev main_c_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_20 : Ref sig .tc := ⟨.hbm, 141, rfl⟩
abbrev main_v109 : Ref sig .tc := ⟨.hbm, 142, rfl⟩
abbrev main_v110 : Ref sig .tc := ⟨.hbm, 143, rfl⟩
abbrev main_c_21 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_23 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc2_stg0_0 : Ref sig .tc := ⟨.vmem, 7, rfl⟩
abbrev cc2_stg1_0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_scratch0 : Ref sig .tc := ⟨.vmem, 12, rfl⟩
abbrev cc4_stg0_0 : Ref sig .tc := ⟨.vmem, 13, rfl⟩
abbrev cc4_stg0_1 : Ref sig .tc := ⟨.vmem, 14, rfl⟩
abbrev cc4_stg1_0 : Ref sig .tc := ⟨.vmem, 15, rfl⟩
abbrev cc4_stg1_1 : Ref sig .tc := ⟨.vmem, 16, rfl⟩
abbrev cc4_stg2_0 : Ref sig .tc := ⟨.vmem, 17, rfl⟩
abbrev cc4_stg2_1 : Ref sig .tc := ⟨.vmem, 18, rfl⟩
abbrev cc4_stg3_0 : Ref sig .tc := ⟨.vmem, 19, rfl⟩
abbrev cc4_stg3_1 : Ref sig .tc := ⟨.vmem, 20, rfl⟩
abbrev cc4_stg4_0 : Ref sig .tc := ⟨.vmem, 21, rfl⟩
abbrev cc4_stg4_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc2_sem0_0 : DmaSem sig := 6
abbrev cc2_sem1_0 : DmaSem sig := 7
abbrev cc3_sem0_0 : DmaSem sig := 8
abbrev cc3_sem0_1 : DmaSem sig := 9
abbrev cc3_sem1_0 : DmaSem sig := 10
abbrev cc4_sem0_0 : DmaSem sig := 11
abbrev cc4_sem0_1 : DmaSem sig := 12
abbrev cc4_sem1_0 : DmaSem sig := 13
abbrev cc4_sem1_1 : DmaSem sig := 14
abbrev cc4_sem2_0 : DmaSem sig := 15
abbrev cc4_sem2_1 : DmaSem sig := 16
abbrev cc4_sem3_0 : DmaSem sig := 17
abbrev cc4_sem3_1 : DmaSem sig := 18
abbrev cc4_sem4_0 : DmaSem sig := 19
abbrev cc4_sem4_1 : DmaSem sig := 20
abbrev cc5_sem0_0 : DmaSem sig := 21
abbrev cc5_sem0_1 : DmaSem sig := 22
abbrev cc5_sem1_0 : DmaSem sig := 23
abbrev cc5_sem1_1 : DmaSem sig := 24
abbrev cc5_sem2_0 : DmaSem sig := 25

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S500x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_9 : BitVec 32 := 0#32
  let v29 : BitVec 1 := Scalar.cmpi .ne v28 c0_i32_9
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x128 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![4], ![false]⟩

def k5_cond2 (i : grid5.Coords) : BitVec 1 :=
  let arg0 : BitVec 32 := BitVec.ofNat 32 (i 0).val
  let c3_i32 : BitVec 32 := 3#32
  let v57 : BitVec 1 := Scalar.cmpi .eq arg0 c3_i32
  let v58 : BitVec 32 := Scalar.extui v57
  let c0_i32_17 : BitVec 32 := 0#32
  let v59 : BitVec 1 := Scalar.cmpi .ne v58 c0_i32_17
  v59

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  reduces_S2000x1_S1 : S2000x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  inb_S500x256_S500x256_0_0 : ∀ a, (![0, 0] : Fin 2 → Nat) a + S500x256.size a ≤ S500x256.size a
  h_S500x256 : 0 < S500x256.numel
  reduces_S500x256_S500 : S500x256.Reduces [1] S500
  shapeCasts_S500_S500x1 : S500.ShapeCasts S500x1
  reduces_S500x1_S1 : S500x1.Reduces [0] S1
  slices_S8x128_S1x1_0_0 : S8x128.Slices ![0, 0] S1x1
  shapeCasts_S32768x1_S256x128 : S32768x1.ShapeCasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  reduces_S256x1_S1 : S256x1.Reduces [0] S1
  inb_S4096x64_S4096x64_0_0 : ∀ a, (![0, 0] : Fin 2 → Nat) a + S4096x64.size a ≤ S4096x64.size a
  h_S4096x64 : 0 < S4096x64.numel
  reduces_S4096x64_S4096 : S4096x64.Reduces [1] S4096
  shapeCasts_S4096_S4096x1 : S4096.ShapeCasts S4096x1
  reduces_S4096x1_S1 : S4096x1.Reduces [0] S1
  slices_S262144x3_S262144x1_0_0 : S262144x3.Slices ![0, 0] S262144x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S262144x3_S262144x1_0_1 : S262144x3.Slices ![0, 1] S262144x1
  slices_S262144x3_S262144x1_0_2 : S262144x3.Slices ![0, 2] S262144x1
  reducesTo_S262144x256_S262144_d1 : S262144x256.ReducesTo [1] S262144
  h_S_ : 0 < S_.numel
  shapeCasts_S262144_S2048x128 : S262144.ShapeCasts S2048x128
  shapeCasts_S2048x128_S262144 : S2048x128.ShapeCasts S262144
  bcast_S_S131072 : S_.BroadcastsInDim S131072 (![] : Fin 0 → Fin S131072.rank)
  slices_S131072x3_S131072x1_0_0 : S131072x3.Slices ![0, 0] S131072x1
  shapeCasts_S131072x1_S131072 : S131072x1.ShapeCasts S131072
  bcast_S131072_S131072x1_0 : S131072.BroadcastsInDim S131072x1 (![0] : Fin 1 → Fin S131072x1.rank)
  slices_S131072x3_S131072x1_0_1 : S131072x3.Slices ![0, 1] S131072x1
  slices_S131072x3_S131072x1_0_2 : S131072x3.Slices ![0, 2] S131072x1
  reducesTo_S131072x256_S131072_d1 : S131072x256.ReducesTo [1] S131072
  shapeCasts_S131072_S1024x128 : S131072.ShapeCasts S1024x128
  gather_S100000x256_S262144x1_S262144x256_1_0_n_n_0_1_1256_wf : GatherDims.WF S100000x256 S262144x1 S262144x256 [1] [0] [] [0] [] 1 ![1, 256]
  gather_S500x256_S262144x1_S262144x256_1_0_n_n_0_1_1256_wf : GatherDims.WF S500x256 S262144x1 S262144x256 [1] [0] [] [0] [] 1 ![1, 256]
  scatter_S131072_S262144x1_S262144_n_0_0_1_wf : ScatterDims.WF S131072 S262144x1 S262144 [] [0] [0] 1
  gather_S100000x256_S131072x1_S131072x256_1_0_n_n_0_1_1256_wf : GatherDims.WF S100000x256 S131072x1 S131072x256 [1] [0] [] [0] [] 1 ![1, 256]
  gather_S500x256_S131072x1_S131072x256_1_0_n_n_0_1_1256_wf : GatherDims.WF S500x256 S131072x1 S131072x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S500x256.size a ≤ S500x256.size a
  hwx1_0 : ∀ i : grid1.Coords, EltTy.bits .f32 = 32 ∨ (Rect.block (s := S500x256) S500x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S8x128.size a
  hwx2_1 : ∀ i : grid2.Coords, EltTy.bits .f32 = 32 ∨ (Rect.block (s := S8x128) S8x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S32768x64.size a
  hwx3_0 : ∀ i : grid3.Coords, EltTy.bits .f32 = 32 ∨ (Rect.block (s := S32768x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x128.size a ≤ S8x128.size a
  hwx3_1 : ∀ i : grid3.Coords, EltTy.bits .f32 = 32 ∨ (Rect.block (s := S8x128) S8x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S2048x128.size a
  hwx4_0 : ∀ i : grid4.Coords, EltTy.bits .f32 = 32 ∨ (Rect.block (s := S2048x128) S256x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S2048x128.size a
  hwx4_1 : ∀ i : grid4.Coords, EltTy.bits .f32 = 32 ∨ (Rect.block (s := S2048x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S2048x128.size a
  hwx4_2 : ∀ i : grid4.Coords, EltTy.bits .f32 = 32 ∨ (Rect.block (s := S2048x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S2048x128.size a
  hwx4_3 : ∀ i : grid4.Coords, EltTy.bits .i32 = 32 ∨ (Rect.block (s := S2048x128) S256x128.size (cc4_transform_3 i) (hinb4_3 i)).WholeWords (EltTy.packing .i32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S2048x128.size a
  hwx4_4 : ∀ i : grid4.Coords, EltTy.bits .f32 = 32 ∨ (Rect.block (s := S2048x128) S256x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S1024x128.size a
  hwx5_0 : ∀ i : grid5.Coords, EltTy.bits .f32 = 32 ∨ (Rect.block (s := S1024x128) S256x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S1024x128.size a
  hwx5_1 : ∀ i : grid5.Coords, EltTy.bits .f32 = 32 ∨ (Rect.block (s := S1024x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x128.size a ≤ S8x128.size a
  hwx5_2 : ∀ i : grid5.Coords, EltTy.bits .f32 = 32 ∨ (Rect.block (s := S8x128) S8x128.size (cc5_transform_2 i) (hinb5_2 i)).WholeWords (EltTy.packing .f32)

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def gather_S500x256_S262144x1_S262144x256_1_0_n_n_0_1_1256 : GatherDims S500x256 S262144x1 S262144x256 where
  offsetDims := [1]
  collapsedSliceDims := [0]
  operandBatchingDims := []
  startIndicesBatchingDims := []
  startIndexMap := [0]
  indexVectorDim := 1
  sliceSizes := ![1, 256]
  wf := gather_S500x256_S262144x1_S262144x256_1_0_n_n_0_1_1256_wf
def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf
def gather_S100000x256_S131072x1_S131072x256_1_0_n_n_0_1_1256 : GatherDims S100000x256 S131072x1 S131072x256 where
  offsetDims := [1]
  collapsedSliceDims := [0]
  operandBatchingDims := []
  startIndicesBatchingDims := []
  startIndexMap := [0]
  indexVectorDim := 1
  sliceSizes := ![1, 256]
  wf := gather_S100000x256_S131072x1_S131072x256_1_0_n_n_0_1_1256_wf
def gather_S500x256_S131072x1_S131072x256_1_0_n_n_0_1_1256 : GatherDims S500x256 S131072x1 S131072x256 where
  offsetDims := [1]
  collapsedSliceDims := [0]
  operandBatchingDims := []
  startIndicesBatchingDims := []
  startIndexMap := [0]
  indexVectorDim := 1
  sliceSizes := ![1, 256]
  wf := gather_S500x256_S131072x1_S131072x256_1_0_n_n_0_1_1256_wf

abbrev win0_0 : Pipeline.Window sig grid0 :=
  Pipeline.Window.ofSpec (Memref.whole main_arg3) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg4) S500x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v11) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v12) S8x128.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg1) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S8x128.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

abbrev win4_0 : Pipeline.Window sig grid4 :=
  Pipeline.Window.ofSpec (Memref.whole main_v80) S256x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S256x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S256x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v83) S256x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v84) S256x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v119) S256x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S256x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v121) S8x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S32768x1 : Shape := ⟨2, ![32768, 1]⟩
abbrev S32768x64 : Shape := ⟨2, ![32768, 64]⟩
abbrev S262144 : Shape := ⟨1, ![262144]⟩
abbrev S100000x256 : Shape := ⟨2, ![100000, 256]⟩
abbrev S500x256 : Shape := ⟨2, ![500, 256]⟩
abbrev S262144x3 : Shape := ⟨2, ![262144, 3]⟩
abbrev S131072x3 : Shape := ⟨2, ![131072, 3]⟩
abbrev S_ : Shape := ⟨0, ![]⟩
abbrev S262144x1 : Shape := ⟨2, ![262144, 1]⟩
abbrev S262144x256 : Shape := ⟨2, ![262144, 256]⟩
abbrev S131072 : Shape := ⟨1, ![131072]⟩
abbrev S131072x1 : Shape := ⟨2, ![131072, 1]⟩
abbrev S131072x256 : Shape := ⟨2, ![131072, 256]⟩

abbrev nBuf : Space → Nat
  | .hbm => 264
  | .vmem => 0
  | .smem => 0
  | _ => 0

abbrev hbmTy0_0 (i : Nat) : BufTy := match i % 128 with
  | 0 => ⟨S32768x1, .f32⟩
  | 1 => ⟨S32768x64, .f32⟩
  | 2 => ⟨S262144, .f32⟩
  | 3 => ⟨S100000x256, .f32⟩
  | 4 => ⟨S500x256, .f32⟩
  | 5 => ⟨S262144x3, .i32⟩
  | 6 => ⟨S262144x3, .i32⟩
  | 7 => ⟨S262144, .i32⟩
  | 8 => ⟨S262144, .i32⟩
  | 9 => ⟨S131072x3, .i32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1, .f32⟩
  | 16 => ⟨S32768x1, .i1⟩
  | 17 => ⟨S32768x1, .f32⟩
  | 18 => ⟨S32768x1, .f32⟩
  | 19 => ⟨S32768x1, .f32⟩
  | 20 => ⟨S32768x1, .f32⟩
  | 21 => ⟨S32768x1, .f32⟩
  | 22 => ⟨S32768x1, .f32⟩
  | 23 => ⟨S32768x1, .f32⟩
  | 24 => ⟨S32768x1, .f32⟩
  | 25 => ⟨S_, .f32⟩
  | 26 => ⟨S_, .f32⟩
  | 27 => ⟨S_, .f32⟩
  | 28 => ⟨S_, .f32⟩
  | 29 => ⟨S_, .f32⟩
  | 30 => ⟨S32768x64, .f32⟩
  | 31 => ⟨S32768x64, .f32⟩
  | 32 => ⟨S32768x64, .f32⟩
  | 33 => ⟨S32768x64, .f32⟩
  | 34 => ⟨S32768x64, .i1⟩
  | 35 => ⟨S32768x64, .f32⟩
  | 36 => ⟨S32768x64, .f32⟩
  | 37 => ⟨S32768x64, .f32⟩
  | 38 => ⟨S32768x64, .f32⟩
  | 39 => ⟨S32768x64, .f32⟩
  | 40 => ⟨S32768x64, .f32⟩
  | 41 => ⟨S32768x64, .f32⟩
  | 42 => ⟨S32768x64, .f32⟩
  | 43 => ⟨S_, .f32⟩
  | 44 => ⟨S_, .f32⟩
  | 45 => ⟨S_, .f32⟩
  | 46 => ⟨S_, .f32⟩
  | 47 => ⟨S262144x1, .i32⟩
  | 48 => ⟨S262144, .i32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x256, .f32⟩
  | 58 => ⟨S262144x1, .i32⟩
  | 59 => ⟨S262144, .i32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S262144x256, .f32⟩
  | 69 => ⟨S262144x1, .i32⟩
  | 70 => ⟨S262144, .i32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x256, .f32⟩
  | 80 => ⟨S262144x256, .f32⟩
  | 81 => ⟨S262144x256, .f32⟩
  | 82 => ⟨S_, .f32⟩
  | 83 => ⟨S262144, .f32⟩
  | 84 => ⟨S262144x1, .f32⟩
  | 85 => ⟨S262144x1, .f32⟩
  | 86 => ⟨S262144x1, .f32⟩
  | 87 => ⟨S_, .f32⟩
  | 88 => ⟨S262144x1, .f32⟩
  | 89 => ⟨S262144x1, .f32⟩
  | 90 => ⟨S_, .f32⟩
  | 91 => ⟨S262144x1, .f32⟩
  | 92 => ⟨S262144x1, .f32⟩
  | 93 => ⟨S262144, .f32⟩
  | 94 => ⟨S262144x1, .i32⟩
  | 95 => ⟨S262144, .i32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x256, .f32⟩
  | 105 => ⟨S262144x1, .i32⟩
  | 106 => ⟨S262144, .i32⟩
  | 107 => ⟨S_, .i32⟩
  | 108 => ⟨S262144, .i32⟩
  | 109 => ⟨S262144, .i1⟩
  | 110 => ⟨S_, .i32⟩
  | 111 => ⟨S262144, .i32⟩
  | 112 => ⟨S262144, .i32⟩
  | 113 => ⟨S262144, .i32⟩
  | 114 => ⟨S262144x1, .i32⟩
  | 115 => ⟨S262144x256, .f32⟩
  | 116 => ⟨S262144x1, .i32⟩
  | 117 => ⟨S262144, .i32⟩
  | 118 => ⟨S_, .i32⟩
  | 119 => ⟨S262144, .i32⟩
  | 120 => ⟨S262144, .i1⟩
  | 121 => ⟨S_, .i32⟩
  | 122 => ⟨S262144, .i32⟩
  | 123 => ⟨S262144, .i32⟩
  | 124 => ⟨S262144, .i32⟩
  | 125 => ⟨S262144x1, .i32⟩
  | 126 => ⟨S262144x256, .f32⟩
  | 127 => ⟨S262144x256, .f32⟩
  | _ => ⟨S32768x1, .f32⟩

abbrev hbmTy0_1 (i : Nat) : BufTy := match i % 128 with
  | 0 => ⟨S262144x256, .f32⟩
  | 1 => ⟨S_, .f32⟩
  | 2 => ⟨S262144, .f32⟩
  | 3 => ⟨S262144x1, .f32⟩
  | 4 => ⟨S262144x1, .f32⟩
  | 5 => ⟨S262144x1, .f32⟩
  | 6 => ⟨S_, .f32⟩
  | 7 => ⟨S262144x1, .f32⟩
  | 8 => ⟨S262144x1, .f32⟩
  | 9 => ⟨S_, .f32⟩
  | 10 => ⟨S262144x1, .f32⟩
  | 11 => ⟨S262144x1, .f32⟩
  | 12 => ⟨S262144, .f32⟩
  | 13 => ⟨S_, .f32⟩
  | 14 => ⟨S262144, .f32⟩
  | 15 => ⟨S262144, .f32⟩
  | 16 => ⟨S262144, .f32⟩
  | 17 => ⟨S_, .i32⟩
  | 18 => ⟨S262144, .i32⟩
  | 19 => ⟨S262144, .i1⟩
  | 20 => ⟨S_, .f32⟩
  | 21 => ⟨S_, .f32⟩
  | 22 => ⟨S262144, .f32⟩
  | 23 => ⟨S262144, .f32⟩
  | 24 => ⟨S262144, .f32⟩
  | 25 => ⟨S_, .f32⟩
  | 26 => ⟨S131072, .f32⟩
  | 27 => ⟨S262144x1, .i32⟩
  | 28 => ⟨S131072, .f32⟩
  | 29 => ⟨S131072x1, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x256, .f32⟩
  | 40 => ⟨S131072x1, .i32⟩
  | 41 => ⟨S131072, .i32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x256, .f32⟩
  | 51 => ⟨S131072x1, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x256, .f32⟩
  | 62 => ⟨S131072x256, .f32⟩
  | 63 => ⟨S131072x256, .f32⟩
  | 64 => ⟨S_, .f32⟩
  | 65 => ⟨S131072, .f32⟩
  | 66 => ⟨S131072x1, .f32⟩
  | 67 => ⟨S131072x1, .f32⟩
  | 68 => ⟨S131072x1, .f32⟩
  | 69 => ⟨S_, .f32⟩
  | 70 => ⟨S131072x1, .f32⟩
  | 71 => ⟨S131072x1, .f32⟩
  | 72 => ⟨S_, .f32⟩
  | 73 => ⟨S131072x1, .f32⟩
  | 74 => ⟨S131072x1, .f32⟩
  | 75 => ⟨S131072x1, .f32⟩
  | 76 => ⟨S131072x1, .f32⟩
  | 77 => ⟨S_, .f32⟩
  | 78 => ⟨S_, .f32⟩
  | 79 => ⟨S_, .f32⟩
  | 80 => ⟨S131072x1, .f32⟩
  | 81 => ⟨S131072x1, .f32⟩
  | 82 => ⟨S_, .f32⟩
  | 83 => ⟨S131072x1, .f32⟩
  | 84 => ⟨S131072x1, .f32⟩
  | 85 => ⟨S131072x1, .f32⟩
  | 86 => ⟨S_, .f32⟩
  | 87 => ⟨S131072x1, .f32⟩
  | 88 => ⟨S131072x1, .f32⟩
  | 89 => ⟨S131072x1, .f32⟩
  | 90 => ⟨S131072x1, .f32⟩
  | 91 => ⟨S131072x1, .i1⟩
  | 92 => ⟨S131072x1, .f32⟩
  | 93 => ⟨S131072x1, .f32⟩
  | 94 => ⟨S131072x1, .f32⟩
  | 95 => ⟨S131072x1, .f32⟩
  | 96 => ⟨S131072x1, .f32⟩
  | 97 => ⟨S131072x1, .f32⟩
  | 98 => ⟨S131072x1, .f32⟩
  | 99 => ⟨S131072x1, .f32⟩
  | 100 => ⟨S131072x1, .f32⟩
  | 101 => ⟨S_, .f32⟩
  | 102 => ⟨S131072x1, .f32⟩
  | 103 => ⟨S131072x1, .f32⟩
  | 104 => ⟨S_, .f32⟩
  | 105 => ⟨S131072x1, .f32⟩
  | 106 => ⟨S131072x1, .f32⟩
  | 107 => ⟨S131072x1, .f32⟩
  | 108 => ⟨S131072x1, .f32⟩
  | 109 => ⟨S131072x1, .i1⟩
  | 110 => ⟨S131072x1, .f32⟩
  | 111 => ⟨S131072x1, .f32⟩
  | 112 => ⟨S131072x1, .f32⟩
  | 113 => ⟨S131072x1, .f32⟩
  | 114 => ⟨S131072x1, .f32⟩
  | 115 => ⟨S131072x1, .f32⟩
  | 116 => ⟨S131072x1, .f32⟩
  | 117 => ⟨S131072x1, .f32⟩
  | 118 => ⟨S131072x1, .f32⟩
  | 119 => ⟨S131072x1, .f32⟩
  | 120 => ⟨S_, .f32⟩
  | 121 => ⟨S_, .f32⟩
  | 122 => ⟨S_, .f32⟩
  | 123 => ⟨S_, .f32⟩
  | 124 => ⟨S100000x256, .f32⟩
  | 125 => ⟨S_, .f32⟩
  | 126 => ⟨S_, .f32⟩
  | 127 => ⟨S500x256, .f32⟩
  | _ => ⟨S32768x1, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S32768x1, .f32⟩

abbrev hbmTy (i : Nat) : BufTy := match i / 128 with
  | 0 => hbmTy0_0 i
  | 1 => hbmTy0_1 i
  | 2 => hbmTy0_2 i
  | _ => ⟨S32768x1, .f32⟩

abbrev bufTy : (tb : Table) → Fin (tcTables nBuf tb) → BufTy
  | .hbm, ⟨i, _⟩ => hbmTy i
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_cst_2 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_c : Ref sig .tc := ⟨.hbm, 49, rfl⟩
abbrev main_v9 : Ref sig .tc := ⟨.hbm, 50, rfl⟩
abbrev main_v10 : Ref sig .tc := ⟨.hbm, 51, rfl⟩
abbrev main_c_3 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_c_4 : Ref sig .tc := ⟨.hbm, 60, rfl⟩
abbrev main_v18 : Ref sig .tc := ⟨.hbm, 61, rfl⟩
abbrev main_v19 : Ref sig .tc := ⟨.hbm, 62, rfl⟩
abbrev main_c_5 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_6 : Ref sig .tc := ⟨.hbm, 71, rfl⟩
abbrev main_v27 : Ref sig .tc := ⟨.hbm, 72, rfl⟩
abbrev main_v28 : Ref sig .tc := ⟨.hbm, 73, rfl⟩
abbrev main_c_7 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_8 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_9 : Ref sig .tc := ⟨.hbm, 87, rfl⟩
abbrev main_v40 : Ref sig .tc := ⟨.hbm, 88, rfl⟩
abbrev main_v41 : Ref sig .tc := ⟨.hbm, 89, rfl⟩
abbrev main_cst_10 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_c_11 : Ref sig .tc := ⟨.hbm, 96, rfl⟩
abbrev main_v47 : Ref sig .tc := ⟨.hbm, 97, rfl⟩
abbrev main_v48 : Ref sig .tc := ⟨.hbm, 98, rfl⟩
abbrev main_c_12 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_13 : Ref sig .tc := ⟨.hbm, 107, rfl⟩
abbrev main_v56 : Ref sig .tc := ⟨.hbm, 108, rfl⟩
abbrev main_v57 : Ref sig .tc := ⟨.hbm, 109, rfl⟩
abbrev main_c_14 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_c_15 : Ref sig .tc := ⟨.hbm, 118, rfl⟩
abbrev main_v65 : Ref sig .tc := ⟨.hbm, 119, rfl⟩
abbrev main_v66 : Ref sig .tc := ⟨.hbm, 120, rfl⟩
abbrev main_c_16 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_17 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_18 : Ref sig .tc := ⟨.hbm, 134, rfl⟩
abbrev main_v78 : Ref sig .tc := ⟨.hbm, 135, rfl⟩
abbrev main_v79 : Ref sig .tc := ⟨.hbm, 136, rfl⟩
abbrev main_cst_19 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_20 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_21 : Ref sig .tc := ⟨.hbm, 145, rfl⟩
abbrev main_v86 : Ref sig .tc := ⟨.hbm, 146, rfl⟩
abbrev main_v87 : Ref sig .tc := ⟨.hbm, 147, rfl⟩
abbrev main_cst_22 : Ref sig .tc := ⟨.hbm, 148, rfl⟩
abbrev main_call2_v0 : Ref sig .tc := ⟨.hbm, 149, rfl⟩
abbrev main_call2_v1 : Ref sig .tc := ⟨.hbm, 150, rfl⟩
abbrev main_v88 : Ref sig .tc := ⟨.hbm, 151, rfl⟩
abbrev main_v89 : Ref sig .tc := ⟨.hbm, 152, rfl⟩
abbrev main_cst_23 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_c_24 : Ref sig .tc := ⟨.hbm, 159, rfl⟩
abbrev main_v95 : Ref sig .tc := ⟨.hbm, 160, rfl⟩
abbrev main_v96 : Ref sig .tc := ⟨.hbm, 161, rfl⟩
abbrev main_c_25 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_c_26 : Ref sig .tc := ⟨.hbm, 170, rfl⟩
abbrev main_v104 : Ref sig .tc := ⟨.hbm, 171, rfl⟩
abbrev main_v105 : Ref sig .tc := ⟨.hbm, 172, rfl⟩
abbrev main_c_27 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_c_28 : Ref sig .tc := ⟨.hbm, 181, rfl⟩
abbrev main_v113 : Ref sig .tc := ⟨.hbm, 182, rfl⟩
abbrev main_v114 : Ref sig .tc := ⟨.hbm, 183, rfl⟩
abbrev main_c_29 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_cst_30 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_31 : Ref sig .tc := ⟨.hbm, 197, rfl⟩
abbrev main_v126 : Ref sig .tc := ⟨.hbm, 198, rfl⟩
abbrev main_v127 : Ref sig .tc := ⟨.hbm, 199, rfl⟩
abbrev main_cst_32 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_33 : Ref sig .tc := ⟨.hbm, 205, rfl⟩
abbrev main_cst_34 : Ref sig .tc := ⟨.hbm, 206, rfl⟩
abbrev main_call3_v0 : Ref sig .tc := ⟨.hbm, 207, rfl⟩
abbrev main_call3_v1 : Ref sig .tc := ⟨.hbm, 208, rfl⟩
abbrev main_call3_v2 : Ref sig .tc := ⟨.hbm, 209, rfl⟩
abbrev main_call3_v3 : Ref sig .tc := ⟨.hbm, 210, rfl⟩
abbrev main_call3_v4 : Ref sig .tc := ⟨.hbm, 211, rfl⟩
abbrev main_v132 : Ref sig .tc := ⟨.hbm, 212, rfl⟩
abbrev main_v133 : Ref sig .tc := ⟨.hbm, 213, rfl⟩
abbrev main_call4_cst : Ref sig .tc := ⟨.hbm, 214, rfl⟩
abbrev main_call4_v0 : Ref sig .tc := ⟨.hbm, 215, rfl⟩
abbrev main_call4_v1 : Ref sig .tc := ⟨.hbm, 216, rfl⟩
abbrev main_call4_v2 : Ref sig .tc := ⟨.hbm, 217, rfl⟩
abbrev main_call4_v3 : Ref sig .tc := ⟨.hbm, 218, rfl⟩
abbrev main_call4_v4 : Ref sig .tc := ⟨.hbm, 219, rfl⟩
abbrev main_call4_v5 : Ref sig .tc := ⟨.hbm, 220, rfl⟩
abbrev main_call4_v6 : Ref sig .tc := ⟨.hbm, 221, rfl⟩
abbrev main_call4_v7 : Ref sig .tc := ⟨.hbm, 222, rfl⟩
abbrev main_call4_v8 : Ref sig .tc := ⟨.hbm, 223, rfl⟩
abbrev main_call4_v9 : Ref sig .tc := ⟨.hbm, 224, rfl⟩
abbrev main_call4_v10 : Ref sig .tc := ⟨.hbm, 225, rfl⟩
abbrev main_call4_v11 : Ref sig .tc := ⟨.hbm, 226, rfl⟩
abbrev main_v134 : Ref sig .tc := ⟨.hbm, 227, rfl⟩
abbrev main_v135 : Ref sig .tc := ⟨.hbm, 228, rfl⟩
abbrev main_cst_35 : Ref sig .tc := ⟨.hbm, 229, rfl⟩
abbrev main_v136 : Ref sig .tc := ⟨.hbm, 230, rfl⟩
abbrev main_v137 : Ref sig .tc := ⟨.hbm, 231, rfl⟩
abbrev main_call5_cst : Ref sig .tc := ⟨.hbm, 232, rfl⟩
abbrev main_call5_v0 : Ref sig .tc := ⟨.hbm, 233, rfl⟩
abbrev main_call5_v1 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_v6 : Ref sig .tc := ⟨.hbm, 239, rfl⟩
abbrev main_call5_v7 : Ref sig .tc := ⟨.hbm, 240, rfl⟩
abbrev main_call5_v8 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_cst_36 : Ref sig .tc := ⟨.hbm, 248, rfl⟩
abbrev main_v141 : Ref sig .tc := ⟨.hbm, 249, rfl⟩
abbrev main_cst_37 : Ref sig .tc := ⟨.hbm, 250, rfl⟩
abbrev main_v142 : Ref sig .tc := ⟨.hbm, 251, rfl⟩
abbrev main_v143 : Ref sig .tc := ⟨.hbm, 252, rfl⟩
abbrev main_cst_38 : Ref sig .tc := ⟨.hbm, 253, rfl⟩
abbrev main_v144 : Ref sig .tc := ⟨.hbm, 254, rfl⟩
abbrev main_v145 : Ref sig .tc := ⟨.hbm, 255, rfl⟩
abbrev main_cst_39 : Ref sig .tc := ⟨.hbm, 256, rfl⟩
abbrev main_v146 : Ref sig .tc := ⟨.hbm, 257, rfl⟩
abbrev main_v147 : Ref sig .tc := ⟨.hbm, 258, rfl⟩
abbrev main_cst_40 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩

abbrev nD : Nat := 1
abbrev τ : Topo := Topo.v7x

variable {F : FTy → Type} [FloatOps F]

class Facts₀ : Prop where
  bcast_S_S32768x1 : S_.BroadcastsInDim S32768x1 (![] : Fin 0 → Fin S32768x1.rank)
  reducesTo_S32768x1_S_d0_1 : S32768x1.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  slices_S262144x3_S262144x1_0_0 : S262144x3.Slices ![0, 0] S262144x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S262144x3_S262144x1_0_1 : S262144x3.Slices ![0, 1] S262144x1
  slices_S262144x3_S262144x1_0_2 : S262144x3.Slices ![0, 2] S262144x1
  reducesTo_S262144x256_S262144_d1 : S262144x256.ReducesTo [1] S262144
  bcast_S_S262144x1 : S_.BroadcastsInDim S262144x1 (![] : Fin 0 → Fin S262144x1.rank)
  bcast_S_S131072 : S_.BroadcastsInDim S131072 (![] : Fin 0 → Fin S131072.rank)
  slices_S131072x3_S131072x1_0_0 : S131072x3.Slices ![0, 0] S131072x1
  shapeCasts_S131072x1_S131072 : S131072x1.ShapeCasts S131072
  bcast_S131072_S131072x1_0 : S131072.BroadcastsInDim S131072x1 (![0] : Fin 1 → Fin S131072x1.rank)
  slices_S131072x3_S131072x1_0_1 : S131072x3.Slices ![0, 1] S131072x1
  slices_S131072x3_S131072x1_0_2 : S131072x3.Slices ![0, 2] S131072x1
  reducesTo_S131072x256_S131072_d1 : S131072x256.ReducesTo [1] S131072
  bcast_S_S131072x1 : S_.BroadcastsInDim S131072x1 (![] : Fin 0 → Fin S131072x1.rank)
  reducesTo_S131072x1_S_d0_1 : S131072x1.ReducesTo [0, 1] S_
  reducesTo_S100000x256_S_d0_1 : S100000x256.ReducesTo [0, 1] S_
  reducesTo_S500x256_S_d0_1 : S500x256.ReducesTo [0, 1] S_
  gather_S100000x256_S262144x1_S262144x256_1_0_n_n_0_1_1256_wf : GatherDims.WF S100000x256 S262144x1 S262144x256 [1] [0] [] [0] [] 1 ![1, 256]
  gather_S500x256_S262144x1_S262144x256_1_0_n_n_0_1_1256_wf : GatherDims.WF S500x256 S262144x1 S262144x256 [1] [0] [] [0] [] 1 ![1, 256]
  scatter_S131072_S262144x1_S262144_n_0_0_1_wf : ScatterDims.WF S131072 S262144x1 S262144 [] [0] [0] 1
  gather_S100000x256_S131072x1_S131072x256_1_0_n_n_0_1_1256_wf : GatherDims.WF S100000x256 S131072x1 S131072x256 [1] [0] [] [0] [] 1 ![1, 256]
  gather_S500x256_S131072x1_S131072x256_1_0_n_n_0_1_1256_wf : GatherDims.WF S500x256 S131072x1 S131072x256 [1] [0] [] [0] [] 1 ![1, 256]

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def gather_S500x256_S262144x1_S262144x256_1_0_n_n_0_1_1256 : GatherDims S500x256 S262144x1 S262144x256 where
  offsetDims := [1]
  collapsedSliceDims := [0]
  operandBatchingDims := []
  startIndicesBatchingDims := []
  startIndexMap := [0]
  indexVectorDim := 1
  sliceSizes := ![1, 256]
  wf := gather_S500x256_S262144x1_S262144x256_1_0_n_n_0_1_1256_wf
def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf
def gather_S100000x256_S131072x1_S131072x256_1_0_n_n_0_1_1256 : GatherDims S100000x256 S131072x1 S131072x256 where
  offsetDims := [1]
  collapsedSliceDims := [0]
  operandBatchingDims := []
  startIndicesBatchingDims := []
  startIndexMap := [0]
  indexVectorDim := 1
  sliceSizes := ![1, 256]
  wf := gather_S100000x256_S131072x1_S131072x256_1_0_n_n_0_1_1256_wf
def gather_S500x256_S131072x1_S131072x256_1_0_n_n_0_1_1256 : GatherDims S500x256 S131072x1 S131072x256 where
  offsetDims := [1]
  collapsedSliceDims := [0]
  operandBatchingDims := []
  startIndicesBatchingDims := []
  startIndexMap := [0]
  indexVectorDim := 1
  sliceSizes := ![1, 256]
  wf := gather_S500x256_S131072x1_S131072x256_1_0_n_n_0_1_1256_wf

class Facts : Prop extends Facts₀ where

variable [Facts]
-- ==== Proof.K.R0.lean ====
/-
  The first launch: the sum of squares of the entity table, a grid of 2×25 points.
  The kernel keeps a one-entry accumulator from point to point: wherever the second grid coordinate is 0 it is reset to
  zero; at every point it takes, on top of what it holds, the sum of the squares of the point's 2000×256 block (row
  sums, then the sum of the row sums); wherever the second grid coordinate is 24 its value is stored at every entry of
  the 8×128 output block, which is written back there and only there — so each of the two output blocks ends with the
  sum of squares of its own 25 input blocks. Stated at a parameter `V` (the buffers' contents when the launch is
  entered): the block the input window holds at each point, the accumulator after each point as a recursion over the
  points, the body's triple in its three cases (reset point, middle point, last point of a reduction), the invariant
  that carries the accumulator between points, and the per-point obligation of the launch theorem.
-/
import proofs.«166015_j17652315586942_2_alg».proof.Proof.Gen.Kernel.Launch
import proofs.«166015_j17652315586942_2_alg».proof.Proof.Gen.Kernel.Skeleton
import proofs.«166015_j17652315586942_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rIn0_0 : Rect S2000x256 := Rect.unit (s := S2000x256) ![0, 0] S2000x256.size inb_S2000x256_S2000x256_0_0
abbrev rS0 : Rect S1x1 := Rect.unit (s := S1x1) ![0, 0] S1x1.size inb_S1x1_S1x1_0_0
abbrev rOut0 : Rect S8x128 := Rect.unit (s := S8x128) ![0, 0] S8x128.size inb_S8x128_S8x128_0_0

/-- The offsets of a whole-buffer rectangle of rank two are all zero. -/
theorem hz0 : (![0, 0] : Fin 2 → Nat) = fun _ => 0 := funext fun a => by fin_cases a <;> rfl

/-- The first conditional of the body (reset the accumulator): the reduction coordinate is 0. -/
abbrev cond0_1 (i : grid0.Coords) : Prop := (Scalar.cmpi .ne (Scalar.extui (Scalar.cmpi .eq (BitVec.ofNat 32 (i 1).val) 0#32)) 0#32) = 1#1
/-- The second conditional of the body (store the output block): the reduction coordinate is the last. -/
abbrev cond0_2 (i : grid0.Coords) : Prop := k0_cond2 i = 1#1

theorem hcond0_1 : ∀ t : Fin cfg0.N, cond0_1 (grid0.coords t) ↔ t.val % 25 = 0 :=
  (by decide +kernel : ∀ t : Fin grid0.N, cond0_1 (grid0.coords t) ↔ t.val % 25 = 0)
theorem hcond0_2 : ∀ t : Fin cfg0.N, cond0_2 (grid0.coords t) ↔ t.val % 25 = 24 :=
  (by decide +kernel : ∀ t : Fin grid0.N, cond0_2 (grid0.coords t) ↔ t.val % 25 = 24)

/-- The input windows are never idle; the output window is idle, and not written back, exactly where the second
    conditional fails. -/
theorem liveAt0_0 : ∀ t : Fin cfg0.N, cfg0.idle 0 (grid0.coords t) = false := by decide +kernel
theorem idleAt0_1 : ∀ t : Fin cfg0.N, ¬cond0_2 (grid0.coords t) → cfg0.idle 1 (grid0.coords t) = true := by decide +kernel
theorem noFlush0_1 : ∀ t : Fin cfg0.N, ¬cond0_2 (grid0.coords t) → (cfg0.win 1).flush t = false := by decide +kernel
theorem liveAt0_1 : ∀ t : Fin cfg0.N, cond0_2 (grid0.coords t) → cfg0.idle 1 (grid0.coords t) = false := by decide +kernel

theorem cover0_S (p0 : Vec F S1x1 .f32) (L : List (View.Piece (Elt F) S1x1 .f32)) (y : S1x1.Idx) :
    ∃ pc ∈ ((⟨rS0, p0⟩ : View.Piece (Elt F) S1x1 .f32) :: L), y ∈ pc.1.set :=
  ⟨_, List.mem_cons_self .., View.mem_set_unit_zero hz0 inb_S1x1_S1x1_0_0 y⟩

theorem cover0_O (p0 : Vec F S8x128 .f32) (L : List (View.Piece (Elt F) S8x128 .f32)) (y : S8x128.Idx) :
    ∃ pc ∈ ((⟨rOut0, p0⟩ : View.Piece (Elt F) S8x128 .f32) :: L), y ∈ pc.1.set :=
  ⟨_, List.mem_cons_self .., View.mem_set_unit_zero hz0 inb_S8x128_S8x128_0_0 y⟩

set_option maxHeartbeats 1000000 in
/-- The body where the accumulator is reset: whatever it held, it is set to zero and then takes the point's term. -/
theorem sound_kernel0_A (c : Dev nD) (E : Set ℕ) (i : grid0.Coords) (arg2 : Memref sig .tc .vmem S2000x256 .f32) (harg2 : arg2.IsWhole) (arg3 : Memref sig .tc .vmem S8x128 .f32) (harg3 : arg3.IsWhole) (arg4 : Memref sig .tc .vmem S1x1 .f32) (harg4 : arg4.IsWhole)
    (hc1 : cond0_1 i) (hc2 : ¬cond0_2 i)
    (x0 : Vec F S2000x256 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (k0_pay2 (View.ld x0 rIn0_0) k0_pay1)) -∗ K ⟨⟩))
      ⊢ wp frame (wpE (defs₀ (F := F)) Variants.none c none) E (cc0__sumsq_dualcore_kernel i arg2 harg2 arg3 harg3 arg4 harg4) K := by
  simp only [cc0__sumsq_dualcore_kernel_eq_skeleton]; unfold cc0__sumsq_dualcore_kernel_skel
  unfold owns
  iintro ⟨⟨%f0, %hf0, H0⟩, ⟨%dS, %fS, -, HS⟩, Hk⟩
  subst hf0
  sl_exec (disch := first | exact hc1 | exact hc2)
  sl_step
  iapply Hk
  isplitl [H0]
  · iexists f0; isplitr; · ipureintro; rfl
    iexact H0
  iexists _; isplitr
  swap; · iexact HS
  ipureintro
  sl_unfold_run_names
  refine (View.read_writes_eq_canon _ _ _ (cover0_S _ _)).trans ?_
  rw [View.canon_cons_unit_zero (S := S1x1) hz0, View.readCov_unit_zero (S := S1x1) _ hz0]
  rfl

set_option maxHeartbeats 1000000 in
/-- The body at a middle point: the accumulator takes the point's term on top of what it held. -/
theorem sound_kernel0_B (c : Dev nD) (E : Set ℕ) (i : grid0.Coords) (arg2 : Memref sig .tc .vmem S2000x256 .f32) (harg2 : arg2.IsWhole) (arg3 : Memref sig .tc .vmem S8x128 .f32) (harg3 : arg3.IsWhole) (arg4 : Memref sig .tc .vmem S1x1 .f32) (harg4 : arg4.IsWhole)
    (hc1 : ¬cond0_1 i) (hc2 : ¬cond0_2 i)
    (x0 : Vec F S2000x256 .f32) (xs : Vec F S1x1 .f32) (K : PUnit → sProp 𝕄) :
    iprop(owns (c : Thread nD τ) arg2 fullShare x0 ∗ owns (c : Thread nD τ) arg4 fullShare xs
        ∗ (iprop(owns (c : Thread nD τ) arg2 fullShare x0 ∗ owns (c : Thread nD τ) arg4 fullShare (k0_pay2 (View.ld x0 rIn0_0) xs)) -∗ K ⟨⟩))
      ⊢ wp frame (wpE (defs₀ (F := F)) Variants.none c none) E (cc0__sumsq_dualcore_kernel i arg2 harg2 arg3 harg3 arg4 harg4) K := by
  simp only [cc0__sumsq_dualcore_kernel_eq_skeleton]; unfold cc0__sumsq_dualcore_kernel_skel
  unfold owns
  iintro ⟨⟨%f0, %hf0, H0⟩, ⟨%fS, %hfS, HS⟩, Hk⟩
  subst hf0; subst hfS
  sl_exec (disch := first | exact hc1 | exact hc2)
  sl_step
  iapply Hk
  isplitl [H0]
  · iexists f0; isplitr; · ipureintro; rfl
    iexact H0
  iexists _; isplitr
  swap; · iexact HS
  ipureintro
  sl_unfold_run_names
  refine (View.read_writes_eq_canon _ _ _ (cover0_S _ _)).trans ?_
  rw [View.canon_cons_unit_zero (S := S1x1) hz0]
  simp only [View.readAt_eq_ld, View.ld_unit_zero (S := S1x1) hz0]

set_option maxHeartbeats 1000000 in
/-- The body at the last point of a reduction: the accumulator takes the point's term on top of what it held, and the
    output block is filled with the total. -/
theorem sound_kernel0_C (c : Dev nD) (E : Set ℕ) (i : grid0.Coords) (arg2 : Memref sig .tc .vmem S2000x256 .f32) (harg2 : arg2.IsWhole) (arg3 : Memref sig .tc .vmem S8x128 .f32) (harg3 : arg3.IsWhole) (arg4 : Memref sig .tc .vmem S1x1 .f32) (harg4 : arg4.IsWhole)
    (hc1 : ¬cond0_1 i) (hc2 : cond0_2 i)
    (x0 : Vec F S2000x256 .f32) (xs : Vec F S1x1 .f32) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (k0_pay2 (View.ld x0 rIn0_0) xs))
            ∗ owns (c : Thread nD τ) arg4 fullShare (k0_pay2 (View.ld x0 rIn0_0) xs)) -∗ K ⟨⟩))
      ⊢ wp frame (wpE (defs₀ (F := F)) Variants.none c none) E (cc0__sumsq_dualcore_kernel i arg2 harg2 arg3 harg3 arg4 harg4) K := by
  simp only [cc0__sumsq_dualcore_kernel_eq_skeleton]; unfold cc0__sumsq_dualcore_kernel_skel
  unfold owns
  iintro ⟨⟨%f0, %hf0, H0⟩, ⟨%dO, %fO, -, HO⟩, ⟨%fS, %hfS, HS⟩, Hk⟩
  subst hf0; subst hfS
  sl_exec (disch := first | exact hc1 | exact hc2)
  sl_step
  iapply Hk
  isplitl [H0]
  · iexists f0; isplitr; · ipureintro; rfl
    iexact H0
  isplitl [HO]
  · iexists _; isplitr
    swap; · iexact HO
    ipureintro
    sl_unfold_run_names
    refine (View.read_writes_eq_canon _ _ _ (cover0_O _ _)).trans ?_
    rw [View.canon_cons_unit_zero (S := S8x128) hz0, View.readCov_unit_zero (S := S1x1) _ hz0]
    simp only [View.readAt_eq_ld, View.ld_unit_zero (S := S1x1) hz0]
  iexists _; isplitr
  swap; · iexact HS
  ipureintro
  sl_unfold_run_names
  refine (View.read_writes_eq_canon _ _ _ (cover0_S _ _)).trans ?_
  rw [View.canon_cons_unit_zero (S := S1x1) hz0]
  simp only [View.readAt_eq_ld, View.ld_unit_zero (S := S1x1) hz0]

/-- The accumulator after point `n`: where it is reset, the point's term on top of zero; elsewhere the point's term on
    top of what the point before left. -/
def acc0 (c : Dev nD) : (n : ℕ) → n < cfg0.N → Vec F S1x1 .f32
  | 0, hn => k0_pay2 (View.ld (iblk0 V c 0 ⟨0, hn⟩) rIn0_0) k0_pay1
  | n + 1, hn =>
    if (n + 1) % 25 = 0 then k0_pay2 (View.ld (iblk0 V c 0 ⟨n + 1, hn⟩) rIn0_0) k0_pay1
    else k0_pay2 (View.ld (iblk0 V c 0 ⟨n + 1, hn⟩) rIn0_0) (acc0 c n (Nat.lt_of_succ_lt hn))

theorem acc0_first (c : Dev nD) (t : Fin cfg0.N) (h0 : t.val % 25 = 0) :
    acc0 V c t.val t.isLt = k0_pay2 (View.ld (iblk0 V c 0 t) rIn0_0) k0_pay1 := by
  obtain ⟨n, hn⟩ := t
  cases n with
  | zero => rfl
  | succ n => exact (if_pos h0).trans rfl

theorem acc0_later (c : Dev nD) (t : Fin cfg0.N) (h0 : ¬t.val % 25 = 0) :
    acc0 V c t.val t.isLt = k0_pay2 (View.ld (iblk0 V c 0 t) rIn0_0) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The scratch operand: a whole scoped buffer of the kernel's own. -/
abbrev scM0 : Memref sig .tc .vmem S1x1 .f32 := Memref.whole cc0_scratch0

/-- The class invariant with the scratch operand set apart, owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The invariant before position `n`: before the first point the class invariant; afterwards the same with the scratch
    at what the point before left in it. -/
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The launch's proof data: arrays as found; each input's buffer keeps its block; the output's block, where it is
    stored, is filled with the accumulator; the invariant carries the accumulator from point to point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d

/-- What a written-back output block holds: the accumulator after that point, at every entry (the block is written
    back at the last point of each of the two reductions). -/
theorem after0_out_last (c : Dev nD) (n : ℕ) (hn : n < cfg0.N) : (dat0 V c).after 1 ⟨n, hn⟩ = k0_pay3 (acc0 V c n hn) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by cases on the point: where the accumulator is reset, in the middle of a reduction, at its
    last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  have hN : t.val < 50 := lt_of_lt_of_eq t.isLt (show cfg0.N = 50 from N_0)
  rw [show (dat0 V c).leavesExact 0 t = owns (c : Thread nD τ) (st0_0 t) fullShare ((dat0 V c).after 0 t) from by
    unfold Dat.leavesExact; rw [liveAt0_0 t], after0_0]
  by_cases h0 : t.val % 25 = 0
  · have h7 : ¬cond0_2 (grid0.coords t) := fun h => by have := (hcond0_2 t).mp h; omega
    rw [Dat.leavesExact_idle (dat0 V c) 1 t (idleAt0_1 t h7) (noFlush0_1 t h7)]
    rw [acc0_first V c t h0]
    by_cases hz : t.val = 0
    · rw [Phi0_castSucc V c t, Phi0_zero V c _ _ hz, PhiA0_eq]
      iintro ⟨⟨⟨HS, Hr⟩, Hg⟩, Ho, ⟨%d0, H0⟩, ⟨%dO, HO⟩⟩
      iapply (sound_kernel0_A c Set.univ _ _ _ _ _ _ _ ((hcond0_1 t).mpr h0) h7 (iblk0 V c 0 t) _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact HO
    · rw [Phi0_castSucc V c t, Phi0_pos V c _ _ hz]
      iintro ⟨⟨⟨HS, Hr⟩, Hg⟩, Ho, ⟨%d0, H0⟩, ⟨%dO, HO⟩⟩
      iapply (sound_kernel0_A c Set.univ _ _ _ _ _ _ _ ((hcond0_1 t).mpr h0) h7 (iblk0 V c 0 t) _)
      isplitl [H0]; · iexact H0
      isplitl [HS]; · iexists _; iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact HO
  · have h1 : ¬cond0_1 (grid0.coords t) := fun h => h0 ((hcond0_1 t).mp h)
    have hz : ¬t.val = 0 := fun h => h0 (by rw [h])
    by_cases h7 : t.val % 25 = 24
    · have h2 : cond0_2 (grid0.coords t) := (hcond0_2 t).mpr h7
      rw [show (dat0 V c).leavesExact 1 t = owns (c : Thread nD τ) (st0_1 t) fullShare ((dat0 V c).after 1 t) from by
        unfold Dat.leavesExact; rw [liveAt0_1 t h2], after0_1]
      rw [Phi0_castSucc V c t, Phi0_pos V c _ _ hz, acc0_later V c t h0]
      iintro ⟨⟨⟨HS, Hr⟩, Hg⟩, Ho, ⟨%d0, H0⟩, ⟨%dO, HO⟩⟩
      iapply (sound_kernel0_C c Set.univ _ _ _ _ _ _ _ h1 h2 (iblk0 V c 0 t) _ _)
      isplitl [H0]; · iexact H0
      isplitl [HO]; · iexists _; iexact HO
      isplitl [HS]; · iexact HS
      iintro ⟨H0, HO, HS⟩
      isplitl [HS Hr Hg]
      · isplitl [HS Hr]
        · isplitl [HS]; · iexact HS
          iexact Hr
        iexact Hg
      isplitl [Ho]; · iexact Ho
      isplitl [H0]; · iexact H0
      iexact HO
    · have h2 : ¬cond0_2 (grid0.coords t) := fun h => h7 ((hcond0_2 t).mp h)
      rw [Dat.leavesExact_idle (dat0 V c) 1 t (idleAt0_1 t h2) (noFlush0_1 t h2)]
      rw [Phi0_castSucc V c t, Phi0_pos V c _ _ hz, acc0_later V c t h0]
      iintro ⟨⟨⟨HS, Hr⟩, Hg⟩, Ho, ⟨%d0, H0⟩, ⟨%dO, HO⟩⟩
      iapply (sound_kernel0_B c Set.univ _ _ _ _ _ _ _ h1 h2 (iblk0 V c 0 t) _ _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact HO

theorem body_obligation0 (c : Dev nD) : BodyObligation (dat0 (F := F) V c) (defs₀ (F := F)) Variants.none () Set.univ := fun t => by
  rw [bigSep_W0, bigSep_W0]
  exact sound_body0 V c t

/-- What the launch hands the body before the first point is the invariant there. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the class invariant back: the accumulator's contents forgotten. -/
theorem Phi0_out (c : Dev nD) (t : Fin (cfg0.N + 1)) (ht : t.val ≠ 0) : (dat0 V c).Φ t ⊢ (Pipeline.ΦA spec0 c : sProp 𝕄) := by
  rw [show (dat0 V c).Φ t = Phi0 V c t.val (Nat.le_of_lt_succ t.isLt) from rfl, Phi0_pos V c _ _ ht, PhiA0_eq]
  iintro ⟨⟨HS, Hr⟩, Hg⟩
  isplitl [HS Hr]
  · isplitl [HS]
    · iexists _; iexact HS
    iexact Hr
  iexact Hg

theorem hout0 (c : Dev nD) : (dat0 V c).Φ (Fin.last cfg0.N) ⊢ (Pipeline.ΦA spec0 c : sProp 𝕄) :=
  Phi0_out V c _ (by rw [Fin.val_last]; have : cfg0.N = 50 := N_0; omega)

end

end Cert.Kernel.Hand

end
-- ==== Proof.K.R1.lean ====
/-
  The second launch: the sum of squares of the relation table, one grid point.
  The body reads the whole 500×256 block, squares it entry by entry, sums each row's 256 squares, sums the 500 row
  sums, and stores that one number at every entry of its 8×128 output block. Stated at a parameter `V` (the buffers'
  contents when the launch is entered): the block each window holds, what the body leaves in the output block, the
  body's triple, and the per-point obligation of the launch theorem.
-/
import proofs.«166015_j17652315586942_2_alg».proof.Proof.Gen.Kernel.Launch
import proofs.«166015_j17652315586942_2_alg».proof.Proof.Gen.Kernel.Skeleton
import proofs.«166015_j17652315586942_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev rIn1 : Rect S500x256 := Rect.unit (s := S500x256) ![0, 0] S500x256.size inb_S500x256_S500x256_0_0
abbrev rOut1 : Rect S8x128 := Rect.unit (s := S8x128) ![0, 0] S8x128.size inb_S8x128_S8x128_0_0

/-- The output block after the body: every entry the sum of all squares of the input block. -/
def out1_1 (x0 : Vec F S500x256 .f32) : Vec F S8x128 .f32 :=
  View.canon [⟨rOut1, k1_pay1 (View.ld x0 rIn1)⟩]

theorem cover1_1 (p0 : Vec F S8x128 .f32) (y : S8x128.Idx) :
    ∃ pc ∈ ([⟨rOut1, p0⟩] : List (View.Piece (Elt F) S8x128 .f32)), y ∈ pc.1.set :=
  View.cover_of_tiled [⟨rOut1, p0⟩] S8x128.size (by rfl) y

set_option maxHeartbeats 1000000 in
/-- The body on whole staging buffers: the input's stays, the output's ends at `out1_1` of the input's. -/
theorem sound_kernel1 (c : Dev nD) (E : Set ℕ) (i : grid1.Coords) (arg0 : Memref sig .tc .vmem S500x256 .f32) (harg0 : arg0.IsWhole) (arg1 : Memref sig .tc .vmem S8x128 .f32) (harg1 : arg1.IsWhole)
    (x0 : Vec F S500x256 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__sumsq_kernel i arg0 harg0 arg1 harg1) K := by
  simp only [cc1__sumsq_kernel_eq_skeleton]; unfold cc1__sumsq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The launch's proof data: arrays as found; the input's buffer keeps its block, the output's ends at `out1_1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.R2.lean ====
/-
  The third launch: the sum of the softplus of the negated positive scores, one grid point.
  The body reads the whole 256×128 block (the 32768 scores re-laid), takes softplus of minus each entry, sums each row's
  128 terms, sums the 256 row sums, and stores that one number at every entry of its 8×128 output block. Stated at a parameter `V` (the buffers'
  contents when the launch is entered): the block each window holds, what the body leaves in the output block, the
  body's triple, and the per-point obligation of the launch theorem.
-/
import proofs.«166015_j17652315586942_2_alg».proof.Proof.Gen.Kernel.Launch
import proofs.«166015_j17652315586942_2_alg».proof.Proof.Gen.Kernel.Skeleton
import proofs.«166015_j17652315586942_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev rIn2 : Rect S256x128 := Rect.unit (s := S256x128) ![0, 0] S256x128.size inb_S256x128_S256x128_0_0
abbrev rOut2 : Rect S8x128 := Rect.unit (s := S8x128) ![0, 0] S8x128.size inb_S8x128_S8x128_0_0

/-- The output block after the body: every entry the sum over the input block of softplus of minus the entry. -/
def out2_1 (x0 : Vec F S256x128 .f32) : Vec F S8x128 .f32 :=
  View.canon [⟨rOut2, k2_pay1 (View.ld x0 rIn2)⟩]

theorem cover2_1 (p0 : Vec F S8x128 .f32) (y : S8x128.Idx) :
    ∃ pc ∈ ([⟨rOut2, p0⟩] : List (View.Piece (Elt F) S8x128 .f32)), y ∈ pc.1.set :=
  View.cover_of_tiled [⟨rOut2, p0⟩] S8x128.size (by rfl) y

set_option maxHeartbeats 1000000 in
/-- The body on whole staging buffers: the input's stays, the output's ends at `out2_1` of the input's. -/
theorem sound_kernel2 (c : Dev nD) (E : Set ℕ) (i : grid2.Coords) (arg0 : Memref sig .tc .vmem S256x128 .f32) (harg0 : arg0.IsWhole) (arg1 : Memref sig .tc .vmem S8x128 .f32) (harg1 : arg1.IsWhole)
    (x0 : Vec F S256x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__pos_loss_kernel i arg0 harg0 arg1 harg1) K := by
  simp only [cc2__pos_loss_kernel_eq_skeleton]; unfold cc2__pos_loss_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The launch's proof data: arrays as found; the input's buffer keeps its block, the output's ends at `out2_1`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.R3.lean ====
/-
  The fourth launch: the softplus loss over the negative scores, a grid of eight points.
  The kernel keeps a one-entry accumulator from point to point: at the first point it is reset to zero; at every point
  it takes, on top of what it holds, the sum over the point's 4096×64 block of the softplus of each entry (row sums,
  then the sum of the row sums); at the last point its value is stored at every entry of the 8×128 output block, which
  is written back there and only there. Stated at a parameter `V` (the buffers' contents when the launch is entered):
  the block the input window holds at each point, the accumulator after each point as a recursion over the points,
  the body's triple in its three cases (first, middle, last point), the invariant that carries the accumulator between
  points, and the per-point obligation of the launch theorem.
-/
import proofs.«166015_j17652315586942_2_alg».proof.Proof.Gen.Kernel.Launch
import proofs.«166015_j17652315586942_2_alg».proof.Proof.Gen.Kernel.Skeleton
import proofs.«166015_j17652315586942_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

abbrev rIn3 : Rect S4096x64 := Rect.unit (s := S4096x64) ![0, 0] S4096x64.size inb_S4096x64_S4096x64_0_0
abbrev rS3 : Rect S1x1 := Rect.unit (s := S1x1) ![0, 0] S1x1.size inb_S1x1_S1x1_0_0
abbrev rOut3 : Rect S8x128 := Rect.unit (s := S8x128) ![0, 0] S8x128.size inb_S8x128_S8x128_0_0

/-- The offsets of a whole-buffer rectangle of rank two are all zero. -/
theorem hz3 : (![0, 0] : Fin 2 → Nat) = fun _ => 0 := funext fun a => by fin_cases a <;> rfl

/-- The first conditional of the body (reset the accumulator): the grid coordinate is 0. -/
abbrev cond3_1 (i : grid3.Coords) : Prop := (Scalar.cmpi .ne (Scalar.extui (Scalar.cmpi .eq (BitVec.ofNat 32 (i 0).val) 0#32)) 0#32) = 1#1
/-- The second conditional of the body (store the output block): the grid coordinate is 7. -/
abbrev cond3_2 (i : grid3.Coords) : Prop := k3_cond2 i = 1#1

theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 7 :=
  (by decide +kernel : ∀ t : Fin grid3.N, cond3_2 (grid3.coords t) ↔ t.val = 7)

/-- The input window is never idle; the output window is idle, and not written back, exactly where the second
    conditional fails. -/
theorem liveAt3_0 : ∀ t : Fin cfg3.N, cfg3.idle 0 (grid3.coords t) = false := by decide +kernel
theorem idleAt3_1 : ∀ t : Fin cfg3.N, ¬cond3_2 (grid3.coords t) → cfg3.idle 1 (grid3.coords t) = true := by decide +kernel
theorem noFlush3_1 : ∀ t : Fin cfg3.N, ¬cond3_2 (grid3.coords t) → (cfg3.win 1).flush t = false := by decide +kernel
theorem liveAt3_1 : ∀ t : Fin cfg3.N, cond3_2 (grid3.coords t) → cfg3.idle 1 (grid3.coords t) = false := by decide +kernel

theorem cover3_S (p0 : Vec F S1x1 .f32) (L : List (View.Piece (Elt F) S1x1 .f32)) (y : S1x1.Idx) :
    ∃ pc ∈ ((⟨rS3, p0⟩ : View.Piece (Elt F) S1x1 .f32) :: L), y ∈ pc.1.set :=
  ⟨_, List.mem_cons_self .., View.mem_set_unit_zero hz3 inb_S1x1_S1x1_0_0 y⟩

theorem cover3_O (p0 : Vec F S8x128 .f32) (L : List (View.Piece (Elt F) S8x128 .f32)) (y : S8x128.Idx) :
    ∃ pc ∈ ((⟨rOut3, p0⟩ : View.Piece (Elt F) S8x128 .f32) :: L), y ∈ pc.1.set :=
  ⟨_, List.mem_cons_self .., View.mem_set_unit_zero hz3 inb_S8x128_S8x128_0_0 y⟩

set_option maxHeartbeats 1000000 in
/-- The body at the first point: the accumulator, whatever it held, is reset to zero and then takes the block's sum. -/
theorem sound_kernel3_A (c : Dev nD) (E : Set ℕ) (i : grid3.Coords) (arg1 : Memref sig .tc .vmem S4096x64 .f32) (harg1 : arg1.IsWhole)
    (arg2 : Memref sig .tc .vmem S8x128 .f32) (harg2 : arg2.IsWhole) (arg3 : Memref sig .tc .vmem S1x1 .f32) (harg3 : arg3.IsWhole)
    (hc1 : cond3_1 i) (hc2 : ¬cond3_2 i)
    (x0 : Vec F S4096x64 .f32) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k3_pay2 (View.ld x0 rIn3) k3_pay1)) -∗ K ⟨⟩))
      ⊢ wp frame (wpE (defs₀ (F := F)) Variants.none c none) E (cc3__neg_loss_kernel i arg1 harg1 arg2 harg2 arg3 harg3) K := by
  simp only [cc3__neg_loss_kernel_eq_skeleton]; unfold cc3__neg_loss_kernel_skel
  unfold owns
  iintro ⟨⟨%f0, %hf0, H0⟩, ⟨%d3, %f3, -, H3⟩, Hk⟩
  subst hf0
  sl_exec (disch := first | exact hc1 | exact hc2)
  sl_step
  iapply Hk
  isplitl [H0]
  · iexists f0; isplitr; · ipureintro; rfl
    iexact H0
  iexists _; isplitr
  swap; · iexact H3
  ipureintro
  sl_unfold_run_names
  refine (View.read_writes_eq_canon _ _ _ (cover3_S _ _)).trans ?_
  rw [View.canon_cons_unit_zero (S := S1x1) hz3, View.readCov_unit_zero (S := S1x1) _ hz3]
  rfl

set_option maxHeartbeats 1000000 in
/-- The body at a middle point: the accumulator takes the block's sum on top of what it held. -/
theorem sound_kernel3_B (c : Dev nD) (E : Set ℕ) (i : grid3.Coords) (arg1 : Memref sig .tc .vmem S4096x64 .f32) (harg1 : arg1.IsWhole)
    (arg2 : Memref sig .tc .vmem S8x128 .f32) (harg2 : arg2.IsWhole) (arg3 : Memref sig .tc .vmem S1x1 .f32) (harg3 : arg3.IsWhole)
    (hc1 : ¬cond3_1 i) (hc2 : ¬cond3_2 i)
    (x0 : Vec F S4096x64 .f32) (xs : Vec F S1x1 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k3_pay2 (View.ld x0 rIn3) xs)) -∗ K ⟨⟩))
      ⊢ wp frame (wpE (defs₀ (F := F)) Variants.none c none) E (cc3__neg_loss_kernel i arg1 harg1 arg2 harg2 arg3 harg3) K := by
  simp only [cc3__neg_loss_kernel_eq_skeleton]; unfold cc3__neg_loss_kernel_skel
  unfold owns
  iintro ⟨⟨%f0, %hf0, H0⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  iexists _; isplitr
  swap; · iexact H3
  ipureintro
  sl_unfold_run_names
  refine (View.read_writes_eq_canon _ _ _ (cover3_S _ _)).trans ?_
  rw [View.canon_cons_unit_zero (S := S1x1) hz3]
  simp only [View.readAt_eq_ld, View.ld_unit_zero (S := S1x1) hz3]

set_option maxHeartbeats 1000000 in
/-- The body at the last point: the accumulator takes the block's sum on top of what it held, and the output block is
    filled with the total. -/
theorem sound_kernel3_C (c : Dev nD) (E : Set ℕ) (i : grid3.Coords) (arg1 : Memref sig .tc .vmem S4096x64 .f32) (harg1 : arg1.IsWhole)
    (arg2 : Memref sig .tc .vmem S8x128 .f32) (harg2 : arg2.IsWhole) (arg3 : Memref sig .tc .vmem S1x1 .f32) (harg3 : arg3.IsWhole)
    (hc1 : ¬cond3_1 i) (hc2 : cond3_2 i)
    (x0 : Vec F S4096x64 .f32) (xs : Vec F S1x1 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k3_pay3 (k3_pay2 (View.ld x0 rIn3) xs))
            ∗ owns (c : Thread nD τ) arg3 fullShare (k3_pay2 (View.ld x0 rIn3) xs)) -∗ K ⟨⟩))
      ⊢ wp frame (wpE (defs₀ (F := F)) Variants.none c none) E (cc3__neg_loss_kernel i arg1 harg1 arg2 harg2 arg3 harg3) K := by
  simp only [cc3__neg_loss_kernel_eq_skeleton]; unfold cc3__neg_loss_kernel_skel
  unfold owns
  iintro ⟨⟨%f0, %hf0, H0⟩, ⟨%d2, %f2, -, H2⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  isplitl [H2]
  · iexists _; isplitr
    swap; · iexact H2
    ipureintro
    sl_unfold_run_names
    refine (View.read_writes_eq_canon _ _ _ (cover3_O _ _)).trans ?_
    rw [View.canon_cons_unit_zero (S := S8x128) hz3, View.readCov_unit_zero (S := S1x1) _ hz3]
    simp only [View.readAt_eq_ld, View.ld_unit_zero (S := S1x1) hz3]
  iexists _; isplitr
  swap; · iexact H3
  ipureintro
  sl_unfold_run_names
  refine (View.read_writes_eq_canon _ _ _ (cover3_S _ _)).trans ?_
  rw [View.canon_cons_unit_zero (S := S1x1) hz3]
  simp only [View.readAt_eq_ld, View.ld_unit_zero (S := S1x1) hz3]

/-- The accumulator after point `n`: at the first point the block's sum on top of zero, afterwards the block's sum on
    top of what the point before left. -/
def acc3 (c : Dev nD) : (n : ℕ) → n < cfg3.N → Vec F S1x1 .f32
  | 0, hn => k3_pay2 (View.ld (iblk3 V c 0 ⟨0, hn⟩) rIn3) k3_pay1
  | n + 1, hn => k3_pay2 (View.ld (iblk3 V c 0 ⟨n + 1, hn⟩) rIn3) (acc3 c n (Nat.lt_of_succ_lt hn))

theorem acc3_zero (c : Dev nD) (t : Fin cfg3.N) (h0 : t.val = 0) :
    acc3 V c t.val t.isLt = k3_pay2 (View.ld (iblk3 V c 0 t) rIn3) k3_pay1 := by
  obtain ⟨n, hn⟩ := t
  cases n with
  | zero => rfl
  | succ n => exact absurd h0 (Nat.succ_ne_zero n)

theorem acc3_pos (c : Dev nD) (t : Fin cfg3.N) (h0 : t.val ≠ 0) :
    acc3 V c t.val t.isLt = k3_pay2 (View.ld (iblk3 V c 0 t) rIn3) (acc3 V c (t.val - 1) (Nat.lt_of_le_of_lt (Nat.sub_le _ _) t.isLt)) := by
  obtain ⟨n, hn⟩ := t
  cases n with
  | zero => exact absurd rfl h0
  | succ n => rfl

/-- The scratch operand: a whole scoped buffer of the kernel's own. -/
abbrev scM3 : Memref sig .tc .vmem S1x1 .f32 := Memref.whole cc3_scratch0

/-- The class invariant with the scratch operand set apart, owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The invariant before position `n`: before the first point the class invariant; afterwards the same with the scratch
    at what the point before left in it. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The launch's proof data: arrays as found; the input's buffer keeps its block; the output's block, where it is
    stored, is filled with the accumulator; the invariant carries the accumulator from point to point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => k3_pay3 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = k3_pay3 (acc3 V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d

/-- What the written-back output block holds: the accumulator after the last point, at every entry. -/
theorem after3_out_last (c : Dev nD) : (dat3 V c).after 1 t3_7 = k3_pay3 (acc3 V c 7 t3_7.isLt) := by
  dsimp only [dat3]; rfl

theorem Phi3_castSucc (c : Dev nD) (t : Fin cfg3.N) :
    (dat3 V c).Φ t.castSucc = Phi3 V c t.val (Nat.le_of_lt t.isLt) := by
  dsimp only [dat3]; simp only [Fin.coe_castSucc]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4000000 in
/-- The body at any point, by cases on the point: first, middle, last. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) t.isLt from rfl, Phi3_succ]
  have hN : t.val < 8 := lt_of_lt_of_eq t.isLt (show cfg3.N = 8 from N_3)
  rw [show (dat3 V c).leavesExact 0 t = owns (c : Thread nD τ) (st3_0 t) fullShare ((dat3 V c).after 0 t) from by
    unfold Dat.leavesExact; rw [liveAt3_0 t], after3_0]
  by_cases h0 : t.val = 0
  · have h7 : ¬cond3_2 (grid3.coords t) := fun h => by have := (hcond3_2 t).mp h; omega
    rw [Dat.leavesExact_idle (dat3 V c) 1 t (idleAt3_1 t h7) (noFlush3_1 t h7)]
    rw [Phi3_castSucc V c t, Phi3_zero V c _ _ h0, PhiA3_eq, acc3_zero V c t h0]
    iintro ⟨⟨⟨HS, Hr⟩, Hg⟩, Ho, ⟨%d0, H0⟩, ⟨%d1, H1⟩⟩
    iapply (sound_kernel3_A c Set.univ _ _ _ _ _ _ _ ((hcond3_1 t).mpr h0) h7 (iblk3 V c 0 t) _)
    isplitl [H0]; · iexact H0
    isplitl [HS]; · iexact HS
    iintro ⟨H0, HS⟩
    isplitl [HS Hr Hg]
    · isplitl [HS Hr]
      · isplitl [HS]; · iexact HS
        iexact Hr
      iexact Hg
    isplitl [Ho]; · iexact Ho
    isplitl [H0]; · iexact H0
    iexists _; iexact H1
  · have h1 : ¬cond3_1 (grid3.coords t) := fun h => h0 ((hcond3_1 t).mp h)
    by_cases h7 : t.val = 7
    · have h2 : cond3_2 (grid3.coords t) := (hcond3_2 t).mpr h7
      rw [show (dat3 V c).leavesExact 1 t = owns (c : Thread nD τ) (st3_1 t) fullShare ((dat3 V c).after 1 t) from by
        unfold Dat.leavesExact; rw [liveAt3_1 t h2], after3_1]
      rw [Phi3_castSucc V c t, Phi3_pos V c _ _ h0, acc3_pos V c t h0]
      iintro ⟨⟨⟨HS, Hr⟩, Hg⟩, Ho, ⟨%d0, H0⟩, ⟨%d1, H1⟩⟩
      iapply (sound_kernel3_C c Set.univ _ _ _ _ _ _ _ h1 h2 (iblk3 V c 0 t) _ _)
      isplitl [H0]; · iexact H0
      isplitl [H1]; · iexists _; iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
    · have h2 : ¬cond3_2 (grid3.coords t) := fun h => h7 ((hcond3_2 t).mp h)
      rw [Dat.leavesExact_idle (dat3 V c) 1 t (idleAt3_1 t h2) (noFlush3_1 t h2)]
      rw [Phi3_castSucc V c t, Phi3_pos V c _ _ h0, acc3_pos V c t h0]
      iintro ⟨⟨⟨HS, Hr⟩, Hg⟩, Ho, ⟨%d0, H0⟩, ⟨%d1, H1⟩⟩
      iapply (sound_kernel3_B c Set.univ _ _ _ _ _ _ _ h1 h2 (iblk3 V c 0 t) _ _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact H1

theorem body_obligation3 (c : Dev nD) : BodyObligation (dat3 (F := F) V c) (defs₀ (F := F)) Variants.none () Set.univ := fun t => by
  rw [bigSep_W3, bigSep_W3]
  exact sound_body3 V c t

/-- What the launch hands the body before the first point is the invariant there. -/
theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the class invariant back: the accumulator's contents forgotten. -/
theorem Phi3_out (c : Dev nD) (t : Fin (cfg3.N + 1)) (ht : t.val ≠ 0) : (dat3 V c).Φ t ⊢ (Pipeline.ΦA spec3 c : sProp 𝕄) := by
  rw [show (dat3 V c).Φ t = Phi3 V c t.val (Nat.le_of_lt_succ t.isLt) from rfl, Phi3_pos V c _ _ ht, PhiA3_eq]
  iintro ⟨⟨HS, Hr⟩, Hg⟩
  isplitl [HS Hr]
  · isplitl [HS]
    · iexists _; iexact HS
    iexact Hr
  iexact Hg

theorem hout3 (c : Dev nD) : (dat3 V c).Φ (Fin.last cfg3.N) ⊢ (Pipeline.ΦA spec3 c : sProp 𝕄) :=
  Phi3_out V c _ (by rw [Fin.val_last]; have : cfg3.N = 8 := N_3; omega)

end

end Cert.Kernel.Hand

end
-- ==== Proof.K.R4.lean ====
/-
  The fifth launch: the per-rule contributions, eight grid points, every window a 256×128 block of a 2048×128 array.
  At each point the body reads its four input blocks (the two rule scores, the confidences, the triple counts) and stores,
  entry by entry, confidence · sigmoid(first score) · (sigmoid(second score) where the count is 3, else 1) into the output
  block; nothing is kept between points. Stated at a parameter `V` (the buffers' contents when the launch is entered).
-/
import proofs.«166015_j17652315586942_2_alg».proof.Proof.Gen.Kernel.Launch
import proofs.«166015_j17652315586942_2_alg».proof.Proof.Gen.Kernel.Skeleton
import proofs.«166015_j17652315586942_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4 : Rect S256x128 := Rect.unit (s := S256x128) ![0, 0] S256x128.size inb_S256x128_S256x128_0_0

/-- The output block after the body, from the four input blocks. -/
def out4_4 (x0 : Vec F S256x128 .f32) (x1 : Vec F S256x128 .f32) (x2 : Vec F S256x128 .f32) (x3 : Vec F S256x128 .i32) : Vec F S256x128 .f32 :=
  View.canon [⟨r4, k4_pay1 (View.ld x0 r4) (View.ld x1 r4) (View.ld x3 r4) (View.ld x2 r4)⟩]

theorem cover4_4 (p0 : Vec F S256x128 .f32) (y : S256x128.Idx) :
    ∃ pc ∈ ([⟨r4, p0⟩] : List (View.Piece (Elt F) S256x128 .f32)), y ∈ pc.1.set :=
  View.cover_of_tiled [⟨r4, p0⟩] S256x128.size (by rfl) y

set_option maxHeartbeats 1000000 in
/-- The body on whole staging buffers: the inputs' stay, the output's ends at `out4_4` of the inputs'. -/
theorem sound_kernel4 (c : Dev nD) (E : Set ℕ) (i : grid4.Coords)
    (arg0 : Memref sig .tc .vmem S256x128 .f32) (harg0 : arg0.IsWhole) (arg1 : Memref sig .tc .vmem S256x128 .f32) (harg1 : arg1.IsWhole)
    (arg2 : Memref sig .tc .vmem S256x128 .f32) (harg2 : arg2.IsWhole) (arg3 : Memref sig .tc .vmem S256x128 .i32) (harg3 : arg3.IsWhole)
    (arg4 : Memref sig .tc .vmem S256x128 .f32) (harg4 : arg4.IsWhole)
    (x0 : Vec F S256x128 .f32) (x1 : Vec F S256x128 .f32) (x2 : Vec F S256x128 .f32) (x3 : Vec F S256x128 .i32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__rule_contrib_kernel i arg0 harg0 arg1 harg1 arg2 harg2 arg3 harg3 arg4 harg4) K := by
  simp only [cc4__rule_contrib_kernel_eq_skeleton]; unfold cc4__rule_contrib_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The launch's proof data: arrays as found; each input's buffer keeps its block, the output's ends at `out4_4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.K.R5.lean ====
/-
  The sixth launch: the cross-entropy loss over the unlabelled triples, a grid of four points.
  The kernel keeps a one-entry accumulator from point to point: at the first point it is reset to zero; at every point
  it takes, on top of what it holds, the sum over the point's two 256×128 blocks (scores and prior) of each entry's
  cross-entropy term against the clipped target (row sums, then the sum of the row sums); at the last point its value is
  stored at every entry of the 8×128 output block, which is written back there and only there. Stated at a parameter
  `V` (the buffers' contents when the launch is entered): the blocks the input windows hold at each point, the
  accumulator after each point as a recursion over the points, the body's triple in its three cases (first, middle, last
  point), the invariant that carries the accumulator between points, and the per-point obligation of the launch theorem.
-/
import proofs.«166015_j17652315586942_2_alg».proof.Proof.Gen.Kernel.Launch
import proofs.«166015_j17652315586942_2_alg».proof.Proof.Gen.Kernel.Skeleton
import proofs.«166015_j17652315586942_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev rIn5_0 : Rect S256x128 := Rect.unit (s := S256x128) ![0, 0] S256x128.size inb_S256x128_S256x128_0_0
abbrev rIn5_1 : Rect S256x128 := Rect.unit (s := S256x128) ![0, 0] S256x128.size inb_S256x128_S256x128_0_0
abbrev rS5 : Rect S1x1 := Rect.unit (s := S1x1) ![0, 0] S1x1.size inb_S1x1_S1x1_0_0
abbrev rOut5 : Rect S8x128 := Rect.unit (s := S8x128) ![0, 0] S8x128.size inb_S8x128_S8x128_0_0

/-- The offsets of a whole-buffer rectangle of rank two are all zero. -/
theorem hz5 : (![0, 0] : Fin 2 → Nat) = fun _ => 0 := funext fun a => by fin_cases a <;> rfl

/-- The first conditional of the body (reset the accumulator): the reduction coordinate is 0. -/
abbrev cond5_1 (i : grid5.Coords) : Prop := (Scalar.cmpi .ne (Scalar.extui (Scalar.cmpi .eq (BitVec.ofNat 32 (i 0).val) 0#32)) 0#32) = 1#1
/-- The second conditional of the body (store the output block): the reduction coordinate is the last. -/
abbrev cond5_2 (i : grid5.Coords) : Prop := k5_cond2 i = 1#1

theorem hcond5_1 : ∀ t : Fin cfg5.N, cond5_1 (grid5.coords t) ↔ t.val = 0 :=
  (by decide +kernel : ∀ t : Fin grid5.N, cond5_1 (grid5.coords t) ↔ t.val = 0)
theorem hcond5_2 : ∀ t : Fin cfg5.N, cond5_2 (grid5.coords t) ↔ t.val = 3 :=
  (by decide +kernel : ∀ t : Fin grid5.N, cond5_2 (grid5.coords t) ↔ t.val = 3)

/-- The input windows are never idle; the output window is idle, and not written back, exactly where the second
    conditional fails. -/
theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_2 (grid5.coords t) → cfg5.idle 2 (grid5.coords t) = true := by decide +kernel
theorem noFlush5_2 : ∀ t : Fin cfg5.N, ¬cond5_2 (grid5.coords t) → (cfg5.win 2).flush t = false := by decide +kernel
theorem liveAt5_2 : ∀ t : Fin cfg5.N, cond5_2 (grid5.coords t) → cfg5.idle 2 (grid5.coords t) = false := by decide +kernel

theorem cover5_S (p0 : Vec F S1x1 .f32) (L : List (View.Piece (Elt F) S1x1 .f32)) (y : S1x1.Idx) :
    ∃ pc ∈ ((⟨rS5, p0⟩ : View.Piece (Elt F) S1x1 .f32) :: L), y ∈ pc.1.set :=
  ⟨_, List.mem_cons_self .., View.mem_set_unit_zero hz5 inb_S1x1_S1x1_0_0 y⟩

theorem cover5_O (p0 : Vec F S8x128 .f32) (L : List (View.Piece (Elt F) S8x128 .f32)) (y : S8x128.Idx) :
    ∃ pc ∈ ((⟨rOut5, p0⟩ : View.Piece (Elt F) S8x128 .f32) :: L), y ∈ pc.1.set :=
  ⟨_, List.mem_cons_self .., View.mem_set_unit_zero hz5 inb_S8x128_S8x128_0_0 y⟩

/-- One point's update of the accumulator: the sum over the block of the unlabelled triples' cross-entropy terms, computed
    from the two input blocks, on top of `a`. -/
def step5 (x0 x1 : Vec F S256x128 .f32) (a : Vec F S1x1 .f32) : Vec F S1x1 .f32 :=
  k5_pay1 (k5_pay6 x0 x1) (k5_pay7 x0 x1) (k5_pay8 x0) (k5_pay10 x0) (k5_pay11 x0) (k5_pay12 x0) a

set_option maxHeartbeats 1000000 in
/-- The body where the accumulator is reset: whatever it held, it is set to zero and then takes the point's term. -/
theorem sound_kernel5_A (c : Dev nD) (E : Set ℕ) (i : grid5.Coords) (arg1 : Memref sig .tc .vmem S256x128 .f32) (harg1 : arg1.IsWhole) (arg2 : Memref sig .tc .vmem S256x128 .f32) (harg2 : arg2.IsWhole) (arg3 : Memref sig .tc .vmem S8x128 .f32) (harg3 : arg3.IsWhole) (arg4 : Memref sig .tc .vmem S1x1 .f32) (harg4 : arg4.IsWhole)
    (hc1 : cond5_1 i) (hc2 : ¬cond5_2 i)
    (x0 : Vec F S256x128 .f32) (x1 : Vec F S256x128 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (step5 (View.ld x0 rIn5_0) (View.ld x1 rIn5_1) k5_pay3)) -∗ K ⟨⟩))
      ⊢ wp frame (wpE (defs₀ (F := F)) Variants.none c none) E (cc5__unlabel_loss_kernel i arg1 harg1 arg2 harg2 arg3 harg3 arg4 harg4) K := by
  simp only [cc5__unlabel_loss_kernel_eq_skeleton]; unfold cc5__unlabel_loss_kernel_skel
  simp only [k5_part1_eq_skeleton]
  unfold owns
  iintro ⟨⟨%f0, %hf0, H0⟩, ⟨%f1, %hf1, H1⟩, ⟨%dS, %fS, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (View.read_writes_eq_canon _ _ _ (cover5_S _ _)).trans ?_
  rw [View.canon_cons_unit_zero (S := S1x1) hz5, View.readCov_unit_zero (S := S1x1) _ hz5]
  rfl

set_option maxHeartbeats 1000000 in
/-- The body at a middle point: the accumulator takes the point's term on top of what it held. -/
theorem sound_kernel5_B (c : Dev nD) (E : Set ℕ) (i : grid5.Coords) (arg1 : Memref sig .tc .vmem S256x128 .f32) (harg1 : arg1.IsWhole) (arg2 : Memref sig .tc .vmem S256x128 .f32) (harg2 : arg2.IsWhole) (arg3 : Memref sig .tc .vmem S8x128 .f32) (harg3 : arg3.IsWhole) (arg4 : Memref sig .tc .vmem S1x1 .f32) (harg4 : arg4.IsWhole)
    (hc1 : ¬cond5_1 i) (hc2 : ¬cond5_2 i)
    (x0 : Vec F S256x128 .f32) (x1 : Vec F S256x128 .f32) (xs : Vec F S1x1 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1 ∗ owns (c : Thread nD τ) arg4 fullShare (step5 (View.ld x0 rIn5_0) (View.ld x1 rIn5_1) xs)) -∗ K ⟨⟩))
      ⊢ wp frame (wpE (defs₀ (F := F)) Variants.none c none) E (cc5__unlabel_loss_kernel i arg1 harg1 arg2 harg2 arg3 harg3 arg4 harg4) K := by
  simp only [cc5__unlabel_loss_kernel_eq_skeleton]; unfold cc5__unlabel_loss_kernel_skel
  simp only [k5_part1_eq_skeleton]
  unfold owns
  iintro ⟨⟨%f0, %hf0, H0⟩, ⟨%f1, %hf1, H1⟩, ⟨%fS, %hfS, HS⟩, Hk⟩
  subst hf0; subst hf1; subst hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (View.read_writes_eq_canon _ _ _ (cover5_S _ _)).trans ?_
  rw [View.canon_cons_unit_zero (S := S1x1) hz5]
  simp only [step5, View.readAt_eq_ld, View.ld_unit_zero (S := S1x1) hz5]

set_option maxHeartbeats 1000000 in
/-- The body at the last point of a reduction: the accumulator takes the point's term on top of what it held, and the
    output block is filled with the total. -/
theorem sound_kernel5_C (c : Dev nD) (E : Set ℕ) (i : grid5.Coords) (arg1 : Memref sig .tc .vmem S256x128 .f32) (harg1 : arg1.IsWhole) (arg2 : Memref sig .tc .vmem S256x128 .f32) (harg2 : arg2.IsWhole) (arg3 : Memref sig .tc .vmem S8x128 .f32) (harg3 : arg3.IsWhole) (arg4 : Memref sig .tc .vmem S1x1 .f32) (harg4 : arg4.IsWhole)
    (hc1 : ¬cond5_1 i) (hc2 : cond5_2 i)
    (x0 : Vec F S256x128 .f32) (x1 : Vec F S256x128 .f32) (xs : Vec F S1x1 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k5_pay2 (step5 (View.ld x0 rIn5_0) (View.ld x1 rIn5_1) xs))
            ∗ owns (c : Thread nD τ) arg4 fullShare (step5 (View.ld x0 rIn5_0) (View.ld x1 rIn5_1) xs)) -∗ K ⟨⟩))
      ⊢ wp frame (wpE (defs₀ (F := F)) Variants.none c none) E (cc5__unlabel_loss_kernel i arg1 harg1 arg2 harg2 arg3 harg3 arg4 harg4) K := by
  simp only [cc5__unlabel_loss_kernel_eq_skeleton]; unfold cc5__unlabel_loss_kernel_skel
  simp only [k5_part1_eq_skeleton]
  unfold owns
  iintro ⟨⟨%f0, %hf0, H0⟩, ⟨%f1, %hf1, H1⟩, ⟨%dO, %fO, -, HO⟩, ⟨%fS, %hfS, HS⟩, Hk⟩
  subst hf0; subst hf1; subst hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    refine (View.read_writes_eq_canon _ _ _ (cover5_O _ _)).trans ?_
    rw [View.canon_cons_unit_zero (S := S8x128) hz5, View.readCov_unit_zero (S := S1x1) _ hz5]
    simp only [step5, View.readAt_eq_ld, View.ld_unit_zero (S := S1x1) hz5]
  iexists _; isplitr
  swap; · iexact HS
  ipureintro
  sl_unfold_run_names
  refine (View.read_writes_eq_canon _ _ _ (cover5_S _ _)).trans ?_
  rw [View.canon_cons_unit_zero (S := S1x1) hz5]
  simp only [step5, View.readAt_eq_ld, View.ld_unit_zero (S := S1x1) hz5]

/-- The accumulator after point `n`: where it is reset, the point's term on top of zero; elsewhere the point's term on
    top of what the point before left. -/
def acc5 (c : Dev nD) : (n : ℕ) → n < cfg5.N → Vec F S1x1 .f32
  | 0, hn => step5 (View.ld (iblk5 V c 0 ⟨0, hn⟩) rIn5_0) (View.ld (iblk5 V c 1 ⟨0, hn⟩) rIn5_1) k5_pay3
  | n + 1, hn => step5 (View.ld (iblk5 V c 0 ⟨n + 1, hn⟩) rIn5_0) (View.ld (iblk5 V c 1 ⟨n + 1, hn⟩) rIn5_1) (acc5 c n (Nat.lt_of_succ_lt hn))

theorem acc5_first (c : Dev nD) (t : Fin cfg5.N) (h0 : t.val = 0) :
    acc5 V c t.val t.isLt = step5 (View.ld (iblk5 V c 0 t) rIn5_0) (View.ld (iblk5 V c 1 t) rIn5_1) k5_pay3 := by
  obtain ⟨n, hn⟩ := t
  cases n with
  | zero => rfl
  | succ n => exact absurd h0 (Nat.succ_ne_zero n)

theorem acc5_later (c : Dev nD) (t : Fin cfg5.N) (h0 : ¬t.val = 0) :
    acc5 V c t.val t.isLt = step5 (View.ld (iblk5 V c 0 t) rIn5_0) (View.ld (iblk5 V c 1 t) rIn5_1) (acc5 V c (t.val - 1) (Nat.lt_of_le_of_lt (Nat.sub_le _ _) t.isLt)) := by
  obtain ⟨n, hn⟩ := t
  cases n with
  | zero => exact absurd rfl h0
  | succ n => rfl

/-- The scratch operand: a whole scoped buffer of the kernel's own. -/
abbrev scM5 : Memref sig .tc .vmem S1x1 .f32 := Memref.whole cc5_scratch0

/-- The scoped rest split at the call's own scratch operand; the remainder unopened. -/
theorem scopedRest5_split' (c : Dev nD) :
    (Pipeline.scopedRest (Ix := Unit) (Name := ℕ) (U := UR sig nD τ) (Lvl := ℕ) (Val := Elt F) spec5 c : sProp 𝕄)
      = iprop(iprop((∃ f : Buf (Elt F) ((c : Thread nD τ).loc cc5_scratch0), ((c : Thread nD τ).loc cc5_scratch0) ↦{fullShare} f))
          ∗ Pipeline.scopedRestBut (Ix := Unit) (Name := ℕ) (U := UR sig nD τ) (Lvl := ℕ) (Val := Elt F) spec5 c [cc5_scratch0]) :=
  Pipeline.scopedRest_split_of_list spec5 c [cc5_scratch0] (by decide) (by decide)

/-- The class invariant with the scratch operand set apart, owned at some contents. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split']; simp only [scM5, owns_whole]; try rfl

/-- The invariant before position `n`: before the first point the class invariant; afterwards the same with the scratch
    at what the point before left in it. -/
def Phi5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl

theorem Phi5_pos (c : Dev nD) (n : ℕ) (h : n ≤ cfg5.N) (hz : n ≠ 0) :
    Phi5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The launch's proof data: arrays as found; each input's buffer keeps its block; the output's block, where it is
    stored, is filled with the accumulator; the invariant carries the accumulator from point to point. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay2 (acc5 V c t.val t.isLt)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay2 (acc5 V c t.val t.isLt) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the written-back output block holds: the accumulator after the last point, at every entry. -/
theorem after5_out_last (c : Dev nD) : (dat5 V c).after 2 t5_3 = k5_pay2 (acc5 V c 3 t5_3.isLt) := by
  dsimp only [dat5]; rfl

theorem Phi5_castSucc (c : Dev nD) (t : Fin cfg5.N) :
    (dat5 V c).Φ t.castSucc = Phi5 V c t.val (Nat.le_of_lt t.isLt) := by
  dsimp only [dat5]; simp only [Fin.coe_castSucc]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
/-- The body at any point, by cases on the point: where the accumulator is reset, in the middle of a reduction, at its
    last point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5 V c (t.val + 1) t.isLt from rfl, Phi5_succ]
  have hN : t.val < 4 := lt_of_lt_of_eq t.isLt (show cfg5.N = 4 from N_5)
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  by_cases h0 : t.val = 0
  · have h7 : ¬cond5_2 (grid5.coords t) := fun h => by have := (hcond5_2 t).mp h; omega
    rw [Dat.leavesExact_idle (dat5 V c) 2 t (idleAt5_2 t h7) (noFlush5_2 t h7)]
    rw [Phi5_castSucc V c t, Phi5_zero V c _ _ h0, PhiA5_eq, acc5_first V c t h0]
    iintro ⟨⟨⟨HS, Hr⟩, Hg⟩, Ho, ⟨%d0, H0⟩, ⟨%d1, H1⟩, ⟨%dO, HO⟩⟩
    iapply (sound_kernel5_A c Set.univ _ _ _ _ _ _ _ _ _ ((hcond5_1 t).mpr h0) h7 (iblk5 V c 0 t) (iblk5 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact HO
  · have h1 : ¬cond5_1 (grid5.coords t) := fun h => h0 ((hcond5_1 t).mp h)
    have hz : ¬t.val = 0 := h0
    by_cases h7 : t.val = 3
    · have h2 : cond5_2 (grid5.coords t) := (hcond5_2 t).mpr h7
      rw [show (dat5 V c).leavesExact 2 t = owns (c : Thread nD τ) (st5_2 t) fullShare ((dat5 V c).after 2 t) from by
        unfold Dat.leavesExact; rw [liveAt5_2 t h2], after5_2]
      rw [Phi5_castSucc V c t, Phi5_pos V c _ _ hz, acc5_later V c t h0]
      iintro ⟨⟨⟨HS, Hr⟩, Hg⟩, Ho, ⟨%d0, H0⟩, ⟨%d1, H1⟩, ⟨%dO, HO⟩⟩
      iapply (sound_kernel5_C c Set.univ _ _ _ _ _ _ _ _ _ h1 h2 (iblk5 V c 0 t) (iblk5 V c 1 t) _ _)
      isplitl [H0]; · iexact H0
      isplitl [H1]; · iexact H1
      isplitl [HO]; · iexists _; iexact HO
      isplitl [HS]; · iexact HS
      iintro ⟨H0, H1, HO, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact HO
    · have h2 : ¬cond5_2 (grid5.coords t) := fun h => h7 ((hcond5_2 t).mp h)
      rw [Dat.leavesExact_idle (dat5 V c) 2 t (idleAt5_2 t h2) (noFlush5_2 t h2)]
      rw [Phi5_castSucc V c t, Phi5_pos V c _ _ hz, acc5_later V c t h0]
      iintro ⟨⟨⟨HS, Hr⟩, Hg⟩, Ho, ⟨%d0, H0⟩, ⟨%d1, H1⟩, ⟨%dO, HO⟩⟩
      iapply (sound_kernel5_B c Set.univ _ _ _ _ _ _ _ _ _ h1 h2 (iblk5 V c 0 t) (iblk5 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact HO

theorem body_obligation5 (c : Dev nD) : BodyObligation (dat5 (F := F) V c) (defs₀ (F := F)) Variants.none () Set.univ := fun t => by
  rw [bigSep_W5, bigSep_W5]
  exact sound_body5 V c t

/-- What the launch hands the body before the first point is the invariant there. -/
theorem hin5 (c : Dev nD) : (Pipeline.ΦA spec5 c : sProp 𝕄) ⊢ (dat5 V c).Φ 0 := by
  rw [show (dat5 V c).Φ 0 = Phi5 V c 0 (Nat.zero_le _) from rfl, Phi5_zero V c 0 _ rfl]
  try exact Idealize.SL.BI.Entails.refl _

/-- After any point but the first the invariant gives the class invariant back: the accumulator's contents forgotten. -/
theorem Phi5_out (c : Dev nD) (t : Fin (cfg5.N + 1)) (ht : t.val ≠ 0) : (dat5 V c).Φ t ⊢ (Pipeline.ΦA spec5 c : sProp 𝕄) := by
  rw [show (dat5 V c).Φ t = Phi5 V c t.val (Nat.le_of_lt_succ t.isLt) from rfl, Phi5_pos V c _ _ ht, PhiA5_eq]
  iintro ⟨⟨HS, Hr⟩, Hg⟩
  isplitl [HS Hr]
  · isplitl [HS]
    · iexists _; iexact HS
    iexact Hr
  iexact Hg

theorem hout5 (c : Dev nD) : (dat5 V c).Φ (Fin.last cfg5.N) ⊢ (Pipeline.ΦA spec5 c : sProp 𝕄) :=
  Phi5_out V c _ (by rw [Fin.val_last]; have : cfg5.N = 4 := N_5; omega)

end

end Cert.Kernel.Hand

end
-- ==== Proof.K.Run.lean ====
/-
  The run of the whole program: six launches among stretches of host operations.
  Between two items a core holds every unscoped buffer whole at a known valuation: the launch memory, then, item by item,
  either the host stretch's operations folded over the valuation before it, or — after a launch — the same valuation with
  that launch's arrays replaced by what its write-backs leave. Each launch is entered from the valuation before it (its
  arrays split out of the unscoped buffers, the rest passing by), runs its body at every grid point under the per-point
  obligation, and is left at the valuation after it. The run's post reads every unscoped buffer off the last valuation.
-/
import proofs.«166015_j17652315586942_2_alg».proof.Proof.K.R0
import proofs.«166015_j17652315586942_2_alg».proof.Proof.K.R1
import proofs.«166015_j17652315586942_2_alg».proof.Proof.K.R2
import proofs.«166015_j17652315586942_2_alg».proof.Proof.K.R3
import proofs.«166015_j17652315586942_2_alg».proof.Proof.K.R4
import proofs.«166015_j17652315586942_2_alg».proof.Proof.K.R5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After launch 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the host stretch `main_part0_ops0`. -/
abbrev W2 : Dev nD → Valuation τ sig (Elt F) := fun c => StableHlo.after main_part0_ops0 (W1 m ρ c)
abbrev V2 : (c : Dev nD) → (b : Ref sig .tc) → Buf (Elt F) ((c : Thread nD τ).loc b) := fun c b => W2 m ρ c b
/-- After launch 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the host stretch `main_part0_ops1`. -/
abbrev W4 : Dev nD → Valuation τ sig (Elt F) := fun c => StableHlo.after main_part0_ops1 (W3 m ρ c)
abbrev V4 : (c : Dev nD) → (b : Ref sig .tc) → Buf (Elt F) ((c : Thread nD τ).loc b) := fun c b => W4 m ρ c b
/-- After launch 2: its arrays at what its write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `main_part0_ops2`. -/
abbrev W6 : Dev nD → Valuation τ sig (Elt F) := fun c => StableHlo.after main_part0_ops2 (W5 m ρ c)
abbrev V6 : (c : Dev nD) → (b : Ref sig .tc) → Buf (Elt F) ((c : Thread nD τ).loc b) := fun c b => W6 m ρ c b
/-- After launch 3: its arrays at what its write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After the host stretch `main_part0_ops3`. -/
abbrev W8 : Dev nD → Valuation τ sig (Elt F) := fun c => StableHlo.after main_part0_ops3 (W7 m ρ c)
abbrev V8 : (c : Dev nD) → (b : Ref sig .tc) → Buf (Elt F) ((c : Thread nD τ).loc b) := fun c b => W8 m ρ c b
/-- After the host stretch `main_part1_ops0`. -/
abbrev W9 : Dev nD → Valuation τ sig (Elt F) := fun c => StableHlo.after main_part1_ops0 (W8 m ρ c)
abbrev V9 : (c : Dev nD) → (b : Ref sig .tc) → Buf (Elt F) ((c : Thread nD τ).loc b) := fun c b => W9 m ρ c b
/-- After launch 4: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `main_part1_ops1`. -/
abbrev W11 : Dev nD → Valuation τ sig (Elt F) := fun c => StableHlo.after main_part1_ops1 (W10 m ρ c)
abbrev V11 : (c : Dev nD) → (b : Ref sig .tc) → Buf (Elt F) ((c : Thread nD τ).loc b) := fun c b => W11 m ρ c b
/-- After the host stretch `main_part2_ops0`. -/
abbrev W12 : Dev nD → Valuation τ sig (Elt F) := fun c => StableHlo.after main_part2_ops0 (W11 m ρ c)
abbrev V12 : (c : Dev nD) → (b : Ref sig .tc) → Buf (Elt F) ((c : Thread nD τ).loc b) := fun c b => W12 m ρ c b
/-- After launch 5: its arrays at what its write-backs leave, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)
/-- After the host stretch `main_part2_ops1`. -/
abbrev W14 : Dev nD → Valuation τ sig (Elt F) := fun c => StableHlo.after main_part2_ops1 (W13 m ρ c)
abbrev V14 : (c : Dev nD) → (b : Ref sig .tc) → Buf (Elt F) ((c : Thread nD τ).loc b) := fun c b => W14 m ρ c b

/-! ## The proof data family and what rides along -/

abbrev adm : (p : Fin 6) → (pcfgs (F := F) p).Adm := fun p => (cfgs p).toPCfg_adm
/-- Every launch's proof data, each at its entry valuation (a literal match on the launch's number). -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V9 m ρ) c
  | ⟨5, _⟩ => fun c => dat5 (V12 m ρ) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

/-! ## The launches as segments -/

set_option backward.isDefEq.respectTransparency.types false in
/-- Launch 0: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m ρ) c)
    unfold Pipeline.ΦA
    iintro ⟨Hp, -, Hr⟩
    isplitl [Hr]; · iexact Hr
    iexact Hp
  hout c := by
    refine (hout0 (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `W6`, left at `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V6 m ρ) c)
    unfold Pipeline.ΦA
    iintro ⟨Hp, -, Hr⟩
    isplitl [Hr]; · iexact Hr
    iexact Hp
  hout c := by
    refine (hout3 (V6 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: entered from every unscoped buffer at `W12`, left at `W13`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun w => A_eq5 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (V12 m ρ) c)
    unfold Pipeline.ΦA
    iintro ⟨Hp, -, Hr⟩
    isplitl [Hr]; · iexact Hr
    iexact Hp
  hout c := by
    refine (hout5 (V12 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch theorem -/

abbrev segs : List (Pipeline.Seg (pcfgs (F := F)) adm (pdats m ρ) () defs₀ 𝒱₀ L lv) :=
  [ .region (reg0 m ρ),
    .host (hseg main_part0_ops0 main_part0_ops0_sub main_part0_ops0_fresh (W1 m ρ)),
    .region (reg1 m ρ),
    .host (hseg main_part0_ops1 main_part0_ops1_sub main_part0_ops1_fresh (W3 m ρ)),
    .region (reg2 m ρ),
    .host (hseg main_part0_ops2 main_part0_ops2_sub main_part0_ops2_fresh (W5 m ρ)),
    .region (reg3 m ρ),
    .host (hseg main_part0_ops3 main_part0_ops3_sub main_part0_ops3_fresh (W7 m ρ)),
    .host (hseg main_part1_ops0 main_part1_ops0_sub main_part1_ops0_fresh (W8 m ρ)),
    .region (reg4 m ρ),
    .host (hseg main_part1_ops1 main_part1_ops1_sub main_part1_ops1_fresh (W10 m ρ)),
    .host (hseg main_part2_ops0 main_part2_ops0_sub main_part2_ops0_fresh (W11 m ρ)),
    .region (reg5 m ρ),
    .host (hseg main_part2_ops1 main_part2_ops1_sub main_part2_ops1_fresh (W13 m ρ)) ]

theorem main_run (c : Dev nD) : main (F := F) c = Pipeline.Seg.run (segs m ρ) := (main_chain_windows c).trans (by chain_rfl)

set_option backward.isDefEq.respectTransparency.types false in
/-- From any memory with zero counters every weakly fair execution of the program terminates, nothing faulting, and
    every final state holds each unscoped buffer of each core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.Kernel.Hand

end
-- ==== Proof.K.Frame.lean ====
/-
  No item of the program changes an argument array: a host operation writes only its own result buffer, which is never an
  argument; a launch changes only its output window's array, and an argument it reads through an input window comes back
  as entered. So the last valuation at each argument's buffer is the launch memory there, and with the run this is the
  frame: the program terminates without a fault and its ten argument arrays end as they began.
-/
import proofs.«166015_j17652315586942_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

abbrev main_part0_ops0_W : List (Ref sig .tc) := [main_v1, main_v2, main_v3, main_v4, main_v5]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part0_ops1_W : List (Ref sig .tc) := [main_v7, main_v8, main_v9, main_cst, main_v10, main_v11]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part0_ops2_W : List (Ref sig .tc) := [main_v13, main_v14]
theorem main_part0_ops2_writes : (main_part0_ops2 : List (HloOp τ sig (Elt F))).Forall fun op => op.writes ⊆ (main_part0_ops2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part0_ops3_W : List (Ref sig .tc) := [main_v16, main_v17, main_cst_0, main_v18, main_cst_1, main_v19, main_v20, main_v21, main_c, main_v22, main_v23, main_c_2, main_v24, main_v25, main_v26, main_v27, main_v28, main_v29, main_v30, main_c_3, main_v31, main_v32, main_c_4, main_v33, main_v34, main_v35, main_v36, main_v37, main_v38, main_v39, main_c_5, main_v40, main_v41, main_c_6, main_v42, main_v43, main_v44, main_v45, main_v46, main_v47, main_v48, main_cst_7, main_v49]
theorem main_part0_ops3_writes : (main_part0_ops3 : List (HloOp τ sig (Elt F))).Forall fun op => op.writes ⊆ (main_part0_ops3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part1_ops0_W : List (Ref sig .tc) := [main_v50, main_v51, main_c_8, main_v52, main_v53, main_c_9, main_v54, main_v55, main_v56, main_v57, main_v58, main_v59, main_v60, main_c_10, main_v61, main_v62, main_c_11, main_v63, main_v64, main_v65, main_v66, main_v67, main_v68, main_v69, main_c_12, main_v70, main_v71, main_c_13, main_v72, main_v73, main_v74, main_v75, main_v76, main_v77, main_v78, main_cst_14, main_v79, main_v80, main_v81, main_v82, main_v83]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part1_ops1_W : List (Ref sig .tc) := [main_v85, main_cst_15, main_v86, main_v87, main_v88, main_v89, main_v90, main_c_16, main_v91, main_v92, main_c_17, main_v93, main_v94, main_v95, main_v96, main_v97, main_v98, main_v99]
theorem main_part1_ops1_writes : (main_part1_ops1 : List (HloOp τ sig (Elt F))).Forall fun op => op.writes ⊆ (main_part1_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part2_ops0_W : List (Ref sig .tc) := [main_c_18, main_v100, main_v101, main_c_19, main_v102, main_v103, main_v104, main_v105, main_v106, main_v107, main_v108, main_c_20, main_v109, main_v110, main_c_21, main_v111, main_v112, main_v113, main_v114, main_v115, main_v116, main_v117, main_cst_22, main_v118, main_v119, main_v120]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part2_ops1_W : List (Ref sig .tc) := [main_v122, main_v123, main_cst_23, main_v124, main_v125, main_v126, main_v127]
theorem main_part2_ops1_writes : (main_part2_ops1 : List (HloOp τ sig (Elt F))).Forall fun op => op.writes ⊆ (main_part2_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg)

/-! ## A buffer no stretch writes passes each stretch unchanged -/
theorem keep2 (c : Dev nD) (r : Ref sig .tc) (h : r ∉ main_part0_ops0_W) : W2 m ρ c (Proc.devRef .tc r) = W1 m ρ c (Proc.devRef .tc r) :=
  StableHlo.after_of_writes_sub main_part0_ops0 _ main_part0_ops0_writes h
theorem keep4 (c : Dev nD) (r : Ref sig .tc) (h : r ∉ main_part0_ops1_W) : W4 m ρ c (Proc.devRef .tc r) = W3 m ρ c (Proc.devRef .tc r) :=
  StableHlo.after_of_writes_sub main_part0_ops1 _ main_part0_ops1_writes h
theorem keep6 (c : Dev nD) (r : Ref sig .tc) (h : r ∉ main_part0_ops2_W) : W6 m ρ c (Proc.devRef .tc r) = W5 m ρ c (Proc.devRef .tc r) :=
  StableHlo.after_of_writes_sub main_part0_ops2 _ main_part0_ops2_writes h
theorem keep8 (c : Dev nD) (r : Ref sig .tc) (h : r ∉ main_part0_ops3_W) : W8 m ρ c (Proc.devRef .tc r) = W7 m ρ c (Proc.devRef .tc r) :=
  StableHlo.after_of_writes_sub main_part0_ops3 _ main_part0_ops3_writes h
theorem keep9 (c : Dev nD) (r : Ref sig .tc) (h : r ∉ main_part1_ops0_W) : W9 m ρ c (Proc.devRef .tc r) = W8 m ρ c (Proc.devRef .tc r) :=
  StableHlo.after_of_writes_sub main_part1_ops0 _ main_part1_ops0_writes h
theorem keep11 (c : Dev nD) (r : Ref sig .tc) (h : r ∉ main_part1_ops1_W) : W11 m ρ c (Proc.devRef .tc r) = W10 m ρ c (Proc.devRef .tc r) :=
  StableHlo.after_of_writes_sub main_part1_ops1 _ main_part1_ops1_writes h
theorem keep12 (c : Dev nD) (r : Ref sig .tc) (h : r ∉ main_part2_ops0_W) : W12 m ρ c (Proc.devRef .tc r) = W11 m ρ c (Proc.devRef .tc r) :=
  StableHlo.after_of_writes_sub main_part2_ops0 _ main_part2_ops0_writes h
theorem keep14 (c : Dev nD) (r : Ref sig .tc) (h : r ∉ main_part2_ops1_W) : W14 m ρ c (Proc.devRef .tc r) = W13 m ρ c (Proc.devRef .tc r) :=
  StableHlo.after_of_writes_sub main_part2_ops1 _ main_part2_ops1_writes h

/-! ## Each argument's buffer at the last boundary is the launch memory -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := keep14 m ρ c main_arg0 (by decide)
    _ = W12 m ρ c (Proc.devRef .tc main_arg0) := W13_of_ne m ρ c main_arg0 (by decide)
    _ = W11 m ρ c (Proc.devRef .tc main_arg0) := keep12 m ρ c main_arg0 (by decide)
    _ = W10 m ρ c (Proc.devRef .tc main_arg0) := keep11 m ρ c main_arg0 (by decide)
    _ = W9 m ρ c (Proc.devRef .tc main_arg0) := W10_of_ne m ρ c main_arg0 (by decide)
    _ = W8 m ρ c (Proc.devRef .tc main_arg0) := keep9 m ρ c main_arg0 (by decide)
    _ = W7 m ρ c (Proc.devRef .tc main_arg0) := keep8 m ρ c main_arg0 (by decide)
    _ = W6 m ρ c (Proc.devRef .tc main_arg0) := W7_of_ne m ρ c main_arg0 (by decide)
    _ = W5 m ρ c (Proc.devRef .tc main_arg0) := keep6 m ρ c main_arg0 (by decide)
    _ = W4 m ρ c (Proc.devRef .tc main_arg0) := W5_of_ne m ρ c main_arg0 (by decide)
    _ = W3 m ρ c (Proc.devRef .tc main_arg0) := keep4 m ρ c main_arg0 (by decide)
    _ = W2 m ρ c (Proc.devRef .tc main_arg0) := W3_of_ne m ρ c main_arg0 (by decide)
    _ = W1 m ρ c (Proc.devRef .tc main_arg0) := keep2 m ρ c main_arg0 (by decide)
    _ = W0 m ρ c (Proc.devRef .tc main_arg0) := W1_of_ne m ρ c main_arg0 (by decide)
    _ = m ((c : Thread nD τ).loc main_arg0) := rfl

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := keep14 m ρ c main_arg1 (by decide)
    _ = W12 m ρ c (Proc.devRef .tc main_arg1) := W13_of_ne m ρ c main_arg1 (by decide)
    _ = W11 m ρ c (Proc.devRef .tc main_arg1) := keep12 m ρ c main_arg1 (by decide)
    _ = W10 m ρ c (Proc.devRef .tc main_arg1) := keep11 m ρ c main_arg1 (by decide)
    _ = W9 m ρ c (Proc.devRef .tc main_arg1) := W10_of_ne m ρ c main_arg1 (by decide)
    _ = W8 m ρ c (Proc.devRef .tc main_arg1) := keep9 m ρ c main_arg1 (by decide)
    _ = W7 m ρ c (Proc.devRef .tc main_arg1) := keep8 m ρ c main_arg1 (by decide)
    _ = W6 m ρ c (Proc.devRef .tc main_arg1) := (W7_arr m ρ c 0).trans (((dat3 (V6 m ρ) c).arrAt_in 0 rfl _).trans (A_eq3 (V6 m ρ) c 0))
    _ = W5 m ρ c (Proc.devRef .tc main_arg1) := keep6 m ρ c main_arg1 (by decide)
    _ = W4 m ρ c (Proc.devRef .tc main_arg1) := W5_of_ne m ρ c main_arg1 (by decide)
    _ = W3 m ρ c (Proc.devRef .tc main_arg1) := keep4 m ρ c main_arg1 (by decide)
    _ = W2 m ρ c (Proc.devRef .tc main_arg1) := W3_of_ne m ρ c main_arg1 (by decide)
    _ = W1 m ρ c (Proc.devRef .tc main_arg1) := keep2 m ρ c main_arg1 (by decide)
    _ = W0 m ρ c (Proc.devRef .tc main_arg1) := W1_of_ne m ρ c main_arg1 (by decide)
    _ = m ((c : Thread nD τ).loc main_arg1) := rfl

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := keep14 m ρ c main_arg2 (by decide)
    _ = W12 m ρ c (Proc.devRef .tc main_arg2) := W13_of_ne m ρ c main_arg2 (by decide)
    _ = W11 m ρ c (Proc.devRef .tc main_arg2) := keep12 m ρ c main_arg2 (by decide)
    _ = W10 m ρ c (Proc.devRef .tc main_arg2) := keep11 m ρ c main_arg2 (by decide)
    _ = W9 m ρ c (Proc.devRef .tc main_arg2) := W10_of_ne m ρ c main_arg2 (by decide)
    _ = W8 m ρ c (Proc.devRef .tc main_arg2) := keep9 m ρ c main_arg2 (by decide)
    _ = W7 m ρ c (Proc.devRef .tc main_arg2) := keep8 m ρ c main_arg2 (by decide)
    _ = W6 m ρ c (Proc.devRef .tc main_arg2) := W7_of_ne m ρ c main_arg2 (by decide)
    _ = W5 m ρ c (Proc.devRef .tc main_arg2) := keep6 m ρ c main_arg2 (by decide)
    _ = W4 m ρ c (Proc.devRef .tc main_arg2) := W5_of_ne m ρ c main_arg2 (by decide)
    _ = W3 m ρ c (Proc.devRef .tc main_arg2) := keep4 m ρ c main_arg2 (by decide)
    _ = W2 m ρ c (Proc.devRef .tc main_arg2) := W3_of_ne m ρ c main_arg2 (by decide)
    _ = W1 m ρ c (Proc.devRef .tc main_arg2) := keep2 m ρ c main_arg2 (by decide)
    _ = W0 m ρ c (Proc.devRef .tc main_arg2) := W1_of_ne m ρ c main_arg2 (by decide)
    _ = m ((c : Thread nD τ).loc main_arg2) := rfl

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := keep14 m ρ c main_arg3 (by decide)
    _ = W12 m ρ c (Proc.devRef .tc main_arg3) := W13_of_ne m ρ c main_arg3 (by decide)
    _ = W11 m ρ c (Proc.devRef .tc main_arg3) := keep12 m ρ c main_arg3 (by decide)
    _ = W10 m ρ c (Proc.devRef .tc main_arg3) := keep11 m ρ c main_arg3 (by decide)
    _ = W9 m ρ c (Proc.devRef .tc main_arg3) := W10_of_ne m ρ c main_arg3 (by decide)
    _ = W8 m ρ c (Proc.devRef .tc main_arg3) := keep9 m ρ c main_arg3 (by decide)
    _ = W7 m ρ c (Proc.devRef .tc main_arg3) := keep8 m ρ c main_arg3 (by decide)
    _ = W6 m ρ c (Proc.devRef .tc main_arg3) := W7_of_ne m ρ c main_arg3 (by decide)
    _ = W5 m ρ c (Proc.devRef .tc main_arg3) := keep6 m ρ c main_arg3 (by decide)
    _ = W4 m ρ c (Proc.devRef .tc main_arg3) := W5_of_ne m ρ c main_arg3 (by decide)
    _ = W3 m ρ c (Proc.devRef .tc main_arg3) := keep4 m ρ c main_arg3 (by decide)
    _ = W2 m ρ c (Proc.devRef .tc main_arg3) := W3_of_ne m ρ c main_arg3 (by decide)
    _ = W1 m ρ c (Proc.devRef .tc main_arg3) := keep2 m ρ c main_arg3 (by decide)
    _ = W0 m ρ c (Proc.devRef .tc main_arg3) := (W1_arr m ρ c 0).trans (((dat0 (V0 m ρ) c).arrAt_in 0 rfl _).trans (A_eq0 (V0 m ρ) c 0))
    _ = m ((c : Thread nD τ).loc main_arg3) := rfl

theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := keep14 m ρ c main_arg4 (by decide)
    _ = W12 m ρ c (Proc.devRef .tc main_arg4) := W13_of_ne m ρ c main_arg4 (by decide)
    _ = W11 m ρ c (Proc.devRef .tc main_arg4) := keep12 m ρ c main_arg4 (by decide)
    _ = W10 m ρ c (Proc.devRef .tc main_arg4) := keep11 m ρ c main_arg4 (by decide)
    _ = W9 m ρ c (Proc.devRef .tc main_arg4) := W10_of_ne m ρ c main_arg4 (by decide)
    _ = W8 m ρ c (Proc.devRef .tc main_arg4) := keep9 m ρ c main_arg4 (by decide)
    _ = W7 m ρ c (Proc.devRef .tc main_arg4) := keep8 m ρ c main_arg4 (by decide)
    _ = W6 m ρ c (Proc.devRef .tc main_arg4) := W7_of_ne m ρ c main_arg4 (by decide)
    _ = W5 m ρ c (Proc.devRef .tc main_arg4) := keep6 m ρ c main_arg4 (by decide)
    _ = W4 m ρ c (Proc.devRef .tc main_arg4) := W5_of_ne m ρ c main_arg4 (by decide)
    _ = W3 m ρ c (Proc.devRef .tc main_arg4) := keep4 m ρ c main_arg4 (by decide)
    _ = W2 m ρ c (Proc.devRef .tc main_arg4) := (W3_arr m ρ c 0).trans (((dat1 (V2 m ρ) c).arrAt_in 0 rfl _).trans (A_eq1 (V2 m ρ) c 0))
    _ = W1 m ρ c (Proc.devRef .tc main_arg4) := keep2 m ρ c main_arg4 (by decide)
    _ = W0 m ρ c (Proc.devRef .tc main_arg4) := W1_of_ne m ρ c main_arg4 (by decide)
    _ = m ((c : Thread nD τ).loc main_arg4) := rfl

theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := keep14 m ρ c main_arg5 (by decide)
    _ = W12 m ρ c (Proc.devRef .tc main_arg5) := W13_of_ne m ρ c main_arg5 (by decide)
    _ = W11 m ρ c (Proc.devRef .tc main_arg5) := keep12 m ρ c main_arg5 (by decide)
    _ = W10 m ρ c (Proc.devRef .tc main_arg5) := keep11 m ρ c main_arg5 (by decide)
    _ = W9 m ρ c (Proc.devRef .tc main_arg5) := W10_of_ne m ρ c main_arg5 (by decide)
    _ = W8 m ρ c (Proc.devRef .tc main_arg5) := keep9 m ρ c main_arg5 (by decide)
    _ = W7 m ρ c (Proc.devRef .tc main_arg5) := keep8 m ρ c main_arg5 (by decide)
    _ = W6 m ρ c (Proc.devRef .tc main_arg5) := W7_of_ne m ρ c main_arg5 (by decide)
    _ = W5 m ρ c (Proc.devRef .tc main_arg5) := keep6 m ρ c main_arg5 (by decide)
    _ = W4 m ρ c (Proc.devRef .tc main_arg5) := W5_of_ne m ρ c main_arg5 (by decide)
    _ = W3 m ρ c (Proc.devRef .tc main_arg5) := keep4 m ρ c main_arg5 (by decide)
    _ = W2 m ρ c (Proc.devRef .tc main_arg5) := W3_of_ne m ρ c main_arg5 (by decide)
    _ = W1 m ρ c (Proc.devRef .tc main_arg5) := keep2 m ρ c main_arg5 (by decide)
    _ = W0 m ρ c (Proc.devRef .tc main_arg5) := W1_of_ne m ρ c main_arg5 (by decide)
    _ = m ((c : Thread nD τ).loc main_arg5) := rfl

theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := keep14 m ρ c main_arg6 (by decide)
    _ = W12 m ρ c (Proc.devRef .tc main_arg6) := W13_of_ne m ρ c main_arg6 (by decide)
    _ = W11 m ρ c (Proc.devRef .tc main_arg6) := keep12 m ρ c main_arg6 (by decide)
    _ = W10 m ρ c (Proc.devRef .tc main_arg6) := keep11 m ρ c main_arg6 (by decide)
    _ = W9 m ρ c (Proc.devRef .tc main_arg6) := W10_of_ne m ρ c main_arg6 (by decide)
    _ = W8 m ρ c (Proc.devRef .tc main_arg6) := keep9 m ρ c main_arg6 (by decide)
    _ = W7 m ρ c (Proc.devRef .tc main_arg6) := keep8 m ρ c main_arg6 (by decide)
    _ = W6 m ρ c (Proc.devRef .tc main_arg6) := W7_of_ne m ρ c main_arg6 (by decide)
    _ = W5 m ρ c (Proc.devRef .tc main_arg6) := keep6 m ρ c main_arg6 (by decide)
    _ = W4 m ρ c (Proc.devRef .tc main_arg6) := W5_of_ne m ρ c main_arg6 (by decide)
    _ = W3 m ρ c (Proc.devRef .tc main_arg6) := keep4 m ρ c main_arg6 (by decide)
    _ = W2 m ρ c (Proc.devRef .tc main_arg6) := W3_of_ne m ρ c main_arg6 (by decide)
    _ = W1 m ρ c (Proc.devRef .tc main_arg6) := keep2 m ρ c main_arg6 (by decide)
    _ = W0 m ρ c (Proc.devRef .tc main_arg6) := W1_of_ne m ρ c main_arg6 (by decide)
    _ = m ((c : Thread nD τ).loc main_arg6) := rfl

theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := keep14 m ρ c main_arg7 (by decide)
    _ = W12 m ρ c (Proc.devRef .tc main_arg7) := W13_of_ne m ρ c main_arg7 (by decide)
    _ = W11 m ρ c (Proc.devRef .tc main_arg7) := keep12 m ρ c main_arg7 (by decide)
    _ = W10 m ρ c (Proc.devRef .tc main_arg7) := keep11 m ρ c main_arg7 (by decide)
    _ = W9 m ρ c (Proc.devRef .tc main_arg7) := W10_of_ne m ρ c main_arg7 (by decide)
    _ = W8 m ρ c (Proc.devRef .tc main_arg7) := keep9 m ρ c main_arg7 (by decide)
    _ = W7 m ρ c (Proc.devRef .tc main_arg7) := keep8 m ρ c main_arg7 (by decide)
    _ = W6 m ρ c (Proc.devRef .tc main_arg7) := W7_of_ne m ρ c main_arg7 (by decide)
    _ = W5 m ρ c (Proc.devRef .tc main_arg7) := keep6 m ρ c main_arg7 (by decide)
    _ = W4 m ρ c (Proc.devRef .tc main_arg7) := W5_of_ne m ρ c main_arg7 (by decide)
    _ = W3 m ρ c (Proc.devRef .tc main_arg7) := keep4 m ρ c main_arg7 (by decide)
    _ = W2 m ρ c (Proc.devRef .tc main_arg7) := W3_of_ne m ρ c main_arg7 (by decide)
    _ = W1 m ρ c (Proc.devRef .tc main_arg7) := keep2 m ρ c main_arg7 (by decide)
    _ = W0 m ρ c (Proc.devRef .tc main_arg7) := W1_of_ne m ρ c main_arg7 (by decide)
    _ = m ((c : Thread nD τ).loc main_arg7) := rfl

theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := keep14 m ρ c main_arg8 (by decide)
    _ = W12 m ρ c (Proc.devRef .tc main_arg8) := W13_of_ne m ρ c main_arg8 (by decide)
    _ = W11 m ρ c (Proc.devRef .tc main_arg8) := keep12 m ρ c main_arg8 (by decide)
    _ = W10 m ρ c (Proc.devRef .tc main_arg8) := keep11 m ρ c main_arg8 (by decide)
    _ = W9 m ρ c (Proc.devRef .tc main_arg8) := W10_of_ne m ρ c main_arg8 (by decide)
    _ = W8 m ρ c (Proc.devRef .tc main_arg8) := keep9 m ρ c main_arg8 (by decide)
    _ = W7 m ρ c (Proc.devRef .tc main_arg8) := keep8 m ρ c main_arg8 (by decide)
    _ = W6 m ρ c (Proc.devRef .tc main_arg8) := W7_of_ne m ρ c main_arg8 (by decide)
    _ = W5 m ρ c (Proc.devRef .tc main_arg8) := keep6 m ρ c main_arg8 (by decide)
    _ = W4 m ρ c (Proc.devRef .tc main_arg8) := W5_of_ne m ρ c main_arg8 (by decide)
    _ = W3 m ρ c (Proc.devRef .tc main_arg8) := keep4 m ρ c main_arg8 (by decide)
    _ = W2 m ρ c (Proc.devRef .tc main_arg8) := W3_of_ne m ρ c main_arg8 (by decide)
    _ = W1 m ρ c (Proc.devRef .tc main_arg8) := keep2 m ρ c main_arg8 (by decide)
    _ = W0 m ρ c (Proc.devRef .tc main_arg8) := W1_of_ne m ρ c main_arg8 (by decide)
    _ = m ((c : Thread nD τ).loc main_arg8) := rfl

theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := keep14 m ρ c main_arg9 (by decide)
    _ = W12 m ρ c (Proc.devRef .tc main_arg9) := W13_of_ne m ρ c main_arg9 (by decide)
    _ = W11 m ρ c (Proc.devRef .tc main_arg9) := keep12 m ρ c main_arg9 (by decide)
    _ = W10 m ρ c (Proc.devRef .tc main_arg9) := keep11 m ρ c main_arg9 (by decide)
    _ = W9 m ρ c (Proc.devRef .tc main_arg9) := W10_of_ne m ρ c main_arg9 (by decide)
    _ = W8 m ρ c (Proc.devRef .tc main_arg9) := keep9 m ρ c main_arg9 (by decide)
    _ = W7 m ρ c (Proc.devRef .tc main_arg9) := keep8 m ρ c main_arg9 (by decide)
    _ = W6 m ρ c (Proc.devRef .tc main_arg9) := W7_of_ne m ρ c main_arg9 (by decide)
    _ = W5 m ρ c (Proc.devRef .tc main_arg9) := keep6 m ρ c main_arg9 (by decide)
    _ = W4 m ρ c (Proc.devRef .tc main_arg9) := W5_of_ne m ρ c main_arg9 (by decide)
    _ = W3 m ρ c (Proc.devRef .tc main_arg9) := keep4 m ρ c main_arg9 (by decide)
    _ = W2 m ρ c (Proc.devRef .tc main_arg9) := W3_of_ne m ρ c main_arg9 (by decide)
    _ = W1 m ρ c (Proc.devRef .tc main_arg9) := keep2 m ρ c main_arg9 (by decide)
    _ = W0 m ρ c (Proc.devRef .tc main_arg9) := W1_of_ne m ρ c main_arg9 (by decide)
    _ = m ((c : Thread nD τ).loc main_arg9) := rfl

/-! ## The frame -/

/-- Every weakly fair execution terminates without a fault, and the ten argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c)⟩) (run_main m ρ)

end Cert.Kernel.Hand

end
-- ==== Proof.KI.R0.lean ====
/-
  The first launch: the sum of squares of the entity table, a grid of 2×25 points.
  The kernel keeps a one-entry accumulator from point to point: wherever the second grid coordinate is 0 it is reset to
  zero; at every point it takes, on top of what it holds, the sum of the squares of the point's 2000×256 block (row
  sums, then the sum of the row sums); wherever the second grid coordinate is 24 its value is stored at every entry of
  the 8×128 output block, which is written back there and only there — so each of the two output blocks ends with the
  sum of squares of its own 25 input blocks. Stated at a parameter `V` (the buffers' contents when the launch is
  entered): the block the input window holds at each point, the accumulator after each point as a recursion over the
  points, the body's triple in its three cases (reset point, middle point, last point of a reduction), the invariant
  that carries the accumulator between points, and the per-point obligation of the launch theorem.
-/
import proofs.«166015_j17652315586942_2_alg».proof.Proof.Gen.KernelIdeal.Launch
import proofs.«166015_j17652315586942_2_alg».proof.Proof.Gen.KernelIdeal.Skeleton
import proofs.«166015_j17652315586942_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rIn0_0 : Rect S2000x256 := Rect.unit (s := S2000x256) ![0, 0] S2000x256.size inb_S2000x256_S2000x256_0_0
abbrev rS0 : Rect S1x1 := Rect.unit (s := S1x1) ![0, 0] S1x1.size inb_S1x1_S1x1_0_0
abbrev rOut0 : Rect S8x128 := Rect.unit (s := S8x128) ![0, 0] S8x128.size inb_S8x128_S8x128_0_0

/-- The offsets of a whole-buffer rectangle of rank two are all zero. -/
theorem hz0 : (![0, 0] : Fin 2 → Nat) = fun _ => 0 := funext fun a => by fin_cases a <;> rfl

/-- The first conditional of the body (reset the accumulator): the reduction coordinate is 0. -/
abbrev cond0_1 (i : grid0.Coords) : Prop := (Scalar.cmpi .ne (Scalar.extui (Scalar.cmpi .eq (BitVec.ofNat 32 (i 1).val) 0#32)) 0#32) = 1#1
/-- The second conditional of the body (store the output block): the reduction coordinate is the last. -/
abbrev cond0_2 (i : grid0.Coords) : Prop := k0_cond2 i = 1#1

theorem hcond0_1 : ∀ t : Fin cfg0.N, cond0_1 (grid0.coords t) ↔ t.val % 25 = 0 :=
  (by decide +kernel : ∀ t : Fin grid0.N, cond0_1 (grid0.coords t) ↔ t.val % 25 = 0)
theorem hcond0_2 : ∀ t : Fin cfg0.N, cond0_2 (grid0.coords t) ↔ t.val % 25 = 24 :=
  (by decide +kernel : ∀ t : Fin grid0.N, cond0_2 (grid0.coords t) ↔ t.val % 25 = 24)

/-- The input windows are never idle; the output window is idle, and not written back, exactly where the second
    conditional fails. -/
theorem liveAt0_0 : ∀ t : Fin cfg0.N, cfg0.idle 0 (grid0.coords t) = false := by decide +kernel
theorem idleAt0_1 : ∀ t : Fin cfg0.N, ¬cond0_2 (grid0.coords t) → cfg0.idle 1 (grid0.coords t) = true := by decide +kernel
theorem noFlush0_1 : ∀ t : Fin cfg0.N, ¬cond0_2 (grid0.coords t) → (cfg0.win 1).flush t = false := by decide +kernel
theorem liveAt0_1 : ∀ t : Fin cfg0.N, cond0_2 (grid0.coords t) → cfg0.idle 1 (grid0.coords t) = false := by decide +kernel

theorem cover0_S (p0 : Vec F S1x1 .f32) (L : List (View.Piece (Elt F) S1x1 .f32)) (y : S1x1.Idx) :
    ∃ pc ∈ ((⟨rS0, p0⟩ : View.Piece (Elt F) S1x1 .f32) :: L), y ∈ pc.1.set :=
  ⟨_, List.mem_cons_self .., View.mem_set_unit_zero hz0 inb_S1x1_S1x1_0_0 y⟩

theorem cover0_O (p0 : Vec F S8x128 .f32) (L : List (View.Piece (Elt F) S8x128 .f32)) (y : S8x128.Idx) :
    ∃ pc ∈ ((⟨rOut0, p0⟩ : View.Piece (Elt F) S8x128 .f32) :: L), y ∈ pc.1.set :=
  ⟨_, List.mem_cons_self .., View.mem_set_unit_zero hz0 inb_S8x128_S8x128_0_0 y⟩

set_option maxHeartbeats 1000000 in
/-- The body where the accumulator is reset: whatever it held, it is set to zero and then takes the point's term. -/
theorem sound_kernel0_A (c : Dev nD) (E : Set ℕ) (i : grid0.Coords) (arg2 : Memref sig .tc .vmem S2000x256 .f32) (harg2 : arg2.IsWhole) (arg3 : Memref sig .tc .vmem S8x128 .f32) (harg3 : arg3.IsWhole) (arg4 : Memref sig .tc .vmem S1x1 .f32) (harg4 : arg4.IsWhole)
    (hc1 : cond0_1 i) (hc2 : ¬cond0_2 i)
    (x0 : Vec F S2000x256 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (k0_pay2 (View.ld x0 rIn0_0) k0_pay1)) -∗ K ⟨⟩))
      ⊢ wp frame (wpE (defs₀ (F := F)) Variants.none c none) E (cc0__sumsq_dualcore_kernel i arg2 harg2 arg3 harg3 arg4 harg4) K := by
  simp only [cc0__sumsq_dualcore_kernel_eq_skeleton]; unfold cc0__sumsq_dualcore_kernel_skel
  unfold owns
  iintro ⟨⟨%f0, %hf0, H0⟩, ⟨%dS, %fS, -, HS⟩, Hk⟩
  subst hf0
  sl_exec (disch := first | exact hc1 | exact hc2)
  sl_step
  iapply Hk
  isplitl [H0]
  · iexists f0; isplitr; · ipureintro; rfl
    iexact H0
  iexists _; isplitr
  swap; · iexact HS
  ipureintro
  sl_unfold_run_names
  refine (View.read_writes_eq_canon _ _ _ (cover0_S _ _)).trans ?_
  rw [View.canon_cons_unit_zero (S := S1x1) hz0, View.readCov_unit_zero (S := S1x1) _ hz0]
  rfl

set_option maxHeartbeats 1000000 in
/-- The body at a middle point: the accumulator takes the point's term on top of what it held. -/
theorem sound_kernel0_B (c : Dev nD) (E : Set ℕ) (i : grid0.Coords) (arg2 : Memref sig .tc .vmem S2000x256 .f32) (harg2 : arg2.IsWhole) (arg3 : Memref sig .tc .vmem S8x128 .f32) (harg3 : arg3.IsWhole) (arg4 : Memref sig .tc .vmem S1x1 .f32) (harg4 : arg4.IsWhole)
    (hc1 : ¬cond0_1 i) (hc2 : ¬cond0_2 i)
    (x0 : Vec F S2000x256 .f32) (xs : Vec F S1x1 .f32) (K : PUnit → sProp 𝕄) :
    iprop(owns (c : Thread nD τ) arg2 fullShare x0 ∗ owns (c : Thread nD τ) arg4 fullShare xs
        ∗ (iprop(owns (c : Thread nD τ) arg2 fullShare x0 ∗ owns (c : Thread nD τ) arg4 fullShare (k0_pay2 (View.ld x0 rIn0_0) xs)) -∗ K ⟨⟩))
      ⊢ wp frame (wpE (defs₀ (F := F)) Variants.none c none) E (cc0__sumsq_dualcore_kernel i arg2 harg2 arg3 harg3 arg4 harg4) K := by
  simp only [cc0__sumsq_dualcore_kernel_eq_skeleton]; unfold cc0__sumsq_dualcore_kernel_skel
  unfold owns
  iintro ⟨⟨%f0, %hf0, H0⟩, ⟨%fS, %hfS, HS⟩, Hk⟩
  subst hf0; subst hfS
  sl_exec (disch := first | exact hc1 | exact hc2)
  sl_step
  iapply Hk
  isplitl [H0]
  · iexists f0; isplitr; · ipureintro; rfl
    iexact H0
  iexists _; isplitr
  swap; · iexact HS
  ipureintro
  sl_unfold_run_names
  refine (View.read_writes_eq_canon _ _ _ (cover0_S _ _)).trans ?_
  rw [View.canon_cons_unit_zero (S := S1x1) hz0]
  simp only [View.readAt_eq_ld, View.ld_unit_zero (S := S1x1) hz0]

set_option maxHeartbeats 1000000 in
/-- The body at the last point of a reduction: the accumulator takes the point's term on top of what it held, and the
    output block is filled with the total. -/
theorem sound_kernel0_C (c : Dev nD) (E : Set ℕ) (i : grid0.Coords) (arg2 : Memref sig .tc .vmem S2000x256 .f32) (harg2 : arg2.IsWhole) (arg3 : Memref sig .tc .vmem S8x128 .f32) (harg3 : arg3.IsWhole) (arg4 : Memref sig .tc .vmem S1x1 .f32) (harg4 : arg4.IsWhole)
    (hc1 : ¬cond0_1 i) (hc2 : cond0_2 i)
    (x0 : Vec F S2000x256 .f32) (xs : Vec F S1x1 .f32) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (k0_pay2 (View.ld x0 rIn0_0) xs))
            ∗ owns (c : Thread nD τ) arg4 fullShare (k0_pay2 (View.ld x0 rIn0_0) xs)) -∗ K ⟨⟩))
      ⊢ wp frame (wpE (defs₀ (F := F)) Variants.none c none) E (cc0__sumsq_dualcore_kernel i arg2 harg2 arg3 harg3 arg4 harg4) K := by
  simp only [cc0__sumsq_dualcore_kernel_eq_skeleton]; unfold cc0__sumsq_dualcore_kernel_skel
  unfold owns
  iintro ⟨⟨%f0, %hf0, H0⟩, ⟨%dO, %fO, -, HO⟩, ⟨%fS, %hfS, HS⟩, Hk⟩
  subst hf0; subst hfS
  sl_exec (disch := first | exact hc1 | exact hc2)
  sl_step
  iapply Hk
  isplitl [H0]
  · iexists f0; isplitr; · ipureintro; rfl
    iexact H0
  isplitl [HO]
  · iexists _; isplitr
    swap; · iexact HO
    ipureintro
    sl_unfold_run_names
    refine (View.read_writes_eq_canon _ _ _ (cover0_O _ _)).trans ?_
    rw [View.canon_cons_unit_zero (S := S8x128) hz0, View.readCov_unit_zero (S := S1x1) _ hz0]
    simp only [View.readAt_eq_ld, View.ld_unit_zero (S := S1x1) hz0]
  iexists _; isplitr
  swap; · iexact HS
  ipureintro
  sl_unfold_run_names
  refine (View.read_writes_eq_canon _ _ _ (cover0_S _ _)).trans ?_
  rw [View.canon_cons_unit_zero (S := S1x1) hz0]
  simp only [View.readAt_eq_ld, View.ld_unit_zero (S := S1x1) hz0]

/-- The accumulator after point `n`: where it is reset, the point's term on top of zero; elsewhere the point's term on
    top of what the point before left. -/
def acc0 (c : Dev nD) : (n : ℕ) → n < cfg0.N → Vec F S1x1 .f32
  | 0, hn => k0_pay2 (View.ld (iblk0 V c 0 ⟨0, hn⟩) rIn0_0) k0_pay1
  | n + 1, hn =>
    if (n + 1) % 25 = 0 then k0_pay2 (View.ld (iblk0 V c 0 ⟨n + 1, hn⟩) rIn0_0) k0_pay1
    else k0_pay2 (View.ld (iblk0 V c 0 ⟨n + 1, hn⟩) rIn0_0) (acc0 c n (Nat.lt_of_succ_lt hn))

theorem acc0_first (c : Dev nD) (t : Fin cfg0.N) (h0 : t.val % 25 = 0) :
    acc0 V c t.val t.isLt = k0_pay2 (View.ld (iblk0 V c 0 t) rIn0_0) k0_pay1 := by
  obtain ⟨n, hn⟩ := t
  cases n with
  | zero => rfl
  | succ n => exact (if_pos h0).trans rfl

theorem acc0_later (c : Dev nD) (t : Fin cfg0.N) (h0 : ¬t.val % 25 = 0) :
    acc0 V c t.val t.isLt = k0_pay2 (View.ld (iblk0 V c 0 t) rIn0_0) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The scratch operand: a whole scoped buffer of the kernel's own. -/
abbrev scM0 : Memref sig .tc .vmem S1x1 .f32 := Memref.whole cc0_scratch0

/-- The class invariant with the scratch operand set apart, owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The invariant before position `n`: before the first point the class invariant; afterwards the same with the scratch
    at what the point before left in it. -/
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The launch's proof data: arrays as found; each input's buffer keeps its block; the output's block, where it is
    stored, is filled with the accumulator; the invariant carries the accumulator from point to point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d

/-- What a written-back output block holds: the accumulator after that point, at every entry (the block is written
    back at the last point of each of the two reductions). -/
theorem after0_out_last (c : Dev nD) (n : ℕ) (hn : n < cfg0.N) : (dat0 V c).after 1 ⟨n, hn⟩ = k0_pay3 (acc0 V c n hn) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by cases on the point: where the accumulator is reset, in the middle of a reduction, at its
    last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  have hN : t.val < 50 := lt_of_lt_of_eq t.isLt (show cfg0.N = 50 from N_0)
  rw [show (dat0 V c).leavesExact 0 t = owns (c : Thread nD τ) (st0_0 t) fullShare ((dat0 V c).after 0 t) from by
    unfold Dat.leavesExact; rw [liveAt0_0 t], after0_0]
  by_cases h0 : t.val % 25 = 0
  · have h7 : ¬cond0_2 (grid0.coords t) := fun h => by have := (hcond0_2 t).mp h; omega
    rw [Dat.leavesExact_idle (dat0 V c) 1 t (idleAt0_1 t h7) (noFlush0_1 t h7)]
    rw [acc0_first V c t h0]
    by_cases hz : t.val = 0
    · rw [Phi0_castSucc V c t, Phi0_zero V c _ _ hz, PhiA0_eq]
      iintro ⟨⟨⟨HS, Hr⟩, Hg⟩, Ho, ⟨%d0, H0⟩, ⟨%dO, HO⟩⟩
      iapply (sound_kernel0_A c Set.univ _ _ _ _ _ _ _ ((hcond0_1 t).mpr h0) h7 (iblk0 V c 0 t) _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact HO
    · rw [Phi0_castSucc V c t, Phi0_pos V c _ _ hz]
      iintro ⟨⟨⟨HS, Hr⟩, Hg⟩, Ho, ⟨%d0, H0⟩, ⟨%dO, HO⟩⟩
      iapply (sound_kernel0_A c Set.univ _ _ _ _ _ _ _ ((hcond0_1 t).mpr h0) h7 (iblk0 V c 0 t) _)
      isplitl [H0]; · iexact H0
      isplitl [HS]; · iexists _; iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact HO
  · have h1 : ¬cond0_1 (grid0.coords t) := fun h => h0 ((hcond0_1 t).mp h)
    have hz : ¬t.val = 0 := fun h => h0 (by rw [h])
    by_cases h7 : t.val % 25 = 24
    · have h2 : cond0_2 (grid0.coords t) := (hcond0_2 t).mpr h7
      rw [show (dat0 V c).leavesExact 1 t = owns (c : Thread nD τ) (st0_1 t) fullShare ((dat0 V c).after 1 t) from by
        unfold Dat.leavesExact; rw [liveAt0_1 t h2], after0_1]
      rw [Phi0_castSucc V c t, Phi0_pos V c _ _ hz, acc0_later V c t h0]
      iintro ⟨⟨⟨HS, Hr⟩, Hg⟩, Ho, ⟨%d0, H0⟩, ⟨%dO, HO⟩⟩
      iapply (sound_kernel0_C c Set.univ _ _ _ _ _ _ _ h1 h2 (iblk0 V c 0 t) _ _)
      isplitl [H0]; · iexact H0
      isplitl [HO]; · iexists _; iexact HO
      isplitl [HS]; · iexact HS
      iintro ⟨H0, HO, HS⟩
      isplitl [HS Hr Hg]
      · isplitl [HS Hr]
        · isplitl [HS]; · iexact HS
          iexact Hr
        iexact Hg
      isplitl [Ho]; · iexact Ho
      isplitl [H0]; · iexact H0
      iexact HO
    · have h2 : ¬cond0_2 (grid0.coords t) := fun h => h7 ((hcond0_2 t).mp h)
      rw [Dat.leavesExact_idle (dat0 V c) 1 t (idleAt0_1 t h2) (noFlush0_1 t h2)]
      rw [Phi0_castSucc V c t, Phi0_pos V c _ _ hz, acc0_later V c t h0]
      iintro ⟨⟨⟨HS, Hr⟩, Hg⟩, Ho, ⟨%d0, H0⟩, ⟨%dO, HO⟩⟩
      iapply (sound_kernel0_B c Set.univ _ _ _ _ _ _ _ h1 h2 (iblk0 V c 0 t) _ _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact HO

theorem body_obligation0 (c : Dev nD) : BodyObligation (dat0 (F := F) V c) (defs₀ (F := F)) Variants.none () Set.univ := fun t => by
  rw [bigSep_W0, bigSep_W0]
  exact sound_body0 V c t

/-- What the launch hands the body before the first point is the invariant there. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the class invariant back: the accumulator's contents forgotten. -/
theorem Phi0_out (c : Dev nD) (t : Fin (cfg0.N + 1)) (ht : t.val ≠ 0) : (dat0 V c).Φ t ⊢ (Pipeline.ΦA spec0 c : sProp 𝕄) := by
  rw [show (dat0 V c).Φ t = Phi0 V c t.val (Nat.le_of_lt_succ t.isLt) from rfl, Phi0_pos V c _ _ ht, PhiA0_eq]
  iintro ⟨⟨HS, Hr⟩, Hg⟩
  isplitl [HS Hr]
  · isplitl [HS]
    · iexists _; iexact HS
    iexact Hr
  iexact Hg

theorem hout0 (c : Dev nD) : (dat0 V c).Φ (Fin.last cfg0.N) ⊢ (Pipeline.ΦA spec0 c : sProp 𝕄) :=
  Phi0_out V c _ (by rw [Fin.val_last]; have : cfg0.N = 50 := N_0; omega)

end

end Cert.KernelIdeal.Hand

end
-- ==== Proof.KI.R1.lean ====
/-
  The second launch: the sum of squares of the relation table, one grid point.
  The body reads the whole 500×256 block, squares it entry by entry, sums each row's 256 squares, sums the 500 row
  sums, and stores that one number at every entry of its 8×128 output block. Stated at a parameter `V` (the buffers'
  contents when the launch is entered): the block each window holds, what the body leaves in the output block, the
  body's triple, and the per-point obligation of the launch theorem.
-/
import proofs.«166015_j17652315586942_2_alg».proof.Proof.Gen.KernelIdeal.Launch
import proofs.«166015_j17652315586942_2_alg».proof.Proof.Gen.KernelIdeal.Skeleton
import proofs.«166015_j17652315586942_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev rIn1 : Rect S500x256 := Rect.unit (s := S500x256) ![0, 0] S500x256.size inb_S500x256_S500x256_0_0
abbrev rOut1 : Rect S8x128 := Rect.unit (s := S8x128) ![0, 0] S8x128.size inb_S8x128_S8x128_0_0

/-- The output block after the body: every entry the sum of all squares of the input block. -/
def out1_1 (x0 : Vec F S500x256 .f32) : Vec F S8x128 .f32 :=
  View.canon [⟨rOut1, k1_pay1 (View.ld x0 rIn1)⟩]

theorem cover1_1 (p0 : Vec F S8x128 .f32) (y : S8x128.Idx) :
    ∃ pc ∈ ([⟨rOut1, p0⟩] : List (View.Piece (Elt F) S8x128 .f32)), y ∈ pc.1.set :=
  View.cover_of_tiled [⟨rOut1, p0⟩] S8x128.size (by rfl) y

set_option maxHeartbeats 1000000 in
/-- The body on whole staging buffers: the input's stays, the output's ends at `out1_1` of the input's. -/
theorem sound_kernel1 (c : Dev nD) (E : Set ℕ) (i : grid1.Coords) (arg0 : Memref sig .tc .vmem S500x256 .f32) (harg0 : arg0.IsWhole) (arg1 : Memref sig .tc .vmem S8x128 .f32) (harg1 : arg1.IsWhole)
    (x0 : Vec F S500x256 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__sumsq_kernel i arg0 harg0 arg1 harg1) K := by
  simp only [cc1__sumsq_kernel_eq_skeleton]; unfold cc1__sumsq_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The launch's proof data: arrays as found; the input's buffer keeps its block, the output's ends at `out1_1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.R2.lean ====
/-
  The third launch: the sum of the softplus of the negated positive scores, one grid point.
  The body reads the whole 256×128 block (the 32768 scores re-laid), takes softplus of minus each entry, sums each row's
  128 terms, sums the 256 row sums, and stores that one number at every entry of its 8×128 output block. Stated at a parameter `V` (the buffers'
  contents when the launch is entered): the block each window holds, what the body leaves in the output block, the
  body's triple, and the per-point obligation of the launch theorem.
-/
import proofs.«166015_j17652315586942_2_alg».proof.Proof.Gen.KernelIdeal.Launch
import proofs.«166015_j17652315586942_2_alg».proof.Proof.Gen.KernelIdeal.Skeleton
import proofs.«166015_j17652315586942_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev rIn2 : Rect S256x128 := Rect.unit (s := S256x128) ![0, 0] S256x128.size inb_S256x128_S256x128_0_0
abbrev rOut2 : Rect S8x128 := Rect.unit (s := S8x128) ![0, 0] S8x128.size inb_S8x128_S8x128_0_0

/-- The output block after the body: every entry the sum over the input block of softplus of minus the entry. -/
def out2_1 (x0 : Vec F S256x128 .f32) : Vec F S8x128 .f32 :=
  View.canon [⟨rOut2, k2_pay1 (View.ld x0 rIn2)⟩]

theorem cover2_1 (p0 : Vec F S8x128 .f32) (y : S8x128.Idx) :
    ∃ pc ∈ ([⟨rOut2, p0⟩] : List (View.Piece (Elt F) S8x128 .f32)), y ∈ pc.1.set :=
  View.cover_of_tiled [⟨rOut2, p0⟩] S8x128.size (by rfl) y

set_option maxHeartbeats 1000000 in
/-- The body on whole staging buffers: the input's stays, the output's ends at `out2_1` of the input's. -/
theorem sound_kernel2 (c : Dev nD) (E : Set ℕ) (i : grid2.Coords) (arg0 : Memref sig .tc .vmem S256x128 .f32) (harg0 : arg0.IsWhole) (arg1 : Memref sig .tc .vmem S8x128 .f32) (harg1 : arg1.IsWhole)
    (x0 : Vec F S256x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__pos_loss_kernel i arg0 harg0 arg1 harg1) K := by
  simp only [cc2__pos_loss_kernel_eq_skeleton]; unfold cc2__pos_loss_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The launch's proof data: arrays as found; the input's buffer keeps its block, the output's ends at `out2_1`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.R3.lean ====
/-
  The fourth launch: the softplus loss over the negative scores, a grid of eight points.
  The kernel keeps a one-entry accumulator from point to point: at the first point it is reset to zero; at every point
  it takes, on top of what it holds, the sum over the point's 4096×64 block of the softplus of each entry (row sums,
  then the sum of the row sums); at the last point its value is stored at every entry of the 8×128 output block, which
  is written back there and only there. Stated at a parameter `V` (the buffers' contents when the launch is entered):
  the block the input window holds at each point, the accumulator after each point as a recursion over the points,
  the body's triple in its three cases (first, middle, last point), the invariant that carries the accumulator between
  points, and the per-point obligation of the launch theorem.
-/
import proofs.«166015_j17652315586942_2_alg».proof.Proof.Gen.KernelIdeal.Launch
import proofs.«166015_j17652315586942_2_alg».proof.Proof.Gen.KernelIdeal.Skeleton
import proofs.«166015_j17652315586942_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

abbrev rIn3 : Rect S4096x64 := Rect.unit (s := S4096x64) ![0, 0] S4096x64.size inb_S4096x64_S4096x64_0_0
abbrev rS3 : Rect S1x1 := Rect.unit (s := S1x1) ![0, 0] S1x1.size inb_S1x1_S1x1_0_0
abbrev rOut3 : Rect S8x128 := Rect.unit (s := S8x128) ![0, 0] S8x128.size inb_S8x128_S8x128_0_0

/-- The offsets of a whole-buffer rectangle of rank two are all zero. -/
theorem hz3 : (![0, 0] : Fin 2 → Nat) = fun _ => 0 := funext fun a => by fin_cases a <;> rfl

/-- The first conditional of the body (reset the accumulator): the grid coordinate is 0. -/
abbrev cond3_1 (i : grid3.Coords) : Prop := (Scalar.cmpi .ne (Scalar.extui (Scalar.cmpi .eq (BitVec.ofNat 32 (i 0).val) 0#32)) 0#32) = 1#1
/-- The second conditional of the body (store the output block): the grid coordinate is 7. -/
abbrev cond3_2 (i : grid3.Coords) : Prop := k3_cond2 i = 1#1

theorem hcond3_1 : ∀ t : Fin cfg3.N, cond3_1 (grid3.coords t) ↔ t.val = 0 :=
  (by decide +kernel : ∀ t : Fin grid3.N, cond3_1 (grid3.coords t) ↔ t.val = 0)
theorem hcond3_2 : ∀ t : Fin cfg3.N, cond3_2 (grid3.coords t) ↔ t.val = 7 :=
  (by decide +kernel : ∀ t : Fin grid3.N, cond3_2 (grid3.coords t) ↔ t.val = 7)

/-- The input window is never idle; the output window is idle, and not written back, exactly where the second
    conditional fails. -/
theorem liveAt3_0 : ∀ t : Fin cfg3.N, cfg3.idle 0 (grid3.coords t) = false := by decide +kernel
theorem idleAt3_1 : ∀ t : Fin cfg3.N, ¬cond3_2 (grid3.coords t) → cfg3.idle 1 (grid3.coords t) = true := by decide +kernel
theorem noFlush3_1 : ∀ t : Fin cfg3.N, ¬cond3_2 (grid3.coords t) → (cfg3.win 1).flush t = false := by decide +kernel
theorem liveAt3_1 : ∀ t : Fin cfg3.N, cond3_2 (grid3.coords t) → cfg3.idle 1 (grid3.coords t) = false := by decide +kernel

theorem cover3_S (p0 : Vec F S1x1 .f32) (L : List (View.Piece (Elt F) S1x1 .f32)) (y : S1x1.Idx) :
    ∃ pc ∈ ((⟨rS3, p0⟩ : View.Piece (Elt F) S1x1 .f32) :: L), y ∈ pc.1.set :=
  ⟨_, List.mem_cons_self .., View.mem_set_unit_zero hz3 inb_S1x1_S1x1_0_0 y⟩

theorem cover3_O (p0 : Vec F S8x128 .f32) (L : List (View.Piece (Elt F) S8x128 .f32)) (y : S8x128.Idx) :
    ∃ pc ∈ ((⟨rOut3, p0⟩ : View.Piece (Elt F) S8x128 .f32) :: L), y ∈ pc.1.set :=
  ⟨_, List.mem_cons_self .., View.mem_set_unit_zero hz3 inb_S8x128_S8x128_0_0 y⟩

set_option maxHeartbeats 1000000 in
/-- The body at the first point: the accumulator, whatever it held, is reset to zero and then takes the block's sum. -/
theorem sound_kernel3_A (c : Dev nD) (E : Set ℕ) (i : grid3.Coords) (arg1 : Memref sig .tc .vmem S4096x64 .f32) (harg1 : arg1.IsWhole)
    (arg2 : Memref sig .tc .vmem S8x128 .f32) (harg2 : arg2.IsWhole) (arg3 : Memref sig .tc .vmem S1x1 .f32) (harg3 : arg3.IsWhole)
    (hc1 : cond3_1 i) (hc2 : ¬cond3_2 i)
    (x0 : Vec F S4096x64 .f32) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k3_pay2 (View.ld x0 rIn3) k3_pay1)) -∗ K ⟨⟩))
      ⊢ wp frame (wpE (defs₀ (F := F)) Variants.none c none) E (cc3__neg_loss_kernel i arg1 harg1 arg2 harg2 arg3 harg3) K := by
  simp only [cc3__neg_loss_kernel_eq_skeleton]; unfold cc3__neg_loss_kernel_skel
  unfold owns
  iintro ⟨⟨%f0, %hf0, H0⟩, ⟨%d3, %f3, -, H3⟩, Hk⟩
  subst hf0
  sl_exec (disch := first | exact hc1 | exact hc2)
  sl_step
  iapply Hk
  isplitl [H0]
  · iexists f0; isplitr; · ipureintro; rfl
    iexact H0
  iexists _; isplitr
  swap; · iexact H3
  ipureintro
  sl_unfold_run_names
  refine (View.read_writes_eq_canon _ _ _ (cover3_S _ _)).trans ?_
  rw [View.canon_cons_unit_zero (S := S1x1) hz3, View.readCov_unit_zero (S := S1x1) _ hz3]
  rfl

set_option maxHeartbeats 1000000 in
/-- The body at a middle point: the accumulator takes the block's sum on top of what it held. -/
theorem sound_kernel3_B (c : Dev nD) (E : Set ℕ) (i : grid3.Coords) (arg1 : Memref sig .tc .vmem S4096x64 .f32) (harg1 : arg1.IsWhole)
    (arg2 : Memref sig .tc .vmem S8x128 .f32) (harg2 : arg2.IsWhole) (arg3 : Memref sig .tc .vmem S1x1 .f32) (harg3 : arg3.IsWhole)
    (hc1 : ¬cond3_1 i) (hc2 : ¬cond3_2 i)
    (x0 : Vec F S4096x64 .f32) (xs : Vec F S1x1 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k3_pay2 (View.ld x0 rIn3) xs)) -∗ K ⟨⟩))
      ⊢ wp frame (wpE (defs₀ (F := F)) Variants.none c none) E (cc3__neg_loss_kernel i arg1 harg1 arg2 harg2 arg3 harg3) K := by
  simp only [cc3__neg_loss_kernel_eq_skeleton]; unfold cc3__neg_loss_kernel_skel
  unfold owns
  iintro ⟨⟨%f0, %hf0, H0⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  iexists _; isplitr
  swap; · iexact H3
  ipureintro
  sl_unfold_run_names
  refine (View.read_writes_eq_canon _ _ _ (cover3_S _ _)).trans ?_
  rw [View.canon_cons_unit_zero (S := S1x1) hz3]
  simp only [View.readAt_eq_ld, View.ld_unit_zero (S := S1x1) hz3]

set_option maxHeartbeats 1000000 in
/-- The body at the last point: the accumulator takes the block's sum on top of what it held, and the output block is
    filled with the total. -/
theorem sound_kernel3_C (c : Dev nD) (E : Set ℕ) (i : grid3.Coords) (arg1 : Memref sig .tc .vmem S4096x64 .f32) (harg1 : arg1.IsWhole)
    (arg2 : Memref sig .tc .vmem S8x128 .f32) (harg2 : arg2.IsWhole) (arg3 : Memref sig .tc .vmem S1x1 .f32) (harg3 : arg3.IsWhole)
    (hc1 : ¬cond3_1 i) (hc2 : cond3_2 i)
    (x0 : Vec F S4096x64 .f32) (xs : Vec F S1x1 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k3_pay3 (k3_pay2 (View.ld x0 rIn3) xs))
            ∗ owns (c : Thread nD τ) arg3 fullShare (k3_pay2 (View.ld x0 rIn3) xs)) -∗ K ⟨⟩))
      ⊢ wp frame (wpE (defs₀ (F := F)) Variants.none c none) E (cc3__neg_loss_kernel i arg1 harg1 arg2 harg2 arg3 harg3) K := by
  simp only [cc3__neg_loss_kernel_eq_skeleton]; unfold cc3__neg_loss_kernel_skel
  unfold owns
  iintro ⟨⟨%f0, %hf0, H0⟩, ⟨%d2, %f2, -, H2⟩, ⟨%f3, %hf3, H3⟩, Hk⟩
  subst hf0; subst hf3
  sl_exec (disch := first | exact hc1 | exact hc2)
  sl_step
  iapply Hk
  isplitl [H0]
  · iexists f0; isplitr; · ipureintro; rfl
    iexact H0
  isplitl [H2]
  · iexists _; isplitr
    swap; · iexact H2
    ipureintro
    sl_unfold_run_names
    refine (View.read_writes_eq_canon _ _ _ (cover3_O _ _)).trans ?_
    rw [View.canon_cons_unit_zero (S := S8x128) hz3, View.readCov_unit_zero (S := S1x1) _ hz3]
    simp only [View.readAt_eq_ld, View.ld_unit_zero (S := S1x1) hz3]
  iexists _; isplitr
  swap; · iexact H3
  ipureintro
  sl_unfold_run_names
  refine (View.read_writes_eq_canon _ _ _ (cover3_S _ _)).trans ?_
  rw [View.canon_cons_unit_zero (S := S1x1) hz3]
  simp only [View.readAt_eq_ld, View.ld_unit_zero (S := S1x1) hz3]

/-- The accumulator after point `n`: at the first point the block's sum on top of zero, afterwards the block's sum on
    top of what the point before left. -/
def acc3 (c : Dev nD) : (n : ℕ) → n < cfg3.N → Vec F S1x1 .f32
  | 0, hn => k3_pay2 (View.ld (iblk3 V c 0 ⟨0, hn⟩) rIn3) k3_pay1
  | n + 1, hn => k3_pay2 (View.ld (iblk3 V c 0 ⟨n + 1, hn⟩) rIn3) (acc3 c n (Nat.lt_of_succ_lt hn))

theorem acc3_zero (c : Dev nD) (t : Fin cfg3.N) (h0 : t.val = 0) :
    acc3 V c t.val t.isLt = k3_pay2 (View.ld (iblk3 V c 0 t) rIn3) k3_pay1 := by
  obtain ⟨n, hn⟩ := t
  cases n with
  | zero => rfl
  | succ n => exact absurd h0 (Nat.succ_ne_zero n)

theorem acc3_pos (c : Dev nD) (t : Fin cfg3.N) (h0 : t.val ≠ 0) :
    acc3 V c t.val t.isLt = k3_pay2 (View.ld (iblk3 V c 0 t) rIn3) (acc3 V c (t.val - 1) (Nat.lt_of_le_of_lt (Nat.sub_le _ _) t.isLt)) := by
  obtain ⟨n, hn⟩ := t
  cases n with
  | zero => exact absurd rfl h0
  | succ n => rfl

/-- The scratch operand: a whole scoped buffer of the kernel's own. -/
abbrev scM3 : Memref sig .tc .vmem S1x1 .f32 := Memref.whole cc3_scratch0

/-- The class invariant with the scratch operand set apart, owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The invariant before position `n`: before the first point the class invariant; afterwards the same with the scratch
    at what the point before left in it. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The launch's proof data: arrays as found; the input's buffer keeps its block; the output's block, where it is
    stored, is filled with the accumulator; the invariant carries the accumulator from point to point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => k3_pay3 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = k3_pay3 (acc3 V c t.val t.isLt) := by dsimp only [dat3]
theorem before3_0 (c : Dev nD) (t : Fin cfg3.N) (d) : (dat3 V c).before 0 t d = iblk3 V c 0 t :=
  before3_0_of V (dat3 V c) (A_eq3 V c 0) (after3_0 V c) t d

/-- What the written-back output block holds: the accumulator after the last point, at every entry. -/
theorem after3_out_last (c : Dev nD) : (dat3 V c).after 1 t3_7 = k3_pay3 (acc3 V c 7 t3_7.isLt) := by
  dsimp only [dat3]; rfl

theorem Phi3_castSucc (c : Dev nD) (t : Fin cfg3.N) :
    (dat3 V c).Φ t.castSucc = Phi3 V c t.val (Nat.le_of_lt t.isLt) := by
  dsimp only [dat3]; simp only [Fin.coe_castSucc]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4000000 in
/-- The body at any point, by cases on the point: first, middle, last. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) t.isLt from rfl, Phi3_succ]
  have hN : t.val < 8 := lt_of_lt_of_eq t.isLt (show cfg3.N = 8 from N_3)
  rw [show (dat3 V c).leavesExact 0 t = owns (c : Thread nD τ) (st3_0 t) fullShare ((dat3 V c).after 0 t) from by
    unfold Dat.leavesExact; rw [liveAt3_0 t], after3_0]
  by_cases h0 : t.val = 0
  · have h7 : ¬cond3_2 (grid3.coords t) := fun h => by have := (hcond3_2 t).mp h; omega
    rw [Dat.leavesExact_idle (dat3 V c) 1 t (idleAt3_1 t h7) (noFlush3_1 t h7)]
    rw [Phi3_castSucc V c t, Phi3_zero V c _ _ h0, PhiA3_eq, acc3_zero V c t h0]
    iintro ⟨⟨⟨HS, Hr⟩, Hg⟩, Ho, ⟨%d0, H0⟩, ⟨%d1, H1⟩⟩
    iapply (sound_kernel3_A c Set.univ _ _ _ _ _ _ _ ((hcond3_1 t).mpr h0) h7 (iblk3 V c 0 t) _)
    isplitl [H0]; · iexact H0
    isplitl [HS]; · iexact HS
    iintro ⟨H0, HS⟩
    isplitl [HS Hr Hg]
    · isplitl [HS Hr]
      · isplitl [HS]; · iexact HS
        iexact Hr
      iexact Hg
    isplitl [Ho]; · iexact Ho
    isplitl [H0]; · iexact H0
    iexists _; iexact H1
  · have h1 : ¬cond3_1 (grid3.coords t) := fun h => h0 ((hcond3_1 t).mp h)
    by_cases h7 : t.val = 7
    · have h2 : cond3_2 (grid3.coords t) := (hcond3_2 t).mpr h7
      rw [show (dat3 V c).leavesExact 1 t = owns (c : Thread nD τ) (st3_1 t) fullShare ((dat3 V c).after 1 t) from by
        unfold Dat.leavesExact; rw [liveAt3_1 t h2], after3_1]
      rw [Phi3_castSucc V c t, Phi3_pos V c _ _ h0, acc3_pos V c t h0]
      iintro ⟨⟨⟨HS, Hr⟩, Hg⟩, Ho, ⟨%d0, H0⟩, ⟨%d1, H1⟩⟩
      iapply (sound_kernel3_C c Set.univ _ _ _ _ _ _ _ h1 h2 (iblk3 V c 0 t) _ _)
      isplitl [H0]; · iexact H0
      isplitl [H1]; · iexists _; iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
    · have h2 : ¬cond3_2 (grid3.coords t) := fun h => h7 ((hcond3_2 t).mp h)
      rw [Dat.leavesExact_idle (dat3 V c) 1 t (idleAt3_1 t h2) (noFlush3_1 t h2)]
      rw [Phi3_castSucc V c t, Phi3_pos V c _ _ h0, acc3_pos V c t h0]
      iintro ⟨⟨⟨HS, Hr⟩, Hg⟩, Ho, ⟨%d0, H0⟩, ⟨%d1, H1⟩⟩
      iapply (sound_kernel3_B c Set.univ _ _ _ _ _ _ _ h1 h2 (iblk3 V c 0 t) _ _)
      isplitl [H0]; · iexact H0
      isplitl [HS]; · iexact HS
      iintro ⟨H0, HS⟩
      isplitl [HS Hr Hg]
      · isplitl [HS Hr]
        · isplitl [HS]; · iexact HS
          iexact Hr
        iexact Hg
      isplitl [Ho]; · iexact Ho
      isplitl [H0]; · iexact H0
      iexists _; iexact H1

theorem body_obligation3 (c : Dev nD) : BodyObligation (dat3 (F := F) V c) (defs₀ (F := F)) Variants.none () Set.univ := fun t => by
  rw [bigSep_W3, bigSep_W3]
  exact sound_body3 V c t

/-- What the launch hands the body before the first point is the invariant there. -/
theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the class invariant back: the accumulator's contents forgotten. -/
theorem Phi3_out (c : Dev nD) (t : Fin (cfg3.N + 1)) (ht : t.val ≠ 0) : (dat3 V c).Φ t ⊢ (Pipeline.ΦA spec3 c : sProp 𝕄) := by
  rw [show (dat3 V c).Φ t = Phi3 V c t.val (Nat.le_of_lt_succ t.isLt) from rfl, Phi3_pos V c _ _ ht, PhiA3_eq]
  iintro ⟨⟨HS, Hr⟩, Hg⟩
  isplitl [HS Hr]
  · isplitl [HS]
    · iexists _; iexact HS
    iexact Hr
  iexact Hg

theorem hout3 (c : Dev nD) : (dat3 V c).Φ (Fin.last cfg3.N) ⊢ (Pipeline.ΦA spec3 c : sProp 𝕄) :=
  Phi3_out V c _ (by rw [Fin.val_last]; have : cfg3.N = 8 := N_3; omega)

end

end Cert.KernelIdeal.Hand

end
-- ==== Proof.KI.R4.lean ====
/-
  The fifth launch: the per-rule contributions, eight grid points, every window a 256×128 block of a 2048×128 array.
  At each point the body reads its four input blocks (the two rule scores, the confidences, the triple counts) and stores,
  entry by entry, confidence · sigmoid(first score) · (sigmoid(second score) where the count is 3, else 1) into the output
  block; nothing is kept between points. Stated at a parameter `V` (the buffers' contents when the launch is entered).
-/
import proofs.«166015_j17652315586942_2_alg».proof.Proof.Gen.KernelIdeal.Launch
import proofs.«166015_j17652315586942_2_alg».proof.Proof.Gen.KernelIdeal.Skeleton
import proofs.«166015_j17652315586942_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4 : Rect S256x128 := Rect.unit (s := S256x128) ![0, 0] S256x128.size inb_S256x128_S256x128_0_0

/-- The output block after the body, from the four input blocks. -/
def out4_4 (x0 : Vec F S256x128 .f32) (x1 : Vec F S256x128 .f32) (x2 : Vec F S256x128 .f32) (x3 : Vec F S256x128 .i32) : Vec F S256x128 .f32 :=
  View.canon [⟨r4, k4_pay1 (View.ld x0 r4) (View.ld x1 r4) (View.ld x3 r4) (View.ld x2 r4)⟩]

theorem cover4_4 (p0 : Vec F S256x128 .f32) (y : S256x128.Idx) :
    ∃ pc ∈ ([⟨r4, p0⟩] : List (View.Piece (Elt F) S256x128 .f32)), y ∈ pc.1.set :=
  View.cover_of_tiled [⟨r4, p0⟩] S256x128.size (by rfl) y

set_option maxHeartbeats 1000000 in
/-- The body on whole staging buffers: the inputs' stay, the output's ends at `out4_4` of the inputs'. -/
theorem sound_kernel4 (c : Dev nD) (E : Set ℕ) (i : grid4.Coords)
    (arg0 : Memref sig .tc .vmem S256x128 .f32) (harg0 : arg0.IsWhole) (arg1 : Memref sig .tc .vmem S256x128 .f32) (harg1 : arg1.IsWhole)
    (arg2 : Memref sig .tc .vmem S256x128 .f32) (harg2 : arg2.IsWhole) (arg3 : Memref sig .tc .vmem S256x128 .i32) (harg3 : arg3.IsWhole)
    (arg4 : Memref sig .tc .vmem S256x128 .f32) (harg4 : arg4.IsWhole)
    (x0 : Vec F S256x128 .f32) (x1 : Vec F S256x128 .f32) (x2 : Vec F S256x128 .f32) (x3 : Vec F S256x128 .i32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__rule_contrib_kernel i arg0 harg0 arg1 harg1 arg2 harg2 arg3 harg3 arg4 harg4) K := by
  simp only [cc4__rule_contrib_kernel_eq_skeleton]; unfold cc4__rule_contrib_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The launch's proof data: arrays as found; each input's buffer keeps its block, the output's ends at `out4_4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KI.R5.lean ====
/-
  The sixth launch: the cross-entropy loss over the unlabelled triples, a grid of four points.
  The kernel keeps a one-entry accumulator from point to point: at the first point it is reset to zero; at every point
  it takes, on top of what it holds, the sum over the point's two 256×128 blocks (scores and prior) of each entry's
  cross-entropy term against the clipped target (row sums, then the sum of the row sums); at the last point its value is
  stored at every entry of the 8×128 output block, which is written back there and only there. Stated at a parameter
  `V` (the buffers' contents when the launch is entered): the blocks the input windows hold at each point, the
  accumulator after each point as a recursion over the points, the body's triple in its three cases (first, middle, last
  point), the invariant that carries the accumulator between points, and the per-point obligation of the launch theorem.
-/
import proofs.«166015_j17652315586942_2_alg».proof.Proof.Gen.KernelIdeal.Launch
import proofs.«166015_j17652315586942_2_alg».proof.Proof.Gen.KernelIdeal.Skeleton
import proofs.«166015_j17652315586942_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev rIn5_0 : Rect S256x128 := Rect.unit (s := S256x128) ![0, 0] S256x128.size inb_S256x128_S256x128_0_0
abbrev rIn5_1 : Rect S256x128 := Rect.unit (s := S256x128) ![0, 0] S256x128.size inb_S256x128_S256x128_0_0
abbrev rS5 : Rect S1x1 := Rect.unit (s := S1x1) ![0, 0] S1x1.size inb_S1x1_S1x1_0_0
abbrev rOut5 : Rect S8x128 := Rect.unit (s := S8x128) ![0, 0] S8x128.size inb_S8x128_S8x128_0_0

/-- The offsets of a whole-buffer rectangle of rank two are all zero. -/
theorem hz5 : (![0, 0] : Fin 2 → Nat) = fun _ => 0 := funext fun a => by fin_cases a <;> rfl

/-- The first conditional of the body (reset the accumulator): the reduction coordinate is 0. -/
abbrev cond5_1 (i : grid5.Coords) : Prop := (Scalar.cmpi .ne (Scalar.extui (Scalar.cmpi .eq (BitVec.ofNat 32 (i 0).val) 0#32)) 0#32) = 1#1
/-- The second conditional of the body (store the output block): the reduction coordinate is the last. -/
abbrev cond5_2 (i : grid5.Coords) : Prop := k5_cond2 i = 1#1

theorem hcond5_1 : ∀ t : Fin cfg5.N, cond5_1 (grid5.coords t) ↔ t.val = 0 :=
  (by decide +kernel : ∀ t : Fin grid5.N, cond5_1 (grid5.coords t) ↔ t.val = 0)
theorem hcond5_2 : ∀ t : Fin cfg5.N, cond5_2 (grid5.coords t) ↔ t.val = 3 :=
  (by decide +kernel : ∀ t : Fin grid5.N, cond5_2 (grid5.coords t) ↔ t.val = 3)

/-- The input windows are never idle; the output window is idle, and not written back, exactly where the second
    conditional fails. -/
theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_2 (grid5.coords t) → cfg5.idle 2 (grid5.coords t) = true := by decide +kernel
theorem noFlush5_2 : ∀ t : Fin cfg5.N, ¬cond5_2 (grid5.coords t) → (cfg5.win 2).flush t = false := by decide +kernel
theorem liveAt5_2 : ∀ t : Fin cfg5.N, cond5_2 (grid5.coords t) → cfg5.idle 2 (grid5.coords t) = false := by decide +kernel

theorem cover5_S (p0 : Vec F S1x1 .f32) (L : List (View.Piece (Elt F) S1x1 .f32)) (y : S1x1.Idx) :
    ∃ pc ∈ ((⟨rS5, p0⟩ : View.Piece (Elt F) S1x1 .f32) :: L), y ∈ pc.1.set :=
  ⟨_, List.mem_cons_self .., View.mem_set_unit_zero hz5 inb_S1x1_S1x1_0_0 y⟩

theorem cover5_O (p0 : Vec F S8x128 .f32) (L : List (View.Piece (Elt F) S8x128 .f32)) (y : S8x128.Idx) :
    ∃ pc ∈ ((⟨rOut5, p0⟩ : View.Piece (Elt F) S8x128 .f32) :: L), y ∈ pc.1.set :=
  ⟨_, List.mem_cons_self .., View.mem_set_unit_zero hz5 inb_S8x128_S8x128_0_0 y⟩

/-- One point's update of the accumulator: the sum over the block of the unlabelled triples' cross-entropy terms, computed
    from the two input blocks, on top of `a`. -/
def step5 (x0 x1 : Vec F S256x128 .f32) (a : Vec F S1x1 .f32) : Vec F S1x1 .f32 :=
  k5_pay1 (k5_pay6 x0 x1) (k5_pay7 x0 x1) (k5_pay8 x0) (k5_pay10 x0) (k5_pay11 x0) (k5_pay12 x0) a

set_option maxHeartbeats 1000000 in
/-- The body where the accumulator is reset: whatever it held, it is set to zero and then takes the point's term. -/
theorem sound_kernel5_A (c : Dev nD) (E : Set ℕ) (i : grid5.Coords) (arg1 : Memref sig .tc .vmem S256x128 .f32) (harg1 : arg1.IsWhole) (arg2 : Memref sig .tc .vmem S256x128 .f32) (harg2 : arg2.IsWhole) (arg3 : Memref sig .tc .vmem S8x128 .f32) (harg3 : arg3.IsWhole) (arg4 : Memref sig .tc .vmem S1x1 .f32) (harg4 : arg4.IsWhole)
    (hc1 : cond5_1 i) (hc2 : ¬cond5_2 i)
    (x0 : Vec F S256x128 .f32) (x1 : Vec F S256x128 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (step5 (View.ld x0 rIn5_0) (View.ld x1 rIn5_1) k5_pay3)) -∗ K ⟨⟩))
      ⊢ wp frame (wpE (defs₀ (F := F)) Variants.none c none) E (cc5__unlabel_loss_kernel i arg1 harg1 arg2 harg2 arg3 harg3 arg4 harg4) K := by
  simp only [cc5__unlabel_loss_kernel_eq_skeleton]; unfold cc5__unlabel_loss_kernel_skel
  simp only [k5_part1_eq_skeleton]
  unfold owns
  iintro ⟨⟨%f0, %hf0, H0⟩, ⟨%f1, %hf1, H1⟩, ⟨%dS, %fS, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (View.read_writes_eq_canon _ _ _ (cover5_S _ _)).trans ?_
  rw [View.canon_cons_unit_zero (S := S1x1) hz5, View.readCov_unit_zero (S := S1x1) _ hz5]
  rfl

set_option maxHeartbeats 1000000 in
/-- The body at a middle point: the accumulator takes the point's term on top of what it held. -/
theorem sound_kernel5_B (c : Dev nD) (E : Set ℕ) (i : grid5.Coords) (arg1 : Memref sig .tc .vmem S256x128 .f32) (harg1 : arg1.IsWhole) (arg2 : Memref sig .tc .vmem S256x128 .f32) (harg2 : arg2.IsWhole) (arg3 : Memref sig .tc .vmem S8x128 .f32) (harg3 : arg3.IsWhole) (arg4 : Memref sig .tc .vmem S1x1 .f32) (harg4 : arg4.IsWhole)
    (hc1 : ¬cond5_1 i) (hc2 : ¬cond5_2 i)
    (x0 : Vec F S256x128 .f32) (x1 : Vec F S256x128 .f32) (xs : Vec F S1x1 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1 ∗ owns (c : Thread nD τ) arg4 fullShare (step5 (View.ld x0 rIn5_0) (View.ld x1 rIn5_1) xs)) -∗ K ⟨⟩))
      ⊢ wp frame (wpE (defs₀ (F := F)) Variants.none c none) E (cc5__unlabel_loss_kernel i arg1 harg1 arg2 harg2 arg3 harg3 arg4 harg4) K := by
  simp only [cc5__unlabel_loss_kernel_eq_skeleton]; unfold cc5__unlabel_loss_kernel_skel
  simp only [k5_part1_eq_skeleton]
  unfold owns
  iintro ⟨⟨%f0, %hf0, H0⟩, ⟨%f1, %hf1, H1⟩, ⟨%fS, %hfS, HS⟩, Hk⟩
  subst hf0; subst hf1; subst hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (View.read_writes_eq_canon _ _ _ (cover5_S _ _)).trans ?_
  rw [View.canon_cons_unit_zero (S := S1x1) hz5]
  simp only [step5, View.readAt_eq_ld, View.ld_unit_zero (S := S1x1) hz5]

set_option maxHeartbeats 1000000 in
/-- The body at the last point of a reduction: the accumulator takes the point's term on top of what it held, and the
    output block is filled with the total. -/
theorem sound_kernel5_C (c : Dev nD) (E : Set ℕ) (i : grid5.Coords) (arg1 : Memref sig .tc .vmem S256x128 .f32) (harg1 : arg1.IsWhole) (arg2 : Memref sig .tc .vmem S256x128 .f32) (harg2 : arg2.IsWhole) (arg3 : Memref sig .tc .vmem S8x128 .f32) (harg3 : arg3.IsWhole) (arg4 : Memref sig .tc .vmem S1x1 .f32) (harg4 : arg4.IsWhole)
    (hc1 : ¬cond5_1 i) (hc2 : cond5_2 i)
    (x0 : Vec F S256x128 .f32) (x1 : Vec F S256x128 .f32) (xs : Vec F S1x1 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k5_pay2 (step5 (View.ld x0 rIn5_0) (View.ld x1 rIn5_1) xs))
            ∗ owns (c : Thread nD τ) arg4 fullShare (step5 (View.ld x0 rIn5_0) (View.ld x1 rIn5_1) xs)) -∗ K ⟨⟩))
      ⊢ wp frame (wpE (defs₀ (F := F)) Variants.none c none) E (cc5__unlabel_loss_kernel i arg1 harg1 arg2 harg2 arg3 harg3 arg4 harg4) K := by
  simp only [cc5__unlabel_loss_kernel_eq_skeleton]; unfold cc5__unlabel_loss_kernel_skel
  simp only [k5_part1_eq_skeleton]
  unfold owns
  iintro ⟨⟨%f0, %hf0, H0⟩, ⟨%f1, %hf1, H1⟩, ⟨%dO, %fO, -, HO⟩, ⟨%fS, %hfS, HS⟩, Hk⟩
  subst hf0; subst hf1; subst hfS
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_run_names
    refine (View.read_writes_eq_canon _ _ _ (cover5_O _ _)).trans ?_
    rw [View.canon_cons_unit_zero (S := S8x128) hz5, View.readCov_unit_zero (S := S1x1) _ hz5]
    simp only [step5, View.readAt_eq_ld, View.ld_unit_zero (S := S1x1) hz5]
  iexists _; isplitr
  swap; · iexact HS
  ipureintro
  sl_unfold_run_names
  refine (View.read_writes_eq_canon _ _ _ (cover5_S _ _)).trans ?_
  rw [View.canon_cons_unit_zero (S := S1x1) hz5]
  simp only [step5, View.readAt_eq_ld, View.ld_unit_zero (S := S1x1) hz5]

/-- The accumulator after point `n`: where it is reset, the point's term on top of zero; elsewhere the point's term on
    top of what the point before left. -/
def acc5 (c : Dev nD) : (n : ℕ) → n < cfg5.N → Vec F S1x1 .f32
  | 0, hn => step5 (View.ld (iblk5 V c 0 ⟨0, hn⟩) rIn5_0) (View.ld (iblk5 V c 1 ⟨0, hn⟩) rIn5_1) k5_pay3
  | n + 1, hn => step5 (View.ld (iblk5 V c 0 ⟨n + 1, hn⟩) rIn5_0) (View.ld (iblk5 V c 1 ⟨n + 1, hn⟩) rIn5_1) (acc5 c n (Nat.lt_of_succ_lt hn))

theorem acc5_first (c : Dev nD) (t : Fin cfg5.N) (h0 : t.val = 0) :
    acc5 V c t.val t.isLt = step5 (View.ld (iblk5 V c 0 t) rIn5_0) (View.ld (iblk5 V c 1 t) rIn5_1) k5_pay3 := by
  obtain ⟨n, hn⟩ := t
  cases n with
  | zero => rfl
  | succ n => exact absurd h0 (Nat.succ_ne_zero n)

theorem acc5_later (c : Dev nD) (t : Fin cfg5.N) (h0 : ¬t.val = 0) :
    acc5 V c t.val t.isLt = step5 (View.ld (iblk5 V c 0 t) rIn5_0) (View.ld (iblk5 V c 1 t) rIn5_1) (acc5 V c (t.val - 1) (Nat.lt_of_le_of_lt (Nat.sub_le _ _) t.isLt)) := by
  obtain ⟨n, hn⟩ := t
  cases n with
  | zero => exact absurd rfl h0
  | succ n => rfl

/-- The scratch operand: a whole scoped buffer of the kernel's own. -/
abbrev scM5 : Memref sig .tc .vmem S1x1 .f32 := Memref.whole cc5_scratch0

/-- The scoped rest split at the call's own scratch operand; the remainder unopened. -/
theorem scopedRest5_split' (c : Dev nD) :
    (Pipeline.scopedRest (Ix := Unit) (Name := ℕ) (U := UR sig nD τ) (Lvl := ℕ) (Val := Elt F) spec5 c : sProp 𝕄)
      = iprop(iprop((∃ f : Buf (Elt F) ((c : Thread nD τ).loc cc5_scratch0), ((c : Thread nD τ).loc cc5_scratch0) ↦{fullShare} f))
          ∗ Pipeline.scopedRestBut (Ix := Unit) (Name := ℕ) (U := UR sig nD τ) (Lvl := ℕ) (Val := Elt F) spec5 c [cc5_scratch0]) :=
  Pipeline.scopedRest_split_of_list spec5 c [cc5_scratch0] (by decide) (by decide)

/-- The class invariant with the scratch operand set apart, owned at some contents. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split']; simp only [scM5, owns_whole]; try rfl

/-- The invariant before position `n`: before the first point the class invariant; afterwards the same with the scratch
    at what the point before left in it. -/
def Phi5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl

theorem Phi5_pos (c : Dev nD) (n : ℕ) (h : n ≤ cfg5.N) (hz : n ≠ 0) :
    Phi5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The launch's proof data: arrays as found; each input's buffer keeps its block; the output's block, where it is
    stored, is filled with the accumulator; the invariant carries the accumulator from point to point. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay2 (acc5 V c t.val t.isLt)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay2 (acc5 V c t.val t.isLt) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the written-back output block holds: the accumulator after the last point, at every entry. -/
theorem after5_out_last (c : Dev nD) : (dat5 V c).after 2 t5_3 = k5_pay2 (acc5 V c 3 t5_3.isLt) := by
  dsimp only [dat5]; rfl

theorem Phi5_castSucc (c : Dev nD) (t : Fin cfg5.N) :
    (dat5 V c).Φ t.castSucc = Phi5 V c t.val (Nat.le_of_lt t.isLt) := by
  dsimp only [dat5]; simp only [Fin.coe_castSucc]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
/-- The body at any point, by cases on the point: where the accumulator is reset, in the middle of a reduction, at its
    last point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5 V c (t.val + 1) t.isLt from rfl, Phi5_succ]
  have hN : t.val < 4 := lt_of_lt_of_eq t.isLt (show cfg5.N = 4 from N_5)
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  by_cases h0 : t.val = 0
  · have h7 : ¬cond5_2 (grid5.coords t) := fun h => by have := (hcond5_2 t).mp h; omega
    rw [Dat.leavesExact_idle (dat5 V c) 2 t (idleAt5_2 t h7) (noFlush5_2 t h7)]
    rw [Phi5_castSucc V c t, Phi5_zero V c _ _ h0, PhiA5_eq, acc5_first V c t h0]
    iintro ⟨⟨⟨HS, Hr⟩, Hg⟩, Ho, ⟨%d0, H0⟩, ⟨%d1, H1⟩, ⟨%dO, HO⟩⟩
    iapply (sound_kernel5_A c Set.univ _ _ _ _ _ _ _ _ _ ((hcond5_1 t).mpr h0) h7 (iblk5 V c 0 t) (iblk5 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact HO
  · have h1 : ¬cond5_1 (grid5.coords t) := fun h => h0 ((hcond5_1 t).mp h)
    have hz : ¬t.val = 0 := h0
    by_cases h7 : t.val = 3
    · have h2 : cond5_2 (grid5.coords t) := (hcond5_2 t).mpr h7
      rw [show (dat5 V c).leavesExact 2 t = owns (c : Thread nD τ) (st5_2 t) fullShare ((dat5 V c).after 2 t) from by
        unfold Dat.leavesExact; rw [liveAt5_2 t h2], after5_2]
      rw [Phi5_castSucc V c t, Phi5_pos V c _ _ hz, acc5_later V c t h0]
      iintro ⟨⟨⟨HS, Hr⟩, Hg⟩, Ho, ⟨%d0, H0⟩, ⟨%d1, H1⟩, ⟨%dO, HO⟩⟩
      iapply (sound_kernel5_C c Set.univ _ _ _ _ _ _ _ _ _ h1 h2 (iblk5 V c 0 t) (iblk5 V c 1 t) _ _)
      isplitl [H0]; · iexact H0
      isplitl [H1]; · iexact H1
      isplitl [HO]; · iexists _; iexact HO
      isplitl [HS]; · iexact HS
      iintro ⟨H0, H1, HO, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact HO
    · have h2 : ¬cond5_2 (grid5.coords t) := fun h => h7 ((hcond5_2 t).mp h)
      rw [Dat.leavesExact_idle (dat5 V c) 2 t (idleAt5_2 t h2) (noFlush5_2 t h2)]
      rw [Phi5_castSucc V c t, Phi5_pos V c _ _ hz, acc5_later V c t h0]
      iintro ⟨⟨⟨HS, Hr⟩, Hg⟩, Ho, ⟨%d0, H0⟩, ⟨%d1, H1⟩, ⟨%dO, HO⟩⟩
      iapply (sound_kernel5_B c Set.univ _ _ _ _ _ _ _ _ _ h1 h2 (iblk5 V c 0 t) (iblk5 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact HO

theorem body_obligation5 (c : Dev nD) : BodyObligation (dat5 (F := F) V c) (defs₀ (F := F)) Variants.none () Set.univ := fun t => by
  rw [bigSep_W5, bigSep_W5]
  exact sound_body5 V c t

/-- What the launch hands the body before the first point is the invariant there. -/
theorem hin5 (c : Dev nD) : (Pipeline.ΦA spec5 c : sProp 𝕄) ⊢ (dat5 V c).Φ 0 := by
  rw [show (dat5 V c).Φ 0 = Phi5 V c 0 (Nat.zero_le _) from rfl, Phi5_zero V c 0 _ rfl]
  try exact Idealize.SL.BI.Entails.refl _

/-- After any point but the first the invariant gives the class invariant back: the accumulator's contents forgotten. -/
theorem Phi5_out (c : Dev nD) (t : Fin (cfg5.N + 1)) (ht : t.val ≠ 0) : (dat5 V c).Φ t ⊢ (Pipeline.ΦA spec5 c : sProp 𝕄) := by
  rw [show (dat5 V c).Φ t = Phi5 V c t.val (Nat.le_of_lt_succ t.isLt) from rfl, Phi5_pos V c _ _ ht, PhiA5_eq]
  iintro ⟨⟨HS, Hr⟩, Hg⟩
  isplitl [HS Hr]
  · isplitl [HS]
    · iexists _; iexact HS
    iexact Hr
  iexact Hg

theorem hout5 (c : Dev nD) : (dat5 V c).Φ (Fin.last cfg5.N) ⊢ (Pipeline.ΦA spec5 c : sProp 𝕄) :=
  Phi5_out V c _ (by rw [Fin.val_last]; have : cfg5.N = 4 := N_5; omega)

end

end Cert.KernelIdeal.Hand

end
-- ==== Proof.KI.Run.lean ====
/-
  The run of the whole program: six launches among stretches of host operations.
  Between two items a core holds every unscoped buffer whole at a known valuation: the launch memory, then, item by item,
  either the host stretch's operations folded over the valuation before it, or — after a launch — the same valuation with
  that launch's arrays replaced by what its write-backs leave. Each launch is entered from the valuation before it (its
  arrays split out of the unscoped buffers, the rest passing by), runs its body at every grid point under the per-point
  obligation, and is left at the valuation after it. The run's post reads every unscoped buffer off the last valuation.
-/
import proofs.«166015_j17652315586942_2_alg».proof.Proof.KI.R0
import proofs.«166015_j17652315586942_2_alg».proof.Proof.KI.R1
import proofs.«166015_j17652315586942_2_alg».proof.Proof.KI.R2
import proofs.«166015_j17652315586942_2_alg».proof.Proof.KI.R3
import proofs.«166015_j17652315586942_2_alg».proof.Proof.KI.R4
import proofs.«166015_j17652315586942_2_alg».proof.Proof.KI.R5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After launch 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the host stretch `main_part0_ops0`. -/
abbrev W2 : Dev nD → Valuation τ sig (Elt F) := fun c => StableHlo.after main_part0_ops0 (W1 m ρ c)
abbrev V2 : (c : Dev nD) → (b : Ref sig .tc) → Buf (Elt F) ((c : Thread nD τ).loc b) := fun c b => W2 m ρ c b
/-- After launch 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the host stretch `main_part0_ops1`. -/
abbrev W4 : Dev nD → Valuation τ sig (Elt F) := fun c => StableHlo.after main_part0_ops1 (W3 m ρ c)
abbrev V4 : (c : Dev nD) → (b : Ref sig .tc) → Buf (Elt F) ((c : Thread nD τ).loc b) := fun c b => W4 m ρ c b
/-- After launch 2: its arrays at what its write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `main_part0_ops2`. -/
abbrev W6 : Dev nD → Valuation τ sig (Elt F) := fun c => StableHlo.after main_part0_ops2 (W5 m ρ c)
abbrev V6 : (c : Dev nD) → (b : Ref sig .tc) → Buf (Elt F) ((c : Thread nD τ).loc b) := fun c b => W6 m ρ c b
/-- After launch 3: its arrays at what its write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After the host stretch `main_part0_ops3`. -/
abbrev W8 : Dev nD → Valuation τ sig (Elt F) := fun c => StableHlo.after main_part0_ops3 (W7 m ρ c)
abbrev V8 : (c : Dev nD) → (b : Ref sig .tc) → Buf (Elt F) ((c : Thread nD τ).loc b) := fun c b => W8 m ρ c b
/-- After the host stretch `main_part1_ops0`. -/
abbrev W9 : Dev nD → Valuation τ sig (Elt F) := fun c => StableHlo.after main_part1_ops0 (W8 m ρ c)
abbrev V9 : (c : Dev nD) → (b : Ref sig .tc) → Buf (Elt F) ((c : Thread nD τ).loc b) := fun c b => W9 m ρ c b
/-- After launch 4: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `main_part1_ops1`. -/
abbrev W11 : Dev nD → Valuation τ sig (Elt F) := fun c => StableHlo.after main_part1_ops1 (W10 m ρ c)
abbrev V11 : (c : Dev nD) → (b : Ref sig .tc) → Buf (Elt F) ((c : Thread nD τ).loc b) := fun c b => W11 m ρ c b
/-- After the host stretch `main_part2_ops0`. -/
abbrev W12 : Dev nD → Valuation τ sig (Elt F) := fun c => StableHlo.after main_part2_ops0 (W11 m ρ c)
abbrev V12 : (c : Dev nD) → (b : Ref sig .tc) → Buf (Elt F) ((c : Thread nD τ).loc b) := fun c b => W12 m ρ c b
/-- After launch 5: its arrays at what its write-backs leave, every other buffer as entered. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)
/-- After the host stretch `main_part2_ops1`. -/
abbrev W14 : Dev nD → Valuation τ sig (Elt F) := fun c => StableHlo.after main_part2_ops1 (W13 m ρ c)
abbrev V14 : (c : Dev nD) → (b : Ref sig .tc) → Buf (Elt F) ((c : Thread nD τ).loc b) := fun c b => W14 m ρ c b

/-! ## The proof data family and what rides along -/

abbrev adm : (p : Fin 6) → (pcfgs (F := F) p).Adm := fun p => (cfgs p).toPCfg_adm
/-- Every launch's proof data, each at its entry valuation (a literal match on the launch's number). -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V9 m ρ) c
  | ⟨5, _⟩ => fun c => dat5 (V12 m ρ) c
abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

/-! ## The launches as segments -/

set_option backward.isDefEq.respectTransparency.types false in
/-- Launch 0: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m ρ) c)
    unfold Pipeline.ΦA
    iintro ⟨Hp, -, Hr⟩
    isplitl [Hr]; · iexact Hr
    iexact Hp
  hout c := by
    refine (hout0 (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered from every unscoped buffer at `W6`, left at `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (V6 m ρ) c)
    unfold Pipeline.ΦA
    iintro ⟨Hp, -, Hr⟩
    isplitl [Hr]; · iexact Hr
    iexact Hp
  hout c := by
    refine (hout3 (V6 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 5: entered from every unscoped buffer at `W12`, left at `W13`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun w => A_eq5 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (V12 m ρ) c)
    unfold Pipeline.ΦA
    iintro ⟨Hp, -, Hr⟩
    isplitl [Hr]; · iexact Hr
    iexact Hp
  hout c := by
    refine (hout5 (V12 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch theorem -/

abbrev segs : List (Pipeline.Seg (pcfgs (F := F)) adm (pdats m ρ) () defs₀ 𝒱₀ L lv) :=
  [ .region (reg0 m ρ),
    .host (hseg main_part0_ops0 main_part0_ops0_sub main_part0_ops0_fresh (W1 m ρ)),
    .region (reg1 m ρ),
    .host (hseg main_part0_ops1 main_part0_ops1_sub main_part0_ops1_fresh (W3 m ρ)),
    .region (reg2 m ρ),
    .host (hseg main_part0_ops2 main_part0_ops2_sub main_part0_ops2_fresh (W5 m ρ)),
    .region (reg3 m ρ),
    .host (hseg main_part0_ops3 main_part0_ops3_sub main_part0_ops3_fresh (W7 m ρ)),
    .host (hseg main_part1_ops0 main_part1_ops0_sub main_part1_ops0_fresh (W8 m ρ)),
    .region (reg4 m ρ),
    .host (hseg main_part1_ops1 main_part1_ops1_sub main_part1_ops1_fresh (W10 m ρ)),
    .host (hseg main_part2_ops0 main_part2_ops0_sub main_part2_ops0_fresh (W11 m ρ)),
    .region (reg5 m ρ),
    .host (hseg main_part2_ops1 main_part2_ops1_sub main_part2_ops1_fresh (W13 m ρ)) ]

theorem main_run (c : Dev nD) : main (F := F) c = Pipeline.Seg.run (segs m ρ) := (main_chain_windows c).trans (by chain_rfl)

set_option backward.isDefEq.respectTransparency.types false in
/-- From any memory with zero counters every weakly fair execution of the program terminates, nothing faulting, and
    every final state holds each unscoped buffer of each core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W14 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.Hand

end
-- ==== Proof.KI.Frame.lean ====
/-
  No item of the program changes an argument array: a host operation writes only its own result buffer, which is never an
  argument; a launch changes only its output window's array, and an argument it reads through an input window comes back
  as entered. So the last valuation at each argument's buffer is the launch memory there, and with the run this is the
  frame: the program terminates without a fault and its ten argument arrays end as they began.
-/
import proofs.«166015_j17652315586942_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each host stretch writes -/

abbrev main_part0_ops0_W : List (Ref sig .tc) := [main_v1, main_v2, main_v3, main_v4, main_v5]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part0_ops1_W : List (Ref sig .tc) := [main_v7, main_v8, main_v9, main_cst, main_v10, main_v11]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part0_ops2_W : List (Ref sig .tc) := [main_v13, main_v14]
theorem main_part0_ops2_writes : (main_part0_ops2 : List (HloOp τ sig (Elt F))).Forall fun op => op.writes ⊆ (main_part0_ops2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part0_ops3_W : List (Ref sig .tc) := [main_v16, main_v17, main_cst_0, main_v18, main_cst_1, main_v19, main_v20, main_v21, main_c, main_v22, main_v23, main_c_2, main_v24, main_v25, main_v26, main_v27, main_v28, main_v29, main_v30, main_c_3, main_v31, main_v32, main_c_4, main_v33, main_v34, main_v35, main_v36, main_v37, main_v38, main_v39, main_c_5, main_v40, main_v41, main_c_6, main_v42, main_v43, main_v44, main_v45, main_v46, main_v47, main_v48, main_cst_7, main_v49]
theorem main_part0_ops3_writes : (main_part0_ops3 : List (HloOp τ sig (Elt F))).Forall fun op => op.writes ⊆ (main_part0_ops3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part1_ops0_W : List (Ref sig .tc) := [main_v50, main_v51, main_c_8, main_v52, main_v53, main_c_9, main_v54, main_v55, main_v56, main_v57, main_v58, main_v59, main_v60, main_c_10, main_v61, main_v62, main_c_11, main_v63, main_v64, main_v65, main_v66, main_v67, main_v68, main_v69, main_c_12, main_v70, main_v71, main_c_13, main_v72, main_v73, main_v74, main_v75, main_v76, main_v77, main_v78, main_cst_14, main_v79, main_v80, main_v81, main_v82, main_v83]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part1_ops1_W : List (Ref sig .tc) := [main_v85, main_cst_15, main_v86, main_v87, main_v88, main_v89, main_v90, main_c_16, main_v91, main_v92, main_c_17, main_v93, main_v94, main_v95, main_v96, main_v97, main_v98, main_v99]
theorem main_part1_ops1_writes : (main_part1_ops1 : List (HloOp τ sig (Elt F))).Forall fun op => op.writes ⊆ (main_part1_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part2_ops0_W : List (Ref sig .tc) := [main_c_18, main_v100, main_v101, main_c_19, main_v102, main_v103, main_v104, main_v105, main_v106, main_v107, main_v108, main_c_20, main_v109, main_v110, main_c_21, main_v111, main_v112, main_v113, main_v114, main_v115, main_v116, main_v117, main_cst_22, main_v118, main_v119, main_v120]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev main_part2_ops1_W : List (Ref sig .tc) := [main_v122, main_v123, main_cst_23, main_v124, main_v125, main_v126, main_v127]
theorem main_part2_ops1_writes : (main_part2_ops1 : List (HloOp τ sig (Elt F))).Forall fun op => op.writes ⊆ (main_part2_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg)

/-! ## A buffer no stretch writes passes each stretch unchanged -/
theorem keep2 (c : Dev nD) (r : Ref sig .tc) (h : r ∉ main_part0_ops0_W) : W2 m ρ c (Proc.devRef .tc r) = W1 m ρ c (Proc.devRef .tc r) :=
  StableHlo.after_of_writes_sub main_part0_ops0 _ main_part0_ops0_writes h
theorem keep4 (c : Dev nD) (r : Ref sig .tc) (h : r ∉ main_part0_ops1_W) : W4 m ρ c (Proc.devRef .tc r) = W3 m ρ c (Proc.devRef .tc r) :=
  StableHlo.after_of_writes_sub main_part0_ops1 _ main_part0_ops1_writes h
theorem keep6 (c : Dev nD) (r : Ref sig .tc) (h : r ∉ main_part0_ops2_W) : W6 m ρ c (Proc.devRef .tc r) = W5 m ρ c (Proc.devRef .tc r) :=
  StableHlo.after_of_writes_sub main_part0_ops2 _ main_part0_ops2_writes h
theorem keep8 (c : Dev nD) (r : Ref sig .tc) (h : r ∉ main_part0_ops3_W) : W8 m ρ c (Proc.devRef .tc r) = W7 m ρ c (Proc.devRef .tc r) :=
  StableHlo.after_of_writes_sub main_part0_ops3 _ main_part0_ops3_writes h
theorem keep9 (c : Dev nD) (r : Ref sig .tc) (h : r ∉ main_part1_ops0_W) : W9 m ρ c (Proc.devRef .tc r) = W8 m ρ c (Proc.devRef .tc r) :=
  StableHlo.after_of_writes_sub main_part1_ops0 _ main_part1_ops0_writes h
theorem keep11 (c : Dev nD) (r : Ref sig .tc) (h : r ∉ main_part1_ops1_W) : W11 m ρ c (Proc.devRef .tc r) = W10 m ρ c (Proc.devRef .tc r) :=
  StableHlo.after_of_writes_sub main_part1_ops1 _ main_part1_ops1_writes h
theorem keep12 (c : Dev nD) (r : Ref sig .tc) (h : r ∉ main_part2_ops0_W) : W12 m ρ c (Proc.devRef .tc r) = W11 m ρ c (Proc.devRef .tc r) :=
  StableHlo.after_of_writes_sub main_part2_ops0 _ main_part2_ops0_writes h
theorem keep14 (c : Dev nD) (r : Ref sig .tc) (h : r ∉ main_part2_ops1_W) : W14 m ρ c (Proc.devRef .tc r) = W13 m ρ c (Proc.devRef .tc r) :=
  StableHlo.after_of_writes_sub main_part2_ops1 _ main_part2_ops1_writes h

/-! ## Each argument's buffer at the last boundary is the launch memory -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := keep14 m ρ c main_arg0 (by decide)
    _ = W12 m ρ c (Proc.devRef .tc main_arg0) := W13_of_ne m ρ c main_arg0 (by decide)
    _ = W11 m ρ c (Proc.devRef .tc main_arg0) := keep12 m ρ c main_arg0 (by decide)
    _ = W10 m ρ c (Proc.devRef .tc main_arg0) := keep11 m ρ c main_arg0 (by decide)
    _ = W9 m ρ c (Proc.devRef .tc main_arg0) := W10_of_ne m ρ c main_arg0 (by decide)
    _ = W8 m ρ c (Proc.devRef .tc main_arg0) := keep9 m ρ c main_arg0 (by decide)
    _ = W7 m ρ c (Proc.devRef .tc main_arg0) := keep8 m ρ c main_arg0 (by decide)
    _ = W6 m ρ c (Proc.devRef .tc main_arg0) := W7_of_ne m ρ c main_arg0 (by decide)
    _ = W5 m ρ c (Proc.devRef .tc main_arg0) := keep6 m ρ c main_arg0 (by decide)
    _ = W4 m ρ c (Proc.devRef .tc main_arg0) := W5_of_ne m ρ c main_arg0 (by decide)
    _ = W3 m ρ c (Proc.devRef .tc main_arg0) := keep4 m ρ c main_arg0 (by decide)
    _ = W2 m ρ c (Proc.devRef .tc main_arg0) := W3_of_ne m ρ c main_arg0 (by decide)
    _ = W1 m ρ c (Proc.devRef .tc main_arg0) := keep2 m ρ c main_arg0 (by decide)
    _ = W0 m ρ c (Proc.devRef .tc main_arg0) := W1_of_ne m ρ c main_arg0 (by decide)
    _ = m ((c : Thread nD τ).loc main_arg0) := rfl

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := keep14 m ρ c main_arg1 (by decide)
    _ = W12 m ρ c (Proc.devRef .tc main_arg1) := W13_of_ne m ρ c main_arg1 (by decide)
    _ = W11 m ρ c (Proc.devRef .tc main_arg1) := keep12 m ρ c main_arg1 (by decide)
    _ = W10 m ρ c (Proc.devRef .tc main_arg1) := keep11 m ρ c main_arg1 (by decide)
    _ = W9 m ρ c (Proc.devRef .tc main_arg1) := W10_of_ne m ρ c main_arg1 (by decide)
    _ = W8 m ρ c (Proc.devRef .tc main_arg1) := keep9 m ρ c main_arg1 (by decide)
    _ = W7 m ρ c (Proc.devRef .tc main_arg1) := keep8 m ρ c main_arg1 (by decide)
    _ = W6 m ρ c (Proc.devRef .tc main_arg1) := (W7_arr m ρ c 0).trans (((dat3 (V6 m ρ) c).arrAt_in 0 rfl _).trans (A_eq3 (V6 m ρ) c 0))
    _ = W5 m ρ c (Proc.devRef .tc main_arg1) := keep6 m ρ c main_arg1 (by decide)
    _ = W4 m ρ c (Proc.devRef .tc main_arg1) := W5_of_ne m ρ c main_arg1 (by decide)
    _ = W3 m ρ c (Proc.devRef .tc main_arg1) := keep4 m ρ c main_arg1 (by decide)
    _ = W2 m ρ c (Proc.devRef .tc main_arg1) := W3_of_ne m ρ c main_arg1 (by decide)
    _ = W1 m ρ c (Proc.devRef .tc main_arg1) := keep2 m ρ c main_arg1 (by decide)
    _ = W0 m ρ c (Proc.devRef .tc main_arg1) := W1_of_ne m ρ c main_arg1 (by decide)
    _ = m ((c : Thread nD τ).loc main_arg1) := rfl

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := keep14 m ρ c main_arg2 (by decide)
    _ = W12 m ρ c (Proc.devRef .tc main_arg2) := W13_of_ne m ρ c main_arg2 (by decide)
    _ = W11 m ρ c (Proc.devRef .tc main_arg2) := keep12 m ρ c main_arg2 (by decide)
    _ = W10 m ρ c (Proc.devRef .tc main_arg2) := keep11 m ρ c main_arg2 (by decide)
    _ = W9 m ρ c (Proc.devRef .tc main_arg2) := W10_of_ne m ρ c main_arg2 (by decide)
    _ = W8 m ρ c (Proc.devRef .tc main_arg2) := keep9 m ρ c main_arg2 (by decide)
    _ = W7 m ρ c (Proc.devRef .tc main_arg2) := keep8 m ρ c main_arg2 (by decide)
    _ = W6 m ρ c (Proc.devRef .tc main_arg2) := W7_of_ne m ρ c main_arg2 (by decide)
    _ = W5 m ρ c (Proc.devRef .tc main_arg2) := keep6 m ρ c main_arg2 (by decide)
    _ = W4 m ρ c (Proc.devRef .tc main_arg2) := W5_of_ne m ρ c main_arg2 (by decide)
    _ = W3 m ρ c (Proc.devRef .tc main_arg2) := keep4 m ρ c main_arg2 (by decide)
    _ = W2 m ρ c (Proc.devRef .tc main_arg2) := W3_of_ne m ρ c main_arg2 (by decide)
    _ = W1 m ρ c (Proc.devRef .tc main_arg2) := keep2 m ρ c main_arg2 (by decide)
    _ = W0 m ρ c (Proc.devRef .tc main_arg2) := W1_of_ne m ρ c main_arg2 (by decide)
    _ = m ((c : Thread nD τ).loc main_arg2) := rfl

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := keep14 m ρ c main_arg3 (by decide)
    _ = W12 m ρ c (Proc.devRef .tc main_arg3) := W13_of_ne m ρ c main_arg3 (by decide)
    _ = W11 m ρ c (Proc.devRef .tc main_arg3) := keep12 m ρ c main_arg3 (by decide)
    _ = W10 m ρ c (Proc.devRef .tc main_arg3) := keep11 m ρ c main_arg3 (by decide)
    _ = W9 m ρ c (Proc.devRef .tc main_arg3) := W10_of_ne m ρ c main_arg3 (by decide)
    _ = W8 m ρ c (Proc.devRef .tc main_arg3) := keep9 m ρ c main_arg3 (by decide)
    _ = W7 m ρ c (Proc.devRef .tc main_arg3) := keep8 m ρ c main_arg3 (by decide)
    _ = W6 m ρ c (Proc.devRef .tc main_arg3) := W7_of_ne m ρ c main_arg3 (by decide)
    _ = W5 m ρ c (Proc.devRef .tc main_arg3) := keep6 m ρ c main_arg3 (by decide)
    _ = W4 m ρ c (Proc.devRef .tc main_arg3) := W5_of_ne m ρ c main_arg3 (by decide)
    _ = W3 m ρ c (Proc.devRef .tc main_arg3) := keep4 m ρ c main_arg3 (by decide)
    _ = W2 m ρ c (Proc.devRef .tc main_arg3) := W3_of_ne m ρ c main_arg3 (by decide)
    _ = W1 m ρ c (Proc.devRef .tc main_arg3) := keep2 m ρ c main_arg3 (by decide)
    _ = W0 m ρ c (Proc.devRef .tc main_arg3) := (W1_arr m ρ c 0).trans (((dat0 (V0 m ρ) c).arrAt_in 0 rfl _).trans (A_eq0 (V0 m ρ) c 0))
    _ = m ((c : Thread nD τ).loc main_arg3) := rfl

theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := keep14 m ρ c main_arg4 (by decide)
    _ = W12 m ρ c (Proc.devRef .tc main_arg4) := W13_of_ne m ρ c main_arg4 (by decide)
    _ = W11 m ρ c (Proc.devRef .tc main_arg4) := keep12 m ρ c main_arg4 (by decide)
    _ = W10 m ρ c (Proc.devRef .tc main_arg4) := keep11 m ρ c main_arg4 (by decide)
    _ = W9 m ρ c (Proc.devRef .tc main_arg4) := W10_of_ne m ρ c main_arg4 (by decide)
    _ = W8 m ρ c (Proc.devRef .tc main_arg4) := keep9 m ρ c main_arg4 (by decide)
    _ = W7 m ρ c (Proc.devRef .tc main_arg4) := keep8 m ρ c main_arg4 (by decide)
    _ = W6 m ρ c (Proc.devRef .tc main_arg4) := W7_of_ne m ρ c main_arg4 (by decide)
    _ = W5 m ρ c (Proc.devRef .tc main_arg4) := keep6 m ρ c main_arg4 (by decide)
    _ = W4 m ρ c (Proc.devRef .tc main_arg4) := W5_of_ne m ρ c main_arg4 (by decide)
    _ = W3 m ρ c (Proc.devRef .tc main_arg4) := keep4 m ρ c main_arg4 (by decide)
    _ = W2 m ρ c (Proc.devRef .tc main_arg4) := (W3_arr m ρ c 0).trans (((dat1 (V2 m ρ) c).arrAt_in 0 rfl _).trans (A_eq1 (V2 m ρ) c 0))
    _ = W1 m ρ c (Proc.devRef .tc main_arg4) := keep2 m ρ c main_arg4 (by decide)
    _ = W0 m ρ c (Proc.devRef .tc main_arg4) := W1_of_ne m ρ c main_arg4 (by decide)
    _ = m ((c : Thread nD τ).loc main_arg4) := rfl

theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := keep14 m ρ c main_arg5 (by decide)
    _ = W12 m ρ c (Proc.devRef .tc main_arg5) := W13_of_ne m ρ c main_arg5 (by decide)
    _ = W11 m ρ c (Proc.devRef .tc main_arg5) := keep12 m ρ c main_arg5 (by decide)
    _ = W10 m ρ c (Proc.devRef .tc main_arg5) := keep11 m ρ c main_arg5 (by decide)
    _ = W9 m ρ c (Proc.devRef .tc main_arg5) := W10_of_ne m ρ c main_arg5 (by decide)
    _ = W8 m ρ c (Proc.devRef .tc main_arg5) := keep9 m ρ c main_arg5 (by decide)
    _ = W7 m ρ c (Proc.devRef .tc main_arg5) := keep8 m ρ c main_arg5 (by decide)
    _ = W6 m ρ c (Proc.devRef .tc main_arg5) := W7_of_ne m ρ c main_arg5 (by decide)
    _ = W5 m ρ c (Proc.devRef .tc main_arg5) := keep6 m ρ c main_arg5 (by decide)
    _ = W4 m ρ c (Proc.devRef .tc main_arg5) := W5_of_ne m ρ c main_arg5 (by decide)
    _ = W3 m ρ c (Proc.devRef .tc main_arg5) := keep4 m ρ c main_arg5 (by decide)
    _ = W2 m ρ c (Proc.devRef .tc main_arg5) := W3_of_ne m ρ c main_arg5 (by decide)
    _ = W1 m ρ c (Proc.devRef .tc main_arg5) := keep2 m ρ c main_arg5 (by decide)
    _ = W0 m ρ c (Proc.devRef .tc main_arg5) := W1_of_ne m ρ c main_arg5 (by decide)
    _ = m ((c : Thread nD τ).loc main_arg5) := rfl

theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := keep14 m ρ c main_arg6 (by decide)
    _ = W12 m ρ c (Proc.devRef .tc main_arg6) := W13_of_ne m ρ c main_arg6 (by decide)
    _ = W11 m ρ c (Proc.devRef .tc main_arg6) := keep12 m ρ c main_arg6 (by decide)
    _ = W10 m ρ c (Proc.devRef .tc main_arg6) := keep11 m ρ c main_arg6 (by decide)
    _ = W9 m ρ c (Proc.devRef .tc main_arg6) := W10_of_ne m ρ c main_arg6 (by decide)
    _ = W8 m ρ c (Proc.devRef .tc main_arg6) := keep9 m ρ c main_arg6 (by decide)
    _ = W7 m ρ c (Proc.devRef .tc main_arg6) := keep8 m ρ c main_arg6 (by decide)
    _ = W6 m ρ c (Proc.devRef .tc main_arg6) := W7_of_ne m ρ c main_arg6 (by decide)
    _ = W5 m ρ c (Proc.devRef .tc main_arg6) := keep6 m ρ c main_arg6 (by decide)
    _ = W4 m ρ c (Proc.devRef .tc main_arg6) := W5_of_ne m ρ c main_arg6 (by decide)
    _ = W3 m ρ c (Proc.devRef .tc main_arg6) := keep4 m ρ c main_arg6 (by decide)
    _ = W2 m ρ c (Proc.devRef .tc main_arg6) := W3_of_ne m ρ c main_arg6 (by decide)
    _ = W1 m ρ c (Proc.devRef .tc main_arg6) := keep2 m ρ c main_arg6 (by decide)
    _ = W0 m ρ c (Proc.devRef .tc main_arg6) := W1_of_ne m ρ c main_arg6 (by decide)
    _ = m ((c : Thread nD τ).loc main_arg6) := rfl

theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := keep14 m ρ c main_arg7 (by decide)
    _ = W12 m ρ c (Proc.devRef .tc main_arg7) := W13_of_ne m ρ c main_arg7 (by decide)
    _ = W11 m ρ c (Proc.devRef .tc main_arg7) := keep12 m ρ c main_arg7 (by decide)
    _ = W10 m ρ c (Proc.devRef .tc main_arg7) := keep11 m ρ c main_arg7 (by decide)
    _ = W9 m ρ c (Proc.devRef .tc main_arg7) := W10_of_ne m ρ c main_arg7 (by decide)
    _ = W8 m ρ c (Proc.devRef .tc main_arg7) := keep9 m ρ c main_arg7 (by decide)
    _ = W7 m ρ c (Proc.devRef .tc main_arg7) := keep8 m ρ c main_arg7 (by decide)
    _ = W6 m ρ c (Proc.devRef .tc main_arg7) := W7_of_ne m ρ c main_arg7 (by decide)
    _ = W5 m ρ c (Proc.devRef .tc main_arg7) := keep6 m ρ c main_arg7 (by decide)
    _ = W4 m ρ c (Proc.devRef .tc main_arg7) := W5_of_ne m ρ c main_arg7 (by decide)
    _ = W3 m ρ c (Proc.devRef .tc main_arg7) := keep4 m ρ c main_arg7 (by decide)
    _ = W2 m ρ c (Proc.devRef .tc main_arg7) := W3_of_ne m ρ c main_arg7 (by decide)
    _ = W1 m ρ c (Proc.devRef .tc main_arg7) := keep2 m ρ c main_arg7 (by decide)
    _ = W0 m ρ c (Proc.devRef .tc main_arg7) := W1_of_ne m ρ c main_arg7 (by decide)
    _ = m ((c : Thread nD τ).loc main_arg7) := rfl

theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := keep14 m ρ c main_arg8 (by decide)
    _ = W12 m ρ c (Proc.devRef .tc main_arg8) := W13_of_ne m ρ c main_arg8 (by decide)
    _ = W11 m ρ c (Proc.devRef .tc main_arg8) := keep12 m ρ c main_arg8 (by decide)
    _ = W10 m ρ c (Proc.devRef .tc main_arg8) := keep11 m ρ c main_arg8 (by decide)
    _ = W9 m ρ c (Proc.devRef .tc main_arg8) := W10_of_ne m ρ c main_arg8 (by decide)
    _ = W8 m ρ c (Proc.devRef .tc main_arg8) := keep9 m ρ c main_arg8 (by decide)
    _ = W7 m ρ c (Proc.devRef .tc main_arg8) := keep8 m ρ c main_arg8 (by decide)
    _ = W6 m ρ c (Proc.devRef .tc main_arg8) := W7_of_ne m ρ c main_arg8 (by decide)
    _ = W5 m ρ c (Proc.devRef .tc main_arg8) := keep6 m ρ c main_arg8 (by decide)
    _ = W4 m ρ c (Proc.devRef .tc main_arg8) := W5_of_ne m ρ c main_arg8 (by decide)
    _ = W3 m ρ c (Proc.devRef .tc main_arg8) := keep4 m ρ c main_arg8 (by decide)
    _ = W2 m ρ c (Proc.devRef .tc main_arg8) := W3_of_ne m ρ c main_arg8 (by decide)
    _ = W1 m ρ c (Proc.devRef .tc main_arg8) := keep2 m ρ c main_arg8 (by decide)
    _ = W0 m ρ c (Proc.devRef .tc main_arg8) := W1_of_ne m ρ c main_arg8 (by decide)
    _ = m ((c : Thread nD τ).loc main_arg8) := rfl

theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := keep14 m ρ c main_arg9 (by decide)
    _ = W12 m ρ c (Proc.devRef .tc main_arg9) := W13_of_ne m ρ c main_arg9 (by decide)
    _ = W11 m ρ c (Proc.devRef .tc main_arg9) := keep12 m ρ c main_arg9 (by decide)
    _ = W10 m ρ c (Proc.devRef .tc main_arg9) := keep11 m ρ c main_arg9 (by decide)
    _ = W9 m ρ c (Proc.devRef .tc main_arg9) := W10_of_ne m ρ c main_arg9 (by decide)
    _ = W8 m ρ c (Proc.devRef .tc main_arg9) := keep9 m ρ c main_arg9 (by decide)
    _ = W7 m ρ c (Proc.devRef .tc main_arg9) := keep8 m ρ c main_arg9 (by decide)
    _ = W6 m ρ c (Proc.devRef .tc main_arg9) := W7_of_ne m ρ c main_arg9 (by decide)
    _ = W5 m ρ c (Proc.devRef .tc main_arg9) := keep6 m ρ c main_arg9 (by decide)
    _ = W4 m ρ c (Proc.devRef .tc main_arg9) := W5_of_ne m ρ c main_arg9 (by decide)
    _ = W3 m ρ c (Proc.devRef .tc main_arg9) := keep4 m ρ c main_arg9 (by decide)
    _ = W2 m ρ c (Proc.devRef .tc main_arg9) := W3_of_ne m ρ c main_arg9 (by decide)
    _ = W1 m ρ c (Proc.devRef .tc main_arg9) := keep2 m ρ c main_arg9 (by decide)
    _ = W0 m ρ c (Proc.devRef .tc main_arg9) := W1_of_ne m ρ c main_arg9 (by decide)
    _ = m ((c : Thread nD τ).loc main_arg9) := rfl

/-! ## The frame -/

/-- Every weakly fair execution terminates without a fault, and the ten argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c)⟩) (run_main m ρ)

end Cert.KernelIdeal.Hand

end
-- ==== Proof.KI.Stay.lean ====
/-
  Bookkeeping for the value of the result: a buffer is unchanged from the boundary where it is written (or, for an argument,
  from launch) to the boundary where a later stretch or launch reads it, because no item in between writes it.
-/
import proofs.«166015_j17652315586942_2_alg».proof.Proof.KI.Frame

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem stay_main_arg0_0_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := W3_of_ne m ρ c main_arg0 (by decide)
    _ = W1 m ρ c (Proc.devRef .tc main_arg0) := keep2 m ρ c main_arg0 (by decide)
    _ = W0 m ρ c (Proc.devRef .tc main_arg0) := W1_of_ne m ρ c main_arg0 (by decide)

theorem stay_main_arg1_0_6 (c : Dev nD) : W6 m ρ c (Proc.devRef .tc main_arg1) = W0 m ρ c (Proc.devRef .tc main_arg1) :=
  calc W6 m ρ c (Proc.devRef .tc main_arg1)
    _ = W5 m ρ c (Proc.devRef .tc main_arg1) := keep6 m ρ c main_arg1 (by decide)
    _ = W4 m ρ c (Proc.devRef .tc main_arg1) := W5_of_ne m ρ c main_arg1 (by decide)
    _ = W3 m ρ c (Proc.devRef .tc main_arg1) := keep4 m ρ c main_arg1 (by decide)
    _ = W2 m ρ c (Proc.devRef .tc main_arg1) := W3_of_ne m ρ c main_arg1 (by decide)
    _ = W1 m ρ c (Proc.devRef .tc main_arg1) := keep2 m ρ c main_arg1 (by decide)
    _ = W0 m ρ c (Proc.devRef .tc main_arg1) := W1_of_ne m ρ c main_arg1 (by decide)

theorem stay_main_arg3_0_7 (c : Dev nD) : W7 m ρ c (Proc.devRef .tc main_arg3) = W0 m ρ c (Proc.devRef .tc main_arg3) :=
  calc W7 m ρ c (Proc.devRef .tc main_arg3)
    _ = W6 m ρ c (Proc.devRef .tc main_arg3) := W7_of_ne m ρ c main_arg3 (by decide)
    _ = W5 m ρ c (Proc.devRef .tc main_arg3) := keep6 m ρ c main_arg3 (by decide)
    _ = W4 m ρ c (Proc.devRef .tc main_arg3) := W5_of_ne m ρ c main_arg3 (by decide)
    _ = W3 m ρ c (Proc.devRef .tc main_arg3) := keep4 m ρ c main_arg3 (by decide)
    _ = W2 m ρ c (Proc.devRef .tc main_arg3) := W3_of_ne m ρ c main_arg3 (by decide)
    _ = W1 m ρ c (Proc.devRef .tc main_arg3) := keep2 m ρ c main_arg3 (by decide)
    _ = W0 m ρ c (Proc.devRef .tc main_arg3) := (W1_arr m ρ c 0).trans (((dat0 (V0 m ρ) c).arrAt_in 0 rfl _).trans (A_eq0 (V0 m ρ) c 0))

theorem stay_main_arg4_0_2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := keep2 m ρ c main_arg4 (by decide)
    _ = W0 m ρ c (Proc.devRef .tc main_arg4) := W1_of_ne m ρ c main_arg4 (by decide)

theorem stay_main_arg4_0_7 (c : Dev nD) : W7 m ρ c (Proc.devRef .tc main_arg4) = W0 m ρ c (Proc.devRef .tc main_arg4) :=
  calc W7 m ρ c (Proc.devRef .tc main_arg4)
    _ = W6 m ρ c (Proc.devRef .tc main_arg4) := W7_of_ne m ρ c main_arg4 (by decide)
    _ = W5 m ρ c (Proc.devRef .tc main_arg4) := keep6 m ρ c main_arg4 (by decide)
    _ = W4 m ρ c (Proc.devRef .tc main_arg4) := W5_of_ne m ρ c main_arg4 (by decide)
    _ = W3 m ρ c (Proc.devRef .tc main_arg4) := keep4 m ρ c main_arg4 (by decide)
    _ = W2 m ρ c (Proc.devRef .tc main_arg4) := (W3_arr m ρ c 0).trans (((dat1 (V2 m ρ) c).arrAt_in 0 rfl _).trans (A_eq1 (V2 m ρ) c 0))
    _ = W1 m ρ c (Proc.devRef .tc main_arg4) := keep2 m ρ c main_arg4 (by decide)
    _ = W0 m ρ c (Proc.devRef .tc main_arg4) := W1_of_ne m ρ c main_arg4 (by decide)

theorem stay_main_arg5_0_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := keep6 m ρ c main_arg5 (by decide)
    _ = W4 m ρ c (Proc.devRef .tc main_arg5) := W5_of_ne m ρ c main_arg5 (by decide)
    _ = W3 m ρ c (Proc.devRef .tc main_arg5) := keep4 m ρ c main_arg5 (by decide)
    _ = W2 m ρ c (Proc.devRef .tc main_arg5) := W3_of_ne m ρ c main_arg5 (by decide)
    _ = W1 m ρ c (Proc.devRef .tc main_arg5) := keep2 m ρ c main_arg5 (by decide)
    _ = W0 m ρ c (Proc.devRef .tc main_arg5) := W1_of_ne m ρ c main_arg5 (by decide)

theorem stay_main_arg3_0_8 (c : Dev nD) : W8 m ρ c (Proc.devRef .tc main_arg3) = W0 m ρ c (Proc.devRef .tc main_arg3) :=
  calc W8 m ρ c (Proc.devRef .tc main_arg3)
    _ = W7 m ρ c (Proc.devRef .tc main_arg3) := keep8 m ρ c main_arg3 (by decide)
    _ = W6 m ρ c (Proc.devRef .tc main_arg3) := W7_of_ne m ρ c main_arg3 (by decide)
    _ = W5 m ρ c (Proc.devRef .tc main_arg3) := keep6 m ρ c main_arg3 (by decide)
    _ = W4 m ρ c (Proc.devRef .tc main_arg3) := W5_of_ne m ρ c main_arg3 (by decide)
    _ = W3 m ρ c (Proc.devRef .tc main_arg3) := keep4 m ρ c main_arg3 (by decide)
    _ = W2 m ρ c (Proc.devRef .tc main_arg3) := W3_of_ne m ρ c main_arg3 (by decide)
    _ = W1 m ρ c (Proc.devRef .tc main_arg3) := keep2 m ρ c main_arg3 (by decide)
    _ = W0 m ρ c (Proc.devRef .tc main_arg3) := (W1_arr m ρ c 0).trans (((dat0 (V0 m ρ) c).arrAt_in 0 rfl _).trans (A_eq0 (V0 m ρ) c 0))

theorem stay_main_arg4_0_8 (c : Dev nD) : W8 m ρ c (Proc.devRef .tc main_arg4) = W0 m ρ c (Proc.devRef .tc main_arg4) :=
  calc W8 m ρ c (Proc.devRef .tc main_arg4)
    _ = W7 m ρ c (Proc.devRef .tc main_arg4) := keep8 m ρ c main_arg4 (by decide)
    _ = W6 m ρ c (Proc.devRef .tc main_arg4) := W7_of_ne m ρ c main_arg4 (by decide)
    _ = W5 m ρ c (Proc.devRef .tc main_arg4) := keep6 m ρ c main_arg4 (by decide)
    _ = W4 m ρ c (Proc.devRef .tc main_arg4) := W5_of_ne m ρ c main_arg4 (by decide)
    _ = W3 m ρ c (Proc.devRef .tc main_arg4) := keep4 m ρ c main_arg4 (by decide)
    _ = W2 m ρ c (Proc.devRef .tc main_arg4) := (W3_arr m ρ c 0).trans (((dat1 (V2 m ρ) c).arrAt_in 0 rfl _).trans (A_eq1 (V2 m ρ) c 0))
    _ = W1 m ρ c (Proc.devRef .tc main_arg4) := keep2 m ρ c main_arg4 (by decide)
    _ = W0 m ρ c (Proc.devRef .tc main_arg4) := W1_of_ne m ρ c main_arg4 (by decide)

theorem stay_main_arg6_0_8 (c : Dev nD) : W8 m ρ c (Proc.devRef .tc main_arg6) = W0 m ρ c (Proc.devRef .tc main_arg6) :=
  calc W8 m ρ c (Proc.devRef .tc main_arg6)
    _ = W7 m ρ c (Proc.devRef .tc main_arg6) := keep8 m ρ c main_arg6 (by decide)
    _ = W6 m ρ c (Proc.devRef .tc main_arg6) := W7_of_ne m ρ c main_arg6 (by decide)
    _ = W5 m ρ c (Proc.devRef .tc main_arg6) := keep6 m ρ c main_arg6 (by decide)
    _ = W4 m ρ c (Proc.devRef .tc main_arg6) := W5_of_ne m ρ c main_arg6 (by decide)
    _ = W3 m ρ c (Proc.devRef .tc main_arg6) := keep4 m ρ c main_arg6 (by decide)
    _ = W2 m ρ c (Proc.devRef .tc main_arg6) := W3_of_ne m ρ c main_arg6 (by decide)
    _ = W1 m ρ c (Proc.devRef .tc main_arg6) := keep2 m ρ c main_arg6 (by decide)
    _ = W0 m ρ c (Proc.devRef .tc main_arg6) := W1_of_ne m ρ c main_arg6 (by decide)

theorem stay_main_arg2_0_8 (c : Dev nD) : W8 m ρ c (Proc.devRef .tc main_arg2) = W0 m ρ c (Proc.devRef .tc main_arg2) :=
  calc W8 m ρ c (Proc.devRef .tc main_arg2)
    _ = W7 m ρ c (Proc.devRef .tc main_arg2) := keep8 m ρ c main_arg2 (by decide)
    _ = W6 m ρ c (Proc.devRef .tc main_arg2) := W7_of_ne m ρ c main_arg2 (by decide)
    _ = W5 m ρ c (Proc.devRef .tc main_arg2) := keep6 m ρ c main_arg2 (by decide)
    _ = W4 m ρ c (Proc.devRef .tc main_arg2) := W5_of_ne m ρ c main_arg2 (by decide)
    _ = W3 m ρ c (Proc.devRef .tc main_arg2) := keep4 m ρ c main_arg2 (by decide)
    _ = W2 m ρ c (Proc.devRef .tc main_arg2) := W3_of_ne m ρ c main_arg2 (by decide)
    _ = W1 m ρ c (Proc.devRef .tc main_arg2) := keep2 m ρ c main_arg2 (by decide)
    _ = W0 m ρ c (Proc.devRef .tc main_arg2) := W1_of_ne m ρ c main_arg2 (by decide)

theorem stay_main_arg7_0_8 (c : Dev nD) : W8 m ρ c (Proc.devRef .tc main_arg7) = W0 m ρ c (Proc.devRef .tc main_arg7) :=
  calc W8 m ρ c (Proc.devRef .tc main_arg7)
    _ = W7 m ρ c (Proc.devRef .tc main_arg7) := keep8 m ρ c main_arg7 (by decide)
    _ = W6 m ρ c (Proc.devRef .tc main_arg7) := W7_of_ne m ρ c main_arg7 (by decide)
    _ = W5 m ρ c (Proc.devRef .tc main_arg7) := keep6 m ρ c main_arg7 (by decide)
    _ = W4 m ρ c (Proc.devRef .tc main_arg7) := W5_of_ne m ρ c main_arg7 (by decide)
    _ = W3 m ρ c (Proc.devRef .tc main_arg7) := keep4 m ρ c main_arg7 (by decide)
    _ = W2 m ρ c (Proc.devRef .tc main_arg7) := W3_of_ne m ρ c main_arg7 (by decide)
    _ = W1 m ρ c (Proc.devRef .tc main_arg7) := keep2 m ρ c main_arg7 (by decide)
    _ = W0 m ρ c (Proc.devRef .tc main_arg7) := W1_of_ne m ρ c main_arg7 (by decide)

theorem stay_main_arg8_0_10 (c : Dev nD) : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := keep9 m ρ c main_arg8 (by decide)
    _ = W7 m ρ c (Proc.devRef .tc main_arg8) := keep8 m ρ c main_arg8 (by decide)
    _ = W6 m ρ c (Proc.devRef .tc main_arg8) := W7_of_ne m ρ c main_arg8 (by decide)
    _ = W5 m ρ c (Proc.devRef .tc main_arg8) := keep6 m ρ c main_arg8 (by decide)
    _ = W4 m ρ c (Proc.devRef .tc main_arg8) := W5_of_ne m ρ c main_arg8 (by decide)
    _ = W3 m ρ c (Proc.devRef .tc main_arg8) := keep4 m ρ c main_arg8 (by decide)
    _ = W2 m ρ c (Proc.devRef .tc main_arg8) := W3_of_ne m ρ c main_arg8 (by decide)
    _ = W1 m ρ c (Proc.devRef .tc main_arg8) := keep2 m ρ c main_arg8 (by decide)
    _ = W0 m ρ c (Proc.devRef .tc main_arg8) := W1_of_ne m ρ c main_arg8 (by decide)

theorem stay_main_arg3_0_10 (c : Dev nD) : W10 m ρ c (Proc.devRef .tc main_arg3) = W0 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := keep9 m ρ c main_arg3 (by decide)
    _ = W7 m ρ c (Proc.devRef .tc main_arg3) := keep8 m ρ c main_arg3 (by decide)
    _ = W6 m ρ c (Proc.devRef .tc main_arg3) := W7_of_ne m ρ c main_arg3 (by decide)
    _ = W5 m ρ c (Proc.devRef .tc main_arg3) := keep6 m ρ c main_arg3 (by decide)
    _ = W4 m ρ c (Proc.devRef .tc main_arg3) := W5_of_ne m ρ c main_arg3 (by decide)
    _ = W3 m ρ c (Proc.devRef .tc main_arg3) := keep4 m ρ c main_arg3 (by decide)
    _ = W2 m ρ c (Proc.devRef .tc main_arg3) := W3_of_ne m ρ c main_arg3 (by decide)
    _ = W1 m ρ c (Proc.devRef .tc main_arg3) := keep2 m ρ c main_arg3 (by decide)
    _ = W0 m ρ c (Proc.devRef .tc main_arg3) := (W1_arr m ρ c 0).trans (((dat0 (V0 m ρ) c).arrAt_in 0 rfl _).trans (A_eq0 (V0 m ρ) c 0))

theorem stay_main_arg4_0_10 (c : Dev nD) : W10 m ρ c (Proc.devRef .tc main_arg4) = W0 m ρ c (Proc.devRef .tc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep9 m ρ c main_arg4 (by decide)
    _ = W7 m ρ c (Proc.devRef .tc main_arg4) := keep8 m ρ c main_arg4 (by decide)
    _ = W6 m ρ c (Proc.devRef .tc main_arg4) := W7_of_ne m ρ c main_arg4 (by decide)
    _ = W5 m ρ c (Proc.devRef .tc main_arg4) := keep6 m ρ c main_arg4 (by decide)
    _ = W4 m ρ c (Proc.devRef .tc main_arg4) := W5_of_ne m ρ c main_arg4 (by decide)
    _ = W3 m ρ c (Proc.devRef .tc main_arg4) := keep4 m ρ c main_arg4 (by decide)
    _ = W2 m ρ c (Proc.devRef .tc main_arg4) := (W3_arr m ρ c 0).trans (((dat1 (V2 m ρ) c).arrAt_in 0 rfl _).trans (A_eq1 (V2 m ρ) c 0))
    _ = W1 m ρ c (Proc.devRef .tc main_arg4) := keep2 m ρ c main_arg4 (by decide)
    _ = W0 m ρ c (Proc.devRef .tc main_arg4) := W1_of_ne m ρ c main_arg4 (by decide)

theorem stay_main_arg9_0_10 (c : Dev nD) : W10 m ρ c (Proc.devRef .tc main_arg9) = W0 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := keep9 m ρ c main_arg9 (by decide)
    _ = W7 m ρ c (Proc.devRef .tc main_arg9) := keep8 m ρ c main_arg9 (by decide)
    _ = W6 m ρ c (Proc.devRef .tc main_arg9) := W7_of_ne m ρ c main_arg9 (by decide)
    _ = W5 m ρ c (Proc.devRef .tc main_arg9) := keep6 m ρ c main_arg9 (by decide)
    _ = W4 m ρ c (Proc.devRef .tc main_arg9) := W5_of_ne m ρ c main_arg9 (by decide)
    _ = W3 m ρ c (Proc.devRef .tc main_arg9) := keep4 m ρ c main_arg9 (by decide)
    _ = W2 m ρ c (Proc.devRef .tc main_arg9) := W3_of_ne m ρ c main_arg9 (by decide)
    _ = W1 m ρ c (Proc.devRef .tc main_arg9) := keep2 m ρ c main_arg9 (by decide)
    _ = W0 m ρ c (Proc.devRef .tc main_arg9) := W1_of_ne m ρ c main_arg9 (by decide)

theorem stay_main_v5_2_3 (c : Dev nD) : W3 m ρ c (Proc.devRef .tc main_v5) = W2 m ρ c (Proc.devRef .tc main_v5) :=
  calc W3 m ρ c (Proc.devRef .tc main_v5)
    _ = W2 m ρ c (Proc.devRef .tc main_v5) := W3_of_ne m ρ c main_v5 (by decide)

theorem stay_main_v14_6_7 (c : Dev nD) : W7 m ρ c (Proc.devRef .tc main_v14) = W6 m ρ c (Proc.devRef .tc main_v14) :=
  calc W7 m ρ c (Proc.devRef .tc main_v14)
    _ = W6 m ρ c (Proc.devRef .tc main_v14) := W7_of_ne m ρ c main_v14 (by decide)

theorem stay_main_v18_8_13 (c : Dev nD) : W13 m ρ c (Proc.devRef .tc main_v18) = W8 m ρ c (Proc.devRef .tc main_v18) :=
  calc W13 m ρ c (Proc.devRef .tc main_v18)
    _ = W12 m ρ c (Proc.devRef .tc main_v18) := W13_of_ne m ρ c main_v18 (by decide)
    _ = W11 m ρ c (Proc.devRef .tc main_v18) := keep12 m ρ c main_v18 (by decide)
    _ = W10 m ρ c (Proc.devRef .tc main_v18) := keep11 m ρ c main_v18 (by decide)
    _ = W9 m ρ c (Proc.devRef .tc main_v18) := W10_of_ne m ρ c main_v18 (by decide)
    _ = W8 m ρ c (Proc.devRef .tc main_v18) := keep9 m ρ c main_v18 (by decide)

theorem stay_main_v19_8_13 (c : Dev nD) : W13 m ρ c (Proc.devRef .tc main_v19) = W8 m ρ c (Proc.devRef .tc main_v19) :=
  calc W13 m ρ c (Proc.devRef .tc main_v19)
    _ = W12 m ρ c (Proc.devRef .tc main_v19) := W13_of_ne m ρ c main_v19 (by decide)
    _ = W11 m ρ c (Proc.devRef .tc main_v19) := keep12 m ρ c main_v19 (by decide)
    _ = W10 m ρ c (Proc.devRef .tc main_v19) := keep11 m ρ c main_v19 (by decide)
    _ = W9 m ρ c (Proc.devRef .tc main_v19) := W10_of_ne m ρ c main_v19 (by decide)
    _ = W8 m ρ c (Proc.devRef .tc main_v19) := keep9 m ρ c main_v19 (by decide)

theorem stay_main_v10_4_13 (c : Dev nD) : W13 m ρ c (Proc.devRef .tc main_v10) = W4 m ρ c (Proc.devRef .tc main_v10) :=
  calc W13 m ρ c (Proc.devRef .tc main_v10)
    _ = W12 m ρ c (Proc.devRef .tc main_v10) := W13_of_ne m ρ c main_v10 (by decide)
    _ = W11 m ρ c (Proc.devRef .tc main_v10) := keep12 m ρ c main_v10 (by decide)
    _ = W10 m ρ c (Proc.devRef .tc main_v10) := keep11 m ρ c main_v10 (by decide)
    _ = W9 m ρ c (Proc.devRef .tc main_v10) := W10_of_ne m ρ c main_v10 (by decide)
    _ = W8 m ρ c (Proc.devRef .tc main_v10) := keep9 m ρ c main_v10 (by decide)
    _ = W7 m ρ c (Proc.devRef .tc main_v10) := keep8 m ρ c main_v10 (by decide)
    _ = W6 m ρ c (Proc.devRef .tc main_v10) := W7_of_ne m ρ c main_v10 (by decide)
    _ = W5 m ρ c (Proc.devRef .tc main_v10) := keep6 m ρ c main_v10 (by decide)
    _ = W4 m ρ c (Proc.devRef .tc main_v10) := W5_of_ne m ρ c main_v10 (by decide)

end Cert.KernelIdeal.Hand

end
-- ==== Proof.KI.Host.lean ====
/-
  The kernel program's own short host stretches, read at an index on the extended reals: a launch's 8×128 (or 16×128) result
  array is sliced at one entry and re-laid as a scalar; the two means are quotients by the counts' words; the weight-decay
  term is the word of 1e-5 times the sum of the two sums of squares; the result is ((positive + negative) + unlabelled) +
  weight decay. The positive scores enter their launch re-laid from 32768×1 to 256×128, entry (r, l) being score 128 r + l.
-/
import proofs.«166015_j17652315586942_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- One entry `(r, 0)` of a two-axis array, sliced out as a 1×1 array and re-laid as a scalar. -/
theorem pick_entry {α : Type} {n0 n1 : Nat} (r : Nat) (x : (⟨2, ![n0, n1]⟩ : Shape).Idx → α)
    (hs : (⟨2, ![n0, n1]⟩ : Shape).Slices ![r, 0] S1x1) (hc : S1x1.ShapeCasts S_) (i : S_.Idx) (hr : r < n0) (h1 : 0 < n1) :
    shapeCast S_ (extractStridedSlice S1x1 ![r, 0] x hs) hc i = x (ix2 ⟨r, hr⟩ ⟨0, h1⟩) :=
  (shapeCast_apply _ hc i (ix2 (0 : Fin 1) (0 : Fin 1)) rfl).trans
    (extractStridedSlice_apply ![r, 0] x hs _ (ix2 ⟨r, hr⟩ ⟨0, h1⟩) (fun a => by fin_cases a <;> rfl))

variable (W : Valuation τ sig (Elt Ideal))

/-- The result: ((positive + negative) + unlabelled sum ÷ 131072) + weight decay. -/
theorem read_v127 (a18 a19 a10 : S_.Idx → EReal) (a121 : S8x128.Idx → EReal)
    (h18 : W (Proc.devRef .tc main_v18) = a18) (h19 : W (Proc.devRef .tc main_v19) = a19)
    (h10 : W (Proc.devRef .tc main_v10) = a10) (h121 : W (Proc.devRef .tc main_v121) = a121) (i : S_.Idx) :
    (StableHlo.after main_part2_ops1 W (Proc.devRef .tc main_v127) : S_.Idx → EReal) i
      = ((a18 i + a19 i) + Ideal.div (a121 (ix2 0 0)) (Ideal.ofBits .f32 0x48000000#32)) + a10 i := by
  subst h18 h19 h10 h121
  after_results
  simp only [addf, Host.divf, constant, Ideal.addf_def, Ideal.hostDivf_def, Ideal.ofBits_def]
  refine congrArg₂ (· + ·) (congrArg₂ (· + ·) rfl (congrArg (Ideal.div · _) ?_)) rfl
  exact pick_entry 0 _ _ _ i (by decide) (by decide)

/-- The two halves of the entity table's sum of squares, added. -/
theorem read_v5 (a0 : S16x128.Idx → EReal) (h0 : W (Proc.devRef .tc main_v0) = a0) (i : S_.Idx) :
    (StableHlo.after main_part0_ops0 W (Proc.devRef .tc main_v5) : S_.Idx → EReal) i = a0 (ix2 0 0) + a0 (ix2 8 0) := by
  subst h0
  after_results
  simp only [addf, Ideal.addf_def]
  refine congrArg₂ (· + ·) ?_ ?_
  · exact pick_entry 0 _ _ _ i (by decide) (by decide)
  · exact pick_entry 8 _ _ _ i (by decide) (by decide)

/-- The weight-decay term. -/
theorem read_v10 (a5 : S_.Idx → EReal) (a6 : S8x128.Idx → EReal)
    (h5 : W (Proc.devRef .tc main_v5) = a5) (h6 : W (Proc.devRef .tc main_v6) = a6) (i : S_.Idx) :
    (StableHlo.after main_part0_ops1 W (Proc.devRef .tc main_v10) : S_.Idx → EReal) i
      = Ideal.ofBits .f32 0x3727C5AC#32 * (a5 i + a6 (ix2 0 0)) := by
  subst h5 h6
  after_results
  simp only [addf, mulf, constant, Ideal.addf_def, Ideal.mulf_def, Ideal.ofBits_def]
  refine congrArg (_ * ·) (congrArg₂ (· + ·) rfl ?_)
  exact pick_entry 0 _ _ _ i (by decide) (by decide)

/-- The positive scores re-laid: entry (r, l) of the 256×128 array is score 128 r + l. -/
theorem read_v11 (x0 : S32768x1.Idx → EReal) (h0 : W (Proc.devRef .tc main_arg0) = x0) (r : Fin 256) (l : Fin 128) :
    (StableHlo.after main_part0_ops1 W (Proc.devRef .tc main_v11) : S256x128.Idx → EReal) (ix2 r l)
      = x0 (ix2 ⟨128 * r.val + l.val, by omega⟩ 0) := by
  subst h0
  after_results
  exact shapeCast_apply _ _ (ix2 r l) (ix2 ⟨128 * r.val + l.val, by omega⟩ 0) (by
    simp only [Shape.rowMajor_val_two]
    show (128 * r.val + l.val) * 1 + 0 = r.val * 128 + l.val
    omega)

/-- The positive sum, picked out of its launch's result array. -/
theorem read_v14 (a12 : S8x128.Idx → EReal) (h12 : W (Proc.devRef .tc main_v12) = a12) (i : S_.Idx) :
    (StableHlo.after main_part0_ops2 W (Proc.devRef .tc main_v14) : S_.Idx → EReal) i = a12 (ix2 0 0) := by
  subst h12
  after_results
  exact pick_entry 0 _ _ _ i (by decide) (by decide)

/-- The two means: the positive and negative sums divided by their counts' words. -/
theorem read_v18 (a14 : S_.Idx → EReal) (h14 : W (Proc.devRef .tc main_v14) = a14) (i : S_.Idx) :
    (StableHlo.after main_part0_ops3 W (Proc.devRef .tc main_v18) : S_.Idx → EReal) i
      = Ideal.div (a14 i) (Ideal.ofBits .f32 0x47000000#32) := by
  subst h14
  after_results_simp
  simp only [Host.divf, constant, Ideal.hostDivf_def, Ideal.ofBits_def]

theorem read_v19 (a15 : S8x128.Idx → EReal) (h15 : W (Proc.devRef .tc main_v15) = a15) (i : S_.Idx) :
    (StableHlo.after main_part0_ops3 W (Proc.devRef .tc main_v19) : S_.Idx → EReal) i
      = Ideal.div (a15 (ix2 0 0)) (Ideal.ofBits .f32 0x4A000000#32) := by
  subst h15
  after_results_simp
  simp only [Host.divf, constant, Ideal.hostDivf_def, Ideal.ofBits_def]
  refine congrArg (Ideal.div · _) ?_
  exact pick_entry 0 _ _ _ i (by decide) (by decide)

end Cert.KernelIdeal.Hand

end
-- ==== Proof.KI.Out12.lean ====
/-
  What the second and third launches leave in their result arrays. Each has one grid point; the output window's block there
  starts at offset zero and has the array's extents, so it covers the array, reading the array through it gives the array,
  and the array ends holding exactly the body's output block.
-/
import proofs.«166015_j17652315586942_2_alg».proof.Proof.KI.R1
import proofs.«166015_j17652315586942_2_alg».proof.Proof.KI.R2
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

section
variable {c : Dev nD}
variable (V : (c : Dev nD) → (b : Ref sig .tc) → Buf (Elt F) ((c : Thread nD τ).loc b))

/-! ## Launch 1: one grid point, whose write-back moves the body's 8×128 output block onto the whole result array -/

/-- At the point that writes launch 1's result back, the block starts at offset 0 on both axes and has the array's extents. -/
theorem blk_whole1 : ∀ a : Fin 2, win1_1.index t1_0 a * win1_1.size a = 0
    ∧ win1_1.xsize (grid1.coords t1_0) a = S8x128.size a := by decide +kernel

/-- So every index of the result array lies in that block. -/
theorem mem_blk1 (i : S8x128.Idx) : i ∈ ((cfg1.win 1).blk t1_0).view.set := by
  show i ∈ ((View.whole main_v6).slice (win1_1.rect t1_0)).set
  rw [View.set_slice_whole, Rect.mem_set_unit]
  intro a
  show win1_1.index t1_0 a * win1_1.size a ≤ (i a : Nat)
    ∧ (i a : Nat) < win1_1.index t1_0 a * win1_1.size a + win1_1.xsize (grid1.coords t1_0) a
  rw [(blk_whole1 a).1, (blk_whole1 a).2, Nat.zero_add]
  exact ⟨Nat.zero_le _, (i a).isLt⟩

/-- Reading the whole array through that block gives the array back. -/
theorem read_blk1 (G : Buf (Elt F) ((c : Thread nD τ).loc main_v6)) :
    ((cfg1.win 1).blk t1_0).view.read (Elt F) G = G :=
  Memref.read_access_unit_zero (Elt F) main_v6 (funext fun a => (blk_whole1 a).1)
    (fun a => by rw [(blk_whole1 a).1]; simp) G

abbrev res1 (c : Dev nD) : Buf (Elt F) ((c : Thread nD τ).loc main_v6) := out1_1 (iblk1 V c 0 t1_0)

theorem final1 (c : Dev nD) : (dat1 V c).arrAt 1 cfg1.N = res1 V c := by
  refine (dat1 V c).arrAt_eq_of_cover 1 (res1 V c) (fun t _ => ?_) (fun i => ⟨t1_0, flush1_1 t1_0, mem_blk1 i⟩)
  obtain rfl := fin_N1 t
  rw [read_blk1]
  show (cfg1.win 1).cut (grid1.coords t1_0) ((dat1 V c).after 1 t1_0) = _
  rw [after1_1]
  rfl

/-! ## Launch 2: one grid point, whose write-back moves the body's 8×128 output block onto the whole result array -/

/-- At the point that writes launch 2's result back, the block starts at offset 0 on both axes and has the array's extents. -/
theorem blk_whole2 : ∀ a : Fin 2, win2_1.index t2_0 a * win2_1.size a = 0
    ∧ win2_1.xsize (grid2.coords t2_0) a = S8x128.size a := by decide +kernel

/-- So every index of the result array lies in that block. -/
theorem mem_blk2 (i : S8x128.Idx) : i ∈ ((cfg2.win 1).blk t2_0).view.set := by
  show i ∈ ((View.whole main_v12).slice (win2_1.rect t2_0)).set
  rw [View.set_slice_whole, Rect.mem_set_unit]
  intro a
  show win2_1.index t2_0 a * win2_1.size a ≤ (i a : Nat)
    ∧ (i a : Nat) < win2_1.index t2_0 a * win2_1.size a + win2_1.xsize (grid2.coords t2_0) a
  rw [(blk_whole2 a).1, (blk_whole2 a).2, Nat.zero_add]
  exact ⟨Nat.zero_le _, (i a).isLt⟩

/-- Reading the whole array through that block gives the array back. -/
theorem read_blk2 (G : Buf (Elt F) ((c : Thread nD τ).loc main_v12)) :
    ((cfg2.win 1).blk t2_0).view.read (Elt F) G = G :=
  Memref.read_access_unit_zero (Elt F) main_v12 (funext fun a => (blk_whole2 a).1)
    (fun a => by rw [(blk_whole2 a).1]; simp) G

abbrev res2 (c : Dev nD) : Buf (Elt F) ((c : Thread nD τ).loc main_v12) := out2_1 (iblk2 V c 0 t2_0)

theorem final2 (c : Dev nD) : (dat2 V c).arrAt 1 cfg2.N = res2 V c := by
  refine (dat2 V c).arrAt_eq_of_cover 1 (res2 V c) (fun t _ => ?_) (fun i => ⟨t2_0, flush2_1 t2_0, mem_blk2 i⟩)
  obtain rfl := fin_N2 t
  rw [read_blk2]
  show (cfg2.win 1).cut (grid2.coords t2_0) ((dat2 V c).after 1 t2_0) = _
  rw [after2_1]
  rfl

end

end Cert.KernelIdeal.Hand

end
-- ==== Proof.KI.Out3.lean ====
/-
  What the fourth launch leaves in its result array. Of its eight grid points only the last writes back; the block there
  starts at offset zero and has the array's extents, so the array ends holding what the last point's body left in the
  output block: the accumulated scratch, broadcast.
-/
import proofs.«166015_j17652315586942_2_alg».proof.Proof.KI.R3
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

section
variable {c : Dev nD}
variable (V : (c : Dev nD) → (b : Ref sig .tc) → Buf (Elt F) ((c : Thread nD τ).loc b))

/-! ## Launch 3: only the last point of the reduction writes back, the accumulator broadcast onto the whole result array -/

/-- At the point that writes launch 3's result back, the block starts at offset 0 on both axes and has the array's extents. -/
theorem blk_whole3 : ∀ a : Fin 2, win3_1.index t3_7 a * win3_1.size a = 0
    ∧ win3_1.xsize (grid3.coords t3_7) a = S8x128.size a := by decide +kernel

/-- So every index of the result array lies in that block. -/
theorem mem_blk3 (i : S8x128.Idx) : i ∈ ((cfg3.win 1).blk t3_7).view.set := by
  show i ∈ ((View.whole main_v15).slice (win3_1.rect t3_7)).set
  rw [View.set_slice_whole, Rect.mem_set_unit]
  intro a
  show win3_1.index t3_7 a * win3_1.size a ≤ (i a : Nat)
    ∧ (i a : Nat) < win3_1.index t3_7 a * win3_1.size a + win3_1.xsize (grid3.coords t3_7) a
  rw [(blk_whole3 a).1, (blk_whole3 a).2, Nat.zero_add]
  exact ⟨Nat.zero_le _, (i a).isLt⟩

/-- Reading the whole array through that block gives the array back. -/
theorem read_blk3 (G : Buf (Elt F) ((c : Thread nD τ).loc main_v15)) :
    ((cfg3.win 1).blk t3_7).view.read (Elt F) G = G :=
  Memref.read_access_unit_zero (Elt F) main_v15 (funext fun a => (blk_whole3 a).1)
    (fun a => by rw [(blk_whole3 a).1]; simp) G

abbrev res3 (c : Dev nD) : Buf (Elt F) ((c : Thread nD τ).loc main_v15) := k3_pay3 (acc3 V c t3_7.val t3_7.isLt)

theorem final3 (c : Dev nD) : (dat3 V c).arrAt 1 cfg3.N = res3 V c := by
  refine (dat3 V c).arrAt_eq_of_cover 1 (res3 V c) (fun t hf => ?_) (fun i => ⟨t3_7, (flush3_1 t3_7).mpr rfl, mem_blk3 i⟩)
  have hN : cfg3.N = 8 := N_3
  have ht : t = t3_7 := Fin.ext (by have := (flush3_1 t).mp hf; have := t.isLt; show t.val = 7; omega)
  subst ht
  rw [read_blk3]
  show (cfg3.win 1).cut (grid3.coords t3_7) ((dat3 V c).after 1 t3_7) = _
  rw [after3_out_last]
  rfl

end

end Cert.KernelIdeal.Hand

end
-- ==== Proof.KI.Out0.lean ====
/-
  What the first launch leaves in its result array. The grid has 2×25 points; the output window's block at point `t` is
  rows `8 (t / 25) … 8 (t / 25) + 7` (all 128 columns) of the 16×128 result array, and it is written back exactly at the
  last point of each of the two reductions, `t = 24` and `t = 49`, holding the accumulator after that point at every
  entry. So both written-back blocks are blocks of ONE function of the array's index (the accumulator after point
  `25 (i₀ / 8) + 24`, broadcast), and entry (0, 0) of the result array ends holding the accumulator after point 24, entry
  (8, 0) the accumulator after point 49.
-/
import proofs.«166015_j17652315586942_2_alg».proof.Proof.KI.R0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

section
variable (V : (c : Dev nD) → (b : Ref sig .tc) → Buf (Elt F) ((c : Thread nD τ).loc b))

/-- The accumulator after a point depends on the point's number only. -/
theorem acc0_congr (c : Dev nD) {n n' : ℕ} (h : n = n') (hn : n < cfg0.N) (hn' : n' < cfg0.N) :
    acc0 V c n hn = acc0 V c n' hn' := by
  subst h; rfl

/-- At point `t` the output window is on block `t / 25` of rows and on the one block of columns. -/
theorem idx0_1 : ∀ t : Fin cfg0.N, win0_1.index t (0 : Fin 2) = t.val / 25 ∧ win0_1.index t (1 : Fin 2) = 0 :=
  (by decide +kernel : ∀ t : Fin grid0.N, _)

/-- The last point of the reduction whose result lands on row `i₀` of the result array is inside the grid. -/
theorem last0_lt (i : S16x128.Idx) : 25 * ((i 0).val / 8) + 24 < cfg0.N := by
  have h : (i 0).val < 16 := (i 0).isLt
  have hN : cfg0.N = 50 := N_0
  omega

/-- What the result array ends holding: at row `i₀`, the accumulator after the last point of that row block's
    reduction, at every entry of the block. -/
def res0 (c : Dev nD) : S16x128.Idx → Elt F .f32 := fun i =>
  k0_pay3 (acc0 V c (25 * ((i 0).val / 8) + 24) (last0_lt i))
    (ix2 (⟨(i 0).val % 8, Nat.mod_lt _ (by decide)⟩ : Fin 8) (⟨(i 1).val, (i 1).isLt⟩ : Fin 128))

/-- What a point that writes back writes is its block of that function. -/
theorem flushed0 (c : Dev nD) (t : Fin cfg0.N) (hf : (cfg0.win 1).flush t = true) :
    (dat0 V c).flushed 1 t = ((cfg0.win 1).blk t).view.read (Elt F) (res0 V c) := by
  have h24 : t.val % 25 = 24 := (flush0_1 t).mp hf
  obtain ⟨e0, e1⟩ := idx0_1 t
  show (cfg0.win 1).cut (grid0.coords t) ((dat0 V c).after 1 t) = _
  rw [after0_1]
  funext y
  rw [View.read_apply]
  have hy0 : (y 0).val < 8 := (y 0).isLt
  have hy1 : (y 1).val < 128 := (y 1).isLt
  have m0 : ((((cfg0.win 1).blk t).view.emb y : S16x128.Idx) 0).val = t.val / 25 * 8 + (y 0).val := by
    show win0_1.index t (0 : Fin 2) * 8 + 1 * (y 0).val = _
    rw [e0]; omega
  have m1 : ((((cfg0.win 1).blk t).view.emb y : S16x128.Idx) 1).val = (y 1).val := by
    show win0_1.index t (1 : Fin 2) * 128 + 1 * (y 1).val = _
    rw [e1]; omega
  show k0_pay3 (acc0 V c t.val t.isLt) y = res0 V c (((cfg0.win 1).blk t).view.emb y)
  unfold res0
  dsimp only
  rw [acc0_congr V c (show 25 * (((((cfg0.win 1).blk t).view.emb y : S16x128.Idx) 0).val / 8) + 24 = t.val by rw [m0]; omega)
    (last0_lt _) t.isLt]
  refine congrArg (k0_pay3 (acc0 V c t.val t.isLt)) ?_
  funext a
  apply Fin.ext
  match a with
  | ⟨0, _⟩ =>
    show (y 0).val = ((((cfg0.win 1).blk t).view.emb y : S16x128.Idx) 0).val % 8
    rw [m0]; omega
  | ⟨1, _⟩ =>
    show (y 1).val = ((((cfg0.win 1).blk t).view.emb y : S16x128.Idx) 1).val
    rw [m1]

/-- An index of the result array is in point `t`'s block iff each coordinate is in the block's range on its axis. -/
theorem mem_blk0 (t : Fin cfg0.N) (i : S16x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- Row `i₀` of the result array lies in the block written back at point `25 (i₀ / 8) + 24`. -/
theorem cover0 (i : S16x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hN : cfg0.N = 50 := N_0
  refine ⟨⟨25 * ((i 0).val / 8) + 24, last0_lt i⟩, (flush0_1 _).mpr (by show (25 * ((i 0).val / 8) + 24) % 25 = 24; omega), ?_⟩
  rw [mem_blk0]
  obtain ⟨e0, e1⟩ := idx0_1 ⟨25 * ((i 0).val / 8) + 24, last0_lt i⟩
  intro a
  match a with
  | ⟨0, _⟩ =>
    show win0_1.index _ (0 : Fin 2) * 8 ≤ (i 0).val ∧ (i 0).val < win0_1.index _ (0 : Fin 2) * 8 + 8
    rw [e0]; show (25 * ((i 0).val / 8) + 24) / 25 * 8 ≤ (i 0).val ∧ (i 0).val < (25 * ((i 0).val / 8) + 24) / 25 * 8 + 8; omega
  | ⟨1, _⟩ =>
    show win0_1.index _ (1 : Fin 2) * 128 ≤ (i 1).val ∧ (i 1).val < win0_1.index _ (1 : Fin 2) * 128 + 128
    rw [e1]; omega

/-- The result array after the launch. -/
theorem final0 (c : Dev nD) : (dat0 V c).arrAt 1 cfg0.N = res0 V c :=
  (dat0 V c).arrAt_eq_of_cover 1 (res0 V c) (fun t hf => flushed0 V c t hf) cover0

/-- Entry (0, 0) of the result array: the accumulator after point 24 (the first reduction's total), broadcast. -/
theorem final0_lo (c : Dev nD) (h : 24 < cfg0.N) :
    ((dat0 V c).arrAt 1 cfg0.N : S16x128.Idx → Elt F .f32) (ix2 (0 : Fin 16) (0 : Fin 128))
      = k0_pay3 (acc0 V c 24 h) (ix2 (0 : Fin 8) (0 : Fin 128)) := by
  rw [final0]
  rfl

/-- Entry (8, 0) of the result array: the accumulator after point 49 (the second reduction's total), broadcast. -/
theorem final0_hi (c : Dev nD) (h : 49 < cfg0.N) :
    ((dat0 V c).arrAt 1 cfg0.N : S16x128.Idx → Elt F .f32) (ix2 (8 : Fin 16) (0 : Fin 128))
      = k0_pay3 (acc0 V c 49 h) (ix2 (0 : Fin 8) (0 : Fin 128)) := by
  rw [final0]
  rfl

end

end Cert.KernelIdeal.Hand

end
-- ==== Proof.Spec.lean ====
/-
  The scalar functions both programs compute, on the extended reals.

  * `sp x  = max x 0 + log (1 + exp (-|x - 0|))`: the numerically stable softplus, as both programs spell it (the
    branch taken when `x - 0` is not a NaN, which on the extended reals is always);
  * `sg x  = 1 / (1 + exp (-x))`: the logistic function;
  * `one`  : the number the word of the float literal 1.0 denotes (the same word in both programs, never evaluated);
  * `clip01 x = min 1 (max 0 x)`;
  * `unl su pg`: one unlabelled triple's cross-entropy term against the clipped target `clip01 (sg su + pg)`;
  * `contrib conf r1 r2 tn`: one rule's contribution `1 · conf · sg r1 · (sg r2 if the rule has three triples, else 1)`.
-/
import Idealize.ShloMosaic.PureOps.Ideal
import Idealize.ShloMosaic.PureOps.Ideal.Laws

noncomputable section

namespace Cert.Spec

open Idealize.ShloMosaic

def one : EReal := Ideal.ofBits .f32 0x3F800000#32

def sp (x : EReal) : EReal := max x 0 + Ideal.log1p (Ideal.exp (-(max (x - 0) (-(x - 0)))))

def sg (x : EReal) : EReal := Ideal.logistic x

def clip01 (x : EReal) : EReal := min one (max 0 x)

def unl (su pg : EReal) : EReal := clip01 (sg su + pg) * sp (-su) + (one - clip01 (sg su + pg)) * sp su

def contrib (conf r1 r2 : EReal) (tn : BitVec 32) : EReal := one * conf * sg r1 * (if tn = 3#32 then sg r2 else one)

end Cert.Spec

end
-- ==== Proof.Val.Pay.lean ====
/-
  The kernels' arithmetic as plain sums on the extended reals. Each store of each kernel body writes a pure term of the
  body's loads (a payload of the generated skeleton); here every payload is read AT AN INDEX, at the ideal instance, as
  ordinary arithmetic over literal index types, in the scalar vocabulary of `Cert.Spec`:
  a two-stage `multi_reduction` (over the columns, then over the column of partial sums) is a double sum over the
  block's coordinates, a broadcast of the one-element result reads that element everywhere, the guarded softplus takes
  its regular branch (a comparison `d ≠ d` is false on the extended reals), and `0 - a` is `-a`.
-/
import proofs.«166015_j17652315586942_2_alg».proof.Proof.Gen.KernelIdeal.Skeleton
import proofs.«166015_j17652315586942_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Idealize.ShloMosaic Idealize.ShloMosaic.ValueIdx Cert.KernelIdeal Cert.KernelIdeal.Gen

/-! ## Layout operations and one-axis sums at an index written by coordinates -/

section General
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (y : (⟨2, ![a, b]⟩ : Shape).Idx) : broadcastTo ⟨2, ![a, b]⟩ v h y = v (ix2 (0 : Fin 1) (0 : Fin 1)) := by
  refine broadcastTo_apply v h y (ix2 (0 : Fin 1) (0 : Fin 1)) fun ax => ?_
  match ax with
  | ⟨0, _⟩ => rfl
  | ⟨1, _⟩ => rfl

/-- A sum over the columns of an `[a, b]` array, at row `r`. -/
theorem sum_axis1_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ l : Fin b, src (ix2 r l) := by
  refine (Ideal.multiReduction_add_single src _ h hφ hacc (ix1 r)).trans ?_
  show (∑ l : Fin b, src (h.lift (ix1 r) l)) = ∑ l : Fin b, src (ix2 r l)
  refine Finset.sum_congr rfl fun l _ => congrArg src ?_
  funext c
  apply Fin.ext
  match c with
  | ⟨0, _⟩ => rfl
  | ⟨1, _⟩ => rfl

/-- A sum over the rows of an `[a, b]` array, at column `c`. -/
theorem sum_axis0_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ src 0x00000000#32 h hφ hacc (ix1 c) = ∑ r : Fin a, src (ix2 r c) := by
  refine (Ideal.multiReduction_add_single src _ h hφ hacc (ix1 c)).trans ?_
  show (∑ r : Fin a, src (h.lift (ix1 c) r)) = ∑ r : Fin a, src (ix2 r c)
  refine Finset.sum_congr rfl fun r _ => congrArg src ?_
  funext d
  apply Fin.ext
  match d with
  | ⟨0, _⟩ => rfl
  | ⟨1, _⟩ => rfl

end General

/-! ## The sum of squares of a whole block -/

/-- The two-stage sum (over the columns, then over the rows as a column of partial sums), broadcast. -/
theorem k1_pay1_apply (x : Vec Ideal S500x256 .f32) (y : S8x128.Idx) :
    k1_pay1 (F := Ideal) x y = ∑ r : Fin 500, ∑ l : Fin 256, x (ix2 r l) * x (ix2 r l) := by
  unfold k1_pay1
  refine (broadcastTo_11_ab_apply _ _ y).trans ?_
  rw [shapeCast_self]
  refine (shapeCast_a_1a_apply _ _ (0 : Fin 1) (0 : Fin 1)).trans ?_
  refine (sum_axis0_apply _ _ _ _ (0 : Fin 1)).trans ?_
  refine Finset.sum_congr rfl fun r _ => ?_
  refine (shapeCast_a_a1_apply _ _ r (0 : Fin 1)).trans ?_
  refine (sum_axis1_apply _ _ _ _ r).trans ?_
  rfl

/-! ## The softplus as the bodies spell it, and the positive-triple loss block -/

/-- A comparison `d ≠ d` of an extended real with itself is false: the guard's bit is `0`. -/
theorem cmp_one_self (d : EReal) : Ideal.cmp .one d d = 0#1 := by
  simp [Ideal.cmp]

/-- One element of the guarded softplus: the guard `d - 0 ≠ d - 0` is false, so the select takes its second operand,
    which is `Cert.Spec.sp d` once the zero word is read as `0` and `0 - a` as `-a`. -/
theorem sp_guard (d : EReal) :
    Scalar.select (Ideal.cmp .one (d - Ideal.ofBits .f32 0x00000000#32) (d - Ideal.ofBits .f32 0x00000000#32))
        (d + Ideal.ofBits .f32 0x00000000#32)
        (max d (Ideal.ofBits .f32 0x00000000#32)
          + Ideal.log1p (Ideal.exp (Ideal.ofBits .f32 0x00000000#32
              - max (d - Ideal.ofBits .f32 0x00000000#32) (-(d - Ideal.ofBits .f32 0x00000000#32)))))
      = Cert.Spec.sp d := by
  rw [cmp_one_self, select_zero, Ideal.ofBits_zero_f32, zero_sub]
  rfl

/-- The block's loss: the double sum of the softplus of the negated scores. -/
theorem k2_pay1_apply (x : Vec Ideal S256x128 .f32) (y : S8x128.Idx) :
    k2_pay1 (F := Ideal) x y = ∑ r : Fin 256, ∑ l : Fin 128, Cert.Spec.sp (-(x (ix2 r l))) := by
  unfold k2_pay1
  refine (broadcastTo_11_ab_apply _ _ y).trans ?_
  rw [shapeCast_self, shapeCast_self]
  refine (shapeCast_a_1a_apply _ _ (0 : Fin 1) (0 : Fin 1)).trans ?_
  refine (sum_axis0_apply _ _ _ _ (0 : Fin 1)).trans ?_
  refine Finset.sum_congr rfl fun r _ => ?_
  refine (shapeCast_a_a1_apply _ _ r (0 : Fin 1)).trans ?_
  refine (sum_axis1_apply _ _ _ _ r).trans ?_
  refine Finset.sum_congr rfl fun l _ => ?_
  refine (sp_guard (Ideal.ofBits .f32 0x00000000#32 - x (ix2 r l))).trans ?_
  rw [Ideal.ofBits_zero_f32, zero_sub]

/-! ## The accumulated sum of squares: reset, step, write-back -/

/-- The one index of a `[1, 1]` block. -/
theorem idx11_eq (y : (⟨2, ![1, 1]⟩ : Shape).Idx) : y = ix2 (0 : Fin 1) (0 : Fin 1) := by
  funext a
  apply Fin.ext
  match a with
  | ⟨0, _⟩ => have := idx2_lt0 y; show (y 0).val = 0; omega
  | ⟨1, _⟩ => have := idx2_lt1 y; show (y 1).val = 0; omega

/-- The reset stores zero. -/
theorem k0_pay1_apply (y : S1x1.Idx) : k0_pay1 (F := Ideal) y = 0 := by
  unfold k0_pay1
  rw [shapeCast_self]
  exact Ideal.ofBits_zero_f32

/-- A step adds the block's sum of squares to the accumulator. -/
theorem k0_pay2_apply (x : Vec Ideal S2000x256 .f32) (acc : Vec Ideal S1x1 .f32) (y : S1x1.Idx) :
    k0_pay2 (F := Ideal) x acc y = acc y + ∑ r : Fin 2000, ∑ l : Fin 256, x (ix2 r l) * x (ix2 r l) := by
  obtain rfl := idx11_eq y
  unfold k0_pay2
  rw [shapeCast_self, addf_apply]
  refine congrArg (acc (ix2 (0 : Fin 1) (0 : Fin 1)) + ·) ?_
  refine (shapeCast_a_1a_apply _ _ (0 : Fin 1) (0 : Fin 1)).trans ?_
  refine (sum_axis0_apply _ _ _ _ (0 : Fin 1)).trans ?_
  refine Finset.sum_congr rfl fun r _ => ?_
  refine (shapeCast_a_a1_apply _ _ r (0 : Fin 1)).trans ?_
  refine (sum_axis1_apply _ _ _ _ r).trans ?_
  rfl

/-- The write-back broadcasts the accumulator's one element. -/
theorem k0_pay3_apply (acc : Vec Ideal S1x1 .f32) (y : S8x128.Idx) :
    k0_pay3 (F := Ideal) acc y = acc (ix2 (0 : Fin 1) (0 : Fin 1)) := by
  unfold k0_pay3
  rw [shapeCast_self]
  exact broadcastTo_11_ab_apply _ _ y

/-! ## The accumulated negative-triple loss: reset, step, write-back -/

/-- The reset stores zero. -/
theorem k3_pay1_apply (y : S1x1.Idx) : k3_pay1 (F := Ideal) y = 0 := by
  unfold k3_pay1
  rw [shapeCast_self]
  exact Ideal.ofBits_zero_f32

/-- A step adds the block's sum of softplus values to the accumulator. -/
theorem k3_pay2_apply (x : Vec Ideal S4096x64 .f32) (acc : Vec Ideal S1x1 .f32) (y : S1x1.Idx) :
    k3_pay2 (F := Ideal) x acc y = acc y + ∑ r : Fin 4096, ∑ l : Fin 64, Cert.Spec.sp (x (ix2 r l)) := by
  obtain rfl := idx11_eq y
  unfold k3_pay2
  rw [shapeCast_self, addf_apply]
  refine congrArg (acc (ix2 (0 : Fin 1) (0 : Fin 1)) + ·) ?_
  refine (shapeCast_a_1a_apply _ _ (0 : Fin 1) (0 : Fin 1)).trans ?_
  refine (sum_axis0_apply _ _ _ _ (0 : Fin 1)).trans ?_
  refine Finset.sum_congr rfl fun r _ => ?_
  refine (shapeCast_a_a1_apply _ _ r (0 : Fin 1)).trans ?_
  refine (sum_axis1_apply _ _ _ _ r).trans ?_
  refine Finset.sum_congr rfl fun l _ => ?_
  exact sp_guard (x (ix2 r l))

/-- The write-back broadcasts the accumulator's one element. -/
theorem k3_pay3_apply (acc : Vec Ideal S1x1 .f32) (y : S8x128.Idx) :
    k3_pay3 (F := Ideal) acc y = acc (ix2 (0 : Fin 1) (0 : Fin 1)) := by
  unfold k3_pay3
  rw [shapeCast_self]
  exact broadcastTo_11_ab_apply _ _ y

/-! ## One rule's contribution, pointwise -/

/-- A select on an integer equality is the `if` on it. -/
theorem select_cmpi_eq {α : Type} {w : ℕ} (a b : BitVec w) (A B : α) :
    Scalar.select (IntOp.cmpi .eq a b) A B = if a = b then A else B := by
  unfold Scalar.select IntOp.cmpi
  by_cases h : a = b
  · simp [h]
  · have hb : (a == b) = false := beq_eq_false_iff_ne.mpr h
    simp [h, hb]

/-- The contribution block at an index: the confidence times the first triple's logistic score, times the second's when
    the rule has three triples. The loads come in the body's order: the two score blocks, the triple counts, the
    confidences. -/
theorem k4_pay1_apply (r1 r2 : Vec Ideal S256x128 .f32) (tn : Vec Ideal S256x128 .i32) (conf : Vec Ideal S256x128 .f32)
    (y : S256x128.Idx) :
    k4_pay1 (F := Ideal) r1 r2 tn conf y = Cert.Spec.contrib (conf y) (r1 y) (r2 y) (tn y) := by
  unfold k4_pay1
  simp only [shapeCast_self]
  show Cert.Spec.one * conf y * Ideal.logistic (r1 y)
      * Scalar.select (IntOp.cmpi .eq (tn y) 3#32) (Ideal.logistic (r2 y)) Cert.Spec.one = _
  rw [select_cmpi_eq]
  rfl

/-! ## The unlabelled-triple loss: the first printed part's values at an index, then the composed step -/

/-- The loaded score block, recast to its own shape. -/
theorem k5_pay4_apply (su : Vec Ideal S256x128 .f32) (i : S256x128.Idx) : k5_pay4 (F := Ideal) su i = su i := by
  unfold k5_pay4
  rw [shapeCast_self]

/-- The clipped target. -/
theorem k5_pay5_apply (su pg : Vec Ideal S256x128 .f32) (i : S256x128.Idx) :
    k5_pay5 (F := Ideal) su pg i = Cert.Spec.clip01 (Cert.Spec.sg (su i) + pg i) := by
  unfold k5_pay5 k5_pay4
  simp only [shapeCast_self]
  show min Cert.Spec.one (max (Ideal.ofBits .f32 0x00000000#32) (Ideal.logistic (su i) + pg i)) = _
  rw [Ideal.ofBits_zero_f32]
  rfl

/-- The target times the softplus of the negated score. -/
theorem k5_pay6_apply (su pg : Vec Ideal S256x128 .f32) (i : S256x128.Idx) :
    k5_pay6 (F := Ideal) su pg i = Cert.Spec.clip01 (Cert.Spec.sg (su i) + pg i) * Cert.Spec.sp (-(su i)) := by
  unfold k5_pay6 k5_pay4
  rw [mulf_apply, k5_pay5_apply, shapeCast_self]
  refine congrArg (Cert.Spec.clip01 (Cert.Spec.sg (su i) + pg i) * ·) ?_
  refine (sp_guard (Ideal.ofBits .f32 0x00000000#32 - su i)).trans ?_
  rw [Ideal.ofBits_zero_f32, zero_sub]

/-- One minus the target. -/
theorem k5_pay7_apply (su pg : Vec Ideal S256x128 .f32) (i : S256x128.Idx) :
    k5_pay7 (F := Ideal) su pg i = Cert.Spec.one - Cert.Spec.clip01 (Cert.Spec.sg (su i) + pg i) := by
  unfold k5_pay7
  rw [subf_apply, k5_pay5_apply]
  rfl

/-- The softplus of the score, assembled from the first part's pieces: its maximum with zero, its guard, its guarded
    alternative and its logarithmic term. -/
theorem k5_sp_apply (su : Vec Ideal S256x128 .f32) (i : S256x128.Idx) :
    select (k5_pay10 (F := Ideal) su) (k5_pay11 (F := Ideal) su) (addf (k5_pay8 (F := Ideal) su) (k5_pay12 (F := Ideal) su)) i
      = Cert.Spec.sp (su i) := by
  unfold k5_pay10 k5_pay11 k5_pay8 k5_pay12 k5_pay9 k5_pay4
  simp only [shapeCast_self]
  exact sp_guard (su i)

/-- A step adds the block's sum of cross-entropy terms to the accumulator. -/
theorem k5_pay1_apply (su pg : Vec Ideal S256x128 .f32) (acc : Vec Ideal S1x1 .f32) (y : S1x1.Idx) :
    k5_pay1 (F := Ideal) (k5_pay6 su pg) (k5_pay7 su pg) (k5_pay8 su) (k5_pay10 su) (k5_pay11 su) (k5_pay12 su) acc y
      = acc y + ∑ r : Fin 256, ∑ l : Fin 128, Cert.Spec.unl (su (ix2 r l)) (pg (ix2 r l)) := by
  obtain rfl := idx11_eq y
  unfold k5_pay1
  rw [shapeCast_self, addf_apply]
  refine congrArg (acc (ix2 (0 : Fin 1) (0 : Fin 1)) + ·) ?_
  refine (shapeCast_a_1a_apply _ _ (0 : Fin 1) (0 : Fin 1)).trans ?_
  refine (sum_axis0_apply _ _ _ _ (0 : Fin 1)).trans ?_
  refine Finset.sum_congr rfl fun r _ => ?_
  refine (shapeCast_a_a1_apply _ _ r (0 : Fin 1)).trans ?_
  refine (sum_axis1_apply _ _ _ _ r).trans ?_
  refine Finset.sum_congr rfl fun l _ => ?_
  rw [addf_apply, mulf_apply, k5_pay6_apply, k5_pay7_apply, k5_sp_apply]
  rfl

/-- The write-back broadcasts the accumulator's one element. -/
theorem k5_pay2_apply (acc : Vec Ideal S1x1 .f32) (y : S8x128.Idx) :
    k5_pay2 (F := Ideal) acc y = acc (ix2 (0 : Fin 1) (0 : Fin 1)) := by
  unfold k5_pay2
  rw [shapeCast_self]
  exact broadcastTo_11_ab_apply _ _ y

/-- The reset stores zero. -/
theorem k5_pay3_apply (y : S1x1.Idx) : k5_pay3 (F := Ideal) y = 0 := by
  unfold k5_pay3
  rw [shapeCast_self]
  exact Ideal.ofBits_zero_f32

end Cert.KernelIdeal.Val

end
-- ==== Proof.Val.Regroup.lean ====
/-
  Regrouping a sum over a product range: a sum over `Fin (m * n)` is the double sum over `m` blocks of `n`
  consecutive indices, `i = n * a + b`. It holds in every commutative additive monoid (on the extended reals no
  finiteness is needed). Stated for a summand given on the naturals and for one given on the range itself, then at the
  literal sizes the programs use, with the product written out as one literal on the left.
-/
import Idealize.ShloMosaic.PureOps.Ideal

open scoped BigOperators

namespace Cert.KernelIdeal.Val

variable {M : Type*} [AddCommMonoid M]

/-- The position `n * a + b` of entry `b` of block `a` is inside the product range. -/
theorem regroup_lt {m n : ℕ} (a : Fin m) (b : Fin n) : n * a.val + b.val < m * n := by
  have ha := a.isLt
  have hb := b.isLt
  calc n * a.val + b.val < n * a.val + n := by omega
    _ = n * (a.val + 1) := by rw [Nat.mul_add, Nat.mul_one]
    _ ≤ n * m := Nat.mul_le_mul_left n ha
    _ = m * n := Nat.mul_comm n m

/-- A sum over `Fin (m * n)` is the double sum over the blocks and the entries of a block. -/
theorem sum_fin_mul_fin (m n : ℕ) (g : Fin (m * n) → M) :
    ∑ i : Fin (m * n), g i = ∑ a : Fin m, ∑ b : Fin n, g ⟨n * a.val + b.val, regroup_lt a b⟩ := by
  rw [← (finProdFinEquiv (m := m) (n := n)).sum_comp g, Fintype.sum_prod_type]
  refine Finset.sum_congr rfl fun a _ => Finset.sum_congr rfl fun b _ => congrArg g (Fin.ext ?_)
  show b.val + n * a.val = n * a.val + b.val
  exact Nat.add_comm _ _

/-- The same for a summand given on the naturals. -/
theorem sum_fin_mul (m n : ℕ) (f : ℕ → M) :
    ∑ i : Fin (m * n), f i.val = ∑ a : Fin m, ∑ b : Fin n, f (n * a.val + b.val) :=
  sum_fin_mul_fin m n fun i => f i.val

/-! ## The literal sizes -/

/-- `Fin 32768` regrouped as 256 blocks of 128. -/
theorem sum_32768_256x128 (f : ℕ → M) :
    ∑ i : Fin 32768, f i.val = ∑ a : Fin 256, ∑ b : Fin 128, f (128 * a.val + b.val) :=
  sum_fin_mul 256 128 f
theorem sum_32768_256x128_fin (g : Fin 32768 → M) :
    ∑ i : Fin 32768, g i = ∑ a : Fin 256, ∑ b : Fin 128, g ⟨128 * a.val + b.val, by omega⟩ :=
  sum_fin_mul_fin 256 128 g

/-- `Fin 32768` regrouped as 8 blocks of 4096. -/
theorem sum_32768_8x4096 (f : ℕ → M) :
    ∑ i : Fin 32768, f i.val = ∑ a : Fin 8, ∑ b : Fin 4096, f (4096 * a.val + b.val) :=
  sum_fin_mul 8 4096 f
theorem sum_32768_8x4096_fin (g : Fin 32768 → M) :
    ∑ i : Fin 32768, g i = ∑ a : Fin 8, ∑ b : Fin 4096, g ⟨4096 * a.val + b.val, by omega⟩ :=
  sum_fin_mul_fin 8 4096 g

/-- `Fin 50` regrouped as 2 blocks of 25. -/
theorem sum_50_2x25 (f : ℕ → M) :
    ∑ i : Fin 50, f i.val = ∑ a : Fin 2, ∑ b : Fin 25, f (25 * a.val + b.val) :=
  sum_fin_mul 2 25 f
theorem sum_50_2x25_fin (g : Fin 50 → M) :
    ∑ i : Fin 50, g i = ∑ a : Fin 2, ∑ b : Fin 25, g ⟨25 * a.val + b.val, by omega⟩ :=
  sum_fin_mul_fin 2 25 g

/-- `Fin 100000` regrouped as 50 blocks of 2000. -/
theorem sum_100000_50x2000 (f : ℕ → M) :
    ∑ i : Fin 100000, f i.val = ∑ a : Fin 50, ∑ b : Fin 2000, f (2000 * a.val + b.val) :=
  sum_fin_mul 50 2000 f
theorem sum_100000_50x2000_fin (g : Fin 100000 → M) :
    ∑ i : Fin 100000, g i = ∑ a : Fin 50, ∑ b : Fin 2000, g ⟨2000 * a.val + b.val, by omega⟩ :=
  sum_fin_mul_fin 50 2000 g

/-- `Fin 1024` regrouped as 4 blocks of 256. -/
theorem sum_1024_4x256 (f : ℕ → M) :
    ∑ i : Fin 1024, f i.val = ∑ a : Fin 4, ∑ b : Fin 256, f (256 * a.val + b.val) :=
  sum_fin_mul 4 256 f
theorem sum_1024_4x256_fin (g : Fin 1024 → M) :
    ∑ i : Fin 1024, g i = ∑ a : Fin 4, ∑ b : Fin 256, g ⟨256 * a.val + b.val, by omega⟩ :=
  sum_fin_mul_fin 4 256 g

/-- `Fin 131072` regrouped as 1024 blocks of 128. -/
theorem sum_131072_1024x128 (f : ℕ → M) :
    ∑ i : Fin 131072, f i.val = ∑ a : Fin 1024, ∑ b : Fin 128, f (128 * a.val + b.val) :=
  sum_fin_mul 1024 128 f
theorem sum_131072_1024x128_fin (g : Fin 131072 → M) :
    ∑ i : Fin 131072, g i = ∑ a : Fin 1024, ∑ b : Fin 128, g ⟨128 * a.val + b.val, by omega⟩ :=
  sum_fin_mul_fin 1024 128 g

/-- `Fin 262144` regrouped as 2048 blocks of 128. -/
theorem sum_262144_2048x128 (f : ℕ → M) :
    ∑ i : Fin 262144, f i.val = ∑ a : Fin 2048, ∑ b : Fin 128, f (128 * a.val + b.val) :=
  sum_fin_mul 2048 128 f
theorem sum_262144_2048x128_fin (g : Fin 262144 → M) :
    ∑ i : Fin 262144, g i = ∑ a : Fin 2048, ∑ b : Fin 128, g ⟨128 * a.val + b.val, by omega⟩ :=
  sum_fin_mul_fin 2048 128 g

end Cert.KernelIdeal.Val
-- ==== Proof.Val.Acc3.lean ====
/-
  The negative-triple loss launch, from blocks to the array. The launch's grid has eight points; at point `t` the input
  window holds rows `4096 t … 4096 t + 4095` of the score array, and the accumulator takes, on top of what it held, the
  block's sum of softplus values. So after the last point the accumulator is the sum over the eight blocks, which
  regrouped (`i = 4096 t + r`) is the sum over all 32768 rows of the array.
-/
import proofs.«166015_j17652315586942_2_alg».proof.Proof.KI.R3
import proofs.«166015_j17652315586942_2_alg».proof.Proof.Val.Pay
import proofs.«166015_j17652315586942_2_alg».proof.Proof.Val.Regroup

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Hand

/-! ## A block of the input window is a band of rows of the array -/

section AnyInstance
variable {F : FTy → Type} [FloatOps F]
variable (V : (c : Dev nD) → (b : Ref sig .tc) → Buf (Elt F) ((c : Thread nD τ).loc b))

/-- The block index of the input window at point `t`: block `t` of rows, the one block of columns. -/
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

/-- Entry `(r, l)` of the block at point `t` is entry `(4096 t + r, l)` of the array: on each axis a block's coordinate
    is the block index times the block's size plus the coordinate inside the block. -/
theorem iblk3_apply (c : Dev nD) (t : Fin cfg3.N) (r : Fin 4096) (l : Fin 64) (h : 4096 * t.val + r.val < 32768) :
    (iblk3 V c 0 t : S4096x64.Idx → Elt F .f32) (ix2 r l)
      = (V c (Pipeline.arrRef spec3 0) : S32768x64.Idx → Elt F .f32) (ix2 ⟨4096 * t.val + r.val, h⟩ l) := by
  unfold iblk3
  rw [View.read_apply]
  show (V c (Pipeline.arrRef spec3 0) : S32768x64.Idx → Elt F .f32) _ = _
  refine congrArg (V c (Pipeline.arrRef spec3 0) : S32768x64.Idx → Elt F .f32) ?_
  funext a
  apply Fin.ext
  match a with
  | ⟨0, _⟩ =>
    show win3_0.index t 0 * 4096 + 1 * r.val = 4096 * t.val + r.val
    rw [(idx3_0 t).1]; omega
  | ⟨1, _⟩ =>
    show win3_0.index t 1 * 64 + 1 * l.val = l.val
    rw [(idx3_0 t).2]; omega

/-- A point of the grid is below eight, so its band of rows is inside the array. -/
theorem row3_lt (t : Fin cfg3.N) (r : Fin 4096) : 4096 * t.val + r.val < 32768 := by
  have ht : t.val < 8 := lt_of_lt_of_eq t.isLt N_3
  have hr := r.isLt
  omega

end AnyInstance

/-! ## The accumulator after the last point -/

section AtIdeal
variable (V : (c : Dev nD) → (b : Ref sig .tc) → Buf (Elt Ideal) ((c : Thread nD τ).loc b))

/-- Row `i`'s sum of softplus values, as a function of the row's number (zero past the array's last row). -/
def rowSp (c : Dev nD) (i : ℕ) : EReal :=
  if h : i < 32768 then ∑ l : Fin 64, Cert.Spec.sp ((V c (Pipeline.arrRef spec3 0) : S32768x64.Idx → EReal) (ix2 ⟨i, h⟩ l)) else 0

theorem rowSp_of_lt (c : Dev nD) (i : ℕ) (h : i < 32768) :
    rowSp V c i = ∑ l : Fin 64, Cert.Spec.sp ((V c (Pipeline.arrRef spec3 0) : S32768x64.Idx → EReal) (ix2 ⟨i, h⟩ l)) :=
  dif_pos h

/-- The block's sum at point `t`, read on the array: the rows `4096 t + r`. -/
theorem blockSum3 (c : Dev nD) (t : Fin cfg3.N) :
    ∑ r : Fin 4096, ∑ l : Fin 64, Cert.Spec.sp ((View.ld (iblk3 V c 0 t) rIn3 : Vec Ideal S4096x64 .f32) (ix2 r l))
      = ∑ r : Fin 4096, rowSp V c (4096 * t.val + r.val) := by
  rw [View.ld_unit_zero (S := S4096x64) hz3]
  refine Finset.sum_congr rfl fun r _ => ?_
  rw [rowSp_of_lt V c _ (row3_lt t r)]
  refine Finset.sum_congr rfl fun l _ => ?_
  rw [iblk3_apply V c t r l (row3_lt t r)]

/-- After point `n` the accumulator holds the sum over the blocks of the points `0 … n`: by induction on the point. -/
theorem acc3_closed (c : Dev nD) (y : S1x1.Idx) : ∀ (n : ℕ) (hn : n < cfg3.N),
    acc3 V c n hn y = ∑ t : Fin (n + 1), ∑ r : Fin 4096, rowSp V c (4096 * t.val + r.val)
  | 0, hn => by
    show k3_pay2 (F := Ideal) (View.ld (iblk3 V c 0 ⟨0, hn⟩) rIn3) (k3_pay1 (F := Ideal)) y = _
    rw [k3_pay2_apply, k3_pay1_apply, zero_add, blockSum3 V c ⟨0, hn⟩, Fin.sum_univ_one]
    rfl
  | n + 1, hn => by
    show k3_pay2 (F := Ideal) (View.ld (iblk3 V c 0 ⟨n + 1, hn⟩) rIn3) (acc3 V c n (Nat.lt_of_succ_lt hn)) y = _
    rw [k3_pay2_apply, acc3_closed c y n (Nat.lt_of_succ_lt hn), blockSum3 V c ⟨n + 1, hn⟩,
      Fin.sum_univ_castSucc (n := n + 1)]
    rfl

/-- The accumulator after the last point, block by block. -/
theorem acc3_last_blocks (c : Dev nD) (y : S1x1.Idx) (h7 : 7 < cfg3.N) :
    acc3 V c 7 h7 y = ∑ t : Fin 8, ∑ r : Fin 4096, ∑ l : Fin 64,
      Cert.Spec.sp ((V c (Pipeline.arrRef spec3 0) : S32768x64.Idx → EReal) (ix2 ⟨4096 * t.val + r.val, by omega⟩ l)) := by
  rw [acc3_closed V c y 7 h7]
  refine Finset.sum_congr rfl fun t _ => Finset.sum_congr rfl fun r _ => ?_
  exact rowSp_of_lt V c _ _

/-- The accumulator after the last point: the sum of the softplus over the whole array, row by row. -/
theorem acc3_last (c : Dev nD) (y : S1x1.Idx) (h7 : 7 < cfg3.N) :
    acc3 V c 7 h7 y = ∑ i : Fin 32768, ∑ l : Fin 64,
      Cert.Spec.sp ((V c (Pipeline.arrRef spec3 0) : S32768x64.Idx → EReal) (ix2 i l)) := by
  rw [acc3_closed V c y 7 h7, ← sum_32768_8x4096 (rowSp V c)]
  refine Finset.sum_congr rfl fun i _ => ?_
  exact rowSp_of_lt V c i.val i.isLt

end AtIdeal

end Cert.KernelIdeal.Val

end
-- ==== Proof.Val.Acc0.lean ====
/-
  The weight-decay launch, from blocks to the array. The launch's grid has fifty points, two runs of twenty-five; at
  point `t` the input window holds rows `2000 t … 2000 t + 1999` of the embedding array; the accumulator is reset at
  the first point of each run and takes, on top of what it held, the block's sum of squares. So after the last point of
  the first run it is the sum over the rows below 50000, after the last point of the second run the sum over the rows
  from 50000 on, and the two together, regrouped (`i = 2000 t + r`), are the sum over all 100000 rows of the array.
-/
import proofs.«166015_j17652315586942_2_alg».proof.Proof.KI.R0
import proofs.«166015_j17652315586942_2_alg».proof.Proof.Val.Pay
import proofs.«166015_j17652315586942_2_alg».proof.Proof.Val.Regroup

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Hand

/-! ## A block of the input window is a band of rows of the array -/

section AnyInstance
variable {F : FTy → Type} [FloatOps F]
variable (V : (c : Dev nD) → (b : Ref sig .tc) → Buf (Elt F) ((c : Thread nD τ).loc b))

/-- The block index of the input window at point `t` (run `t / 25`, step `t % 25`): block `25 (t / 25) + t % 25 = t` of
    rows, the one block of columns. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, l)` of the block at point `t` is entry `(2000 t + r, l)` of the array. -/
theorem iblk0_apply (c : Dev nD) (t : Fin cfg0.N) (r : Fin 2000) (l : Fin 256) (h : 2000 * t.val + r.val < 100000) :
    (iblk0 V c 0 t : S2000x256.Idx → Elt F .f32) (ix2 r l)
      = (V c (Pipeline.arrRef spec0 0) : S100000x256.Idx → Elt F .f32) (ix2 ⟨2000 * t.val + r.val, h⟩ l) := by
  unfold iblk0
  rw [View.read_apply]
  show (V c (Pipeline.arrRef spec0 0) : S100000x256.Idx → Elt F .f32) _ = _
  refine congrArg (V c (Pipeline.arrRef spec0 0) : S100000x256.Idx → Elt F .f32) ?_
  funext a
  apply Fin.ext
  match a with
  | ⟨0, _⟩ =>
    show win0_0.index t 0 * 2000 + 1 * r.val = 2000 * t.val + r.val
    rw [(idx0_0 t).1]; omega
  | ⟨1, _⟩ =>
    show win0_0.index t 1 * 256 + 1 * l.val = l.val
    rw [(idx0_0 t).2]; omega

/-- A point of the grid is below fifty, so its band of rows is inside the array. -/
theorem row0_lt (t : Fin cfg0.N) (r : Fin 2000) : 2000 * t.val + r.val < 100000 := by
  have ht : t.val < 50 := lt_of_lt_of_eq t.isLt N_0
  have hr := r.isLt
  omega

end AnyInstance

/-! ## The accumulator after the last point of each run -/

section AtIdeal
variable (V : (c : Dev nD) → (b : Ref sig .tc) → Buf (Elt Ideal) ((c : Thread nD τ).loc b))

/-- The embedding array as the launch finds it, as a function into the extended reals. -/
abbrev embArr (c : Dev nD) : S100000x256.Idx → EReal := V c (Pipeline.arrRef spec0 0)

/-- Row `i`'s sum of squares, as a function of the row's number (zero past the array's last row). -/
def rowSq (c : Dev nD) (i : ℕ) : EReal :=
  if h : i < 100000 then ∑ l : Fin 256, embArr V c (ix2 ⟨i, h⟩ l) * embArr V c (ix2 ⟨i, h⟩ l) else 0

theorem rowSq_of_lt (c : Dev nD) (i : ℕ) (h : i < 100000) :
    rowSq V c i = ∑ l : Fin 256, embArr V c (ix2 ⟨i, h⟩ l) * embArr V c (ix2 ⟨i, h⟩ l) :=
  dif_pos h

/-- Block `t`'s sum of squares, as a function of the block's number. -/
def blkSq (c : Dev nD) (t : ℕ) : EReal := ∑ r : Fin 2000, rowSq V c (2000 * t + r.val)

/-- One step at point `t`, read on the array: what the accumulator held plus the squares of the rows `2000 t + r`. -/
theorem step0_apply (c : Dev nD) (t : Fin cfg0.N) (a : Vec Ideal S1x1 .f32) (y : S1x1.Idx) :
    k0_pay2 (F := Ideal) (View.ld (iblk0 V c 0 t) rIn0_0) a y = a y + blkSq V c t.val := by
  refine (k0_pay2_apply _ a y).trans ?_
  refine congrArg (a y + ·) ?_
  unfold blkSq
  refine Finset.sum_congr rfl fun r _ => ?_
  rw [rowSq_of_lt V c _ (row0_lt t r)]
  refine Finset.sum_congr rfl fun l _ => ?_
  have e : (View.ld (iblk0 V c 0 t) rIn0_0 : Vec Ideal S2000x256 .f32) (ix2 r l)
      = embArr V c (ix2 ⟨2000 * t.val + r.val, row0_lt t r⟩ l) :=
    (congrFun (View.ld_unit_zero (S := S2000x256) hz0 _ _) (ix2 r l)).trans (iblk0_apply V c t r l (row0_lt t r))
  exact congrArg₂ (· * ·) e e

/-- After point `n` the accumulator holds the sum over the blocks of its run so far, the points
    `25 (n / 25) … n`: by induction on the point. -/
theorem acc0_closed (c : Dev nD) (y : S1x1.Idx) : ∀ (n : ℕ) (hn : n < cfg0.N),
    acc0 V c n hn y = ∑ j ∈ Finset.range (n % 25 + 1), blkSq V c (25 * (n / 25) + j)
  | 0, hn => by
    show k0_pay2 (F := Ideal) (View.ld (iblk0 V c 0 ⟨0, hn⟩) rIn0_0) (k0_pay1 (F := Ideal)) y = _
    rw [step0_apply V c ⟨0, hn⟩, k0_pay1_apply, zero_add]
    show blkSq V c 0 = ∑ j ∈ Finset.range 1, blkSq V c (25 * (0 / 25) + j)
    rw [Finset.sum_range_one]
  | n + 1, hn => by
    by_cases h : (n + 1) % 25 = 0
    · have e : acc0 V c (n + 1) hn = k0_pay2 (F := Ideal) (View.ld (iblk0 V c 0 ⟨n + 1, hn⟩) rIn0_0) (k0_pay1 (F := Ideal)) :=
        if_pos h
      rw [e, step0_apply V c ⟨n + 1, hn⟩, k0_pay1_apply, zero_add, h, Finset.sum_range_one]
      have h2 : 25 * ((n + 1) / 25) + 0 = n + 1 := by omega
      rw [h2]
    · have e : acc0 V c (n + 1) hn = k0_pay2 (F := Ideal) (View.ld (iblk0 V c 0 ⟨n + 1, hn⟩) rIn0_0)
          (acc0 V c n (Nat.lt_of_succ_lt hn)) := if_neg h
      rw [e, step0_apply V c ⟨n + 1, hn⟩, acc0_closed c y n (Nat.lt_of_succ_lt hn)]
      have h1 : (n + 1) % 25 = n % 25 + 1 := by omega
      have h2 : (n + 1) / 25 = n / 25 := by omega
      have h3 : 25 * (n / 25) + (n % 25 + 1) = n + 1 := by omega
      rw [h1, h2, Finset.sum_range_succ _ (n % 25 + 1), h3]

/-- After the last point of the first run: the blocks `0 … 24`. -/
theorem acc0_run0 (c : Dev nD) (y : S1x1.Idx) (h : 24 < cfg0.N) :
    acc0 V c 24 h y = ∑ t : Fin 25, blkSq V c t.val := by
  rw [acc0_closed V c y 24 h, Finset.sum_range]
  refine Finset.sum_congr rfl fun t _ => ?_
  show blkSq V c (25 * (24 / 25) + t.val) = _
  rw [show 25 * (24 / 25) + t.val = t.val from by omega]

/-- After the last point of the second run: the blocks `25 … 49`. -/
theorem acc0_run1 (c : Dev nD) (y : S1x1.Idx) (h : 49 < cfg0.N) :
    acc0 V c 49 h y = ∑ t : Fin 25, blkSq V c (25 + t.val) := by
  rw [acc0_closed V c y 49 h, Finset.sum_range]

/-- The first run's total on the array: the rows below 50000. -/
theorem acc0_run0_rows (c : Dev nD) (y : S1x1.Idx) (h : 24 < cfg0.N) :
    acc0 V c 24 h y = ∑ i : Fin 50000, rowSq V c i.val := by
  rw [acc0_run0 V c y h]
  exact (sum_fin_mul 25 2000 (rowSq V c)).symm

/-- The second run's total on the array: the rows from 50000 on. -/
theorem acc0_run1_rows (c : Dev nD) (y : S1x1.Idx) (h : 49 < cfg0.N) :
    acc0 V c 49 h y = ∑ i : Fin 50000, rowSq V c (50000 + i.val) := by
  rw [acc0_run1 V c y h]
  refine Eq.trans ?_ (sum_fin_mul 25 2000 fun i => rowSq V c (50000 + i)).symm
  refine Finset.sum_congr rfl fun t _ => Finset.sum_congr rfl fun r _ => ?_
  show rowSq V c (2000 * (25 + t.val) + r.val) = rowSq V c (50000 + (2000 * t.val + r.val))
  rw [show 2000 * (25 + t.val) + r.val = 50000 + (2000 * t.val + r.val) from by omega]

/-- The two runs together: the sum of squares over the whole array, row by row. -/
theorem acc0_total (c : Dev nD) (y : S1x1.Idx) (h24 : 24 < cfg0.N) (h49 : 49 < cfg0.N) :
    acc0 V c 24 h24 y + acc0 V c 49 h49 y
      = ∑ i : Fin 100000, ∑ l : Fin 256, embArr V c (ix2 i l) * embArr V c (ix2 i l) := by
  rw [acc0_run0 V c y h24, acc0_run1 V c y h49]
  have e2 : (∑ t : Fin 25, blkSq V c t.val) + ∑ t : Fin 25, blkSq V c (25 + t.val)
      = ∑ a : Fin 2, ∑ b : Fin 25, blkSq V c (25 * a.val + b.val) := by
    rw [Fin.sum_univ_two]
    refine congrArg₂ (· + ·) (Finset.sum_congr rfl fun b _ => ?_) (Finset.sum_congr rfl fun b _ => ?_)
    · show blkSq V c b.val = blkSq V c (25 * 0 + b.val)
      rw [Nat.mul_zero, Nat.zero_add]
    · show blkSq V c (25 + b.val) = blkSq V c (25 * 1 + b.val)
      rw [Nat.mul_one]
  rw [e2, ← sum_50_2x25 (blkSq V c)]
  unfold blkSq
  rw [← sum_100000_50x2000 (rowSq V c)]
  refine Finset.sum_congr rfl fun i _ => ?_
  exact rowSq_of_lt V c i.val i.isLt

end AtIdeal

end Cert.KernelIdeal.Val

end
-- ==== Proof.KI.KValA.lean ====
/-
  Three of the four summands of the kernel program's result, read on the launch memory. Each summand is followed back
  from the boundary before the last launch to the launch that produced it: a buffer stays as written until something
  writes it again; a short host stretch is read at an index; a launch's result array is the broadcast of its body's
  total; and that total, regrouped over the blocks, is a sum over the whole argument array. The positive-triple loss is the
  sum of the softplus of the negated positive scores, divided by their count; the negative-triple loss is the sum of the
  softplus of the negative scores, divided by their count; the weight-decay term is its coefficient times the sum of the
  squares of the two embedding tables.
-/
import proofs.«166015_j17652315586942_2_alg».proof.Proof.KI.Stay
import proofs.«166015_j17652315586942_2_alg».proof.Proof.KI.Host
import proofs.«166015_j17652315586942_2_alg».proof.Proof.KI.Out12
import proofs.«166015_j17652315586942_2_alg».proof.Proof.KI.Out3
import proofs.«166015_j17652315586942_2_alg».proof.Proof.KI.Out0
import proofs.«166015_j17652315586942_2_alg».proof.Proof.Val.Pay
import proofs.«166015_j17652315586942_2_alg».proof.Proof.Val.Acc3
import proofs.«166015_j17652315586942_2_alg».proof.Proof.Val.Acc0
import proofs.«166015_j17652315586942_2_alg».proof.Proof.Val.Regroup

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays, as the launch memory holds them, read into the extended reals -/

/-- The positive scores. -/
abbrev argPos (c : Dev nD) : S32768x1.Idx → EReal := m ((c : Thread nD τ).loc main_arg0)
/-- The negative scores. -/
abbrev argNeg (c : Dev nD) : S32768x64.Idx → EReal := m ((c : Thread nD τ).loc main_arg1)
/-- The entity embeddings. -/
abbrev argEnt (c : Dev nD) : S100000x256.Idx → EReal := m ((c : Thread nD τ).loc main_arg3)
/-- The relation embeddings. -/
abbrev argRel (c : Dev nD) : S500x256.Idx → EReal := m ((c : Thread nD τ).loc main_arg4)

/-! ## The negative-triple loss -/

/-- The negative scores' array is as at launch when the fourth launch reads it. -/
theorem neg_arr (c : Dev nD) :
    (V6 m ρ c (Pipeline.arrRef spec3 0) : S32768x64.Idx → EReal) = m ((c : Thread nD τ).loc main_arg1) :=
  stay_main_arg1_0_6 m ρ c

/-- The fourth launch's result array: its accumulator after the last point, at every entry. -/
theorem neg_res (c : Dev nD) :
    (W7 m ρ c (Proc.devRef .tc main_v15) : S8x128.Idx → EReal) = k3_pay3 (acc3 (V6 m ρ) c 7 t3_7.isLt) :=
  (W7_arr m ρ c 1).trans (final3 (V6 m ρ) c)

/-- The second summand: the sum of the softplus over all negative scores, divided by their count's word. -/
theorem neg_part (c : Dev nD) (i : S_.Idx) :
    (W13 m ρ c (Proc.devRef .tc main_v19) : S_.Idx → EReal) i
      = Ideal.div (∑ p : Fin 32768, ∑ q : Fin 64,
          Cert.Spec.sp (argNeg m c (ix2 p q))) (Ideal.ofBits .f32 0x4A000000#32) := by
  rw [stay_main_v19_8_13 m ρ c]
  refine (read_v19 (W7 m ρ c) _ (neg_res m ρ c) i).trans ?_
  rw [Val.k3_pay3_apply, Val.acc3_last (V6 m ρ) c _ t3_7.isLt, neg_arr m ρ c]

/-! ## The positive-triple loss -/

/-- The offsets of a whole-buffer rectangle of rank two are all zero. -/
theorem hzK : (![0, 0] : Fin 2 → Nat) = fun _ => 0 := funext fun a => by fin_cases a <;> rfl

/-- At its one point the third launch's input window is on the block at offset 0, of the array's extents. -/
theorem blk_whole2_in : ∀ a : Fin 2, win2_0.index t2_0 a * win2_0.size a = 0
    ∧ win2_0.xsize (grid2.coords t2_0) a = S256x128.size a := by decide +kernel

/-- So the block its body reads is the whole array. -/
theorem iblk2_whole (V : (c : Dev nD) → (b : Ref sig .tc) → Buf (Elt Ideal) ((c : Thread nD τ).loc b)) (c : Dev nD) :
    (iblk2 V c 0 t2_0 : S256x128.Idx → EReal) = (V c main_v11 : S256x128.Idx → EReal) := by
  unfold iblk2
  exact Memref.read_access_unit_zero (Elt Ideal) main_v11 (funext fun a => (blk_whole2_in a).1)
    (fun a => by rw [(blk_whole2_in a).1]; simp) (V c main_v11)

/-- The positive scores, re-laid as a 256×128 array, as the third launch reads them: entry (r, l) is score 128 r + l of
    the launch memory. -/
theorem pos_in (c : Dev nD) (r : Fin 256) (l : Fin 128) :
    (V4 m ρ c main_v11 : S256x128.Idx → EReal) (ix2 r l)
      = argPos m c (ix2 ⟨128 * r.val + l.val, by omega⟩ 0) :=
  read_v11 (W3 m ρ c) _ (stay_main_arg0_0_3 m ρ c) r l

/-- The third launch's result array: its body's output block. -/
theorem pos_res (c : Dev nD) :
    (W5 m ρ c (Proc.devRef .tc main_v12) : S8x128.Idx → EReal) = out2_1 (iblk2 (V4 m ρ) c 0 t2_0) :=
  (W5_arr m ρ c 1).trans (final2 (V4 m ρ) c)

/-- Its entry (0, 0): the sum of the softplus of the negated positive scores. -/
theorem pos_sum (c : Dev nD) :
    @Eq EReal ((W5 m ρ c (Proc.devRef .tc main_v12) : S8x128.Idx → EReal) (ix2 0 0))
      (∑ p : Fin 32768, Cert.Spec.sp (-(argPos m c (ix2 p 0)))) := by
  rw [pos_res m ρ c]
  unfold out2_1
  rw [View.canon_unit_zero hzK, View.ld_unit_zero (S := S256x128) hzK, Val.k2_pay1_apply, iblk2_whole,
    Val.sum_32768_256x128_fin (fun p => Cert.Spec.sp (-(argPos m c (ix2 p 0))))]
  refine Finset.sum_congr rfl fun r _ => Finset.sum_congr rfl fun l _ => ?_
  rw [pos_in m ρ c r l]

/-- The first summand: the sum of the softplus of the negated positive scores, divided by their count's word. -/
theorem pos_part (c : Dev nD) (i : S_.Idx) :
    (W13 m ρ c (Proc.devRef .tc main_v18) : S_.Idx → EReal) i
      = Ideal.div (∑ p : Fin 32768, Cert.Spec.sp (-(argPos m c (ix2 p 0))))
          (Ideal.ofBits .f32 0x47000000#32) := by
  rw [stay_main_v18_8_13 m ρ c]
  refine (read_v18 (W7 m ρ c) _ rfl i).trans ?_
  rw [stay_main_v14_6_7 m ρ c]
  refine congrArg (Ideal.div · _) ?_
  exact (read_v14 (W5 m ρ c) _ rfl i).trans (pos_sum m ρ c)

/-! ## The weight-decay term -/

/-- At its one point the second launch's input window is on the block at offset 0, of the array's extents. -/
theorem blk_whole1_in : ∀ a : Fin 2, win1_0.index t1_0 a * win1_0.size a = 0
    ∧ win1_0.xsize (grid1.coords t1_0) a = S500x256.size a := by decide +kernel

/-- So the block its body reads is the whole array. -/
theorem iblk1_whole (V : (c : Dev nD) → (b : Ref sig .tc) → Buf (Elt Ideal) ((c : Thread nD τ).loc b)) (c : Dev nD) :
    (iblk1 V c 0 t1_0 : S500x256.Idx → EReal) = (V c main_arg4 : S500x256.Idx → EReal) := by
  unfold iblk1
  exact Memref.read_access_unit_zero (Elt Ideal) main_arg4 (funext fun a => (blk_whole1_in a).1)
    (fun a => by rw [(blk_whole1_in a).1]; simp) (V c main_arg4)

/-- The relation embeddings are as at launch when the second launch reads them. -/
theorem rel_arr (c : Dev nD) : (V2 m ρ c main_arg4 : S500x256.Idx → EReal) = argRel m c :=
  stay_main_arg4_0_2 m ρ c

/-- The second launch's result array: its body's output block. -/
theorem rel_res (c : Dev nD) :
    (W3 m ρ c (Proc.devRef .tc main_v6) : S8x128.Idx → EReal) = out1_1 (iblk1 (V2 m ρ) c 0 t1_0) :=
  (W3_arr m ρ c 1).trans (final1 (V2 m ρ) c)

/-- Its entry (0, 0): the sum of the squares of the relation embeddings. -/
theorem rel_sum (c : Dev nD) :
    @Eq EReal ((W3 m ρ c (Proc.devRef .tc main_v6) : S8x128.Idx → EReal) (ix2 0 0))
      (∑ p : Fin 500, ∑ q : Fin 256, argRel m c (ix2 p q) * argRel m c (ix2 p q)) := by
  rw [rel_res m ρ c]
  unfold out1_1
  rw [View.canon_unit_zero hzK, View.ld_unit_zero (S := S500x256) hzK, Val.k1_pay1_apply, iblk1_whole, rel_arr m ρ c]

/-- The first launch's result array. -/
theorem ent_res (c : Dev nD) :
    (W1 m ρ c (Proc.devRef .tc main_v0) : S16x128.Idx → EReal) = (dat0 (V0 m ρ) c).arrAt 1 cfg0.N :=
  W1_arr m ρ c 1

/-- The two halves of the entity embeddings' sum of squares, added by the host. -/
theorem ent_sum (c : Dev nD) (j : S_.Idx) :
    @Eq EReal ((W3 m ρ c (Proc.devRef .tc main_v5) : S_.Idx → EReal) j)
      (∑ p : Fin 100000, ∑ q : Fin 256, argEnt m c (ix2 p q) * argEnt m c (ix2 p q)) := by
  have h24 : 24 < cfg0.N := lt_of_lt_of_eq (by decide) N_0.symm
  have h49 : 49 < cfg0.N := lt_of_lt_of_eq (by decide) N_0.symm
  rw [stay_main_v5_2_3 m ρ c]
  refine (read_v5 (W1 m ρ c) _ (ent_res m ρ c) j).trans ?_
  rw [final0_lo (V0 m ρ) c h24, final0_hi (V0 m ρ) c h49, Val.k0_pay3_apply, Val.k0_pay3_apply]
  exact Val.acc0_total (V0 m ρ) c _ h24 h49

/-- The last summand: the weight-decay coefficient's word times the two sums of squares. -/
theorem decay_part (c : Dev nD) (i : S_.Idx) :
    @Eq EReal ((W13 m ρ c (Proc.devRef .tc main_v10) : S_.Idx → EReal) i)
      (Ideal.ofBits .f32 0x3727C5AC#32
          * ((∑ p : Fin 100000, ∑ q : Fin 256, argEnt m c (ix2 p q) * argEnt m c (ix2 p q))
             + (∑ p : Fin 500, ∑ q : Fin 256, argRel m c (ix2 p q) * argRel m c (ix2 p q)))) := by
  rw [stay_main_v10_4_13 m ρ c]
  refine (read_v10 (W3 m ρ c) _ _ rfl rfl i).trans ?_
  rw [ent_sum m ρ c i, rel_sum m ρ c]

end Cert.KernelIdeal.Hand

end
-- ==== Proof.KI.Out4.lean ====
/-
  What the fifth launch leaves in its result array. The grid has eight points; at point `t` every window's block is rows
  `256 t … 256 t + 255` (all 128 columns) of its 2048×128 array, and the body computes the output block entry by entry
  from the same entries of the four input blocks. So what point `t` writes back is block `t` of ONE function of the
  input arrays — entry by entry, the rule's contribution from its confidence, its two scores and its triple count —, the
  eight blocks cover the result array (row `i` lies in block `i / 256`), and the array ends holding that function.
-/
import proofs.«166015_j17652315586942_2_alg».proof.Proof.KI.R4
import proofs.«166015_j17652315586942_2_alg».proof.Proof.Val.Pay
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section
variable (V : (c : Dev nD) → (b : Ref sig .tc) → Buf (Elt Ideal) ((c : Thread nD τ).loc b))

/-- The offsets of a whole-buffer rectangle of rank two are all zero. -/
theorem hz4 : (![0, 0] : Fin 2 → Nat) = fun _ => 0 := funext fun a => by fin_cases a <;> rfl

/-- At point `t` every window of the launch is on block `t` of rows and on the one block of columns. -/
theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0) :=
  (by decide +kernel : ∀ t : Fin grid4.N, _)

/-- Where entry `y` of the output window's block at point `t` sits in the result array: row `256 t + y₀`, column `y₁`. -/
theorem emb4_val (t : Fin cfg4.N) (y : S256x128.Idx) :
    ((((cfg4.win 4).blk t).view.emb y : S2048x128.Idx) 0).val = 256 * t.val + (y 0).val
    ∧ ((((cfg4.win 4).blk t).view.emb y : S2048x128.Idx) 1).val = (y 1).val := by
  obtain ⟨-, -, -, -, e0, e1⟩ := idx4 t
  constructor
  · show win4_4.index t (0 : Fin 2) * 256 + 1 * (y 0).val = _
    rw [e0]; omega
  · show win4_4.index t (1 : Fin 2) * 128 + 1 * (y 1).val = _
    rw [e1]; omega

/-- Entry `y` of an input window's block at point `t` is the entry of its array at row `256 t + y₀`, column `y₁`: on each
    axis a block's coordinate is the block index times the block's size plus the coordinate inside the block. -/
theorem iblk4_0_apply (c : Dev nD) (t : Fin cfg4.N) (y : S256x128.Idx) (k : S2048x128.Idx)
    (h0 : (k 0).val = 256 * t.val + (y 0).val) (h1 : (k 1).val = (y 1).val) :
    (iblk4 V c 0 t : S256x128.Idx → EReal) y = (V c main_v80 : S2048x128.Idx → EReal) k := by
  obtain ⟨⟨e0, e1⟩, -⟩ := idx4 t
  unfold iblk4
  rw [View.read_apply]
  show (V c main_v80 : S2048x128.Idx → EReal) _ = _
  refine congrArg (V c main_v80 : S2048x128.Idx → EReal) ?_
  funext a
  apply Fin.ext
  match a with
  | ⟨0, _⟩ =>
    show win4_0.index t (0 : Fin 2) * 256 + 1 * (y 0).val = (k 0).val
    rw [e0, h0]; omega
  | ⟨1, _⟩ =>
    show win4_0.index t (1 : Fin 2) * 128 + 1 * (y 1).val = (k 1).val
    rw [e1, h1]; omega

theorem iblk4_1_apply (c : Dev nD) (t : Fin cfg4.N) (y : S256x128.Idx) (k : S2048x128.Idx)
    (h0 : (k 0).val = 256 * t.val + (y 0).val) (h1 : (k 1).val = (y 1).val) :
    (iblk4 V c 1 t : S256x128.Idx → EReal) y = (V c main_v81 : S2048x128.Idx → EReal) k := by
  obtain ⟨-, ⟨e0, e1⟩, -⟩ := idx4 t
  unfold iblk4
  rw [View.read_apply]
  show (V c main_v81 : S2048x128.Idx → EReal) _ = _
  refine congrArg (V c main_v81 : S2048x128.Idx → EReal) ?_
  funext a
  apply Fin.ext
  match a with
  | ⟨0, _⟩ =>
    show win4_1.index t (0 : Fin 2) * 256 + 1 * (y 0).val = (k 0).val
    rw [e0, h0]; omega
  | ⟨1, _⟩ =>
    show win4_1.index t (1 : Fin 2) * 128 + 1 * (y 1).val = (k 1).val
    rw [e1, h1]; omega

theorem iblk4_2_apply (c : Dev nD) (t : Fin cfg4.N) (y : S256x128.Idx) (k : S2048x128.Idx)
    (h0 : (k 0).val = 256 * t.val + (y 0).val) (h1 : (k 1).val = (y 1).val) :
    (iblk4 V c 2 t : S256x128.Idx → EReal) y = (V c main_v82 : S2048x128.Idx → EReal) k := by
  obtain ⟨-, -, ⟨e0, e1⟩, -⟩ := idx4 t
  unfold iblk4
  rw [View.read_apply]
  show (V c main_v82 : S2048x128.Idx → EReal) _ = _
  refine congrArg (V c main_v82 : S2048x128.Idx → EReal) ?_
  funext a
  apply Fin.ext
  match a with
  | ⟨0, _⟩ =>
    show win4_2.index t (0 : Fin 2) * 256 + 1 * (y 0).val = (k 0).val
    rw [e0, h0]; omega
  | ⟨1, _⟩ =>
    show win4_2.index t (1 : Fin 2) * 128 + 1 * (y 1).val = (k 1).val
    rw [e1, h1]; omega

theorem iblk4_3_apply (c : Dev nD) (t : Fin cfg4.N) (y : S256x128.Idx) (k : S2048x128.Idx)
    (h0 : (k 0).val = 256 * t.val + (y 0).val) (h1 : (k 1).val = (y 1).val) :
    (iblk4 V c 3 t : S256x128.Idx → BitVec 32) y = (V c main_v83 : S2048x128.Idx → BitVec 32) k := by
  obtain ⟨-, -, -, ⟨e0, e1⟩, -⟩ := idx4 t
  unfold iblk4
  rw [View.read_apply]
  show (V c main_v83 : S2048x128.Idx → BitVec 32) _ = _
  refine congrArg (V c main_v83 : S2048x128.Idx → BitVec 32) ?_
  funext a
  apply Fin.ext
  match a with
  | ⟨0, _⟩ =>
    show win4_3.index t (0 : Fin 2) * 256 + 1 * (y 0).val = (k 0).val
    rw [e0, h0]; omega
  | ⟨1, _⟩ =>
    show win4_3.index t (1 : Fin 2) * 128 + 1 * (y 1).val = (k 1).val
    rw [e1, h1]; omega

/-- What the result array ends holding: entry by entry, the rule's contribution from the same entry of the confidences,
    the two score arrays and the triple counts. -/
abbrev res4 (c : Dev nD) : S2048x128.Idx → EReal := fun i =>
  Cert.Spec.contrib ((V c main_v82 : S2048x128.Idx → EReal) i) ((V c main_v80 : S2048x128.Idx → EReal) i)
    ((V c main_v81 : S2048x128.Idx → EReal) i) ((V c main_v83 : S2048x128.Idx → BitVec 32) i)

/-- What point `t` writes back is block `t` of that function. -/
theorem flushed4 (c : Dev nD) (t : Fin cfg4.N) :
    (dat4 (F := Ideal) V c).flushed 4 t = ((cfg4.win 4).blk t).view.read (Elt Ideal) (res4 V c) := by
  show (cfg4.win 4).cut (grid4.coords t) ((dat4 V c).after 4 t) = _
  rw [after4_4]
  unfold out4_4
  rw [View.canon_unit_zero hz4]
  simp only [View.ld_unit_zero (S := S256x128) hz4]
  funext y
  rw [View.read_apply]
  obtain ⟨h0, h1⟩ := emb4_val t y
  refine (Val.k4_pay1_apply _ _ _ _ y).trans ?_
  show Cert.Spec.contrib ((iblk4 V c 2 t : S256x128.Idx → EReal) y) ((iblk4 V c 0 t : S256x128.Idx → EReal) y)
      ((iblk4 V c 1 t : S256x128.Idx → EReal) y) ((iblk4 V c 3 t : S256x128.Idx → BitVec 32) y) = res4 V c _
  rw [iblk4_0_apply V c t y _ h0 h1, iblk4_1_apply V c t y _ h0 h1, iblk4_2_apply V c t y _ h0 h1, iblk4_3_apply V c t y _ h0 h1]

/-- An index of the result array is in point `t`'s block iff each coordinate is in the block's range on its axis. -/
theorem mem_blk4 (t : Fin cfg4.N) (i : S2048x128.Idx) :
    i ∈ ((cfg4.win 4).blk t).view.set ↔ ∀ a : Fin 2, win4_4.index t a * S256x128.size a ≤ (i a).val
      ∧ (i a).val < win4_4.index t a * S256x128.size a + S256x128.size a := by
  show i ∈ ((View.whole main_v84).slice (win4_4.rect t)).set ↔ _
  rw [View.set_slice_whole, Rect.mem_set_unit]
  exact Iff.rfl

/-- Row `i` of the result array lies in the block of point `i / 256`. -/
theorem cover4 (i : S2048x128.Idx) :
    ∃ t : Fin cfg4.N, (cfg4.win 4).flush t = true ∧ i ∈ ((cfg4.win 4).blk t).view.set := by
  have hi0 : (i 0).val < 2048 := (i 0).isLt
  have hi1 : (i 1).val < 128 := (i 1).isLt
  have hN : cfg4.N = 8 := N_4
  refine ⟨⟨(i 0).val / 256, by omega⟩, flush4_4 _, ?_⟩
  rw [mem_blk4]
  obtain ⟨-, -, -, -, e0, e1⟩ := idx4 ⟨(i 0).val / 256, by omega⟩
  intro a
  match a with
  | ⟨0, _⟩ =>
    show win4_4.index _ (0 : Fin 2) * 256 ≤ (i 0).val ∧ (i 0).val < win4_4.index _ (0 : Fin 2) * 256 + 256
    rw [e0]; show (i 0).val / 256 * 256 ≤ (i 0).val ∧ (i 0).val < (i 0).val / 256 * 256 + 256; omega
  | ⟨1, _⟩ =>
    show win4_4.index _ (1 : Fin 2) * 128 ≤ (i 1).val ∧ (i 1).val < win4_4.index _ (1 : Fin 2) * 128 + 128
    rw [e1]; omega

/-- The result array after the launch: every rule's contribution, entry by entry. -/
theorem final4 (c : Dev nD) : (dat4 (F := Ideal) V c).arrAt 4 cfg4.N
    = fun i => Cert.Spec.contrib (V c main_v82 i) (V c main_v80 i) (V c main_v81 i) (V c main_v83 i) :=
  (dat4 V c).arrAt_eq_of_cover 4 (res4 V c) (fun t _ => flushed4 V c t) (cover4)

end

end Cert.KernelIdeal.Hand

end
-- ==== Proof.KI.Out5.lean ====
/-
  What the sixth launch leaves in its result array. Of its four grid points only the last writes back; the block there starts
  at offset zero and has the array's extents, so the array ends holding what the last point's body left in the output block:
  the accumulated scratch, broadcast.
-/
import proofs.«166015_j17652315586942_2_alg».proof.Proof.KI.R5
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

section
variable {c : Dev nD}
variable (V : (c : Dev nD) → (b : Ref sig .tc) → Buf (Elt F) ((c : Thread nD τ).loc b))

/-! ## Launch 5: only the last point of the reduction writes back, the accumulator broadcast onto the whole result array -/

/-- At the point that writes launch 5's result back, the block starts at offset 0 on both axes and has the array's extents. -/
theorem blk_whole5 : ∀ a : Fin 2, win5_2.index t5_3 a * win5_2.size a = 0
    ∧ win5_2.xsize (grid5.coords t5_3) a = S8x128.size a := by decide +kernel

/-- So every index of the result array lies in that block. -/
theorem mem_blk5 (i : S8x128.Idx) : i ∈ ((cfg5.win 2).blk t5_3).view.set := by
  show i ∈ ((View.whole main_v121).slice (win5_2.rect t5_3)).set
  rw [View.set_slice_whole, Rect.mem_set_unit]
  intro a
  show win5_2.index t5_3 a * win5_2.size a ≤ (i a : Nat)
    ∧ (i a : Nat) < win5_2.index t5_3 a * win5_2.size a + win5_2.xsize (grid5.coords t5_3) a
  rw [(blk_whole5 a).1, (blk_whole5 a).2, Nat.zero_add]
  exact ⟨Nat.zero_le _, (i a).isLt⟩

/-- Reading the whole array through that block gives the array back. -/
theorem read_blk5 (G : Buf (Elt F) ((c : Thread nD τ).loc main_v121)) :
    ((cfg5.win 2).blk t5_3).view.read (Elt F) G = G :=
  Memref.read_access_unit_zero (Elt F) main_v121 (funext fun a => (blk_whole5 a).1)
    (fun a => by rw [(blk_whole5 a).1]; simp) G

abbrev res5 (c : Dev nD) : Buf (Elt F) ((c : Thread nD τ).loc main_v121) := k5_pay2 (acc5 V c t5_3.val t5_3.isLt)

theorem final5 (c : Dev nD) : (dat5 V c).arrAt 2 cfg5.N = res5 V c := by
  refine (dat5 V c).arrAt_eq_of_cover 2 (res5 V c) (fun t hf => ?_) (fun i => ⟨t5_3, (flush5_2 t5_3).mpr rfl, mem_blk5 i⟩)
  have hN : cfg5.N = 4 := N_5
  have ht : t = t5_3 := Fin.ext (by have := (flush5_2 t).mp hf; have := t.isLt; show t.val = 3; omega)
  subst ht
  rw [read_blk5]
  show (cfg5.win 2).cut (grid5.coords t5_3) ((dat5 V c).after 2 t5_3) = _
  rw [after5_out_last]
  rfl

end

end Cert.KernelIdeal.Hand

end
-- ==== Proof.Val.Acc5.lean ====
/-
  The unlabelled-triple loss launch, from blocks to the arrays. The launch's grid has four points; at point `t` the two
  input windows hold rows `256 t … 256 t + 255` of the score array and of the prior array, and the accumulator takes,
  on top of what it held, the block's sum of cross-entropy terms. So after the last point the accumulator is the sum
  over the four blocks, which regrouped (`u = 256 t + r`) is the sum over all 1024 rows of the two arrays.
-/
import proofs.«166015_j17652315586942_2_alg».proof.Proof.KI.R5
import proofs.«166015_j17652315586942_2_alg».proof.Proof.Val.Pay
import proofs.«166015_j17652315586942_2_alg».proof.Proof.Val.Regroup

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Hand

/-! ## A block of an input window is a band of rows of its array -/

section AnyInstance
variable {F : FTy → Type} [FloatOps F]
variable (V : (c : Dev nD) → (b : Ref sig .tc) → Buf (Elt F) ((c : Thread nD τ).loc b))

/-- The block indices of the two input windows at point `t`: block `t` of rows, the one block of columns. -/
theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)
theorem idx5_1 : ∀ t : Fin cfg5.N, win5_1.index t (0 : Fin 2) = t.val ∧ win5_1.index t (1 : Fin 2) = 0 :=
  (by decide +kernel : ∀ t : Fin grid5.N, win5_1.index t (0 : Fin 2) = t.val ∧ win5_1.index t (1 : Fin 2) = 0)

/-- Entry `(r, l)` of the score block at point `t` is entry `(256 t + r, l)` of the score array. -/
theorem iblk5_0_apply (c : Dev nD) (t : Fin cfg5.N) (r : Fin 256) (l : Fin 128) (h : 256 * t.val + r.val < 1024) :
    (iblk5 V c 0 t : S256x128.Idx → Elt F .f32) (ix2 r l)
      = (V c (Pipeline.arrRef spec5 0) : S1024x128.Idx → Elt F .f32) (ix2 ⟨256 * t.val + r.val, h⟩ l) := by
  unfold iblk5
  rw [View.read_apply]
  show (V c (Pipeline.arrRef spec5 0) : S1024x128.Idx → Elt F .f32) _ = _
  refine congrArg (V c (Pipeline.arrRef spec5 0) : S1024x128.Idx → Elt F .f32) ?_
  funext a
  apply Fin.ext
  match a with
  | ⟨0, _⟩ =>
    show win5_0.index t 0 * 256 + 1 * r.val = 256 * t.val + r.val
    rw [(idx5_0 t).1]; omega
  | ⟨1, _⟩ =>
    show win5_0.index t 1 * 128 + 1 * l.val = l.val
    rw [(idx5_0 t).2]; omega

/-- Entry `(r, l)` of the prior block at point `t` is entry `(256 t + r, l)` of the prior array. -/
theorem iblk5_1_apply (c : Dev nD) (t : Fin cfg5.N) (r : Fin 256) (l : Fin 128) (h : 256 * t.val + r.val < 1024) :
    (iblk5 V c 1 t : S256x128.Idx → Elt F .f32) (ix2 r l)
      = (V c (Pipeline.arrRef spec5 1) : S1024x128.Idx → Elt F .f32) (ix2 ⟨256 * t.val + r.val, h⟩ l) := by
  unfold iblk5
  rw [View.read_apply]
  show (V c (Pipeline.arrRef spec5 1) : S1024x128.Idx → Elt F .f32) _ = _
  refine congrArg (V c (Pipeline.arrRef spec5 1) : S1024x128.Idx → Elt F .f32) ?_
  funext a
  apply Fin.ext
  match a with
  | ⟨0, _⟩ =>
    show win5_1.index t 0 * 256 + 1 * r.val = 256 * t.val + r.val
    rw [(idx5_1 t).1]; omega
  | ⟨1, _⟩ =>
    show win5_1.index t 1 * 128 + 1 * l.val = l.val
    rw [(idx5_1 t).2]; omega

/-- A point of the grid is below four, so its band of rows is inside the arrays. -/
theorem row5_lt (t : Fin cfg5.N) (r : Fin 256) : 256 * t.val + r.val < 1024 := by
  have ht : t.val < 4 := lt_of_lt_of_eq t.isLt N_5
  have hr := r.isLt
  omega

end AnyInstance

/-! ## The accumulator after the last point -/

section AtIdeal
variable (V : (c : Dev nD) → (b : Ref sig .tc) → Buf (Elt Ideal) ((c : Thread nD τ).loc b))

/-- One step of the accumulator: what it held plus the two blocks' sum of cross-entropy terms. -/
theorem step5_apply (su pg : Vec Ideal S256x128 .f32) (a : Vec Ideal S1x1 .f32) (y : S1x1.Idx) :
    step5 (F := Ideal) su pg a y = a y + ∑ r : Fin 256, ∑ l : Fin 128, Cert.Spec.unl (su (ix2 r l)) (pg (ix2 r l)) := by
  unfold step5
  exact k5_pay1_apply su pg a y

/-- Row `u`'s sum of cross-entropy terms, as a function of the row's number (zero past the arrays' last row). -/
def rowUnl (c : Dev nD) (u : ℕ) : EReal :=
  if h : u < 1024 then ∑ l : Fin 128, Cert.Spec.unl ((V c (Pipeline.arrRef spec5 0) : S1024x128.Idx → EReal) (ix2 ⟨u, h⟩ l))
    ((V c (Pipeline.arrRef spec5 1) : S1024x128.Idx → EReal) (ix2 ⟨u, h⟩ l)) else 0

theorem rowUnl_of_lt (c : Dev nD) (u : ℕ) (h : u < 1024) :
    rowUnl V c u = ∑ l : Fin 128, Cert.Spec.unl ((V c (Pipeline.arrRef spec5 0) : S1024x128.Idx → EReal) (ix2 ⟨u, h⟩ l))
      ((V c (Pipeline.arrRef spec5 1) : S1024x128.Idx → EReal) (ix2 ⟨u, h⟩ l)) :=
  dif_pos h

/-- The blocks' sum at point `t`, read on the arrays: the rows `256 t + r`. -/
theorem blockSum5 (c : Dev nD) (t : Fin cfg5.N) :
    ∑ r : Fin 256, ∑ l : Fin 128, Cert.Spec.unl ((View.ld (iblk5 V c 0 t) rIn5_0 : Vec Ideal S256x128 .f32) (ix2 r l))
        ((View.ld (iblk5 V c 1 t) rIn5_1 : Vec Ideal S256x128 .f32) (ix2 r l))
      = ∑ r : Fin 256, rowUnl V c (256 * t.val + r.val) := by
  rw [View.ld_unit_zero (S := S256x128) hz5, View.ld_unit_zero (S := S256x128) hz5]
  refine Finset.sum_congr rfl fun r _ => ?_
  rw [rowUnl_of_lt V c _ (row5_lt t r)]
  refine Finset.sum_congr rfl fun l _ => ?_
  rw [iblk5_0_apply V c t r l (row5_lt t r), iblk5_1_apply V c t r l (row5_lt t r)]

/-- After point `n` the accumulator holds the sum over the blocks of the points `0 … n`: by induction on the point. -/
theorem acc5_closed (c : Dev nD) (y : S1x1.Idx) : ∀ (n : ℕ) (hn : n < cfg5.N),
    acc5 V c n hn y = ∑ t : Fin (n + 1), ∑ r : Fin 256, rowUnl V c (256 * t.val + r.val)
  | 0, hn => by
    show step5 (F := Ideal) (View.ld (iblk5 V c 0 ⟨0, hn⟩) rIn5_0) (View.ld (iblk5 V c 1 ⟨0, hn⟩) rIn5_1) (k5_pay3 (F := Ideal)) y = _
    rw [step5_apply, k5_pay3_apply, zero_add, blockSum5 V c ⟨0, hn⟩, Fin.sum_univ_one]
    rfl
  | n + 1, hn => by
    show step5 (F := Ideal) (View.ld (iblk5 V c 0 ⟨n + 1, hn⟩) rIn5_0) (View.ld (iblk5 V c 1 ⟨n + 1, hn⟩) rIn5_1)
      (acc5 V c n (Nat.lt_of_succ_lt hn)) y = _
    rw [step5_apply, acc5_closed c y n (Nat.lt_of_succ_lt hn), blockSum5 V c ⟨n + 1, hn⟩,
      Fin.sum_univ_castSucc (n := n + 1)]
    rfl

/-- The accumulator after the last point, block by block. -/
theorem acc5_last_blocks (c : Dev nD) (y : S1x1.Idx) (h3 : 3 < cfg5.N) :
    acc5 V c 3 h3 y = ∑ t : Fin 4, ∑ r : Fin 256, ∑ l : Fin 128,
      Cert.Spec.unl ((V c (Pipeline.arrRef spec5 0) : S1024x128.Idx → EReal) (ix2 ⟨256 * t.val + r.val, by omega⟩ l))
        ((V c (Pipeline.arrRef spec5 1) : S1024x128.Idx → EReal) (ix2 ⟨256 * t.val + r.val, by omega⟩ l)) := by
  rw [acc5_closed V c y 3 h3]
  refine Finset.sum_congr rfl fun t _ => Finset.sum_congr rfl fun r _ => ?_
  exact rowUnl_of_lt V c _ _

/-- The accumulator after the last point: the sum of the cross-entropy terms over the whole arrays, row by row. -/
theorem acc5_last (c : Dev nD) (y : S1x1.Idx) (h3 : 3 < cfg5.N) :
    acc5 V c 3 h3 y = ∑ u : Fin 1024, ∑ l : Fin 128,
      Cert.Spec.unl ((V c (Pipeline.arrRef spec5 0) : S1024x128.Idx → EReal) (ix2 u l))
        ((V c (Pipeline.arrRef spec5 1) : S1024x128.Idx → EReal) (ix2 u l)) := by
  rw [acc5_closed V c y 3 h3, ← sum_1024_4x256 (rowUnl V c)]
  refine Finset.sum_congr rfl fun u _ => ?_
  exact rowUnl_of_lt V c u.val u.isLt

end AtIdeal

end Cert.KernelIdeal.Val

end
-- ==== Proof.Ref.Shared.lean ====
/-
  The host operations the kernel's program shares with the reference.

  Between its kernels the kernel's program computes, on the host, the two rule scores, the scatter-add of the rule
  contributions and the scores of the unlabelled triples by exactly the operations the reference uses: slices of the
  triple arrays, a wrap of negative indices, three gathers, two products and a row sum for each score, and one scatter-add
  into a zero vector. Read here from any contents of the program's buffers, each of those stretches ends at the reference's own
  stage applied to the argument arrays, so the two programs' arrays meet as whole terms and are never opened; the tiled
  operands the stretches hand to the kernels are reshapes of those arrays.
-/
import proofs.«166015_j17652315586942_2_alg».proof.Proof.Gen.KernelIdeal.Launch
import proofs.«166015_j17652315586942_2_alg».proof.Proof.Gen.ReferenceIdeal.Read
import Idealize.ShloMosaic.Lib.StableHlo.Run

noncomputable section

namespace Cert.KernelIdeal.Shared

open Cert.KernelIdeal Cert.KernelIdeal.Gen Idealize.ShloMosaic Idealize.ShloMosaic.StableHlo Idealize.SL.Sem

/-! ## The first rule score -/

/-- The stretch of host operations that ends in the first rule score computes, from any contents of the buffers, the
    reference's first rule score of the entity table, the relation table and the first triple array: the same slices,
    index wraps, gathers, products and row sum, operation for operation. -/
theorem rule1 (W : Valuation τ sig (Elt Ideal)) :
    StableHlo.after (main_part0_ops3 (F := Ideal)) W (Proc.devRef .tc main_v49)
      = Cert.ReferenceIdeal.Read.val_main_v36 (F := Ideal) (W (Proc.devRef .tc main_arg3)) (W (Proc.devRef .tc main_arg4)) (W (Proc.devRef .tc main_arg5)) := by
  after_results_simp
  rfl

/-! ## The second rule score and the four tiled operands -/

/-- The next stretch computes the reference's second rule score, of the second triple array. -/
theorem rule2 (W : Valuation τ sig (Elt Ideal)) :
    StableHlo.after (main_part1_ops0 (F := Ideal)) W (Proc.devRef .tc main_v79)
      = Cert.ReferenceIdeal.Read.val_main_v74 (F := Ideal) (W (Proc.devRef .tc main_arg3)) (W (Proc.devRef .tc main_arg4)) (W (Proc.devRef .tc main_arg6)) := by
  after_results_simp
  rfl

/-- It then lays the first rule score, which it does not write, out as 2048 × 128. -/
theorem tile_v80 (W : Valuation τ sig (Elt Ideal)) :
    StableHlo.after (main_part1_ops0 (F := Ideal)) W (Proc.devRef .tc main_v80)
      = shapeCast S2048x128 (W (Proc.devRef .tc main_v49)) shapeCasts_S262144_S2048x128 := by
  after_results_simp
  rfl

/-- The second rule score laid out as 2048 × 128. -/
theorem tile_v81 (W : Valuation τ sig (Elt Ideal)) :
    StableHlo.after (main_part1_ops0 (F := Ideal)) W (Proc.devRef .tc main_v81)
      = shapeCast S2048x128 (Cert.ReferenceIdeal.Read.val_main_v74 (F := Ideal) (W (Proc.devRef .tc main_arg3)) (W (Proc.devRef .tc main_arg4)) (W (Proc.devRef .tc main_arg6)))
          shapeCasts_S262144_S2048x128 := by
  after_results_simp
  rfl

/-- The confidences laid out as 2048 × 128. -/
theorem tile_v82 (W : Valuation τ sig (Elt Ideal)) :
    StableHlo.after (main_part1_ops0 (F := Ideal)) W (Proc.devRef .tc main_v82)
      = shapeCast S2048x128 (W (Proc.devRef .tc main_arg2)) shapeCasts_S262144_S2048x128 := by
  after_results_simp
  rfl

/-- The rules' triple counts laid out as 2048 × 128. -/
theorem tile_v83 (W : Valuation τ sig (Elt Ideal)) :
    StableHlo.after (main_part1_ops0 (F := Ideal)) W (Proc.devRef .tc main_v83)
      = shapeCast S2048x128 (W (Proc.devRef .tc main_arg7)) shapeCasts_S262144_S2048x128 := by
  after_results_simp
  rfl

/-! ## The scatter-add -/

/-- The stretch after the contribution kernel flattens its 2048 × 128 result and scatter-adds it, by the rules' target rows,
    into the zero vector over the unlabelled triples. -/
theorem scatter_v88 (W : Valuation τ sig (Elt Ideal)) :
    StableHlo.after (main_part1_ops1 (F := Ideal)) W (Proc.devRef .tc main_v88)
      = Host.scatterAdd scatter_S131072_S262144x1_S262144_n_0_0_1
          (broadcastInDim S131072 ![] bcast_S_S131072 (constant (F := Ideal) S_ .f32 0x00000000#32))
          (broadcastInDim S262144x1 ![0] bcast_S262144_S262144x1_0 (W (Proc.devRef .tc main_arg8)))
          (shapeCast S262144 (W (Proc.devRef .tc main_v84)) shapeCasts_S2048x128_S262144) := by
  after_results_simp
  rfl

/-- That scatter-add is the reference's: the same dimension numbers, the same zero vector, the same column of target rows. -/
theorem scatter_eq (x8 : (⟨S262144, .i32⟩ : BufTy).Contents (Elt Ideal)) (u : (⟨S262144, .f32⟩ : BufTy).Contents (Elt Ideal)) :
    Host.scatterAdd scatter_S131072_S262144x1_S262144_n_0_0_1
        (broadcastInDim S131072 ![] bcast_S_S131072 (constant (F := Ideal) S_ .f32 0x00000000#32))
        (broadcastInDim S262144x1 ![0] bcast_S262144_S262144x1_0 x8) u
      = Host.scatterAdd Cert.ReferenceIdeal.scatter_S131072_S262144x1_S262144_n_0_0_1 (Cert.ReferenceIdeal.Read.val_main_v90 (F := Ideal))
          (Cert.ReferenceIdeal.Read.val_main_v91 (F := Ideal) x8) u := rfl

/-- The reference's scatter-added contributions are that scatter-add of its contribution vector. -/
theorem ref_scatter (x2 : (⟨S262144, .f32⟩ : BufTy).Contents (Elt Ideal)) (x3 : (⟨S100000x256, .f32⟩ : BufTy).Contents (Elt Ideal))
    (x4 : (⟨S500x256, .f32⟩ : BufTy).Contents (Elt Ideal)) (x5 x6 : (⟨S262144x3, .i32⟩ : BufTy).Contents (Elt Ideal))
    (x7 x8 : (⟨S262144, .i32⟩ : BufTy).Contents (Elt Ideal)) :
    Cert.ReferenceIdeal.Read.val_main_v92 (F := Ideal) x2 x3 x4 x5 x6 x7 x8
      = Host.scatterAdd (F := Ideal) (φ := .f32) Cert.ReferenceIdeal.scatter_S131072_S262144x1_S262144_n_0_0_1 (Cert.ReferenceIdeal.Read.val_main_v90 (F := Ideal))
          (Cert.ReferenceIdeal.Read.val_main_v91 (F := Ideal) x8) (Cert.ReferenceIdeal.Read.val_main_v89 (F := Ideal) x2 x3 x4 x5 x6 x7) := rfl

/-! ## The unlabelled triples' scores -/

/-- The score chain of the unlabelled triples starts at the end of one stretch and ends in the next: run one after the other
    they compute the reference's scores of the unlabelled triple array. -/
theorem unl_scores (W : Valuation τ sig (Elt Ideal)) :
    StableHlo.after (main_part2_ops0 (F := Ideal)) (StableHlo.after (main_part1_ops1 (F := Ideal)) W) (Proc.devRef .tc main_v118)
      = Cert.ReferenceIdeal.Read.val_main_v122 (F := Ideal) (W (Proc.devRef .tc main_arg3)) (W (Proc.devRef .tc main_arg4)) (W (Proc.devRef .tc main_arg9)) := by
  after_results_simp
  rfl

/-- The second stretch then lays the scores out as 1024 × 128. -/
theorem tile_v119 (V : Valuation τ sig (Elt Ideal)) :
    StableHlo.after (main_part2_ops0 (F := Ideal)) V (Proc.devRef .tc main_v119)
      = shapeCast S1024x128 (StableHlo.after (main_part2_ops0 (F := Ideal)) V (Proc.devRef .tc main_v118)) shapeCasts_S131072_S1024x128 := by
  after_results_simp
  rfl

/-- And the scatter-added contributions, which it does not write, as 1024 × 128. -/
theorem tile_v120 (V : Valuation τ sig (Elt Ideal)) :
    StableHlo.after (main_part2_ops0 (F := Ideal)) V (Proc.devRef .tc main_v120)
      = shapeCast S1024x128 (V (Proc.devRef .tc main_v88)) shapeCasts_S131072_S1024x128 := by
  after_results_simp
  rfl

end Cert.KernelIdeal.Shared

end
-- ==== Proof.Ref.Value.lean ====
/-
  The reference program's result as one explicit formula on the extended reals.

  The reference computes a knowledge-graph rule loss as the sum of four numbers:
  the mean over the positive scores of the softplus of the negated score; the mean over the negative scores of the softplus of
  the score; the mean over the unlabelled triples of a cross-entropy term against a clipped target; and a weight-decay
  literal times the sum of the squares of all embedding entries. Each summand is read here off its own stage of the
  program, index by index, with every total reduction written as a sum over literal coordinate ranges and every divisor
  and weight literal kept as the word the program prints. The unlabelled triples' scores, the scatter-added rule
  contributions and the two rule scores are left as the stages that compute them.
-/
import proofs.«166015_j17652315586942_2_alg».proof.Proof.Gen.ReferenceIdeal.Read
import proofs.«166015_j17652315586942_2_alg».proof.Proof.Spec
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-! ## The scalar facts every stage below uses -/

/-- An extended real never differs from itself, so the guard `d ≠ d` that the stable softplus tests before choosing its
    branch is constantly false. -/
theorem cmp_une_self (d : EReal) : Ideal.cmp .une d d = 0#1 := by
  simp [Ideal.cmp]

/-- The stable softplus at one extended real `x`: the guard is false, so the selection takes its second branch, which is
    `max x 0 + log (1 + exp (-|x - 0|))` with `|d|` spelt `max d (-d)`; the first branch `u` is never read. -/
theorem softplus_scalar (x u : EReal) :
    Scalar.select (Ideal.cmp .une (x - 0) (x - 0)) u (max x 0 + Ideal.log1p (Ideal.exp (-(max (x - 0) (-(x - 0))))))
      = Cert.Spec.sp x := by
  rw [cmp_une_self, select_zero]
  rfl

/-- The logistic function as the reference spells it — the word of 1.0 divided by that word plus `exp (-x)` — is the logistic
    function: the word of 1.0 denotes the number one. -/
theorem logistic_scalar (x : EReal) :
    Ideal.div (Ideal.ofBits .f32 0x3F800000#32) (Ideal.ofBits .f32 0x3F800000#32 + Ideal.exp (-x)) = Cert.Spec.sg x := by
  rw [Ideal.ofBits_one_f32]
  rfl

/-! ## The weight-decay term -/

/-- The last summand: the weight-decay literal times the sum of the squares of every entity-embedding entry plus the sum of
    the squares of every relation-embedding entry. Each of the two total reductions starts from the zero word, which
    denotes the number zero, and a sum over a rank-2 index set is the double sum over its two coordinates. -/
theorem decay_eq (a3 : (⟨S100000x256, .f32⟩ : BufTy).Contents (Elt Ideal)) (a4 : (⟨S500x256, .f32⟩ : BufTy).Contents (Elt Ideal))
    (i : S_.Idx) :
    val_main_v148 (F := Ideal) a3 a4 i
      = Ideal.ofBits .f32 0x3727C5AC#32
          * ((∑ p : Fin 100000, ∑ q : Fin 256, a3 (ix2 p q) * a3 (ix2 p q))
             + (∑ p : Fin 500, ∑ q : Fin 256, a4 (ix2 p q) * a4 (ix2 p q))) := by
  rw [val_main_v148_apply, val_main_v147_apply, val_main_v144_apply, val_main_v146_apply, val_main_cst_40_apply,
    val_main_cst_38_apply, val_main_cst_39_apply]
  simp only [Ideal.mulf_def, Ideal.addf_def, Ideal.ofBits_def, Ideal.ofBits_zero_f32, zero_add, val_main_v143_apply,
    val_main_v145_apply]
  rw [sum_idx2, sum_idx2]

/-! ## The mean softplus of the negated positive scores -/

/-- The first inlined softplus, at an index of the positive scores: the stable softplus of the negated score. -/
theorem softplus_pos_apply (a0 : (⟨S32768x1, .f32⟩ : BufTy).Contents (Elt Ideal)) (j : S32768x1.Idx) :
    val_main_v1 (F := Ideal) a0 j = Cert.Spec.sp (-(a0 j)) := by
  simp only [val_main_v1_apply, val_main_call0_v4_apply, val_main_call0_v11_apply, val_main_call0_v10_apply,
    val_main_call0_v9_apply, val_main_call0_v8_apply, val_main_call0_v7_apply, val_main_call0_v3_apply,
    val_main_call0_v2_apply, val_main_call0_v1_apply, val_main_call0_v0_apply, val_main_call0_cst_apply, val_main_v0_apply,
    Ideal.ofBits_def, Ideal.ofBits_zero_f32, Ideal.maximumf_def, Ideal.subf_def, Ideal.addf_def, Ideal.hostNegf_def,
    Ideal.negf_def, Ideal.hostAbsf_def, Ideal.hostUnary_exp_def, Ideal.hostUnary_log1p_def]
  exact softplus_scalar _ _

/-- The first summand: the sum over the 32768 positive scores of the softplus of the negated score, from the zero word, divided
    by the literal of the count. The score array's second axis has one entry. -/
theorem pos_eq (a0 : (⟨S32768x1, .f32⟩ : BufTy).Contents (Elt Ideal)) (i : S_.Idx) :
    val_main_v3 (F := Ideal) a0 i
      = Ideal.div (∑ p : Fin 32768, Cert.Spec.sp (-(a0 (ix2 p 0)))) (Ideal.ofBits .f32 0x47000000#32) := by
  rw [val_main_v3_apply, val_main_v2_apply, val_main_cst_apply, val_main_cst_0_apply]
  simp only [Ideal.hostDivf_def, Ideal.ofBits_def, Ideal.ofBits_zero_f32, zero_add, softplus_pos_apply]
  rw [sum_idx2]
  simp only [Fin.sum_univ_one]

/-! ## The mean softplus of the negative scores -/

/-- The second inlined softplus, at an index of the negative scores: the stable softplus of the score. -/
theorem softplus_neg_apply (a1 : (⟨S32768x64, .f32⟩ : BufTy).Contents (Elt Ideal)) (j : S32768x64.Idx) :
    val_main_v4 (F := Ideal) a1 j = Cert.Spec.sp (a1 j) := by
  simp only [val_main_v4_apply, val_main_call1_v4_apply, val_main_call1_v11_apply, val_main_call1_v10_apply,
    val_main_call1_v9_apply, val_main_call1_v8_apply, val_main_call1_v7_apply, val_main_call1_v3_apply,
    val_main_call1_v2_apply, val_main_call1_v1_apply, val_main_call1_v0_apply, val_main_call1_cst_apply,
    Ideal.ofBits_def, Ideal.ofBits_zero_f32, Ideal.maximumf_def, Ideal.subf_def, Ideal.addf_def, Ideal.hostNegf_def,
    Ideal.negf_def, Ideal.hostAbsf_def, Ideal.hostUnary_exp_def, Ideal.hostUnary_log1p_def]
  exact softplus_scalar _ _

/-- The second summand: the sum over all 32768 × 64 negative scores of the softplus of the score, from the zero word, divided by
    the literal of the count. -/
theorem neg_eq (a1 : (⟨S32768x64, .f32⟩ : BufTy).Contents (Elt Ideal)) (i : S_.Idx) :
    val_main_v6 (F := Ideal) a1 i
      = Ideal.div (∑ p : Fin 32768, ∑ q : Fin 64, Cert.Spec.sp (a1 (ix2 p q))) (Ideal.ofBits .f32 0x4A000000#32) := by
  rw [val_main_v6_apply, val_main_v5_apply, val_main_cst_1_apply, val_main_cst_2_apply]
  simp only [Ideal.hostDivf_def, Ideal.ofBits_def, Ideal.ofBits_zero_f32, zero_add, softplus_neg_apply]
  rw [sum_idx2]

/-! ## One rule's contribution -/

/-- A selection on an integer equality test is the `if` on the equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · rw [beq_iff_eq.mpr h, if_pos h]; rfl
  · rw [beq_eq_false_iff_ne.mpr h, if_neg h]; rfl

/-- The first rule score is broadcast to a column and reshaped back to a vector: the two index maps compose to the
    identity. -/
theorem idx_v37_v44 (k : S262144.Idx) : idx_main_v37 (idx_main_v44 k) = k := by
  funext a; match a with | ⟨0, _⟩ => exact Fin.ext (Nat.div_one _)

/-- The same for the second rule score. -/
theorem idx_v75_v82 (k : S262144.Idx) : idx_main_v75 (idx_main_v82 k) = k := by
  funext a; match a with | ⟨0, _⟩ => exact Fin.ext (Nat.div_one _)

/-- The scatter-add's input at rule `k`: the word of 1.0 times the rule's confidence times the logistic of its first score
    times, when the rule has three triples, the logistic of its second score, and otherwise the word of 1.0. The two
    rule scores are left as the stages that compute them. -/
theorem contrib_apply (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 : (⟨S262144, .i32⟩ : BufTy).Contents (Elt Ideal)) (k : S262144.Idx) :
    val_main_v89 (F := Ideal) a2 a3 a4 a5 a6 a7 k
      = Cert.Spec.contrib (a2 k) (val_main_v36 (F := Ideal) a3 a4 a5 k) (val_main_v74 (F := Ideal) a3 a4 a6 k) (a7 k) := by
  rw [val_main_v89_apply, val_main_v85_apply, val_main_v84_apply, val_main_v44_apply, val_main_v43_apply,
    val_main_v41_apply, val_main_v39_apply, val_main_v38_apply, val_main_v37_apply, idx_v37_v44,
    val_main_v88_apply, val_main_v87_apply, val_main_v82_apply, val_main_v81_apply, val_main_v79_apply,
    val_main_v77_apply, val_main_v76_apply, val_main_v75_apply, idx_v75_v82]
  generalize val_main_v36 (F := Ideal) a3 a4 a5 k = r1
  generalize val_main_v74 (F := Ideal) a3 a4 a6 k = r2
  simp only [val_main_v83_apply, val_main_cst_20_apply, val_main_v42_apply, val_main_cst_10_apply, val_main_v40_apply,
    val_main_cst_9_apply, val_main_v86_apply, val_main_c_21_apply, val_main_call2_v1_apply, val_main_call2_v0_apply,
    val_main_cst_22_apply, val_main_v80_apply, val_main_cst_19_apply, val_main_v78_apply, val_main_cst_18_apply,
    Ideal.ofBits_def, Ideal.mulf_def, Ideal.addf_def, Ideal.hostDivf_def, Ideal.hostUnary_exp_def, Ideal.hostNegf_def,
    Ideal.negf_def, logistic_scalar, select_cmpi_eq]
  rfl

/-- The same as an equation of arrays. -/
theorem contrib_eq (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 : (⟨S262144, .i32⟩ : BufTy).Contents (Elt Ideal)) :
    val_main_v89 (F := Ideal) a2 a3 a4 a5 a6 a7
      = fun k => Cert.Spec.contrib (a2 k) (val_main_v36 (F := Ideal) a3 a4 a5 k) (val_main_v74 (F := Ideal) a3 a4 a6 k) (a7 k) :=
  funext fun k => contrib_apply a2 a3 a4 a5 a6 a7 k

/-- The same at the rule of a literal coordinate. -/
theorem contrib_ix1 (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 : (⟨S262144, .i32⟩ : BufTy).Contents (Elt Ideal)) (k : Fin 262144) :
    val_main_v89 (F := Ideal) a2 a3 a4 a5 a6 a7 (ix1 k)
      = Cert.Spec.contrib (a2 (ix1 k)) (val_main_v36 (F := Ideal) a3 a4 a5 (ix1 k))
          (val_main_v74 (F := Ideal) a3 a4 a6 (ix1 k)) (a7 (ix1 k)) :=
  contrib_apply a2 a3 a4 a5 a6 a7 (ix1 k)

/-! ## The mean cross-entropy term of the unlabelled triples -/

/-- The third inlined softplus, applied to the negated score column of the unlabelled triples. -/
theorem softplus_unl_neg_apply (a3 : (⟨S100000x256, .f32⟩ : BufTy).Contents (Elt Ideal)) (a4 : (⟨S500x256, .f32⟩ : BufTy).Contents (Elt Ideal))
    (a9 : (⟨S131072x3, .i32⟩ : BufTy).Contents (Elt Ideal)) (j : S131072x1.Idx) :
    val_main_v134 (F := Ideal) a3 a4 a9 j = Cert.Spec.sp (-(val_main_v123 (F := Ideal) a3 a4 a9 j)) := by
  rw [val_main_v134_apply, val_main_call4_v4_apply, val_main_call4_v11_apply, val_main_call4_v10_apply,
    val_main_call4_v9_apply, val_main_call4_v8_apply, val_main_call4_v7_apply, val_main_call4_v3_apply,
    val_main_call4_v1_apply, val_main_v133_apply]
  generalize val_main_v123 (F := Ideal) a3 a4 a9 j = s
  generalize val_main_call4_v6 (F := Ideal) a3 a4 a9 j = u
  simp only [val_main_call4_v2_apply, val_main_call4_v0_apply, val_main_call4_cst_apply,
    Ideal.ofBits_def, Ideal.ofBits_zero_f32, Ideal.maximumf_def, Ideal.subf_def, Ideal.addf_def, Ideal.hostNegf_def,
    Ideal.negf_def, Ideal.hostAbsf_def, Ideal.hostUnary_exp_def, Ideal.hostUnary_log1p_def]
  exact softplus_scalar _ _

/-- The same softplus applied to the score column itself. -/
theorem softplus_unl_apply (a3 : (⟨S100000x256, .f32⟩ : BufTy).Contents (Elt Ideal)) (a4 : (⟨S500x256, .f32⟩ : BufTy).Contents (Elt Ideal))
    (a9 : (⟨S131072x3, .i32⟩ : BufTy).Contents (Elt Ideal)) (j : S131072x1.Idx) :
    val_main_v138 (F := Ideal) a3 a4 a9 j = Cert.Spec.sp (val_main_v123 (F := Ideal) a3 a4 a9 j) := by
  rw [val_main_v138_apply, val_main_call5_v4_apply, val_main_call5_v11_apply, val_main_call5_v10_apply,
    val_main_call5_v9_apply, val_main_call5_v8_apply, val_main_call5_v7_apply, val_main_call5_v3_apply,
    val_main_call5_v1_apply]
  generalize val_main_v123 (F := Ideal) a3 a4 a9 j = s
  generalize val_main_call5_v6 (F := Ideal) a3 a4 a9 j = u
  simp only [val_main_call5_v2_apply, val_main_call5_v0_apply, val_main_call5_cst_apply,
    Ideal.ofBits_def, Ideal.ofBits_zero_f32, Ideal.maximumf_def, Ideal.subf_def, Ideal.addf_def, Ideal.hostNegf_def,
    Ideal.negf_def, Ideal.hostAbsf_def, Ideal.hostUnary_exp_def, Ideal.hostUnary_log1p_def]
  exact softplus_scalar _ _

/-- The clipped target of an unlabelled triple: the logistic of its score plus the scatter-added rule contributions at its row,
    clipped below at the zero word (the number zero) and above at the word of 1.0. -/
theorem target_apply (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 a8 : (⟨S262144, .i32⟩ : BufTy).Contents (Elt Ideal)) (a9 : (⟨S131072x3, .i32⟩ : BufTy).Contents (Elt Ideal))
    (j : S131072x1.Idx) :
    val_main_v132 (F := Ideal) a2 a3 a4 a5 a6 a7 a8 a9 j
      = Cert.Spec.clip01 (Cert.Spec.sg (val_main_v123 (F := Ideal) a3 a4 a9 j)
          + val_main_v92 (F := Ideal) a2 a3 a4 a5 a6 a7 a8 (idx_main_v130 j)) := by
  rw [val_main_v132_apply, val_main_call3_v2_apply, val_main_v131_apply, val_main_v130_apply, val_main_v129_apply,
    val_main_v127_apply, val_main_v125_apply, val_main_v124_apply]
  generalize val_main_v123 (F := Ideal) a3 a4 a9 j = s
  generalize val_main_v92 (F := Ideal) a2 a3 a4 a5 a6 a7 a8 (idx_main_v130 j) = p
  simp only [val_main_call3_v4_apply, val_main_call3_v3_apply, val_main_cst_34_apply, val_main_call3_v1_apply,
    val_main_call3_v0_apply, val_main_cst_33_apply, val_main_v128_apply, val_main_cst_32_apply, val_main_v126_apply,
    val_main_cst_31_apply, Ideal.ofBits_def, Ideal.ofBits_zero_f32, Ideal.maximumf_def, Ideal.minimumf_def,
    Ideal.addf_def, Ideal.hostDivf_def, Ideal.hostUnary_exp_def, Ideal.hostNegf_def, Ideal.negf_def, logistic_scalar]
  rfl

/-- One unlabelled triple's term: the target times the softplus of the negated score plus the word of 1.0 minus the target,
    times the softplus of the score. -/
theorem unl_apply (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 a8 : (⟨S262144, .i32⟩ : BufTy).Contents (Elt Ideal)) (a9 : (⟨S131072x3, .i32⟩ : BufTy).Contents (Elt Ideal))
    (j : S131072x1.Idx) :
    val_main_v140 (F := Ideal) a2 a3 a4 a5 a6 a7 a8 a9 j
      = Cert.Spec.unl (val_main_v123 (F := Ideal) a3 a4 a9 j)
          (val_main_v92 (F := Ideal) a2 a3 a4 a5 a6 a7 a8 (idx_main_v130 j)) := by
  rw [val_main_v140_apply, val_main_v135_apply, val_main_v139_apply, val_main_v137_apply, target_apply,
    softplus_unl_neg_apply, softplus_unl_apply]
  generalize val_main_v123 (F := Ideal) a3 a4 a9 j = s
  generalize val_main_v92 (F := Ideal) a2 a3 a4 a5 a6 a7 a8 (idx_main_v130 j) = p
  simp only [val_main_v136_apply, val_main_cst_35_apply, Ideal.ofBits_def, Ideal.mulf_def, Ideal.addf_def, Ideal.subf_def]
  rfl

/-- Row `u` of the score column reads the score vector at `u`. -/
theorem idx_v123_ix2 (u : Fin 131072) : idx_main_v123 (ix2 u (0 : Fin 1)) = ix1 u := by
  funext a; match a with | ⟨0, _⟩ => rfl

/-- Row `u` of the contribution column reads the scatter-added contributions at `u`. -/
theorem idx_v130_ix2 (u : Fin 131072) : idx_main_v130 (ix2 u (0 : Fin 1)) = ix1 u := by
  funext a; match a with | ⟨0, _⟩ => rfl

/-- The third summand: the sum over the 131072 unlabelled triples of the cross-entropy term of the triple's score and the
    scatter-added contributions at the triple, from the zero word, divided by the literal of the count. The scores and the
    scatter-added contributions are the stages that compute them, unopened. -/
theorem unl_eq (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 a8 : (⟨S262144, .i32⟩ : BufTy).Contents (Elt Ideal)) (a9 : (⟨S131072x3, .i32⟩ : BufTy).Contents (Elt Ideal))
    (i : S_.Idx) :
    val_main_v142 (F := Ideal) a2 a3 a4 a5 a6 a7 a8 a9 i
      = Ideal.div (∑ u : Fin 131072, Cert.Spec.unl (val_main_v122 (F := Ideal) a3 a4 a9 (ix1 u))
          (val_main_v92 (F := Ideal) a2 a3 a4 a5 a6 a7 a8 (ix1 u))) (Ideal.ofBits .f32 0x48000000#32) := by
  rw [val_main_v142_apply, val_main_v141_apply, val_main_cst_36_apply, val_main_cst_37_apply]
  simp only [Ideal.hostDivf_def, Ideal.ofBits_def, Ideal.ofBits_zero_f32, zero_add, unl_apply, val_main_v123_apply]
  rw [sum_idx2]
  simp only [Fin.sum_univ_one, idx_v123_ix2, idx_v130_ix2]

/-! ## The whole result -/

/-- The loss as a function of the positive and negative scores, the two embedding tables, the unlabelled triples' scores `su` and
    the scatter-added rule contributions `pg`: the four summands, grouped as the program's last three additions group them. -/
def loss (a0 : (⟨S32768x1, .f32⟩ : BufTy).Contents (Elt Ideal)) (a1 : (⟨S32768x64, .f32⟩ : BufTy).Contents (Elt Ideal))
    (a3 : (⟨S100000x256, .f32⟩ : BufTy).Contents (Elt Ideal)) (a4 : (⟨S500x256, .f32⟩ : BufTy).Contents (Elt Ideal))
    (su pg : (⟨S131072, .f32⟩ : BufTy).Contents (Elt Ideal)) : EReal :=
  Ideal.div (∑ p : Fin 32768, Cert.Spec.sp (-(a0 (ix2 p 0)))) (Ideal.ofBits .f32 0x47000000#32)
    + Ideal.div (∑ p : Fin 32768, ∑ q : Fin 64, Cert.Spec.sp (a1 (ix2 p q))) (Ideal.ofBits .f32 0x4A000000#32)
    + Ideal.div (∑ u : Fin 131072, Cert.Spec.unl (su (ix1 u)) (pg (ix1 u))) (Ideal.ofBits .f32 0x48000000#32)
    + Ideal.ofBits .f32 0x3727C5AC#32
        * ((∑ p : Fin 100000, ∑ q : Fin 256, a3 (ix2 p q) * a3 (ix2 p q))
           + (∑ p : Fin 500, ∑ q : Fin 256, a4 (ix2 p q) * a4 (ix2 p q)))

/-- The reference's result, at its one index, is the sum of the four summands, with the unlabelled scores and the scatter-added
    contributions the stages that compute them. -/
theorem result_apply (a0 : (⟨S32768x1, .f32⟩ : BufTy).Contents (Elt Ideal)) (a1 : (⟨S32768x64, .f32⟩ : BufTy).Contents (Elt Ideal))
    (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 a8 : (⟨S262144, .i32⟩ : BufTy).Contents (Elt Ideal)) (a9 : (⟨S131072x3, .i32⟩ : BufTy).Contents (Elt Ideal))
    (i : S_.Idx) :
    val_main_v151 (F := Ideal) a0 a1 a2 a3 a4 a5 a6 a7 a8 a9 i
      = Ideal.div (∑ p : Fin 32768, Cert.Spec.sp (-(a0 (ix2 p 0)))) (Ideal.ofBits .f32 0x47000000#32)
        + Ideal.div (∑ p : Fin 32768, ∑ q : Fin 64, Cert.Spec.sp (a1 (ix2 p q))) (Ideal.ofBits .f32 0x4A000000#32)
        + Ideal.div (∑ u : Fin 131072, Cert.Spec.unl (val_main_v122 (F := Ideal) a3 a4 a9 (ix1 u))
            (val_main_v92 (F := Ideal) a2 a3 a4 a5 a6 a7 a8 (ix1 u))) (Ideal.ofBits .f32 0x48000000#32)
        + Ideal.ofBits .f32 0x3727C5AC#32
            * ((∑ p : Fin 100000, ∑ q : Fin 256, a3 (ix2 p q) * a3 (ix2 p q))
               + (∑ p : Fin 500, ∑ q : Fin 256, a4 (ix2 p q) * a4 (ix2 p q))) := by
  rw [val_main_v151_apply, val_main_v150_apply, val_main_v149_apply, pos_eq, neg_eq, unl_eq, decay_eq]
  simp only [Ideal.addf_def]

/-- The same through `loss`. -/
theorem result_apply_loss (a0 : (⟨S32768x1, .f32⟩ : BufTy).Contents (Elt Ideal)) (a1 : (⟨S32768x64, .f32⟩ : BufTy).Contents (Elt Ideal))
    (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 a8 : (⟨S262144, .i32⟩ : BufTy).Contents (Elt Ideal)) (a9 : (⟨S131072x3, .i32⟩ : BufTy).Contents (Elt Ideal))
    (i : S_.Idx) :
    val_main_v151 (F := Ideal) a0 a1 a2 a3 a4 a5 a6 a7 a8 a9 i
      = loss a0 a1 a3 a4 (val_main_v122 (F := Ideal) a3 a4 a9) (val_main_v92 (F := Ideal) a2 a3 a4 a5 a6 a7 a8) :=
  result_apply a0 a1 a2 a3 a4 a5 a6 a7 a8 a9 i

/-- The same as an equation of rank-0 arrays. -/
theorem result_eq (a0 : (⟨S32768x1, .f32⟩ : BufTy).Contents (Elt Ideal)) (a1 : (⟨S32768x64, .f32⟩ : BufTy).Contents (Elt Ideal))
    (a2 : (⟨S262144, .f32⟩ : BufTy).Contents (Elt Ideal)) (a3 : (⟨S100000x256, .f32⟩ : BufTy).Contents (Elt Ideal))
    (a4 : (⟨S500x256, .f32⟩ : BufTy).Contents (Elt Ideal)) (a5 a6 : (⟨S262144x3, .i32⟩ : BufTy).Contents (Elt Ideal))
    (a7 a8 : (⟨S262144, .i32⟩ : BufTy).Contents (Elt Ideal)) (a9 : (⟨S131072x3, .i32⟩ : BufTy).Contents (Elt Ideal)) :
    val_main_v151 (F := Ideal) a0 a1 a2 a3 a4 a5 a6 a7 a8 a9
      = fun _ => loss a0 a1 a3 a4 (val_main_v122 (F := Ideal) a3 a4 a9) (val_main_v92 (F := Ideal) a2 a3 a4 a5 a6 a7 a8) :=
  funext fun i => result_apply a0 a1 a2 a3 a4 a5 a6 a7 a8 a9 i

end Cert.ReferenceIdeal.RefValue

end
-- ==== Proof.KI.KValC.lean ====
/-
  The unlabelled summand of the kernel program's result, on the extended reals.

  The last launch accumulates, over the tiles of its two operands, the cross-entropy term of an unlabelled triple's score
  against the clipped target built from the scatter-added rule contributions, and writes the total into every entry of
  its result. Its score operand is the host's score chain of the unlabelled triples, tiled; its prior operand is the
  host's scatter-add, tiled, of what the launch before it leaves: entry by entry, each rule's contribution from its
  confidence, its two scores and its triple count. Every host chain here is the reference's own stage of the argument
  arrays, a reshape only moves entries, and a sum over 1024 tiles of 128 is the sum over 131072 entries; so the total is
  the reference's sum, term for term.
-/
import proofs.«166015_j17652315586942_2_alg».proof.Proof.KI.Run
import proofs.«166015_j17652315586942_2_alg».proof.Proof.KI.Stay
import proofs.«166015_j17652315586942_2_alg».proof.Proof.KI.Out4
import proofs.«166015_j17652315586942_2_alg».proof.Proof.KI.Out5
import proofs.«166015_j17652315586942_2_alg».proof.Proof.Val.Acc5
import proofs.«166015_j17652315586942_2_alg».proof.Proof.Val.Regroup
import proofs.«166015_j17652315586942_2_alg».proof.Proof.Ref.Shared
import proofs.«166015_j17652315586942_2_alg».proof.Proof.Ref.Value
import Idealize.ShloMosaic.Lib.Pipeline.Value

set_option maxRecDepth 16384

noncomputable section

open scoped BigOperators

namespace Cert.KernelIdeal.Hand

open Cert.KernelIdeal Cert.KernelIdeal.Gen Cert.KernelIdeal.Val Cert.KernelIdeal.Shared
open Idealize.ShloMosaic Idealize.ShloMosaic.TcCoe Idealize.ShloMosaic.ValueIdx Idealize.SL.Sem

/-! ## Two facts about reshapes -/

/-- A function computed entry by entry from four arrays tiled as 2048 × 128, flattened back to a vector of 262144, is the
    same function of the four vectors' entries: a reshape moves entries without changing them, and there and back is the
    identity. -/
theorem flatten_map4 {α β γ δ ε : Type} (f : α → β → γ → δ → ε)
    (A : S262144.Idx → α) (B : S262144.Idx → β) (C : S262144.Idx → γ) (D : S262144.Idx → δ) :
    shapeCast S262144 (fun i => f (shapeCast S2048x128 A shapeCasts_S262144_S2048x128 i)
        (shapeCast S2048x128 B shapeCasts_S262144_S2048x128 i) (shapeCast S2048x128 C shapeCasts_S262144_S2048x128 i)
        (shapeCast S2048x128 D shapeCasts_S262144_S2048x128 i)) shapeCasts_S2048x128_S262144
      = fun k => f (A k) (B k) (C k) (D k) := by
  funext k
  show f (shapeCast S262144 (shapeCast S2048x128 A shapeCasts_S262144_S2048x128) shapeCasts_S2048x128_S262144 k)
      (shapeCast S262144 (shapeCast S2048x128 B shapeCasts_S262144_S2048x128) shapeCasts_S2048x128_S262144 k)
      (shapeCast S262144 (shapeCast S2048x128 C shapeCasts_S262144_S2048x128) shapeCasts_S2048x128_S262144 k)
      (shapeCast S262144 (shapeCast S2048x128 D shapeCasts_S262144_S2048x128) shapeCasts_S2048x128_S262144 k) = _
  rw [shapeCast_shapeCast, shapeCast_shapeCast, shapeCast_shapeCast, shapeCast_shapeCast]

/-- Entry `(u, l)` of a vector of 131072 tiled as 1024 × 128 is entry `128 u + l` of the vector. -/
theorem tile_apply {α : Type} (x : S131072.Idx → α) (u : Fin 1024) (l : Fin 128) :
    shapeCast S1024x128 x shapeCasts_S131072_S1024x128 (ix2 u l) = x (ix1 ⟨128 * u.val + l.val, by omega⟩) := by
  refine shapeCast_apply x shapeCasts_S131072_S1024x128 (ix2 u l) (ix1 ⟨128 * u.val + l.val, by omega⟩) ?_
  rw [Shape.rowMajor_val_one, Shape.rowMajor_val_two]
  show 128 * u.val + l.val = u.val * 128 + l.val
  omega

/-- So a sum over the 1024 × 128 tiles of a term of two tiled vectors is the sum over the 131072 entries. -/
theorem sum_tiles (g : EReal → EReal → EReal) (su pg : S131072.Idx → EReal) :
    ∑ u : Fin 1024, ∑ l : Fin 128, g (shapeCast S1024x128 su shapeCasts_S131072_S1024x128 (ix2 u l))
        (shapeCast S1024x128 pg shapeCasts_S131072_S1024x128 (ix2 u l))
      = ∑ k : Fin 131072, g (su (ix1 k)) (pg (ix1 k)) := by
  rw [sum_131072_1024x128_fin fun k => g (su (ix1 k)) (pg (ix1 k))]
  refine Finset.sum_congr rfl fun u _ => Finset.sum_congr rfl fun l _ => ?_
  rw [tile_apply, tile_apply]

/-! ## The shared arrays at the boundaries where the last two launches read them -/

variable (m : (ℓ : Loc nD τ sig) → Buf (Elt Ideal) ℓ) (ρ : Dev nD → PrngReg)

/-- Launch 4's first-score operand: the reference's first rule score of the argument arrays, tiled. -/
theorem tile80 (c : Dev nD) :
    W9 m ρ c (Proc.devRef .tc main_v80)
      = shapeCast S2048x128 (Cert.ReferenceIdeal.Read.val_main_v36 (F := Ideal) (m ((c : Thread nD τ).loc main_arg3)) (m ((c : Thread nD τ).loc main_arg4)) (m ((c : Thread nD τ).loc main_arg5))) shapeCasts_S262144_S2048x128 := by
  show StableHlo.after main_part1_ops0 (W8 m ρ c) (Proc.devRef .tc main_v80) = _
  rw [tile_v80]
  show shapeCast S2048x128 (StableHlo.after main_part0_ops3 (W7 m ρ c) (Proc.devRef .tc main_v49)) _ = _
  rw [rule1, stay_main_arg3_0_7, stay_main_arg4_0_7, stay_main_arg5_0_7]

/-- Its second-score operand: the reference's second rule score, tiled. -/
theorem tile81 (c : Dev nD) :
    W9 m ρ c (Proc.devRef .tc main_v81)
      = shapeCast S2048x128 (Cert.ReferenceIdeal.Read.val_main_v74 (F := Ideal) (m ((c : Thread nD τ).loc main_arg3)) (m ((c : Thread nD τ).loc main_arg4)) (m ((c : Thread nD τ).loc main_arg6))) shapeCasts_S262144_S2048x128 := by
  show StableHlo.after main_part1_ops0 (W8 m ρ c) (Proc.devRef .tc main_v81) = _
  rw [tile_v81, stay_main_arg3_0_8, stay_main_arg4_0_8, stay_main_arg6_0_8]

/-- Its confidence operand. -/
theorem tile82 (c : Dev nD) :
    W9 m ρ c (Proc.devRef .tc main_v82) = shapeCast S2048x128 (m ((c : Thread nD τ).loc main_arg2)) shapeCasts_S262144_S2048x128 := by
  show StableHlo.after main_part1_ops0 (W8 m ρ c) (Proc.devRef .tc main_v82) = _
  rw [tile_v82, stay_main_arg2_0_8]

/-- Its triple-count operand. -/
theorem tile83 (c : Dev nD) :
    W9 m ρ c (Proc.devRef .tc main_v83) = shapeCast S2048x128 (m ((c : Thread nD τ).loc main_arg7)) shapeCasts_S262144_S2048x128 := by
  show StableHlo.after main_part1_ops0 (W8 m ρ c) (Proc.devRef .tc main_v83) = _
  rw [tile_v83, stay_main_arg7_0_8]

/-- Launch 4 leaves, flattened, the reference's contribution vector. -/
theorem contrib_flat (c : Dev nD) :
    shapeCast S262144 (W10 m ρ c (Proc.devRef .tc main_v84)) shapeCasts_S2048x128_S262144
      = Cert.ReferenceIdeal.Read.val_main_v89 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W10 m ρ c (Proc.devRef .tc main_v84)
      = fun i => Cert.Spec.contrib (W9 m ρ c (Proc.devRef .tc main_v82) i) (W9 m ρ c (Proc.devRef .tc main_v80) i)
          (W9 m ρ c (Proc.devRef .tc main_v81) i) (W9 m ρ c (Proc.devRef .tc main_v83) i) :=
    (W10_arr m ρ c 4).trans (final4 (V9 m ρ) c)
  rw [e, tile80, tile81, tile82, tile83, Cert.ReferenceIdeal.RefValue.contrib_eq]
  exact flatten_map4 Cert.Spec.contrib _ _ _ _

/-- So the scatter-add between the last two launches leaves the reference's scatter-added contributions. -/
theorem scatter88 (c : Dev nD) :
    W11 m ρ c (Proc.devRef .tc main_v88)
      = Cert.ReferenceIdeal.Read.val_main_v92 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after main_part1_ops1 (W10 m ρ c) (Proc.devRef .tc main_v88) = _
  rw [scatter_v88, contrib_flat, stay_main_arg8_0_10, scatter_eq, ← ref_scatter]

/-- Launch 5's score operand: the reference's scores of the unlabelled triples, tiled. -/
theorem tile119 (c : Dev nD) :
    W12 m ρ c (Proc.devRef .tc main_v119)
      = shapeCast S1024x128 (Cert.ReferenceIdeal.Read.val_main_v122 (F := Ideal) (m ((c : Thread nD τ).loc main_arg3)) (m ((c : Thread nD τ).loc main_arg4)) (m ((c : Thread nD τ).loc main_arg9))) shapeCasts_S131072_S1024x128 := by
  show StableHlo.after main_part2_ops0 (W11 m ρ c) (Proc.devRef .tc main_v119) = _
  rw [tile_v119]
  show shapeCast S1024x128 (StableHlo.after main_part2_ops0 (StableHlo.after main_part1_ops1 (W10 m ρ c))
    (Proc.devRef .tc main_v118)) _ = _
  rw [unl_scores, stay_main_arg3_0_10, stay_main_arg4_0_10, stay_main_arg9_0_10]

/-- Its prior operand: the reference's scatter-added contributions, tiled. -/
theorem tile120 (c : Dev nD) :
    W12 m ρ c (Proc.devRef .tc main_v120)
      = shapeCast S1024x128 (Cert.ReferenceIdeal.Read.val_main_v92 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          shapeCasts_S131072_S1024x128 := by
  show StableHlo.after main_part2_ops0 (W11 m ρ c) (Proc.devRef .tc main_v120) = _
  rw [tile_v120, scatter88]

/-! ## The unlabelled summand -/

/-- Launch 5 leaves in every entry of its result the sum over the 131072 unlabelled triples of the cross-entropy term of the
    reference's score of the triple and the reference's scatter-added contributions at the triple. -/
theorem unl_part (c : Dev nD) :
    (W13 m ρ c (Proc.devRef .tc main_v121) : S8x128.Idx → EReal) (ix2 0 0)
      = ∑ u : Fin 131072, Cert.Spec.unl (Cert.ReferenceIdeal.Read.val_main_v122 (F := Ideal) (m ((c : Thread nD τ).loc main_arg3)) (m ((c : Thread nD τ).loc main_arg4)) (m ((c : Thread nD τ).loc main_arg9)) (ix1 u))
          (Cert.ReferenceIdeal.Read.val_main_v92 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix1 u)) := by
  have e : W13 m ρ c (Proc.devRef .tc main_v121) = k5_pay2 (acc5 (V12 m ρ) c t5_3.val t5_3.isLt) :=
    (W13_arr m ρ c 2).trans (final5 (V12 m ρ) c)
  rw [e, k5_pay2_apply]
  refine (acc5_last (V12 m ρ) c (ix2 0 0) _).trans ?_
  show ∑ u : Fin 1024, ∑ l : Fin 128,
      Cert.Spec.unl ((W12 m ρ c (Proc.devRef .tc main_v119) : S1024x128.Idx → EReal) (ix2 u l))
        ((W12 m ρ c (Proc.devRef .tc main_v120) : S1024x128.Idx → EReal) (ix2 u l)) = _
  rw [tile119, tile120]
  exact sum_tiles Cert.Spec.unl _ _

end Cert.KernelIdeal.Hand

end
-- ==== Proof.KI.KVal.lean ====
/-
  The kernel program's result on the extended reals. The last host stretch adds the positive mean, the negative mean, the
  unlabelled mean and the weight-decay term in that grouping; each of the four has been read back to the argument arrays
  (block sums regrouped into whole-array sums; the scores and the scatter named by the host stages that compute them). So the
  result is the same function of the arguments as the reference's.
-/
import proofs.«166015_j17652315586942_2_alg».proof.Proof.KI.KValA
import proofs.«166015_j17652315586942_2_alg».proof.Proof.KI.KValC
import proofs.«166015_j17652315586942_2_alg».proof.Proof.KI.Host
import proofs.«166015_j17652315586942_2_alg».proof.Proof.Ref.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result buffer at the last boundary, at its one index, is the loss of the launch memory's argument arrays. -/
theorem kernel_value (c : Dev nD) (i : S_.Idx) :
    (W14 m ρ c (Proc.devRef .tc main_v127) : S_.Idx → EReal) i
      = Cert.ReferenceIdeal.RefValue.loss (m ((c : Thread nD τ).loc main_arg0)) (m ((c : Thread nD τ).loc main_arg1)) (m ((c : Thread nD τ).loc main_arg3)) (m ((c : Thread nD τ).loc main_arg4))
          (Cert.ReferenceIdeal.Read.val_main_v122 (F := Ideal) (m ((c : Thread nD τ).loc main_arg3)) (m ((c : Thread nD τ).loc main_arg4)) (m ((c : Thread nD τ).loc main_arg9)))
          (Cert.ReferenceIdeal.Read.val_main_v92 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (StableHlo.after main_part2_ops1 (W13 m ρ c) (Proc.devRef .tc main_v127) : S_.Idx → EReal) i = _
  rw [read_v127 (W13 m ρ c) _ _ _ _ rfl rfl rfl rfl i, pos_part m ρ c i, neg_part m ρ c i, decay_part m ρ c i, unl_part m ρ c]
  rfl

end Cert.KernelIdeal.Hand

end
-- ==== Proof.lean ====
/-
  The certificate of the rule-loss kernel against its reference.

  The kernel program is six launches among host operations: the sums of squares of the entity table (two halves, one per
  core, accumulated over 25 blocks each) and of the relation table; the sum of softplus(-x) over the positive scores and of
  softplus(x) over the negative scores (accumulated over eight blocks); the per-rule contributions
  confidence · sigmoid(score₁) · (sigmoid(score₂) if the rule has three triples, else 1), entry by entry; and the sum over
  the unlabelled triples of the cross-entropy against the clipped target (accumulated over four blocks). The scores
  (gathers of entity and relation rows, their product summed over the 256 coordinates) and the scatter-add of the
  contributions are the same host operations in both programs.

  Frames: each program terminates without a fault and leaves its ten argument arrays as they were — for the two kernel
  programs by the run over the six launches and eight host stretches, for the reference by its run. The ideal pass rewrote
  nothing, so there is nothing to preserve. On the extended reals both results are
  ((Σ softplus(-pos) / 32768 + Σ softplus(neg) / 2097152) + Σ unl / 131072) + w · (Σ ent² + Σ rel²): the kernel's block sums
  are the reference's whole-array sums regrouped, which needs only that addition is commutative and associative.
-/
import proofs.«166015_j17652315586942_2_alg».proof.Defs
import proofs.«166015_j17652315586942_2_alg».proof.Proof.Gen.Kernel
import proofs.«166015_j17652315586942_2_alg».proof.Proof.Gen.KernelIdeal
import proofs.«166015_j17652315586942_2_alg».proof.Proof.Gen.ReferenceIdeal
import proofs.«166015_j17652315586942_2_alg».proof.Proof.Gen.Pre_finite_inputs
import proofs.«166015_j17652315586942_2_alg».proof.Proof.Gen.ReferenceIdeal.Run
import proofs.«166015_j17652315586942_2_alg».proof.Proof.Gen.ReferenceIdeal.Read
import proofs.«166015_j17652315586942_2_alg».proof.Proof.K.Frame
import proofs.«166015_j17652315586942_2_alg».proof.Proof.KI.Frame
import proofs.«166015_j17652315586942_2_alg».proof.Proof.KI.KVal
import proofs.«166015_j17652315586942_2_alg».proof.Proof.Ref.Value

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the loss of the (agreeing) argument arrays. -/
theorem algebraic : Cert.algebraic_KernelIdeal_ReferenceIdeal := by
  intro m ρ m' ρ' _ hagree
  refine ⟨fun c => Cert.KernelIdeal.Hand.W14 m ρ c (Proc.devRef .tc Cert.KernelIdeal.main_v127), ?_, ?_⟩
  · exact (θ_run Cert.KernelIdeal.defs _ _).mono (fun r h c =>
      ⟨h c _ (Cert.KernelIdeal.Hand.mem_uc Cert.KernelIdeal.main_v127 (by decide)),
       (h c _ (Cert.KernelIdeal.Hand.mem_uc Cert.KernelIdeal.main_arg0 (by decide))).trans (Cert.KernelIdeal.Hand.W14_main_arg0 m ρ c),
       (h c _ (Cert.KernelIdeal.Hand.mem_uc Cert.KernelIdeal.main_arg1 (by decide))).trans (Cert.KernelIdeal.Hand.W14_main_arg1 m ρ c),
       (h c _ (Cert.KernelIdeal.Hand.mem_uc Cert.KernelIdeal.main_arg2 (by decide))).trans (Cert.KernelIdeal.Hand.W14_main_arg2 m ρ c),
       (h c _ (Cert.KernelIdeal.Hand.mem_uc Cert.KernelIdeal.main_arg3 (by decide))).trans (Cert.KernelIdeal.Hand.W14_main_arg3 m ρ c),
       (h c _ (Cert.KernelIdeal.Hand.mem_uc Cert.KernelIdeal.main_arg4 (by decide))).trans (Cert.KernelIdeal.Hand.W14_main_arg4 m ρ c),
       (h c _ (Cert.KernelIdeal.Hand.mem_uc Cert.KernelIdeal.main_arg5 (by decide))).trans (Cert.KernelIdeal.Hand.W14_main_arg5 m ρ c),
       (h c _ (Cert.KernelIdeal.Hand.mem_uc Cert.KernelIdeal.main_arg6 (by decide))).trans (Cert.KernelIdeal.Hand.W14_main_arg6 m ρ c),
       (h c _ (Cert.KernelIdeal.Hand.mem_uc Cert.KernelIdeal.main_arg7 (by decide))).trans (Cert.KernelIdeal.Hand.W14_main_arg7 m ρ c),
       (h c _ (Cert.KernelIdeal.Hand.mem_uc Cert.KernelIdeal.main_arg8 (by decide))).trans (Cert.KernelIdeal.Hand.W14_main_arg8 m ρ c),
       (h c _ (Cert.KernelIdeal.Hand.mem_uc Cert.KernelIdeal.main_arg9 (by decide))).trans (Cert.KernelIdeal.Hand.W14_main_arg9 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v151_eq, Cert.ReferenceIdeal.RefValue.result_eq, e0, e1, e2, e3, e4, e5, e6, e7, e8, e9]
    funext i
    exact (Cert.KernelIdeal.Hand.kernel_value m ρ c i).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
